-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S512x256 : Shape := ⟨2, ![512, 256]⟩
abbrev S256x256 : Shape := ⟨2, ![256, 256]⟩
abbrev S256 : Shape := ⟨1, ![256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x256x64x64 .f32) (main_arg1 : FVec F S512x256 .f32) (main_arg2 : FVec F S256x256 .f32) (main_arg3 : FVec F S256 .f32) (main_arg4 : FVec F S256 .f32) (main_arg5 : FVec F S256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x256x64x64 : Shape := ⟨4, ![8, 256, 64, 64]⟩
abbrev S512x256 : Shape := ⟨2, ![512, 256]⟩
abbrev S256x256 : Shape := ⟨2, ![256, 256]⟩
abbrev S256 : Shape := ⟨1, ![256]⟩
abbrev S8x256x4096 : Shape := ⟨3, ![8, 256, 4096]⟩
abbrev S256x512 : Shape := ⟨2, ![256, 512]⟩
abbrev S1x256 : Shape := ⟨2, ![1, 256]⟩
abbrev S8x4096x256 : Shape := ⟨3, ![8, 4096, 256]⟩
abbrev S1x256x512 : Shape := ⟨3, ![1, 256, 512]⟩
abbrev S1x512x256 : Shape := ⟨3, ![1, 512, 256]⟩
abbrev S512x512 : Shape := ⟨2, ![512, 512]⟩
abbrev S8x4096x4096 : Shape := ⟨3, ![8, 4096, 4096]⟩
abbrev S1x4096x256 : Shape := ⟨3, ![1, 4096, 256]⟩
abbrev S1x512x4096 : Shape := ⟨3, ![1, 512, 4096]⟩
abbrev S4096x256 : Shape := ⟨2, ![4096, 256]⟩
abbrev S512x4096 : Shape := ⟨2, ![512, 4096]⟩
abbrev S512 : Shape := ⟨1, ![512]⟩
abbrev S512x1 : Shape := ⟨2, ![512, 1]⟩
abbrev S_ : Shape := ⟨0, ![]⟩

abbrev nBuf : Space → Nat
  | .hbm => 33
  | .vmem => 35
  | .smem => 0
  | _ => 0

abbrev bufTy : (tb : Table) → Fin (tcTables nBuf tb) → BufTy
  | .hbm, ⟨0, _⟩ => ⟨S8x256x64x64, .f32⟩
  | .hbm, ⟨1, _⟩ => ⟨S512x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x256x4096, .f32⟩
  | .hbm, ⟨7, _⟩ => ⟨S256x512, .f32⟩
  | .hbm, ⟨8, _⟩ => ⟨S256x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S8x4096x256, .bf16⟩
  | .hbm, ⟨13, _⟩ => ⟨S8x4096x256, .bf16⟩
  | .hbm, ⟨14, _⟩ => ⟨S8x4096x256, .bf16⟩
  | .hbm, ⟨15, _⟩ => ⟨S8x4096x256, .f32⟩
  | .hbm, ⟨16, _⟩ => ⟨S8x4096x4096, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S8x256x4096, .f32⟩
  | .hbm, ⟨32, _⟩ => ⟨S8x256x64x64, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S256x256, .f32⟩
  | .local _ .vmem, ⟨16, _⟩ => ⟨S1x256, .f32⟩
  | .local _ .vmem, ⟨17, _⟩ => ⟨S1x512x256, .f32⟩
  | .local _ .vmem, ⟨18, _⟩ => ⟨S1x512x256, .f32⟩
  | .local _ .vmem, ⟨19, _⟩ => ⟨S1x512x4096, .f32⟩
  | .local _ .vmem, ⟨20, _⟩ => ⟨S1x512x4096, .f32⟩
  | .local _ .vmem, ⟨21, _⟩ => ⟨S1x4096x256, .f32⟩
  | .local _ .vmem, ⟨22, _⟩ => ⟨S1x4096x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x512x256, .f32⟩
  | .local _ .vmem, ⟨28, _⟩ => ⟨S1x512x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256x512, .f32⟩
  | .local _ .vmem, ⟨34, _⟩ => ⟨S1x256x512, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7_0 : Ref sig .tc := ⟨.hbm, 15, rfl⟩
abbrev main_v7_1 : Ref sig .tc := ⟨.hbm, 16, rfl⟩
abbrev main_v8_0 : Ref sig .tc := ⟨.hbm, 17, rfl⟩
abbrev main_v8_1 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_scratch0 : Ref sig .tc := ⟨.vmem, 25, rfl⟩
abbrev cc2_scratch1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_12 : BitVec 32 := 0#32
  let v22 : BitVec 1 := Scalar.cmpi .ne v21 c0_i32_12
  v22

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  shapeCasts_S8x256x64x64_S8x256x4096 : S8x256x64x64.ShapeCasts S8x256x4096
  transposes_S512x256_S256x512_1_0 : S512x256.Transposes [1, 0] S256x512
  transposes_S256x256_S256x256_1_0 : S256x256.Transposes [1, 0] S256x256
  shapeCasts_S256_S1x256 : S256.ShapeCasts S1x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S512x512_o0_0_S512x256 : S512x512.Slices ![0, 0] S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  slices_S512x512_o0_256_S512x256 : S512x512.Slices ![0, 256] S512x256
  transposes_S256x512_p1_0_S512x256 : S256x512.Transposes [1, 0] S512x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S512x4096_S512 : S512x4096.Reduces [1] S512
  shapeCasts_S512_S512x1 : S512.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S4096x256_S256 : S4096x256.Reduces [0] S256
  bcast_S_S1x256 : S_.BroadcastsInDim S1x256 (![] : Fin 0 → Fin S1x256.rank)
  transposes_S512x256_p1_0_S256x512 : S512x256.Transposes [1, 0] S256x512
  shapeCasts_S256x512_S1x256x512 : S256x512.ShapeCasts S1x256x512
  shapeCasts_S8x256x4096_S8x256x64x64 : S8x256x4096.ShapeCasts S8x256x64x64
  dot_S256x512_S256x512_S512x512_0_0_1_1_n_n_wf : DotDims.WF S256x512 S256x512 S512x512 [0] [0] [1] [1] [] []
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x256x4096.size a
  hwx0_0 : ∀ i : grid0.Coords, EltTy.bits .f32 = 32 ∨ (Rect.block (s := S8x256x4096) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x4096x256.size a
  hwx0_2 : ∀ i : grid0.Coords, EltTy.bits .bf16 = 32 ∨ (Rect.block (s := S8x4096x256) S1x512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x4096x256.size a
  hwx0_3 : ∀ i : grid0.Coords, EltTy.bits .bf16 = 32 ∨ (Rect.block (s := S8x4096x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x4096x256.size a
  hwx0_4 : ∀ i : grid0.Coords, EltTy.bits .bf16 = 32 ∨ (Rect.block (s := S8x4096x256) S1x512x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x4096x256.size a
  hwx1_0 : ∀ i : grid1.Coords, EltTy.bits .bf16 = 32 ∨ (Rect.block (s := S8x4096x256) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S8x4096x256.size a
  hwx1_1 : ∀ i : grid1.Coords, EltTy.bits .bf16 = 32 ∨ (Rect.block (s := S8x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S8x4096x256.size a
  hwx1_2 : ∀ i : grid1.Coords, EltTy.bits .bf16 = 32 ∨ (Rect.block (s := S8x4096x256) S1x4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x256.size a ≤ S8x4096x256.size a
  hwx1_5 : ∀ i : grid1.Coords, EltTy.bits .f32 = 32 ∨ (Rect.block (s := S8x4096x256) S1x512x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x4096.size a ≤ S8x4096x4096.size a
  hwx1_6 : ∀ i : grid1.Coords, EltTy.bits .f32 = 32 ∨ (Rect.block (s := S8x4096x4096) S1x512x4096.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x256.size a ≤ S8x4096x256.size a
  hwx2_0 : ∀ i : grid2.Coords, EltTy.bits .f32 = 32 ∨ (Rect.block (s := S8x4096x256) S1x4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x256.size a ≤ S8x4096x256.size a
  hwx3_0 : ∀ i : grid3.Coords, EltTy.bits .f32 = 32 ∨ (Rect.block (s := S8x4096x256) S1x512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x512.size a ≤ S8x256x4096.size a
  hwx3_5 : ∀ i : grid3.Coords, EltTy.bits .f32 = 32 ∨ (Rect.block (s := S8x256x4096) S1x256x512.size (cc3_transform_5 i) (hinb3_5 i)).WholeWords (EltTy.packing .f32)

variable [Facts₀]

def dot_S256x512_S256x512_S512x512_0_0_1_1_n_n : DotDims S256x512 S256x512 S512x512 where
  lhsContracting := [0]
  rhsContracting := [0]
  lhsNonContracting := [1]
  rhsNonContracting := [1]
  lhsBatch := []
  rhsBatch := []
  wf := dot_S256x512_S256x512_S512x512_0_0_1_1_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S1x512x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S1x512x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7_0) S1x4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S1x256.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_1) S1x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v7_0) S1x512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S1x256x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8x256x64x64 : Shape := ⟨4, ![8, 256, 64, 64]⟩
abbrev S512x256 : Shape := ⟨2, ![512, 256]⟩
abbrev S256x256 : Shape := ⟨2, ![256, 256]⟩
abbrev S256 : Shape := ⟨1, ![256]⟩
abbrev S8x256x4096 : Shape := ⟨3, ![8, 256, 4096]⟩
abbrev S8x4096x256 : Shape := ⟨3, ![8, 4096, 256]⟩
abbrev S8x4096x512 : Shape := ⟨3, ![8, 4096, 512]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S1x256x1x1 : Shape := ⟨4, ![1, 256, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S512x256, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x256x4096, .f32⟩
  | .hbm, ⟨7, _⟩ => ⟨S8x4096x256, .f32⟩
  | .hbm, ⟨8, _⟩ => ⟨S8x4096x512, .f32⟩
  | .hbm, ⟨9, _⟩ => ⟨S8x4096x256, .f32⟩
  | .hbm, ⟨10, _⟩ => ⟨S8x4096x256, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x256, .f32⟩
  | .hbm, ⟨30, _⟩ => ⟨S8x4096x256, .f32⟩
  | .hbm, ⟨31, _⟩ => ⟨S1x1x256, .f32⟩
  | .hbm, ⟨32, _⟩ => ⟨S8x4096x256, .f32⟩
  | .hbm, ⟨33, _⟩ => ⟨S8x4096x256, .f32⟩
  | .hbm, ⟨34, _⟩ => ⟨S8x256x4096, .f32⟩
  | .hbm, ⟨35, _⟩ => ⟨S8x256x64x64, .f32⟩
  | .hbm, ⟨36, _⟩ => ⟨S_, .f32⟩
  | .hbm, ⟨37, _⟩ => ⟨S256, .f32⟩
  | .hbm, ⟨38, _⟩ => ⟨S1x256x1x1, .f32⟩
  | .hbm, ⟨39, _⟩ => ⟨S_, .f32⟩
  | .hbm, ⟨40, _⟩ => ⟨S1x256x1x1, .f32⟩
  | .hbm, ⟨41, _⟩ => ⟨S1x256x1x1, .f32⟩
  | .hbm, ⟨42, _⟩ => ⟨S_, .i32⟩
  | .hbm, ⟨43, _⟩ => ⟨S_, .f32⟩
  | .hbm, ⟨44, _⟩ => ⟨S256, .f32⟩
  | .hbm, ⟨45, _⟩ => ⟨S1x256x1x1, .f32⟩
  | .hbm, ⟨46, _⟩ => ⟨S_, .f32⟩
  | .hbm, ⟨47, _⟩ => ⟨S1x256x1x1, .f32⟩
  | .hbm, ⟨48, _⟩ => ⟨S1x256x1x1, .f32⟩
  | .hbm, ⟨49, _⟩ => ⟨S8x256x64x64, .f32⟩
  | .hbm, ⟨50, _⟩ => ⟨S8x256x64x64, .f32⟩
  | .hbm, ⟨51, _⟩ => ⟨S8x256x64x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256, .f32⟩
  | .hbm, ⟨57, _⟩ => ⟨S1x256x1x1, .f32⟩
  | .hbm, ⟨58, _⟩ => ⟨S1x256x1x1, .f32⟩
  | .hbm, ⟨59, _⟩ => ⟨S1x256x1x1, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S1x256x1x1, .f32⟩
  | .hbm, ⟨65, _⟩ => ⟨S1x256x1x1, .f32⟩
  | .hbm, ⟨66, _⟩ => ⟨S8x256x64x64, .f32⟩
  | .hbm, ⟨67, _⟩ => ⟨S8x256x64x64, .f32⟩
  | .hbm, ⟨68, _⟩ => ⟨S_, .f32⟩
  | .hbm, ⟨69, _⟩ => ⟨S1x256x1x1, .f32⟩
  | .hbm, ⟨70, _⟩ => ⟨S1x256x1x1, .f32⟩
  | .hbm, ⟨71, _⟩ => ⟨S1x256x1x1, .f32⟩
  | .hbm, ⟨72, _⟩ => ⟨S8x256x64x64, .f32⟩
  | .hbm, ⟨73, _⟩ => ⟨S8x256x64x64, .f32⟩
  | .hbm, ⟨74, _⟩ => ⟨S1x256x1x1, .f32⟩
  | .hbm, ⟨75, _⟩ => ⟨S8x256x64x64, .f32⟩
  | .hbm, ⟨76, _⟩ => ⟨S8x256x64x64, .f32⟩
  | .hbm, ⟨77, _⟩ => ⟨S1x256x1x1, .f32⟩
  | .hbm, ⟨78, _⟩ => ⟨S8x256x64x64, .f32⟩
  | .hbm, ⟨79, _⟩ => ⟨S8x256x64x64, .f32⟩
  | .hbm, ⟨80, _⟩ => ⟨S_, .f32⟩
  | .hbm, ⟨81, _⟩ => ⟨S8x256x64x64, .f32⟩
  | .hbm, ⟨82, _⟩ => ⟨S8x256x64x64, .i1⟩
  | .hbm, ⟨83, _⟩ => ⟨S_, .f32⟩
  | .hbm, ⟨84, _⟩ => ⟨S8x256x64x64, .f32⟩
  | .hbm, ⟨85, _⟩ => ⟨S8x256x64x64, .f32⟩
  | .hbm, ⟨86, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_cst_3 : Ref sig .tc := ⟨.hbm, 60, rfl⟩
abbrev main_call0_v13 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_6 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  slices_S8x4096x512_S8x4096x256_0_0_0 : S8x4096x512.Slices ![0, 0, 0] S8x4096x256
  slices_S8x4096x512_S8x4096x256_0_0_256 : S8x4096x512.Slices ![0, 0, 256] S8x4096x256
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  transposes_S8x4096x256_S8x256x4096_0_2_1 : S8x4096x256.Transposes [0, 2, 1] S8x256x4096
  shapeCasts_S8x256x4096_S8x256x64x64 : S8x256x4096.ShapeCasts S8x256x64x64
  reducesTo_S8x256x64x64_S256_d0_2_3 : S8x256x64x64.ReducesTo [0, 2, 3] S256
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S8x256x64x64_0_1_2_3 : S1x256x1x1.BroadcastsInDim S8x256x64x64 (![0, 1, 2, 3] : Fin 4 → Fin S8x256x64x64.rank)
  bcast_S_S8x256x64x64 : S_.BroadcastsInDim S8x256x64x64 (![] : Fin 0 → Fin S8x256x64x64.rank)
  dot_S8x4096x256_S512x256_S8x4096x512_2_1_01_0_n_n_wf : DotDims.WF S8x4096x256 S512x256 S8x4096x512 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]
  dot_S8x4096x256_S256x256_S8x4096x256_2_1_01_0_n_n_wf : DotDims.WF S8x4096x256 S256x256 S8x4096x256 [2] [1] [0, 1] [0] [] []

variable [Facts₀]

def dot_S8x4096x256_S512x256_S8x4096x512_2_1_01_0_n_n : DotDims S8x4096x256 S512x256 S8x4096x512 where
  lhsContracting := [2]
  rhsContracting := [1]
  lhsNonContracting := [0, 1]
  rhsNonContracting := [0]
  lhsBatch := []
  rhsBatch := []
  wf := dot_S8x4096x256_S512x256_S8x4096x512_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf

class Facts : Prop extends Facts₀ where

variable [Facts]
-- ==== Proof.KR0.lean ====
/- Region 0 of @main (`cc0__qk_proj_kernel`) at the buffer contents `V` the region is entered with: each window's block at a
   point, what the body leaves in each output window's buffer as the canon of its one whole-block store over the
   payload of the input blocks, the body's triple, the pipeline's proof data and the body obligation at every point. -/
import proofs.«142206_j867583394375_2_alg».proof.Proof.Gen.Kernel.Launch
import proofs.«142206_j867583394375_2_alg».proof.Proof.Gen.Kernel.Skeleton
import proofs.«142206_j867583394375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__qk_proj_kernel` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S1x256x512 := Rect.unit (s := S1x256x512) ![0, 0, 0] S1x256x512.size inb_S1x256x512_S1x256x512_0_0_0
abbrev r0_1 : Rect S256x512 := Rect.unit (s := S256x512) ![0, 0] S256x512.size inb_S256x512_S256x512_0_0
abbrev r0_2 : Rect S1x512x256 := Rect.unit (s := S1x512x256) ![0, 0, 0] S1x512x256.size inb_S1x512x256_S1x512x256_0_0_0

/-! ## What the body leaves in each output window's buffer -/

/-- Window 2's staging buffer after the body, from the input windows' blocks: its one store, of the whole block. -/
def out0_2 (x0 : Vec F S1x256x512 .f32) (x1 : Vec F S256x512 .f32) : Vec F S1x512x256 .bf16 :=
  View.canon [⟨r0_2, k0_pay3 (View.ld x0 r0_0) (View.ld x1 r0_1)⟩]

/-- The one store tiles the buffer, so it covers it. -/
theorem cover0_2 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-- Window 3's staging buffer after the body, from the input windows' blocks: its one store, of the whole block. -/
def out0_3 (x0 : Vec F S1x256x512 .f32) (x1 : Vec F S256x512 .f32) : Vec F S1x512x256 .bf16 :=
  View.canon [⟨r0_2, k0_pay4 (View.ld x0 r0_0) (View.ld x1 r0_1)⟩]

/-- The one store tiles the buffer, so it covers it. -/
theorem cover0_3 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-- Window 4's staging buffer after the body, from the input windows' blocks: its one store, of the whole block. -/
def out0_4 (x0 : Vec F S1x256x512 .f32) : Vec F S1x512x256 .bf16 :=
  View.canon [⟨r0_2, k0_pay5 (View.ld x0 r0_0)⟩]

/-- The one store tiles the buffer, so it covers it. -/
theorem cover0_4 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-! ## The body's triple -/

set_option maxHeartbeats 4000000 in
/-- The kernel body on whole staging memrefs, the inputs' at read contents `xW` and the outputs' at anything, runs to
    the continuation holding the inputs' as they were and each output's at `out0_W` of the inputs'. The payloads
    stay folded: nothing here looks inside what the body computes. -/
theorem sound_kernel0 (c : Dev nD) (E : Set ℕ) (i : grid0.Coords) (arg0 : Memref sig .tc .vmem S1x256x512 .f32) (harg0 : arg0.IsWhole) (arg1 : Memref sig .tc .vmem S256x512 .f32) (harg1 : arg1.IsWhole) (arg2 : Memref sig .tc .vmem S1x512x256 .bf16) (harg2 : arg2.IsWhole) (arg3 : Memref sig .tc .vmem S1x512x256 .bf16) (harg3 : arg3.IsWhole) (arg4 : Memref sig .tc .vmem S1x512x256 .bf16) (harg4 : arg4.IsWhole)
    (x0 : Vec F S1x256x512 .f32) (x1 : Vec F S256x512 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0)) -∗ K ⟨⟩))
      ⊢ wp frame (wpE (defs₀ (F := F)) Variants.none c none) E (cc0__qk_proj_kernel i arg0 harg0 arg1 harg1 arg2 harg2 arg3 harg3 arg4 harg4) K := by
  simp only [cc0__qk_proj_kernel_eq_skeleton]; unfold cc0__qk_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
import proofs.«142206_j867583394375_2_alg».proof.Proof.Gen.Kernel.Launch
import proofs.«142206_j867583394375_2_alg».proof.Proof.Gen.Kernel.Skeleton
import proofs.«142206_j867583394375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the attention kernel, at the buffer contents the region is entered with

The second kernel region computes, per block of 512 query rows of one batch element, the softmax of the scaled
products of the query block with all 4096 keys, stores those attention weights (output window 6), multiplies them
with the values, applies the output projection and its bias, and stores the result (output window 5). Its five input
windows are the query block, the keys, the values, the transposed projection matrix and the bias row.

This module states the region's half of the frame at a parameter `V`, the contents of the core's buffers when the
region is entered: each window's block at a grid point, what the body leaves in each output window's staging buffer
as a function of the input blocks, the body's triple, the pipeline's proof data and the body obligation.
-/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there (an unfetched point has the block index of the point before), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there (an unfetched point has the block index of the point before), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there (an unfetched point has the block index of the point before), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the pipeline fetched it
    there (an unfetched point has the block index of the point before), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the pipeline fetched it
    there (an unfetched point has the block index of the point before), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x512x256 := Rect.unit (s := S1x512x256) ![0, 0, 0] S1x512x256.size inb_S1x512x256_S1x512x256_0_0_0
abbrev r1_1 : Rect S1x4096x256 := Rect.unit (s := S1x4096x256) ![0, 0, 0] S1x4096x256.size inb_S1x4096x256_S1x4096x256_0_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S1x512x4096 := Rect.unit (s := S1x512x4096) ![0, 0, 0] S1x512x4096.size inb_S1x512x4096_S1x512x4096_0_0_0

/-! ## What the body leaves in each output window's buffer -/

/-- Window 6 (the attention weights) after the body: its one store, the softmax of the scaled products of the query
    block with the keys. -/
def out1_6 (x0 : Vec F S1x512x256 .bf16) (x1 : Vec F S1x4096x256 .bf16) : Vec F S1x512x4096 .f32 :=
  View.canon [⟨r1_4, k1_pay3 (View.ld x0 r1_0) (View.ld x1 r1_1)⟩]

/-- Window 5 (the projected attention output) after the body: its one store, the weights times the values, projected,
    plus the bias. -/
def out1_5 (x0 : Vec F S1x512x256 .bf16) (x1 : Vec F S1x4096x256 .bf16) (x2 : Vec F S1x4096x256 .bf16) (x3 : Vec F S256x256 .f32) (x4 : Vec F S1x256 .f32) : Vec F S1x512x256 .f32 :=
  View.canon [⟨r1_0, k1_pay1 (k1_pay4 (View.ld x0 r1_0) (View.ld x1 r1_1) (View.ld x2 r1_1) (View.ld x3 r1_2) (View.ld x4 r1_3))⟩]

/-- The one store into window 6's buffer is of the whole buffer, so it covers it. -/
theorem cover1_6 (p0 : Vec F S1x512x4096 .f32) (y : S1x512x4096.Idx) :
    ∃ pc ∈ ([⟨r1_4, p0⟩] : List (View.Piece (Elt F) S1x512x4096 .f32)), y ∈ pc.1.set :=
  View.cover_of_tiled [⟨r1_4, p0⟩] S1x512x4096.size (by rfl) y

/-- The one store into window 5's buffer is of the whole buffer, so it covers it. -/
theorem cover1_5 (p0 : Vec F S1x512x256 .f32) (y : S1x512x256.Idx) :
    ∃ pc ∈ ([⟨r1_0, p0⟩] : List (View.Piece (Elt F) S1x512x256 .f32)), y ∈ pc.1.set :=
  View.cover_of_tiled [⟨r1_0, p0⟩] S1x512x256.size (by rfl) y

/-! ## The body's triple -/

set_option maxHeartbeats 1000000 in
/-- The kernel body on whole staging memrefs, the inputs' at read contents `x0 … x4` and the outputs' at anything, runs
    to the continuation holding the inputs' as they were and each output's at `out1_5` / `out1_6` of the inputs'. -/
theorem sound_kernel1 (c : Dev nD) (E : Set ℕ) (i : grid1.Coords) (arg2 : Memref sig .tc .vmem S1x512x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S1x512x256 .f32) (harg7 : arg7.IsWhole) (arg8 : Memref sig .tc .vmem S1x512x4096 .f32) (harg8 : arg8.IsWhole)
    (x0 : Vec F S1x512x256 .bf16) (x1 : Vec F S1x4096x256 .bf16) (x2 : Vec F S1x4096x256 .bf16) (x3 : Vec F S256x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and each output's at `out1_5` / `out1_6` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's owed tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KR2.lean ====
import proofs.«142206_j867583394375_2_alg».proof.Proof.Gen.Kernel.Launch
import proofs.«142206_j867583394375_2_alg».proof.Proof.Gen.Kernel.Skeleton
import proofs.«142206_j867583394375_2_alg».proof.Proof.Gen.Kernel.Points
import proofs.«142206_j867583394375_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: the batch-norm statistics, a column sum and a column sum of squares accumulated over the grid -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

/-- The whole block of the input `y`. -/
abbrev r2_y : Rect S1x4096x256 := Rect.unit (s := S1x4096x256) ![0, 0, 0] S1x4096x256.size inb_S1x4096x256_S1x4096x256_0_0_0
/-- The whole row of 256 column statistics (both outputs, both accumulators). -/
abbrev r2_s : Rect S1x256 := Rect.unit (s := S1x256) ![0, 0] S1x256.size inb_S1x256_S1x256_0_0

theorem r2_y_off : (![0, 0, 0] : Fin S1x4096x256.rank → Nat) = fun _ => 0 := by
  funext a; fin_cases a <;> rfl
theorem r2_s_off : (![0, 0] : Fin S1x256.rank → Nat) = fun _ => 0 := by
  funext a; fin_cases a <;> rfl

/-- Every index of the row lies in the row's one rectangle. -/
theorem cover2_s (p0 : Vec F S1x256 .f32) (L : List (View.Piece (Elt F) S1x256 .f32)) (y : S1x256.Idx) :
    ∃ pc ∈ ((⟨r2_s, p0⟩ : View.Piece (Elt F) S1x256 .f32) :: L), y ∈ pc.1.set :=
  ⟨_, List.mem_cons_self, View.mem_set_unit_zero r2_s_off inb_S1x256_S1x256_0_0 y⟩

/-! ## The body's branch conditions -/

/-- The first conditional's condition (the point is the first): the accumulators are zeroed under it. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional's condition (the point is the last): the accumulators are copied out under it. -/
abbrev cond2_1 (i : grid2.Coords) : Prop := k2_cond2 i = 1#1
/-- It holds at point 7 only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The input is never idle. -/
theorem liveAt2_0 : ∀ t : Fin cfg2.N, cfg2.idle 0 (grid2.coords t) = false := by decide +kernel
/-- Before the last point nothing is stored into either output: idle, and not written back. -/
theorem idleAt2_1 : ∀ t : Fin cfg2.N, ¬cond2_1 (grid2.coords t) → cfg2.idle 1 (grid2.coords t) = true := by decide +kernel
theorem noFlush2_1 : ∀ t : Fin cfg2.N, ¬cond2_1 (grid2.coords t) → (cfg2.win 1).flush t = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point both outputs are stored into. -/
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-! ## The accumulators -/

/-- The two scratch operands, whole buffers of the kernel's own. -/
abbrev scM2_0 : Memref sig .tc .vmem S1x256 .f32 := Memref.whole cc2_scratch0
abbrev scM2_1 : Memref sig .tc .vmem S1x256 .f32 := Memref.whole cc2_scratch1

/-- The running column sum after `k` points: zero, then each point's block reduced over its rows and added. -/
def acc2S (c : Dev nD) : ℕ → Vec F S1x256 .f32
  | 0 => k2_pay1
  | k + 1 => if h : k < cfg2.N then k2_pay4 (View.ld (iblk2 V c 0 ⟨k, h⟩) r2_y) (acc2S c k) else acc2S c k

/-- The running column sum of squares after `k` points. -/
def acc2Q (c : Dev nD) : ℕ → Vec F S1x256 .f32
  | 0 => k2_pay2
  | k + 1 => if h : k < cfg2.N then k2_pay5 (View.ld (iblk2 V c 0 ⟨k, h⟩) r2_y) (acc2Q c k) else acc2Q c k

theorem acc2S_zero (c : Dev nD) : acc2S V c 0 = k2_pay1 := rfl
theorem acc2Q_zero (c : Dev nD) : acc2Q V c 0 = k2_pay2 := rfl
/-- One point's step of the sum. -/
theorem acc2S_succ (c : Dev nD) (t : Fin cfg2.N) :
    acc2S V c (t.val + 1) = k2_pay4 (View.ld (iblk2 V c 0 t) r2_y) (acc2S V c t.val) := by
  rw [acc2S, dif_pos t.isLt]
/-- One point's step of the sum of squares. -/
theorem acc2Q_succ (c : Dev nD) (t : Fin cfg2.N) :
    acc2Q V c (t.val + 1) = k2_pay5 (View.ld (iblk2 V c 0 t) r2_y) (acc2Q V c t.val) := by
  rw [acc2Q, dif_pos t.isLt]

/-! ## What the body leaves in each output window's buffer -/

/-- Output window 1's staging buffer after its one whole-row store of the sum `a`. -/
def out2_1 (a : Vec F S1x256 .f32) : Vec F S1x256 .f32 :=
  View.canon [⟨r2_s, View.ld a r2_s⟩]
/-- Output window 2's staging buffer after its one whole-row store of the sum of squares `a`. -/
def out2_2 (a : Vec F S1x256 .f32) : Vec F S1x256 .f32 :=
  View.canon [⟨r2_s, View.ld a r2_s⟩]

/-- The store is of the whole row: the buffer holds the stored value. -/
theorem out2_1_eq (a : Vec F S1x256 .f32) : out2_1 a = a := by
  unfold out2_1; rw [View.canon_unit_zero r2_s_off, View.ld_unit_zero r2_s_off]
theorem out2_2_eq (a : Vec F S1x256 .f32) : out2_2 a = a := by
  unfold out2_2; rw [View.canon_unit_zero r2_s_off, View.ld_unit_zero r2_s_off]
/-- The load of the input is of the whole block. -/
theorem ld2_y (x : Vec F S1x4096x256 .f32) : View.ld x r2_y = x := View.ld_unit_zero r2_y_off _ x

/-! ## The invariant between points -/

/-- Before point `k`: the two accumulators — before the first point at anything, afterwards at the sums over the
    points done —, the core's other scoped buffers at anything, the generator register at some state. -/
def Phi2 (c : Dev nD) : ℕ → sProp 𝕄
  | 0 => iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ ∃ r, prngReg c r)
  | k + 1 => iprop(iprop(owns (c : Thread nD τ) scM2_0 fullShare (acc2S V c (k + 1)) ∗ owns (c : Thread nD τ) scM2_1 fullShare (acc2Q V c (k + 1)))
      ∗ Pipeline.scopedRestBut (Ix := Unit) (Name := ℕ) (U := UR sig nD τ) (Lvl := ℕ) (Val := Elt F) spec2 c [cc2_scratch0, cc2_scratch1]
      ∗ ∃ r, prngReg c r)

theorem Phi2_zero (c : Dev nD) (n : ℕ) (hz : n = 0) :
    Phi2 V c n = iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ ∃ r, prngReg c r) := by
  subst hz; rfl
theorem Phi2_pos (c : Dev nD) (n : ℕ) (hz : n ≠ 0) :
    Phi2 V c n = iprop(iprop(owns (c : Thread nD τ) scM2_0 fullShare (acc2S V c n) ∗ owns (c : Thread nD τ) scM2_1 fullShare (acc2Q V c n))
      ∗ Pipeline.scopedRestBut (Ix := Unit) (Name := ℕ) (U := UR sig nD τ) (Lvl := ℕ) (Val := Elt F) spec2 c [cc2_scratch0, cc2_scratch1]
      ∗ ∃ r, prngReg c r) := by
  cases n with
  | zero => exact absurd rfl hz
  | succ n => rfl

/-! ## The pipeline's proof data -/

/-- The proof data of pipeline 2 on core `c`: the arrays as the region finds them (`V`); after the body at point
    `t` the input's buffer at its block and each output's at the store of the sum over the points up to `t` (stored at
    the last point only: at the earlier points the outputs are idle and this is not consulted); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (acc2S V c (t.val + 1))
    | ⟨2, _⟩ => out2_2 (acc2Q V c (t.val + 1))
  Φ k := Phi2 V c k.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (acc2S V c (t.val + 1)) := by dsimp only [dat2]
theorem after2_2 (c : Dev nD) (t : Fin cfg2.N) : (dat2 V c).after 2 t = out2_2 (acc2Q V c (t.val + 1)) := by dsimp only [dat2]

/-- The invariant at a point's start and end, at the point's number. -/
theorem Phi2_castSucc (c : Dev nD) (t : Fin cfg2.N) : (dat2 V c).Φ t.castSucc = Phi2 V c t.val := by
  dsimp only [dat2]; simp only [Fin.coe_castSucc]
theorem Phi2_succ (c : Dev nD) (t : Fin cfg2.N) : (dat2 V c).Φ t.succ = Phi2 V c (t.val + 1) := rfl

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body's triple, per case of its two conditionals -/

/-- A load of the whole input block reads the block's contents. -/
theorem readAt2_y {κ : Kind} {sp : Space} (v : View sig κ sp S1x4096x256 .f32) (f : v.ty.Contents (Elt F)) :
    v.readAt (Elt F) r2_y.toLoadRect f = View.ld (v.read (Elt F) f) r2_y := rfl
/-- A load of the whole row reads the row's contents. -/
theorem readAt2_s {κ : Kind} {sp : Space} (v : View sig κ sp S1x256 .f32) (f : v.ty.Contents (Elt F)) :
    v.readAt (Elt F) r2_s.toLoadRect f = v.read (Elt F) f := by
  rw [View.readAt_eq_ld, View.ld_unit_zero (S := S1x256) r2_s_off]

/-- What a whole-row store leaves, read back, whatever was stored before it: its payload. -/
theorem read_store2 {κ : Kind} {sp : Space} (v : View sig κ sp S1x256 .f32) (f : v.ty.Contents (Elt F))
    (a : Vec F S1x256 .f32) (L : List (View.Piece (Elt F) S1x256 .f32)) :
    v.read (Elt F) (v.writes (Elt F) f ((⟨r2_s, a⟩ : View.Piece (Elt F) S1x256 .f32) :: L)) = a := by
  rw [View.read_writes_eq_canon _ _ _ (cover2_s _ _), View.canon_cons_unit_zero r2_s_off]

set_option maxHeartbeats 1000000 in
/-- The first point (the first conditional taken): each accumulator, at anything, is zeroed and takes the block's contribution. -/
theorem sound_kernel2_A (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : cond2_0 i) (hc1 : ¬cond2_1 i)
    (x0 : Vec F S1x4096x256 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k2_pay4 (View.ld x0 r2_y) k2_pay1)
            ∗ owns (c : Thread nD τ) arg5 fullShare (k2_pay5 (View.ld x0 r2_y) k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_store2, View.readCov_cons_toLoadRect, readAt2_y]
  iexists _; isplitr
  swap; · iexact HQ
  ipureintro
  sl_unfold_run_names
  rw [read_store2, View.readCov_cons_toLoadRect, readAt2_y]

set_option maxHeartbeats 1000000 in
/-- A middle point (neither conditional taken): each accumulator, held at `s` / `q`, takes the block's contribution. -/
theorem sound_kernel2_B (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : ¬cond2_0 i) (hc1 : ¬cond2_1 i)
    (x0 : Vec F S1x4096x256 .f32) (s q : Vec F S1x256 .f32) (K : PUnit → sProp 𝕄) :
    iprop(owns (c : Thread nD τ) arg1 fullShare x0 ∗ owns (c : Thread nD τ) arg4 fullShare s ∗ owns (c : Thread nD τ) arg5 fullShare q
        ∗ (iprop(owns (c : Thread nD τ) arg1 fullShare x0 ∗ owns (c : Thread nD τ) arg4 fullShare (k2_pay4 (View.ld x0 r2_y) s)
            ∗ owns (c : Thread nD τ) arg5 fullShare (k2_pay5 (View.ld x0 r2_y) q)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%fs, %hfs, HS⟩, ⟨%fq, %hfq, HQ⟩, Hk⟩
  subst hf0 hfs hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_store2, readAt2_s, readAt2_y]
  iexists _; isplitr
  swap; · iexact HQ
  ipureintro
  sl_unfold_run_names
  rw [read_store2, readAt2_s, readAt2_y]

set_option maxHeartbeats 1000000 in
/-- The last point (the second conditional taken): the accumulators take the block's contribution and are copied into the outputs' buffers. -/
theorem sound_kernel2_C (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : ¬cond2_0 i) (hc1 : cond2_1 i)
    (x0 : Vec F S1x4096x256 .f32) (s q : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare q
        ∗ (iprop(owns (c : Thread nD τ) arg1 fullShare x0
            ∗ owns (c : Thread nD τ) arg2 fullShare (out2_1 (k2_pay4 (View.ld x0 r2_y) s))
            ∗ owns (c : Thread nD τ) arg3 fullShare (out2_2 (k2_pay5 (View.ld x0 r2_y) q))
            ∗ owns (c : Thread nD τ) arg4 fullShare (k2_pay4 (View.ld x0 r2_y) s)
            ∗ owns (c : Thread nD τ) arg5 fullShare (k2_pay5 (View.ld x0 r2_y) q)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs, %hfs, HS⟩, ⟨%fq, %hfq, HQ⟩, Hk⟩
  subst hf0 hfs hfq
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [read_store2, View.readCov_cons_toLoadRect, out2_1_eq, readAt2_s, readAt2_y]
  isplitl [H2]
  · iexists _; isplitr
    swap; · iexact H2
    ipureintro
    sl_unfold_run_names
    rw [read_store2, View.readCov_cons_toLoadRect, out2_2_eq, readAt2_s, readAt2_y]
  isplitl [HS]
  · iexists _; isplitr
    swap; · iexact HS
    ipureintro
    sl_unfold_run_names
    rw [read_store2, readAt2_s, readAt2_y]
  iexists _; isplitr
  swap; · iexact HQ
  ipureintro
  sl_unfold_run_names
  rw [read_store2, readAt2_s, readAt2_y]

/-! ## The body obligation, at a generic point -/

/-- Each window's current staging memref at point `t`, as the pipeline passes it. -/
abbrev ms2_0 (t : Fin cfg2.N) : Memref sig .tc .vmem S1x4096x256 .f32 := win2_0.stage (cfg2.slots t 0)
abbrev ms2_1 (t : Fin cfg2.N) : Memref sig .tc .vmem S1x256 .f32 := win2_1.stage (cfg2.slots t 1)
abbrev ms2_2 (t : Fin cfg2.N) : Memref sig .tc .vmem S1x256 .f32 := win2_2.stage (cfg2.slots t 2)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The input's memref holds its block; the point is the first, a middle one or the last, which
    decides the two conditionals; the invariant hands the body the accumulators (at anything before the first point, at
    the sums so far afterwards) and takes them back one block further; before the last point the outputs' buffers are
    handed back as found, at the last they hold the stored sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [Phi2_succ, Phi2_castSucc, Phi2_pos V c (t.val + 1) (Nat.succ_ne_zero _), acc2S_succ, acc2Q_succ]
  rw [show (dat2 V c).leavesExact 0 t = owns (c : Thread nD τ) (ms2_0 t) fullShare ((dat2 V c).after 0 t) from by
    unfold Dat.leavesExact; rw [liveAt2_0 t], after2_0]
  have hN : t.val < 8 := lt_of_lt_of_eq t.isLt (show cfg2.N = 8 from N_2)
  by_cases h1 : t.val % 8 = 7
  · -- the last point
    have hc1 : cond2_1 (grid2.coords t) := (hcond2_1 t).mpr h1
    have hc0 : ¬cond2_0 (grid2.coords t) := fun h => by have := (hcond2_0 t).mp h; omega
    have hz : t.val ≠ 0 := by omega
    rw [show (dat2 V c).leavesExact 1 t = owns (c : Thread nD τ) (ms2_1 t) fullShare ((dat2 V c).after 1 t) from by
      unfold Dat.leavesExact; rw [liveAt2_1 t hc1], after2_1, acc2S_succ]
    rw [show (dat2 V c).leavesExact 2 t = owns (c : Thread nD τ) (ms2_2 t) fullShare ((dat2 V c).after 2 t) from by
      unfold Dat.leavesExact; rw [liveAt2_2 t hc1], after2_2, acc2Q_succ]
    rw [Phi2_pos V c _ hz]
    iintro ⟨⟨⟨HS, HQ⟩, Hr, Hg⟩, Ho, ⟨%d0, H0⟩, ⟨%d1, H1⟩, ⟨%d2, H2⟩⟩
    iapply (sound_kernel2_C c Set.univ (grid2.coords t) _ _ _ _ _ _ _ _ _ _ hc0 hc1 (iblk2 V c 0 t) (acc2S V c t.val) (acc2Q V c t.val) _)
    isplitl [H0]; · iexact H0
    isplitl [H1]; · iexists _; iexact H1
    isplitl [H2]; · iexists _; iexact H2
    isplitl [HS]; · iexact HS
    isplitl [HQ]; · iexact HQ
    iintro ⟨H0, H1, H2, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1),
      Dat.leavesExact_idle (dat2 V c) 2 t (idleAt2_2 t hc1) (noFlush2_2 t hc1)]
    by_cases h0 : t.val % 8 = 0
    · -- the first point
      have hc0 : cond2_0 (grid2.coords t) := (hcond2_0 t).mpr h0
      have hz : t.val = 0 := by omega
      rw [Phi2_zero V c _ hz, show acc2S V c t.val = k2_pay1 from by rw [hz]; rfl, show acc2Q V c t.val = k2_pay2 from by rw [hz]; rfl]
      iintro ⟨⟨⟨HS, HQ⟩, Hr, Hg⟩, Ho, ⟨%d0, H0⟩, H1, H2⟩
      iapply (sound_kernel2_A c Set.univ (grid2.coords t) _ _ _ _ _ _ _ _ _ _ hc0 hc1 (iblk2 V c 0 t) _)
      isplitl [H0]; · iexact H0
      isplitl [HS]; · iexact HS
      isplitl [HQ]; · iexact HQ
      iintro ⟨H0, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      iexact H2
    · -- a middle point
      have hc0 : ¬cond2_0 (grid2.coords t) := fun h => h0 ((hcond2_0 t).mp h)
      have hz : t.val ≠ 0 := by omega
      rw [Phi2_pos V c _ hz]
      iintro ⟨⟨⟨HS, HQ⟩, Hr, Hg⟩, Ho, ⟨%d0, H0⟩, H1, H2⟩
      iapply (sound_kernel2_B c Set.univ (grid2.coords t) _ _ _ _ _ _ _ _ _ _ hc0 hc1 (iblk2 V c 0 t) (acc2S V c t.val) (acc2Q V c t.val) _)
      isplitl [H0]; · iexact H0
      isplitl [HS]; · iexact HS
      isplitl [HQ]; · iexact HQ
      iintro ⟨H0, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register, no table, the scoped buffers no window stages — is the
    invariant before the first point: the two accumulators are among those scoped buffers. -/
theorem hin2 (c : Dev nD) :
    iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 from rfl, Phi2_zero V c 0 rfl, scopedRest2_split]
  simp only [scM2_0, scM2_1, owns_whole]
  iintro ⟨Hp, -, ⟨H0, H1⟩, Hr⟩
  isplitl [H0 H1]
  · isplitl [H0]; · iexact H0
    iexact H1
  isplitl [Hr]; · iexact Hr
  iexact Hp

/-- The invariant after the last point gives them back: the accumulators' contents are forgotten. -/
theorem hout2 (c : Dev nD) :
    ((dat2 V c).Φ (Fin.last cfg2.N) : sProp 𝕄)
      ⊢ (iprop((∃ r, prngReg c r)
        ∗ Pipeline.scopedRest (Ix := Unit) (Name := ℕ) (U := UR sig nD τ) (Lvl := ℕ) (Val := Elt F) spec2 c) : sProp 𝕄) := by
  rw [show (dat2 V c).Φ (Fin.last cfg2.N) = Phi2 V c (Fin.last cfg2.N).val from rfl,
    Phi2_pos V c _ (by rw [Fin.val_last]; have : cfg2.N = 8 := N_2; omega), scopedRest2_split]
  simp only [scM2_0, scM2_1, owns_whole]
  iintro ⟨⟨H0, H1⟩, Hr, Hp⟩
  isplitl [Hp]; · iexact Hp
  isplitl [H0 H1]
  · isplitl [H0]; · iexists _; iexact H0
    iexists _; iexact H1
  iexact Hr

end Region2

end Cert.Kernel.Hand

end
-- ==== Proof.KR3.lean ====
/- Region 3 of @main (`cc3__bn_act_kernel`) at the buffer contents `V` the region is entered with: each window's block at a
   point, what the body leaves in each output window's buffer as the canon of its one whole-block store over the
   payload of the input blocks, the body's triple, the pipeline's proof data and the body obligation at every point. -/
import proofs.«142206_j867583394375_2_alg».proof.Proof.Gen.Kernel.Launch
import proofs.«142206_j867583394375_2_alg».proof.Proof.Gen.Kernel.Skeleton
import proofs.«142206_j867583394375_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: `cc3__bn_act_kernel` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block
    index has not moved, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block
    index has not moved, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block
    index has not moved, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block
    index has not moved, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_0 : Rect S1x512x256 := Rect.unit (s := S1x512x256) ![0, 0, 0] S1x512x256.size inb_S1x512x256_S1x512x256_0_0_0
abbrev r3_1 : Rect S1x256 := Rect.unit (s := S1x256) ![0, 0] S1x256.size inb_S1x256_S1x256_0_0
abbrev r3_2 : Rect S1x256x512 := Rect.unit (s := S1x256x512) ![0, 0, 0] S1x256x512.size inb_S1x256x512_S1x256x512_0_0_0

/-! ## What the body leaves in each output window's buffer -/

/-- Window 5's staging buffer after the body, from the input windows' blocks: its one store, of the whole block. -/
def out3_5 (x0 : Vec F S1x512x256 .f32) (x1 : Vec F S1x256 .f32) (x2 : Vec F S1x256 .f32) (x3 : Vec F S1x256 .f32) (x4 : Vec F S1x256 .f32) : Vec F S1x256x512 .f32 :=
  View.canon [⟨r3_2, k3_pay1 (View.ld x0 r3_0) (View.ld x1 r3_1) (View.ld x2 r3_1) (View.ld x3 r3_1) (View.ld x4 r3_1)⟩]

/-- The one store tiles the buffer, so it covers it. -/
theorem cover3_5 (p0 : Vec F S1x256x512 .f32) (y : S1x256x512.Idx) :
    ∃ pc ∈ ([⟨r3_2, p0⟩] : List (View.Piece (Elt F) S1x256x512 .f32)), y ∈ pc.1.set :=
  View.cover_of_tiled [⟨r3_2, p0⟩] S1x256x512.size (by rfl) y

/-! ## The body's triple -/

set_option maxHeartbeats 4000000 in
/-- The kernel body on whole staging memrefs, the inputs' at read contents `xW` and the outputs' at anything, runs to
    the continuation holding the inputs' as they were and each output's at `out3_W` of the inputs'. The payloads
    stay folded: nothing here looks inside what the body computes. -/
theorem sound_kernel3 (c : Dev nD) (E : Set ℕ) (i : grid3.Coords) (arg0 : Memref sig .tc .vmem S1x512x256 .f32) (harg0 : arg0.IsWhole) (arg1 : Memref sig .tc .vmem S1x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256x512 .f32) (harg5 : arg5.IsWhole)
    (x0 : Vec F S1x512x256 .f32) (x1 : Vec F S1x256 .f32) (x2 : Vec F S1x256 .f32) (x3 : Vec F S1x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_act_kernel i arg0 harg0 arg1 harg1 arg2 harg2 arg3 harg3 arg4 harg4 arg5 harg5) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/- The run of @main over its seven segments — the host stretch before region 0, regions 0, 1, 2, the host stretch
   between regions 2 and 3, region 3, the host stretch after it — on the regions' halves (IR0 … IR3): the buffer
   contents at every segment boundary as a fold from the launch memory, each argument array read back through the
   fold, the proof data at each region's entry contents, the regions as segments over the thread state "every
   unscoped buffer at the boundary's contents, the generator register at some state, nothing owed", and the run:
   every weakly fair execution terminates and every final state holds every unscoped buffer at the last boundary's
   contents. The frame claim is read off it. -/
import proofs.«142206_j867583394375_2_alg».proof.Proof.Gen.Kernel.Launch
import proofs.«142206_j867583394375_2_alg».proof.Proof.Gen.Kernel.Regions
import proofs.«142206_j867583394375_2_alg».proof.Proof.KR0
import proofs.«142206_j867583394375_2_alg».proof.Proof.KR1
import proofs.«142206_j867583394375_2_alg».proof.Proof.KR2
import proofs.«142206_j867583394375_2_alg».proof.Proof.KR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- The same read at the TensorCore's references. -/
abbrev V5 : (c : Dev nD) → (b : Ref sig .tc) → Buf (Elt F) ((c : Thread nD τ).loc b) := fun c b => W5 m ρ c b

/-- At region 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- The same read at the TensorCore's references. -/
abbrev V7 : (c : Dev nD) → (b : Ref sig .tc) → Buf (Elt F) ((c : Thread nD τ).loc b) := fun c b => W7 m ρ c b

/-! ### The arguments end as launched: the fold at an argument's buffer walks back to the launch memory -/

/-- `main_arg0` ends as launched: no host stretch writes it and it is no window's array of any region. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host stretch writes it and it is no window's array of any region. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host stretch writes it and it is no window's array of any region. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host stretch writes it and it is no window's array of any region. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host stretch writes it and it is no window's array of any region. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host stretch writes it and it is no window's array of any region. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    exact hin2 (V3 m ρ) c
  hout c := by
    rw [Pipeline.ownSems0_none, show (pdats m ρ 2 c).Φ (Fin.last _) = (dat2 (V3 m ρ) c).Φ (Fin.last cfg2.N) from rfl]
    refine (hout2 (V3 m ρ) c).trans ?_
    iintro ⟨Hr, Hs⟩
    isplitl [Hr]; · iexact Hr
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- @main is the run of the segments. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and every final state holds every unscoped buffer of every core at the last boundary's contents `W7`. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends holding its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.IR0.lean ====
/- Region 0 of @main (`cc0__qk_proj_kernel`) at the buffer contents `V` the region is entered with: each window's block at a
   point, what the body leaves in each output window's buffer as the canon of its one whole-block store over the
   payload of the input blocks, the body's triple, the pipeline's proof data and the body obligation at every point. -/
import proofs.«142206_j867583394375_2_alg».proof.Proof.Gen.KernelIdeal.Launch
import proofs.«142206_j867583394375_2_alg».proof.Proof.Gen.KernelIdeal.Skeleton
import proofs.«142206_j867583394375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__qk_proj_kernel` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev r0_0 : Rect S1x256x512 := Rect.unit (s := S1x256x512) ![0, 0, 0] S1x256x512.size inb_S1x256x512_S1x256x512_0_0_0
abbrev r0_1 : Rect S256x512 := Rect.unit (s := S256x512) ![0, 0] S256x512.size inb_S256x512_S256x512_0_0
abbrev r0_2 : Rect S1x512x256 := Rect.unit (s := S1x512x256) ![0, 0, 0] S1x512x256.size inb_S1x512x256_S1x512x256_0_0_0

/-! ## What the body leaves in each output window's buffer -/

/-- Window 2's staging buffer after the body, from the input windows' blocks: its one store, of the whole block. -/
def out0_2 (x0 : Vec F S1x256x512 .f32) (x1 : Vec F S256x512 .f32) : Vec F S1x512x256 .bf16 :=
  View.canon [⟨r0_2, k0_pay3 (View.ld x0 r0_0) (View.ld x1 r0_1)⟩]

/-- The one store tiles the buffer, so it covers it. -/
theorem cover0_2 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-- Window 3's staging buffer after the body, from the input windows' blocks: its one store, of the whole block. -/
def out0_3 (x0 : Vec F S1x256x512 .f32) (x1 : Vec F S256x512 .f32) : Vec F S1x512x256 .bf16 :=
  View.canon [⟨r0_2, k0_pay4 (View.ld x0 r0_0) (View.ld x1 r0_1)⟩]

/-- The one store tiles the buffer, so it covers it. -/
theorem cover0_3 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-- Window 4's staging buffer after the body, from the input windows' blocks: its one store, of the whole block. -/
def out0_4 (x0 : Vec F S1x256x512 .f32) : Vec F S1x512x256 .bf16 :=
  View.canon [⟨r0_2, k0_pay5 (View.ld x0 r0_0)⟩]

/-- The one store tiles the buffer, so it covers it. -/
theorem cover0_4 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y

/-! ## The body's triple -/

set_option maxHeartbeats 4000000 in
/-- The kernel body on whole staging memrefs, the inputs' at read contents `xW` and the outputs' at anything, runs to
    the continuation holding the inputs' as they were and each output's at `out0_W` of the inputs'. The payloads
    stay folded: nothing here looks inside what the body computes. -/
theorem sound_kernel0 (c : Dev nD) (E : Set ℕ) (i : grid0.Coords) (arg0 : Memref sig .tc .vmem S1x256x512 .f32) (harg0 : arg0.IsWhole) (arg1 : Memref sig .tc .vmem S256x512 .f32) (harg1 : arg1.IsWhole) (arg2 : Memref sig .tc .vmem S1x512x256 .bf16) (harg2 : arg2.IsWhole) (arg3 : Memref sig .tc .vmem S1x512x256 .bf16) (harg3 : arg3.IsWhole) (arg4 : Memref sig .tc .vmem S1x512x256 .bf16) (harg4 : arg4.IsWhole)
    (x0 : Vec F S1x256x512 .f32) (x1 : Vec F S256x512 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0)) -∗ K ⟨⟩))
      ⊢ wp frame (wpE (defs₀ (F := F)) Variants.none c none) E (cc0__qk_proj_kernel i arg0 harg0 arg1 harg1 arg2 harg2 arg3 harg3 arg4 harg4) K := by
  simp only [cc0__qk_proj_kernel_eq_skeleton]; unfold cc0__qk_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IR1.lean ====
import proofs.«142206_j867583394375_2_alg».proof.Proof.Gen.KernelIdeal.Launch
import proofs.«142206_j867583394375_2_alg».proof.Proof.Gen.KernelIdeal.Skeleton
import proofs.«142206_j867583394375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the attention kernel, at the buffer contents the region is entered with

The second kernel region computes, per block of 512 query rows of one batch element, the softmax of the scaled
products of the query block with all 4096 keys, stores those attention weights (output window 6), multiplies them
with the values, applies the output projection and its bias, and stores the result (output window 5). Its five input
windows are the query block, the keys, the values, the transposed projection matrix and the bias row.

This module states the region's half of the frame at a parameter `V`, the contents of the core's buffers when the
region is entered: each window's block at a grid point, what the body leaves in each output window's staging buffer
as a function of the input blocks, the body's triple, the pipeline's proof data and the body obligation.
-/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there (an unfetched point has the block index of the point before), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there (an unfetched point has the block index of the point before), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there (an unfetched point has the block index of the point before), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the pipeline fetched it
    there (an unfetched point has the block index of the point before), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the pipeline fetched it
    there (an unfetched point has the block index of the point before), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x512x256 := Rect.unit (s := S1x512x256) ![0, 0, 0] S1x512x256.size inb_S1x512x256_S1x512x256_0_0_0
abbrev r1_1 : Rect S1x4096x256 := Rect.unit (s := S1x4096x256) ![0, 0, 0] S1x4096x256.size inb_S1x4096x256_S1x4096x256_0_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S1x512x4096 := Rect.unit (s := S1x512x4096) ![0, 0, 0] S1x512x4096.size inb_S1x512x4096_S1x512x4096_0_0_0

/-! ## What the body leaves in each output window's buffer -/

/-- Window 6 (the attention weights) after the body: its one store, the softmax of the scaled products of the query
    block with the keys. -/
def out1_6 (x0 : Vec F S1x512x256 .bf16) (x1 : Vec F S1x4096x256 .bf16) : Vec F S1x512x4096 .f32 :=
  View.canon [⟨r1_4, k1_pay3 (View.ld x0 r1_0) (View.ld x1 r1_1)⟩]

/-- Window 5 (the projected attention output) after the body: its one store, the weights times the values, projected,
    plus the bias. -/
def out1_5 (x0 : Vec F S1x512x256 .bf16) (x1 : Vec F S1x4096x256 .bf16) (x2 : Vec F S1x4096x256 .bf16) (x3 : Vec F S256x256 .f32) (x4 : Vec F S1x256 .f32) : Vec F S1x512x256 .f32 :=
  View.canon [⟨r1_0, k1_pay1 (k1_pay4 (View.ld x0 r1_0) (View.ld x1 r1_1) (View.ld x2 r1_1) (View.ld x3 r1_2) (View.ld x4 r1_3))⟩]

/-- The one store into window 6's buffer is of the whole buffer, so it covers it. -/
theorem cover1_6 (p0 : Vec F S1x512x4096 .f32) (y : S1x512x4096.Idx) :
    ∃ pc ∈ ([⟨r1_4, p0⟩] : List (View.Piece (Elt F) S1x512x4096 .f32)), y ∈ pc.1.set :=
  View.cover_of_tiled [⟨r1_4, p0⟩] S1x512x4096.size (by rfl) y

/-- The one store into window 5's buffer is of the whole buffer, so it covers it. -/
theorem cover1_5 (p0 : Vec F S1x512x256 .f32) (y : S1x512x256.Idx) :
    ∃ pc ∈ ([⟨r1_0, p0⟩] : List (View.Piece (Elt F) S1x512x256 .f32)), y ∈ pc.1.set :=
  View.cover_of_tiled [⟨r1_0, p0⟩] S1x512x256.size (by rfl) y

/-! ## The body's triple -/

set_option maxHeartbeats 1000000 in
/-- The kernel body on whole staging memrefs, the inputs' at read contents `x0 … x4` and the outputs' at anything, runs
    to the continuation holding the inputs' as they were and each output's at `out1_5` / `out1_6` of the inputs'. -/
theorem sound_kernel1 (c : Dev nD) (E : Set ℕ) (i : grid1.Coords) (arg2 : Memref sig .tc .vmem S1x512x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S256x256 .f32) (harg5 : arg5.IsWhole) (arg6 : Memref sig .tc .vmem S1x256 .f32) (harg6 : arg6.IsWhole) (arg7 : Memref sig .tc .vmem S1x512x256 .f32) (harg7 : arg7.IsWhole) (arg8 : Memref sig .tc .vmem S1x512x4096 .f32) (harg8 : arg8.IsWhole)
    (x0 : Vec F S1x512x256 .bf16) (x1 : Vec F S1x4096x256 .bf16) (x2 : Vec F S1x4096x256 .bf16) (x3 : Vec F S256x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare (out1_6 x0 x1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and each output's at `out1_5` / `out1_6` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's owed tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.IR2.lean ====
import proofs.«142206_j867583394375_2_alg».proof.Proof.Gen.KernelIdeal.Launch
import proofs.«142206_j867583394375_2_alg».proof.Proof.Gen.KernelIdeal.Skeleton
import proofs.«142206_j867583394375_2_alg».proof.Proof.Gen.KernelIdeal.Points
import proofs.«142206_j867583394375_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! # Region 2: the batch-norm statistics, a column sum and a column sum of squares accumulated over the grid -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

/-- The whole block of the input `y`. -/
abbrev r2_y : Rect S1x4096x256 := Rect.unit (s := S1x4096x256) ![0, 0, 0] S1x4096x256.size inb_S1x4096x256_S1x4096x256_0_0_0
/-- The whole row of 256 column statistics (both outputs, both accumulators). -/
abbrev r2_s : Rect S1x256 := Rect.unit (s := S1x256) ![0, 0] S1x256.size inb_S1x256_S1x256_0_0

theorem r2_y_off : (![0, 0, 0] : Fin S1x4096x256.rank → Nat) = fun _ => 0 := by
  funext a; fin_cases a <;> rfl
theorem r2_s_off : (![0, 0] : Fin S1x256.rank → Nat) = fun _ => 0 := by
  funext a; fin_cases a <;> rfl

/-- Every index of the row lies in the row's one rectangle. -/
theorem cover2_s (p0 : Vec F S1x256 .f32) (L : List (View.Piece (Elt F) S1x256 .f32)) (y : S1x256.Idx) :
    ∃ pc ∈ ((⟨r2_s, p0⟩ : View.Piece (Elt F) S1x256 .f32) :: L), y ∈ pc.1.set :=
  ⟨_, List.mem_cons_self, View.mem_set_unit_zero r2_s_off inb_S1x256_S1x256_0_0 y⟩

/-! ## The body's branch conditions -/

/-- The first conditional's condition (the point is the first): the accumulators are zeroed under it. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional's condition (the point is the last): the accumulators are copied out under it. -/
abbrev cond2_1 (i : grid2.Coords) : Prop := k2_cond2 i = 1#1
/-- It holds at point 7 only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The input is never idle. -/
theorem liveAt2_0 : ∀ t : Fin cfg2.N, cfg2.idle 0 (grid2.coords t) = false := by decide +kernel
/-- Before the last point nothing is stored into either output: idle, and not written back. -/
theorem idleAt2_1 : ∀ t : Fin cfg2.N, ¬cond2_1 (grid2.coords t) → cfg2.idle 1 (grid2.coords t) = true := by decide +kernel
theorem noFlush2_1 : ∀ t : Fin cfg2.N, ¬cond2_1 (grid2.coords t) → (cfg2.win 1).flush t = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point both outputs are stored into. -/
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-! ## The accumulators -/

/-- The two scratch operands, whole buffers of the kernel's own. -/
abbrev scM2_0 : Memref sig .tc .vmem S1x256 .f32 := Memref.whole cc2_scratch0
abbrev scM2_1 : Memref sig .tc .vmem S1x256 .f32 := Memref.whole cc2_scratch1

/-- The running column sum after `k` points: zero, then each point's block reduced over its rows and added. -/
def acc2S (c : Dev nD) : ℕ → Vec F S1x256 .f32
  | 0 => k2_pay1
  | k + 1 => if h : k < cfg2.N then k2_pay4 (View.ld (iblk2 V c 0 ⟨k, h⟩) r2_y) (acc2S c k) else acc2S c k

/-- The running column sum of squares after `k` points. -/
def acc2Q (c : Dev nD) : ℕ → Vec F S1x256 .f32
  | 0 => k2_pay2
  | k + 1 => if h : k < cfg2.N then k2_pay5 (View.ld (iblk2 V c 0 ⟨k, h⟩) r2_y) (acc2Q c k) else acc2Q c k

theorem acc2S_zero (c : Dev nD) : acc2S V c 0 = k2_pay1 := rfl
theorem acc2Q_zero (c : Dev nD) : acc2Q V c 0 = k2_pay2 := rfl
/-- One point's step of the sum. -/
theorem acc2S_succ (c : Dev nD) (t : Fin cfg2.N) :
    acc2S V c (t.val + 1) = k2_pay4 (View.ld (iblk2 V c 0 t) r2_y) (acc2S V c t.val) := by
  rw [acc2S, dif_pos t.isLt]
/-- One point's step of the sum of squares. -/
theorem acc2Q_succ (c : Dev nD) (t : Fin cfg2.N) :
    acc2Q V c (t.val + 1) = k2_pay5 (View.ld (iblk2 V c 0 t) r2_y) (acc2Q V c t.val) := by
  rw [acc2Q, dif_pos t.isLt]

/-! ## What the body leaves in each output window's buffer -/

/-- Output window 1's staging buffer after its one whole-row store of the sum `a`. -/
def out2_1 (a : Vec F S1x256 .f32) : Vec F S1x256 .f32 :=
  View.canon [⟨r2_s, View.ld a r2_s⟩]
/-- Output window 2's staging buffer after its one whole-row store of the sum of squares `a`. -/
def out2_2 (a : Vec F S1x256 .f32) : Vec F S1x256 .f32 :=
  View.canon [⟨r2_s, View.ld a r2_s⟩]

/-- The store is of the whole row: the buffer holds the stored value. -/
theorem out2_1_eq (a : Vec F S1x256 .f32) : out2_1 a = a := by
  unfold out2_1; rw [View.canon_unit_zero r2_s_off, View.ld_unit_zero r2_s_off]
theorem out2_2_eq (a : Vec F S1x256 .f32) : out2_2 a = a := by
  unfold out2_2; rw [View.canon_unit_zero r2_s_off, View.ld_unit_zero r2_s_off]
/-- The load of the input is of the whole block. -/
theorem ld2_y (x : Vec F S1x4096x256 .f32) : View.ld x r2_y = x := View.ld_unit_zero r2_y_off _ x

/-! ## The invariant between points -/

/-- Before point `k`: the two accumulators — before the first point at anything, afterwards at the sums over the
    points done —, the core's other scoped buffers at anything, the generator register at some state. -/
def Phi2 (c : Dev nD) : ℕ → sProp 𝕄
  | 0 => iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ ∃ r, prngReg c r)
  | k + 1 => iprop(iprop(owns (c : Thread nD τ) scM2_0 fullShare (acc2S V c (k + 1)) ∗ owns (c : Thread nD τ) scM2_1 fullShare (acc2Q V c (k + 1)))
      ∗ Pipeline.scopedRestBut (Ix := Unit) (Name := ℕ) (U := UR sig nD τ) (Lvl := ℕ) (Val := Elt F) spec2 c [cc2_scratch0, cc2_scratch1]
      ∗ ∃ r, prngReg c r)

theorem Phi2_zero (c : Dev nD) (n : ℕ) (hz : n = 0) :
    Phi2 V c n = iprop(iprop((∃ d, owns (c : Thread nD τ) scM2_0 fullShare d) ∗ (∃ d, owns (c : Thread nD τ) scM2_1 fullShare d))
      ∗ Pipeline.scopedRestBut (Ix := Unit) (Name := ℕ) (U := UR sig nD τ) (Lvl := ℕ) (Val := Elt F) spec2 c [cc2_scratch0, cc2_scratch1]
      ∗ ∃ r, prngReg c r) := by
  subst hz; rfl
theorem Phi2_pos (c : Dev nD) (n : ℕ) (hz : n ≠ 0) :
    Phi2 V c n = iprop(iprop(owns (c : Thread nD τ) scM2_0 fullShare (acc2S V c n) ∗ owns (c : Thread nD τ) scM2_1 fullShare (acc2Q V c n))
      ∗ Pipeline.scopedRestBut (Ix := Unit) (Name := ℕ) (U := UR sig nD τ) (Lvl := ℕ) (Val := Elt F) spec2 c [cc2_scratch0, cc2_scratch1]
      ∗ ∃ r, prngReg c r) := by
  cases n with
  | zero => exact absurd rfl hz
  | succ n => rfl

/-! ## The pipeline's proof data -/

/-- The proof data of pipeline 2 on core `c`: the arrays as the region finds them (`V`); after the body at point
    `t` the input's buffer at its block and each output's at the store of the sum over the points up to `t` (stored at
    the last point only: at the earlier points the outputs are idle and this is not consulted); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (acc2S V c (t.val + 1))
    | ⟨2, _⟩ => out2_2 (acc2Q V c (t.val + 1))
  Φ k := Phi2 V c k.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (acc2S V c (t.val + 1)) := by dsimp only [dat2]
theorem after2_2 (c : Dev nD) (t : Fin cfg2.N) : (dat2 V c).after 2 t = out2_2 (acc2Q V c (t.val + 1)) := by dsimp only [dat2]

/-- The invariant at a point's start and end, at the point's number. -/
theorem Phi2_castSucc (c : Dev nD) (t : Fin cfg2.N) : (dat2 V c).Φ t.castSucc = Phi2 V c t.val := by
  dsimp only [dat2]; simp only [Fin.coe_castSucc]
theorem Phi2_succ (c : Dev nD) (t : Fin cfg2.N) : (dat2 V c).Φ t.succ = Phi2 V c (t.val + 1) := rfl

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body's triple, per case of its two conditionals -/

/-- A load of the whole input block reads the block's contents. -/
theorem readAt2_y {κ : Kind} {sp : Space} (v : View sig κ sp S1x4096x256 .f32) (f : v.ty.Contents (Elt F)) :
    v.readAt (Elt F) r2_y.toLoadRect f = View.ld (v.read (Elt F) f) r2_y := rfl
/-- A load of the whole row reads the row's contents. -/
theorem readAt2_s {κ : Kind} {sp : Space} (v : View sig κ sp S1x256 .f32) (f : v.ty.Contents (Elt F)) :
    v.readAt (Elt F) r2_s.toLoadRect f = v.read (Elt F) f := by
  rw [View.readAt_eq_ld, View.ld_unit_zero (S := S1x256) r2_s_off]

/-- What a whole-row store leaves, read back, whatever was stored before it: its payload. -/
theorem read_store2 {κ : Kind} {sp : Space} (v : View sig κ sp S1x256 .f32) (f : v.ty.Contents (Elt F))
    (a : Vec F S1x256 .f32) (L : List (View.Piece (Elt F) S1x256 .f32)) :
    v.read (Elt F) (v.writes (Elt F) f ((⟨r2_s, a⟩ : View.Piece (Elt F) S1x256 .f32) :: L)) = a := by
  rw [View.read_writes_eq_canon _ _ _ (cover2_s _ _), View.canon_cons_unit_zero r2_s_off]

set_option maxHeartbeats 1000000 in
/-- The first point (the first conditional taken): each accumulator, at anything, is zeroed and takes the block's contribution. -/
theorem sound_kernel2_A (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : cond2_0 i) (hc1 : ¬cond2_1 i)
    (x0 : Vec F S1x4096x256 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k2_pay4 (View.ld x0 r2_y) k2_pay1)
            ∗ owns (c : Thread nD τ) arg5 fullShare (k2_pay5 (View.ld x0 r2_y) k2_pay2)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%ds, %fs, -, HS⟩, ⟨%dq, %fq, -, HQ⟩, Hk⟩
  subst hf0
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_store2, View.readCov_cons_toLoadRect, readAt2_y]
  iexists _; isplitr
  swap; · iexact HQ
  ipureintro
  sl_unfold_run_names
  rw [read_store2, View.readCov_cons_toLoadRect, readAt2_y]

set_option maxHeartbeats 1000000 in
/-- A middle point (neither conditional taken): each accumulator, held at `s` / `q`, takes the block's contribution. -/
theorem sound_kernel2_B (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : ¬cond2_0 i) (hc1 : ¬cond2_1 i)
    (x0 : Vec F S1x4096x256 .f32) (s q : Vec F S1x256 .f32) (K : PUnit → sProp 𝕄) :
    iprop(owns (c : Thread nD τ) arg1 fullShare x0 ∗ owns (c : Thread nD τ) arg4 fullShare s ∗ owns (c : Thread nD τ) arg5 fullShare q
        ∗ (iprop(owns (c : Thread nD τ) arg1 fullShare x0 ∗ owns (c : Thread nD τ) arg4 fullShare (k2_pay4 (View.ld x0 r2_y) s)
            ∗ owns (c : Thread nD τ) arg5 fullShare (k2_pay5 (View.ld x0 r2_y) q)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%fs, %hfs, HS⟩, ⟨%fq, %hfq, HQ⟩, Hk⟩
  subst hf0 hfs hfq
  sl_exec (disch := first | exact hc0 | exact hc1)
  sl_step
  iapply Hk
  isplitl [H0]
  · iexists f0; isplitr; · ipureintro; rfl
    iexact H0
  isplitl [HS]
  · iexists _; isplitr
    swap; · iexact HS
    ipureintro
    sl_unfold_run_names
    rw [read_store2, readAt2_s, readAt2_y]
  iexists _; isplitr
  swap; · iexact HQ
  ipureintro
  sl_unfold_run_names
  rw [read_store2, readAt2_s, readAt2_y]

set_option maxHeartbeats 1000000 in
/-- The last point (the second conditional taken): the accumulators take the block's contribution and are copied into the outputs' buffers. -/
theorem sound_kernel2_C (c : Dev nD) (E : Set ℕ) (i : grid2.Coords)
    (arg1 : Memref sig .tc .vmem S1x4096x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (hc0 : ¬cond2_0 i) (hc1 : cond2_1 i)
    (x0 : Vec F S1x4096x256 .f32) (s q : Vec F S1x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare q
        ∗ (iprop(owns (c : Thread nD τ) arg1 fullShare x0
            ∗ owns (c : Thread nD τ) arg2 fullShare (out2_1 (k2_pay4 (View.ld x0 r2_y) s))
            ∗ owns (c : Thread nD τ) arg3 fullShare (out2_2 (k2_pay5 (View.ld x0 r2_y) q))
            ∗ owns (c : Thread nD τ) arg4 fullShare (k2_pay4 (View.ld x0 r2_y) s)
            ∗ owns (c : Thread nD τ) arg5 fullShare (k2_pay5 (View.ld x0 r2_y) q)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs, %hfs, HS⟩, ⟨%fq, %hfq, HQ⟩, Hk⟩
  subst hf0 hfs hfq
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [read_store2, View.readCov_cons_toLoadRect, out2_1_eq, readAt2_s, readAt2_y]
  isplitl [H2]
  · iexists _; isplitr
    swap; · iexact H2
    ipureintro
    sl_unfold_run_names
    rw [read_store2, View.readCov_cons_toLoadRect, out2_2_eq, readAt2_s, readAt2_y]
  isplitl [HS]
  · iexists _; isplitr
    swap; · iexact HS
    ipureintro
    sl_unfold_run_names
    rw [read_store2, readAt2_s, readAt2_y]
  iexists _; isplitr
  swap; · iexact HQ
  ipureintro
  sl_unfold_run_names
  rw [read_store2, readAt2_s, readAt2_y]

/-! ## The body obligation, at a generic point -/

/-- Each window's current staging memref at point `t`, as the pipeline passes it. -/
abbrev ms2_0 (t : Fin cfg2.N) : Memref sig .tc .vmem S1x4096x256 .f32 := win2_0.stage (cfg2.slots t 0)
abbrev ms2_1 (t : Fin cfg2.N) : Memref sig .tc .vmem S1x256 .f32 := win2_1.stage (cfg2.slots t 1)
abbrev ms2_2 (t : Fin cfg2.N) : Memref sig .tc .vmem S1x256 .f32 := win2_2.stage (cfg2.slots t 2)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The input's memref holds its block; the point is the first, a middle one or the last, which
    decides the two conditionals; the invariant hands the body the accumulators (at anything before the first point, at
    the sums so far afterwards) and takes them back one block further; before the last point the outputs' buffers are
    handed back as found, at the last they hold the stored sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [Phi2_succ, Phi2_castSucc, Phi2_pos V c (t.val + 1) (Nat.succ_ne_zero _), acc2S_succ, acc2Q_succ]
  rw [show (dat2 V c).leavesExact 0 t = owns (c : Thread nD τ) (ms2_0 t) fullShare ((dat2 V c).after 0 t) from by
    unfold Dat.leavesExact; rw [liveAt2_0 t], after2_0]
  have hN : t.val < 8 := lt_of_lt_of_eq t.isLt (show cfg2.N = 8 from N_2)
  by_cases h1 : t.val % 8 = 7
  · -- the last point
    have hc1 : cond2_1 (grid2.coords t) := (hcond2_1 t).mpr h1
    have hc0 : ¬cond2_0 (grid2.coords t) := fun h => by have := (hcond2_0 t).mp h; omega
    have hz : t.val ≠ 0 := by omega
    rw [show (dat2 V c).leavesExact 1 t = owns (c : Thread nD τ) (ms2_1 t) fullShare ((dat2 V c).after 1 t) from by
      unfold Dat.leavesExact; rw [liveAt2_1 t hc1], after2_1, acc2S_succ]
    rw [show (dat2 V c).leavesExact 2 t = owns (c : Thread nD τ) (ms2_2 t) fullShare ((dat2 V c).after 2 t) from by
      unfold Dat.leavesExact; rw [liveAt2_2 t hc1], after2_2, acc2Q_succ]
    rw [Phi2_pos V c _ hz]
    iintro ⟨⟨⟨HS, HQ⟩, Hr, Hg⟩, Ho, ⟨%d0, H0⟩, ⟨%d1, H1⟩, ⟨%d2, H2⟩⟩
    iapply (sound_kernel2_C c Set.univ (grid2.coords t) _ _ _ _ _ _ _ _ _ _ hc0 hc1 (iblk2 V c 0 t) (acc2S V c t.val) (acc2Q V c t.val) _)
    isplitl [H0]; · iexact H0
    isplitl [H1]; · iexists _; iexact H1
    isplitl [H2]; · iexists _; iexact H2
    isplitl [HS]; · iexact HS
    isplitl [HQ]; · iexact HQ
    iintro ⟨H0, H1, H2, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1),
      Dat.leavesExact_idle (dat2 V c) 2 t (idleAt2_2 t hc1) (noFlush2_2 t hc1)]
    by_cases h0 : t.val % 8 = 0
    · -- the first point
      have hc0 : cond2_0 (grid2.coords t) := (hcond2_0 t).mpr h0
      have hz : t.val = 0 := by omega
      rw [Phi2_zero V c _ hz, show acc2S V c t.val = k2_pay1 from by rw [hz]; rfl, show acc2Q V c t.val = k2_pay2 from by rw [hz]; rfl]
      iintro ⟨⟨⟨HS, HQ⟩, Hr, Hg⟩, Ho, ⟨%d0, H0⟩, H1, H2⟩
      iapply (sound_kernel2_A c Set.univ (grid2.coords t) _ _ _ _ _ _ _ _ _ _ hc0 hc1 (iblk2 V c 0 t) _)
      isplitl [H0]; · iexact H0
      isplitl [HS]; · iexact HS
      isplitl [HQ]; · iexact HQ
      iintro ⟨H0, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      iexact H2
    · -- a middle point
      have hc0 : ¬cond2_0 (grid2.coords t) := fun h => h0 ((hcond2_0 t).mp h)
      have hz : t.val ≠ 0 := by omega
      rw [Phi2_pos V c _ hz]
      iintro ⟨⟨⟨HS, HQ⟩, Hr, Hg⟩, Ho, ⟨%d0, H0⟩, H1, H2⟩
      iapply (sound_kernel2_B c Set.univ (grid2.coords t) _ _ _ _ _ _ _ _ _ _ hc0 hc1 (iblk2 V c 0 t) (acc2S V c t.val) (acc2Q V c t.val) _)
      isplitl [H0]; · iexact H0
      isplitl [HS]; · iexact HS
      isplitl [HQ]; · iexact HQ
      iintro ⟨H0, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with — the generator register, no table, the scoped buffers no window stages — is the
    invariant before the first point: the two accumulators are among those scoped buffers. -/
theorem hin2 (c : Dev nD) :
    iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 from rfl, Phi2_zero V c 0 rfl, scopedRest2_split]
  simp only [scM2_0, scM2_1, owns_whole]
  iintro ⟨Hp, -, ⟨H0, H1⟩, Hr⟩
  isplitl [H0 H1]
  · isplitl [H0]; · iexact H0
    iexact H1
  isplitl [Hr]; · iexact Hr
  iexact Hp

/-- The invariant after the last point gives them back: the accumulators' contents are forgotten. -/
theorem hout2 (c : Dev nD) :
    ((dat2 V c).Φ (Fin.last cfg2.N) : sProp 𝕄)
      ⊢ (iprop((∃ r, prngReg c r)
        ∗ Pipeline.scopedRest (Ix := Unit) (Name := ℕ) (U := UR sig nD τ) (Lvl := ℕ) (Val := Elt F) spec2 c) : sProp 𝕄) := by
  rw [show (dat2 V c).Φ (Fin.last cfg2.N) = Phi2 V c (Fin.last cfg2.N).val from rfl,
    Phi2_pos V c _ (by rw [Fin.val_last]; have : cfg2.N = 8 := N_2; omega), scopedRest2_split]
  simp only [scM2_0, scM2_1, owns_whole]
  iintro ⟨⟨H0, H1⟩, Hr, Hp⟩
  isplitl [Hp]; · iexact Hp
  isplitl [H0 H1]
  · isplitl [H0]; · iexists _; iexact H0
    iexists _; iexact H1
  iexact Hr

end Region2

end Cert.KernelIdeal.Hand

end
-- ==== Proof.IR3.lean ====
/- Region 3 of @main (`cc3__bn_act_kernel`) at the buffer contents `V` the region is entered with: each window's block at a
   point, what the body leaves in each output window's buffer as the canon of its one whole-block store over the
   payload of the input blocks, the body's triple, the pipeline's proof data and the body obligation at every point. -/
import proofs.«142206_j867583394375_2_alg».proof.Proof.Gen.KernelIdeal.Launch
import proofs.«142206_j867583394375_2_alg».proof.Proof.Gen.KernelIdeal.Skeleton
import proofs.«142206_j867583394375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: `cc3__bn_act_kernel` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, and the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block
    index has not moved, and the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block
    index has not moved, and the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block
    index has not moved, and the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block
    index has not moved, and the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole block -/

abbrev r3_0 : Rect S1x512x256 := Rect.unit (s := S1x512x256) ![0, 0, 0] S1x512x256.size inb_S1x512x256_S1x512x256_0_0_0
abbrev r3_1 : Rect S1x256 := Rect.unit (s := S1x256) ![0, 0] S1x256.size inb_S1x256_S1x256_0_0
abbrev r3_2 : Rect S1x256x512 := Rect.unit (s := S1x256x512) ![0, 0, 0] S1x256x512.size inb_S1x256x512_S1x256x512_0_0_0

/-! ## What the body leaves in each output window's buffer -/

/-- Window 5's staging buffer after the body, from the input windows' blocks: its one store, of the whole block. -/
def out3_5 (x0 : Vec F S1x512x256 .f32) (x1 : Vec F S1x256 .f32) (x2 : Vec F S1x256 .f32) (x3 : Vec F S1x256 .f32) (x4 : Vec F S1x256 .f32) : Vec F S1x256x512 .f32 :=
  View.canon [⟨r3_2, k3_pay1 (View.ld x0 r3_0) (View.ld x1 r3_1) (View.ld x2 r3_1) (View.ld x3 r3_1) (View.ld x4 r3_1)⟩]

/-- The one store tiles the buffer, so it covers it. -/
theorem cover3_5 (p0 : Vec F S1x256x512 .f32) (y : S1x256x512.Idx) :
    ∃ pc ∈ ([⟨r3_2, p0⟩] : List (View.Piece (Elt F) S1x256x512 .f32)), y ∈ pc.1.set :=
  View.cover_of_tiled [⟨r3_2, p0⟩] S1x256x512.size (by rfl) y

/-! ## The body's triple -/

set_option maxHeartbeats 4000000 in
/-- The kernel body on whole staging memrefs, the inputs' at read contents `xW` and the outputs' at anything, runs to
    the continuation holding the inputs' as they were and each output's at `out3_W` of the inputs'. The payloads
    stay folded: nothing here looks inside what the body computes. -/
theorem sound_kernel3 (c : Dev nD) (E : Set ℕ) (i : grid3.Coords) (arg0 : Memref sig .tc .vmem S1x512x256 .f32) (harg0 : arg0.IsWhole) (arg1 : Memref sig .tc .vmem S1x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256x512 .f32) (harg5 : arg5.IsWhole)
    (x0 : Vec F S1x512x256 .f32) (x1 : Vec F S1x256 .f32) (x2 : Vec F S1x256 .f32) (x3 : Vec F S1x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_act_kernel i arg0 harg0 arg1 harg1 arg2 harg2 arg3 harg3 arg4 harg4 arg5 harg5) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IRun.lean ====
/- The run of @main over its seven segments — the host stretch before region 0, regions 0, 1, 2, the host stretch
   between regions 2 and 3, region 3, the host stretch after it — on the regions' halves (IR0 … IR3): the buffer
   contents at every segment boundary as a fold from the launch memory, each argument array read back through the
   fold, the proof data at each region's entry contents, the regions as segments over the thread state "every
   unscoped buffer at the boundary's contents, the generator register at some state, nothing owed", and the run:
   every weakly fair execution terminates and every final state holds every unscoped buffer at the last boundary's
   contents. The frame claim is read off it. -/
import proofs.«142206_j867583394375_2_alg».proof.Proof.Gen.KernelIdeal.Launch
import proofs.«142206_j867583394375_2_alg».proof.Proof.Gen.KernelIdeal.Regions
import proofs.«142206_j867583394375_2_alg».proof.Proof.IR0
import proofs.«142206_j867583394375_2_alg».proof.Proof.IR1
import proofs.«142206_j867583394375_2_alg».proof.Proof.IR2
import proofs.«142206_j867583394375_2_alg».proof.Proof.IR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- The same read at the TensorCore's references. -/
abbrev V5 : (c : Dev nD) → (b : Ref sig .tc) → Buf (Elt F) ((c : Thread nD τ).loc b) := fun c b => W5 m ρ c b

/-- At region 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- The same read at the TensorCore's references. -/
abbrev V7 : (c : Dev nD) → (b : Ref sig .tc) → Buf (Elt F) ((c : Thread nD τ).loc b) := fun c b => W7 m ρ c b

/-! ### The arguments end as launched: the fold at an argument's buffer walks back to the launch memory -/

/-- `main_arg0` ends as launched: no host stretch writes it and it is no window's array of any region. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host stretch writes it and it is no window's array of any region. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host stretch writes it and it is no window's array of any region. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host stretch writes it and it is no window's array of any region. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host stretch writes it and it is no window's array of any region. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host stretch writes it and it is no window's array of any region. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    exact hin2 (V3 m ρ) c
  hout c := by
    rw [Pipeline.ownSems0_none, show (pdats m ρ 2 c).Φ (Fin.last _) = (dat2 (V3 m ρ) c).Φ (Fin.last cfg2.N) from rfl]
    refine (hout2 (V3 m ρ) c).trans ?_
    iintro ⟨Hr, Hs⟩
    isplitl [Hr]; · iexact Hr
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)) ]
/-- @main is the run of the segments. -/
theorem main_run (c : Dev nD) : main (F := F) c = Pipeline.Seg.run (segs m ρ) := (main_chain c).trans (by chain_rfl)

set_option backward.isDefEq.respectTransparency.types false in
/-- The run: from any memory with zero counters, every weakly fair execution of @main on the TensorCores terminates,
    nothing faulting, and every final state holds every unscoped buffer of every core at the last boundary's contents `W7`. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hr, HO⟩
        isplitl [Hh Hr]
        · isplitl [Hh]; · iexact Hh
          iexact Hr
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends holding its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.IRes.lean ====
/- How @main's two results, and the contents each region's arrays are read at, are read off the fold of the run
   (IRun): the results as what regions 1 and 3 leave (the first through the last host stretch's reshape), each region's
   entry contents as the host stretches' operations applied to the arguments or to an earlier region's outputs. -/
import proofs.«142206_j867583394375_2_alg».proof.Proof.IRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # How the results and the regions' entry contents read off the fold -/

/-! ## The two results -/

/-- The second result, region 1's output window 6, is what region 1 leaves: nothing after region 1 writes it. -/
theorem W7_main_v7_1 (c : Dev nD) : W7 m ρ c (Proc.devRef .tc main_v7_1) = (dat1 (V2 m ρ) c).arrAt 6 cfg1.N :=
  calc W7 m ρ c (Proc.devRef .tc main_v7_1)
    _ = W6 m ρ c (Proc.devRef .tc main_v7_1) := StableHlo.after_of_writes_sub hostOps4 _ hostOps4_writes (by decide)
    _ = W5 m ρ c (Proc.devRef .tc main_v7_1) := W6_of_ne m ρ c main_v7_1 (by decide)
    _ = W4 m ρ c (Proc.devRef .tc main_v7_1) := StableHlo.after_of_writes_sub hostOps3 _ hostOps3_writes (by decide)
    _ = W3 m ρ c (Proc.devRef .tc main_v7_1) := W4_of_ne m ρ c main_v7_1 (by decide)
    _ = (dat1 (V2 m ρ) c).arrAt 6 cfg1.N := W3_arr m ρ c 6

/-- The first result is the last host stretch's reshape of region 3's output window 5. -/
theorem W7_main_v19 (c : Dev nD) : W7 m ρ c (Proc.devRef .tc main_v19)
    = fun i => shapeCast S8x256x64x64 ((dat3 (V5 m ρ) c).arrAt 5 cfg3.N) shapeCasts_S8x256x4096_S8x256x64x64 i := by
  have h : W7 m ρ c (Proc.devRef .tc main_v19)
      = fun i => shapeCast S8x256x64x64 (W6 m ρ c (Proc.devRef .tc main_v18)) shapeCasts_S8x256x4096_S8x256x64x64 i := by
    show StableHlo.after hostOps4 (W6 m ρ c) (Proc.devRef .tc main_v19) = _
    after_results; rfl
  rw [h, show W6 m ρ c (Proc.devRef .tc main_v18) = (dat3 (V5 m ρ) c).arrAt 5 cfg3.N from W6_arr m ρ c 5]

/-! ## Region 0's entry contents: the first host stretch applied to the arguments -/

theorem V1_main_v0 (c : Dev nD) : V1 m ρ c main_v0
    = fun i => shapeCast S8x256x4096 (m ((c : Thread nD τ).loc main_arg0)) shapeCasts_S8x256x64x64_S8x256x4096 i := by
  show StableHlo.after hostOps0 (W0 m ρ c) (Proc.devRef .tc main_v0) = _
  after_results; rfl
theorem V1_main_v1 (c : Dev nD) : V1 m ρ c main_v1
    = transpose S256x512 [1, 0] (m ((c : Thread nD τ).loc main_arg1)) transposes_S512x256_S256x512_1_0 := by
  show StableHlo.after hostOps0 (W0 m ρ c) (Proc.devRef .tc main_v1) = _
  after_results
theorem V1_main_v2 (c : Dev nD) : V1 m ρ c main_v2
    = transpose S256x256 [1, 0] (m ((c : Thread nD τ).loc main_arg2)) transposes_S256x256_S256x256_1_0 := by
  show StableHlo.after hostOps0 (W0 m ρ c) (Proc.devRef .tc main_v2) = _
  after_results
theorem V1_main_v3 (c : Dev nD) : V1 m ρ c main_v3
    = fun i => shapeCast S1x256 (m ((c : Thread nD τ).loc main_arg3)) shapeCasts_S256_S1x256 i := by
  show StableHlo.after hostOps0 (W0 m ρ c) (Proc.devRef .tc main_v3) = _
  after_results; rfl
theorem V1_main_v4 (c : Dev nD) : V1 m ρ c main_v4
    = fun i => shapeCast S1x256 (m ((c : Thread nD τ).loc main_arg4)) shapeCasts_S256_S1x256 i := by
  show StableHlo.after hostOps0 (W0 m ρ c) (Proc.devRef .tc main_v4) = _
  after_results; rfl
theorem V1_main_v5 (c : Dev nD) : V1 m ρ c main_v5
    = fun i => shapeCast S1x256 (m ((c : Thread nD τ).loc main_arg5)) shapeCasts_S256_S1x256 i := by
  show StableHlo.after hostOps0 (W0 m ρ c) (Proc.devRef .tc main_v5) = _
  after_results; rfl

/-! ## Region 1's entry contents: region 0's three outputs, and two of the first host stretch's results -/

theorem V2_main_v6_0 (c : Dev nD) : V2 m ρ c main_v6_0 = (dat0 (V1 m ρ) c).arrAt 2 cfg0.N := W2_arr m ρ c 2
theorem V2_main_v6_1 (c : Dev nD) : V2 m ρ c main_v6_1 = (dat0 (V1 m ρ) c).arrAt 3 cfg0.N := W2_arr m ρ c 3
theorem V2_main_v6_2 (c : Dev nD) : V2 m ρ c main_v6_2 = (dat0 (V1 m ρ) c).arrAt 4 cfg0.N := W2_arr m ρ c 4
theorem V2_main_v2 (c : Dev nD) : V2 m ρ c main_v2 = V1 m ρ c main_v2 := W2_of_ne m ρ c main_v2 (by decide)
theorem V2_main_v3 (c : Dev nD) : V2 m ρ c main_v3 = V1 m ρ c main_v3 := W2_of_ne m ρ c main_v3 (by decide)

/-! ## Region 2's entry contents: region 1's output window 5 -/

theorem V3_main_v7_0 (c : Dev nD) : V3 m ρ c main_v7_0 = (dat1 (V2 m ρ) c).arrAt 5 cfg1.N := W3_arr m ρ c 5

/-! ## Region 2's exit contents: its two sums; its input as entered -/

theorem V4_main_v8_0 (c : Dev nD) : V4 m ρ c main_v8_0 = (dat2 (V3 m ρ) c).arrAt 1 cfg2.N := W4_arr m ρ c 1
theorem V4_main_v8_1 (c : Dev nD) : V4 m ρ c main_v8_1 = (dat2 (V3 m ρ) c).arrAt 2 cfg2.N := W4_arr m ρ c 2
theorem V4_main_v7_0 (c : Dev nD) : V4 m ρ c main_v7_0 = (dat1 (V2 m ρ) c).arrAt 5 cfg1.N :=
  (W4_arr m ρ c 0).trans ((((dat2 (V3 m ρ) c).arrAt_in 0 rfl _).trans (A_eq2 (V3 m ρ) c 0)).trans (V3_main_v7_0 m ρ c))

/-! ## Region 3's entry contents: region 1's output window 5, the middle host stretch applied to region 2's two sums,
    and two of the first host stretch's results -/

theorem V5_main_v7_0 (c : Dev nD) : V5 m ρ c main_v7_0 = (dat1 (V2 m ρ) c).arrAt 5 cfg1.N :=
  (StableHlo.after_of_writes_sub hostOps3 _ hostOps3_writes (by decide) :
    W5 m ρ c (Proc.devRef .tc main_v7_0) = W4 m ρ c (Proc.devRef .tc main_v7_0)).trans (V4_main_v7_0 m ρ c)
/-- The per-channel mean: region 2's first sum over the count. -/
theorem V5_main_v10 (c : Dev nD) : V5 m ρ c main_v10
    = Host.divf ((dat2 (V3 m ρ) c).arrAt 1 cfg2.N) (broadcastInDim S1x256 ![] bcast_S_S1x256 (constant S_ .f32 0x47000000#32)) := by
  have h : V5 m ρ c main_v10 = Host.divf (W4 m ρ c (Proc.devRef .tc main_v8_0)) (broadcastInDim S1x256 ![] bcast_S_S1x256 (constant S_ .f32 0x47000000#32)) := by
    show StableHlo.after hostOps3 (W4 m ρ c) (Proc.devRef .tc main_v10) = _
    after_results
  rw [h, show W4 m ρ c (Proc.devRef .tc main_v8_0) = (dat2 (V3 m ρ) c).arrAt 1 cfg2.N from W4_arr m ρ c 1]
/-- The per-channel inverse deviation: from region 2's two sums. -/
theorem V5_main_v17 (c : Dev nD) : V5 m ρ c main_v17
    = Host.rsqrt (addf (subf (Host.divf ((dat2 (V3 m ρ) c).arrAt 2 cfg2.N) (broadcastInDim S1x256 ![] bcast_S_S1x256 (constant S_ .f32 0x47000000#32))) (mulf (Host.divf ((dat2 (V3 m ρ) c).arrAt 1 cfg2.N) (broadcastInDim S1x256 ![] bcast_S_S1x256 (constant S_ .f32 0x47000000#32))) (Host.divf ((dat2 (V3 m ρ) c).arrAt 1 cfg2.N) (broadcastInDim S1x256 ![] bcast_S_S1x256 (constant S_ .f32 0x47000000#32))))) (broadcastInDim S1x256 ![] bcast_S_S1x256 (constant S_ .f32 0x3727C5AC#32))) := by
  have h : V5 m ρ c main_v17
      = Host.rsqrt (addf (subf (Host.divf (W4 m ρ c (Proc.devRef .tc main_v8_1)) (broadcastInDim S1x256 ![] bcast_S_S1x256 (constant S_ .f32 0x47000000#32))) (mulf (Host.divf (W4 m ρ c (Proc.devRef .tc main_v8_0)) (broadcastInDim S1x256 ![] bcast_S_S1x256 (constant S_ .f32 0x47000000#32))) (Host.divf (W4 m ρ c (Proc.devRef .tc main_v8_0)) (broadcastInDim S1x256 ![] bcast_S_S1x256 (constant S_ .f32 0x47000000#32))))) (broadcastInDim S1x256 ![] bcast_S_S1x256 (constant S_ .f32 0x3727C5AC#32))) := by
    show StableHlo.after hostOps3 (W4 m ρ c) (Proc.devRef .tc main_v17) = _
    after_results
  rw [h, show W4 m ρ c (Proc.devRef .tc main_v8_0) = (dat2 (V3 m ρ) c).arrAt 1 cfg2.N from W4_arr m ρ c 1,
    show W4 m ρ c (Proc.devRef .tc main_v8_1) = (dat2 (V3 m ρ) c).arrAt 2 cfg2.N from W4_arr m ρ c 2]
/-- `main_v4` reaches region 3 as the first host stretch left it. -/
theorem V5_main_v4 (c : Dev nD) : V5 m ρ c main_v4 = V1 m ρ c main_v4 :=
  calc W5 m ρ c (Proc.devRef .tc main_v4)
    _ = W4 m ρ c (Proc.devRef .tc main_v4) := StableHlo.after_of_writes_sub hostOps3 _ hostOps3_writes (by decide)
    _ = W3 m ρ c (Proc.devRef .tc main_v4) := W4_of_ne m ρ c main_v4 (by decide)
    _ = W2 m ρ c (Proc.devRef .tc main_v4) := W3_of_ne m ρ c main_v4 (by decide)
    _ = W1 m ρ c (Proc.devRef .tc main_v4) := W2_of_ne m ρ c main_v4 (by decide)

/-- `main_v5` reaches region 3 as the first host stretch left it. -/
theorem V5_main_v5 (c : Dev nD) : V5 m ρ c main_v5 = V1 m ρ c main_v5 :=
  calc W5 m ρ c (Proc.devRef .tc main_v5)
    _ = W4 m ρ c (Proc.devRef .tc main_v5) := StableHlo.after_of_writes_sub hostOps3 _ hostOps3_writes (by decide)
    _ = W3 m ρ c (Proc.devRef .tc main_v5) := W4_of_ne m ρ c main_v5 (by decide)
    _ = W2 m ρ c (Proc.devRef .tc main_v5) := W3_of_ne m ρ c main_v5 (by decide)
    _ = W1 m ρ c (Proc.devRef .tc main_v5) := W2_of_ne m ρ c main_v5 (by decide)

end Cert.KernelIdeal.Hand

end
-- ==== Proof.Spec.lean ====
/-
  The arrays the kernel's four regions and its host lines produce, each as a function of the arrays it is computed from,
  entry by entry on the extended reals and at explicit coordinates. Nothing here mentions a program: the value lemmas of
  the regions state "the array left by the region, at (b, n, e), is this function", and the algebra that joins the kernel
  to the reference is done on these functions.

  The computation: with x : [8, 256, 4096] (channel-major image rows), Wᵀ : [256, 512],
    q[b,n,e] = Σ_c x[b,c,n]·Wᵀ[c,e],  k[b,n,e] = Σ_c x[b,c,n]·Wᵀ[c,256+e],  v[b,n,c] = x[b,c,n],
    dots[b,i,j] = (Σ_d q[b,i,d]·k[b,j,d])·(1/16),  m[b,i] = max_j dots[b,i,j],  p = exp(dots − m),  l[b,i] = Σ_j p[b,i,j],
    attn = p·(1/l),  ctx[b,i,c] = Σ_j attn[b,i,j]·v[b,j,c],  y[b,n,o] = Σ_c ctx[b,n,c]·Woutᵀ[c,o] + bout[o],
    S[o] = Σ_b Σ_n y[b,n,o],  Q[o] = Σ_b Σ_n y[b,n,o]²,  mean = S/32768,  var = Q/32768 − mean²,  r = rsqrt(var + 1e-5),
    act[b,o,n] = leaky(((y[b,n,o] − mean[o])·r[o])·γ[o] + β[o]),  leaky z = z if z ≥ 0 else 0.01·z.
-/
import Idealize.ShloMosaic.PureOps.Ideal
import Idealize.ShloMosaic.Lib.ValueIdx

noncomputable section

namespace Cert.Spec

open Idealize.ShloMosaic Idealize.ShloMosaic.ValueIdx

abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- The extended real a 32-bit float word denotes. -/
abbrev lit (w : BitVec 32) : EReal := Ideal.ofBits .f32 w

/-! ## The projection: q, k and v from the channel-major rows -/

/-- Column `e` of the first half of the projected row `n`. -/
def q (xcn : Arr3 8 256 4096) (wT : Arr2 256 512) (b : Fin 8) (n : Fin 4096) (e : Fin 256) : EReal :=
  ∑ c : Fin 256, xcn (ix3 b c n) * wT (ix2 c (⟨e.val, by omega⟩ : Fin 512))

/-- Column `e` of the second half of the projected row `n`. -/
def k (xcn : Arr3 8 256 4096) (wT : Arr2 256 512) (b : Fin 8) (n : Fin 4096) (e : Fin 256) : EReal :=
  ∑ c : Fin 256, xcn (ix3 b c n) * wT (ix2 c (⟨256 + e.val, by omega⟩ : Fin 512))

/-- The row itself, transposed to position-major. -/
def v (xcn : Arr3 8 256 4096) (b : Fin 8) (n : Fin 4096) (c : Fin 256) : EReal := xcn (ix3 b c n)

/-! ## Attention: the scaled scores, their row-wise softmax, the weighted rows and the output layer -/

def dots (Q K : Arr3 8 4096 256) (b : Fin 8) (i j : Fin 4096) : EReal :=
  (∑ d : Fin 256, Q (ix3 b i d) * K (ix3 b j d)) * lit 0x3D800000#32

/-- A row's maximum, folded from −∞. -/
def rowMax (Q K : Arr3 8 4096 256) (b : Fin 8) (i : Fin 4096) : EReal :=
  (Finset.univ : Finset (Fin 4096)).fold max (lit 0xFF800000#32) (fun j => dots Q K b i j)

def p (Q K : Arr3 8 4096 256) (b : Fin 8) (i j : Fin 4096) : EReal :=
  Ideal.exp (dots Q K b i j - rowMax Q K b i)

def rowSum (Q K : Arr3 8 4096 256) (b : Fin 8) (i : Fin 4096) : EReal := ∑ j : Fin 4096, p Q K b i j

/-- The softmax weight, as the exponential times the reciprocal of the row's sum. -/
def attn (Q K : Arr3 8 4096 256) (b : Fin 8) (i j : Fin 4096) : EReal :=
  p Q K b i j * Ideal.div (lit 0x3F800000#32) (rowSum Q K b i)

def ctx (Q K V : Arr3 8 4096 256) (b : Fin 8) (i : Fin 4096) (c : Fin 256) : EReal :=
  ∑ j : Fin 4096, attn Q K b i j * V (ix3 b j c)

def y (Q K V : Arr3 8 4096 256) (woutT : Arr2 256 256) (bout2 : Arr2 1 256) (b : Fin 8) (n : Fin 4096) (o : Fin 256) : EReal :=
  (∑ c : Fin 256, ctx Q K V b n c * woutT (ix2 c o)) + bout2 (ix2 0 o)

/-! ## The batch statistics per channel -/

def chanSum (Y : Arr3 8 4096 256) (o : Fin 256) : EReal := ∑ b : Fin 8, ∑ n : Fin 4096, Y (ix3 b n o)

def chanSq (Y : Arr3 8 4096 256) (o : Fin 256) : EReal := ∑ b : Fin 8, ∑ n : Fin 4096, Y (ix3 b n o) * Y (ix3 b n o)

def mean (S : Arr2 1 256) (o : Fin 256) : EReal := Ideal.div (S (ix2 0 o)) (lit 0x47000000#32)

def var (S Sq : Arr2 1 256) (o : Fin 256) : EReal :=
  Ideal.div (Sq (ix2 0 o)) (lit 0x47000000#32) - mean S o * mean S o

def invStd (S Sq : Arr2 1 256) (o : Fin 256) : EReal := Ideal.rsqrt (var S Sq o + lit 0x3727C5AC#32)

/-! ## Normalisation, the affine map and the leaky rectifier -/

def leaky (z : EReal) : EReal := Scalar.select (Ideal.cmp .oge z (lit 0x00000000#32)) z (lit 0x3C23D70A#32 * z)

def yhat (Y : Arr3 8 4096 256) (M I G B : Arr2 1 256) (b : Fin 8) (n : Fin 4096) (o : Fin 256) : EReal :=
  ((Y (ix3 b n o) - M (ix2 0 o)) * I (ix2 0 o)) * G (ix2 0 o) + B (ix2 0 o)

/-- The activation, written channel-major: entry (b, o, n). -/
def act (Y : Arr3 8 4096 256) (M I G B : Arr2 1 256) (b : Fin 8) (o : Fin 256) (n : Fin 4096) : EReal :=
  leaky (yhat Y M I G B b n o)

end Cert.Spec

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.IV0.lean ====
/- Region 0 of @main at the extended reals: the three arrays the projection region leaves, entry by entry.
   First the blocks the body stores at a point, read at an index: the product of the row block (channel-major, so
   contracted along its first axis) with the weight array, cut into its two column halves, and the row block transposed;
   then the blocks laid over the arrays: point (b, j) of the 8 by 8 grid reads columns 512 j .. 512 j + 511 of image b
   and writes rows 512 j .. 512 j + 511 of image b of each result, every entry lies in exactly one such block, so the
   arrays end holding the projections of the arrays the region was entered with. -/
import proofs.«142206_j867583394375_2_alg».proof.Proof.IR0
import proofs.«142206_j867583394375_2_alg».proof.Proof.Spec
import proofs.«142206_j867583394375_2_alg».proof.Proof.LibDotRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The blocks the body leaves, at an index -/

/-- The row block with its leading unit axis dropped; the rounding to the narrower format is the identity here. -/
theorem pay0_1_apply (v0 : Vec Ideal S1x256x512 .f32) (cc : Fin 256) (p : Fin 512) :
    k0_pay1 (F := Ideal) v0 (ix2 cc p) = v0 (ix3 (0 : Fin 1) cc p) := by
  unfold k0_pay1
  exact shapeCast_1ab_ab_apply _ _ cc p

/-- The product of the row block with the weights: its dimension numbers. -/
abbrev D0 : DotDims S256x512 S256x512 S512x512 := dot_S256x512_S256x512_S512x512_0_0_1_1_n_n

theorem contr0_rank : D0.contr.rank = 1 :=
  Cert.DotRead.contr_rank_one D0 (cl := (0 : Fin 2)) rfl

theorem contr0_size : D0.contr.size ⟨0, by rw [contr0_rank]; exact Nat.one_pos⟩ = 256 :=
  Cert.DotRead.contr_size_one D0 (cl := (0 : Fin 2)) rfl

/-- The product contracts the FIRST axis of both operands: the left operand is read at (k, p), -/
theorem dot0_lhs (p q : Fin 512) (k : Fin 256) :
    D0.lhsIdx (ix2 p q) ((contrEquiv1 D0 256 contr0_rank contr0_size).symm k) = ix2 k p := by
  funext a
  apply Fin.ext
  match a with
  | ⟨0, _⟩ => exact Cert.DotRead.lhs_contr_val D0 256 contr0_rank contr0_size (cl := (0 : Fin 2)) rfl (ix2 p q) k
  | ⟨1, _⟩ =>
    exact Cert.DotRead.lhs_free_val D0 (ix2 p q) _ (1 : Fin 2) (by decide) (by decide) (0 : Fin 2) (by decide)

/-- and the right operand at (k, q). -/
theorem dot0_rhs (p q : Fin 512) (k : Fin 256) :
    D0.rhsIdx (ix2 p q) ((contrEquiv1 D0 256 contr0_rank contr0_size).symm k) = ix2 k q := by
  funext a
  apply Fin.ext
  match a with
  | ⟨0, _⟩ => exact Cert.DotRead.rhs_contr_val D0 256 contr0_rank contr0_size (cr := (0 : Fin 2)) rfl (ix2 p q) k
  | ⟨1, _⟩ =>
    exact Cert.DotRead.rhs_free_val D0 (ix2 p q) _ (1 : Fin 2) (by decide) (by decide) (1 : Fin 2) (by decide)

/-- The projected block, entry (p, q): the sum over the channels of the row block at (channel, p) times the weight at
    (channel, q). -/
theorem pay0_2_apply (v0 : Vec Ideal S1x256x512 .f32) (v3 : Vec Ideal S256x512 .f32) (p q : Fin 512) :
    k0_pay2 (F := Ideal) v0 v3 (ix2 p q) = ∑ k : Fin 256, v0 (ix3 (0 : Fin 1) k p) * v3 (ix2 k q) := by
  unfold k0_pay2
  refine (Cert.DotRead.matmul_zero_read D0 256 contr0_rank contr0_size none _ _ (ix2 p q) (fun k => ix2 k p) (fun k => ix2 k q)
    (dot0_lhs p q) (dot0_rhs p q)).trans ?_
  refine Finset.sum_congr rfl fun k _ => ?_
  rw [pay0_1_apply, shapeCast_self]
  rfl

/-- The first column half of the projected block, with a leading unit axis. -/
theorem pay0_3_apply (v0 : Vec Ideal S1x256x512 .f32) (v3 : Vec Ideal S256x512 .f32) (u : Fin 1) (p : Fin 512) (e : Fin 256) :
    k0_pay3 (F := Ideal) v0 v3 (ix3 u p e) = ∑ k : Fin 256, v0 (ix3 (0 : Fin 1) k p) * v3 (ix2 k (⟨e.val, by omega⟩ : Fin 512)) := by
  unfold k0_pay3
  refine (shapeCast_ab_1ab_apply _ _ u p e).trans ?_
  show extractStridedSlice S512x256 ![0, 0] (k0_pay2 (F := Ideal) v0 v3) slices_S512x512_o0_0_S512x256 (ix2 p e) = _
  refine (slice2_axis1_apply 0 _ _ p e (⟨e.val, by omega⟩ : Fin 512) (by show e.val = 0 + e.val; omega)).trans ?_
  exact pay0_2_apply v0 v3 p _

/-- The second column half. -/
theorem pay0_4_apply (v0 : Vec Ideal S1x256x512 .f32) (v3 : Vec Ideal S256x512 .f32) (u : Fin 1) (p : Fin 512) (e : Fin 256) :
    k0_pay4 (F := Ideal) v0 v3 (ix3 u p e) = ∑ k : Fin 256, v0 (ix3 (0 : Fin 1) k p) * v3 (ix2 k (⟨256 + e.val, by omega⟩ : Fin 512)) := by
  unfold k0_pay4
  refine (shapeCast_ab_1ab_apply _ _ u p e).trans ?_
  show extractStridedSlice S512x256 ![0, 256] (k0_pay2 (F := Ideal) v0 v3) slices_S512x512_o0_256_S512x256 (ix2 p e) = _
  refine (slice2_axis1_apply 256 _ _ p e (⟨256 + e.val, by omega⟩ : Fin 512) rfl).trans ?_
  exact pay0_2_apply v0 v3 p _

/-- The row block transposed, with a leading unit axis. -/
theorem pay0_5_apply (v0 : Vec Ideal S1x256x512 .f32) (u : Fin 1) (p : Fin 512) (cc : Fin 256) :
    k0_pay5 (F := Ideal) v0 (ix3 u p cc) = v0 (ix3 (0 : Fin 1) cc p) := by
  unfold k0_pay5
  refine (shapeCast_ab_1ab_apply _ _ u p cc).trans ?_
  refine (transpose_ix2_apply _ _ p cc).trans ?_
  exact pay0_1_apply v0 cc p

theorem hz0_3 : (![0, 0, 0] : Fin 3 → Nat) = fun _ => 0 := funext fun a => by fin_cases a <;> rfl
theorem hz0_2 : (![0, 0] : Fin 2 → Nat) = fun _ => 0 := funext fun a => by fin_cases a <;> rfl

/-- What the body leaves in each output window's buffer, at (u, p, ·). -/
theorem out0_2_apply (x0 : Vec Ideal S1x256x512 .f32) (x1 : Vec Ideal S256x512 .f32) (u : Fin 1) (p : Fin 512) (e : Fin 256) :
    out0_2 (F := Ideal) x0 x1 (ix3 u p e) = ∑ k : Fin 256, x0 (ix3 (0 : Fin 1) k p) * x1 (ix2 k (⟨e.val, by omega⟩ : Fin 512)) := by
  unfold out0_2
  rw [View.canon_unit_zero hz0_3]
  simp only [View.ld_unit_zero (S := S1x256x512) hz0_3, View.ld_unit_zero (S := S256x512) hz0_2]
  exact pay0_3_apply x0 x1 u p e

theorem out0_3_apply (x0 : Vec Ideal S1x256x512 .f32) (x1 : Vec Ideal S256x512 .f32) (u : Fin 1) (p : Fin 512) (e : Fin 256) :
    out0_3 (F := Ideal) x0 x1 (ix3 u p e) = ∑ k : Fin 256, x0 (ix3 (0 : Fin 1) k p) * x1 (ix2 k (⟨256 + e.val, by omega⟩ : Fin 512)) := by
  unfold out0_3
  rw [View.canon_unit_zero hz0_3]
  simp only [View.ld_unit_zero (S := S1x256x512) hz0_3, View.ld_unit_zero (S := S256x512) hz0_2]
  exact pay0_4_apply x0 x1 u p e

theorem out0_4_apply (x0 : Vec Ideal S1x256x512 .f32) (u : Fin 1) (p : Fin 512) (cc : Fin 256) :
    out0_4 (F := Ideal) x0 (ix3 u p cc) = x0 (ix3 (0 : Fin 1) cc p) := by
  unfold out0_4
  rw [View.canon_unit_zero hz0_3]
  simp only [View.ld_unit_zero (S := S1x256x512) hz0_3]
  exact pay0_5_apply x0 u p cc

/-! ## The input blocks as entries of their arrays -/

/-- Entry x of the row block at point t is the entry of the array at block index times block size plus x, axis by axis. -/
theorem iblk0_0_apply (c : Dev nD) (t : Fin cfg0.N) (x : S1x256x512.Idx) (k : S8x256x4096.Idx)
    (h0 : (k 0).val = win0_0.index t 0 * 1 + (x 0).val) (h1 : (k 1).val = win0_0.index t 1 * 256 + (x 1).val)
    (h2 : (k 2).val = win0_0.index t 2 * 512 + (x 2).val) :
    (iblk0 V c 0 t : Vec Ideal S1x256x512 .f32) x = (V c (Pipeline.arrRef spec0 0) : S8x256x4096.Idx → Elt Ideal .f32) k := by
  unfold iblk0
  rw [View.read_apply]
  show V c (Pipeline.arrRef spec0 0) _ = V c (Pipeline.arrRef spec0 0) _
  congr 1
  funext a
  apply Fin.ext
  match a with
  | ⟨0, _⟩ => show win0_0.index t 0 * 1 + 1 * (x 0).val = (k 0).val; rw [h0]; omega
  | ⟨1, _⟩ => show win0_0.index t 1 * 256 + 1 * (x 1).val = (k 1).val; rw [h1]; omega
  | ⟨2, _⟩ => show win0_0.index t 2 * 512 + 1 * (x 2).val = (k 2).val; rw [h2]; omega

/-- The weight array is one whole block: its block index is zero on both axes at every point. -/
theorem idx0_w : ∀ t : Fin cfg0.N, win0_1.index t (0 : Fin 2) = 0 ∧ win0_1.index t (1 : Fin 2) = 0 :=
  (by decide +kernel : ∀ t : Fin grid0.N, _)

/-- So its block at any point is the array. -/
theorem iblk0_1_apply (c : Dev nD) (t : Fin cfg0.N) (x : S256x512.Idx) :
    (iblk0 V c 1 t : Vec Ideal S256x512 .f32) x = (V c (Pipeline.arrRef spec0 1) : S256x512.Idx → Elt Ideal .f32) x := by
  obtain ⟨e0, e1⟩ := idx0_w t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 512 + 1 * (x 1).val = (x 1).val; rw [e1]; omega

/-! ## From the blocks to the arrays -/

/-! ## Output window 2 -/

/-- The block moves with the row block: same image, its rows the row block's columns; and every (image, row block) pair
    is some point's. -/
theorem idx0_2_facts : ∀ t : Fin cfg0.N, win0_0.index t (0 : Fin 3) = win0_2.index t (0 : Fin 3)
    ∧ win0_0.index t (1 : Fin 3) = 0
    ∧ win0_0.index t (2 : Fin 3) = win0_2.index t (1 : Fin 3)
    ∧ win0_2.index t (2 : Fin 3) = 0
    ∧ win0_2.index t (0 : Fin 3) ≤ 7 ∧ win0_2.index t (1 : Fin 3) ≤ 7 :=
  (by decide +kernel : ∀ t : Fin grid0.N, _)

theorem idx0_2_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- The array the region leaves in window 2, as one function of its index (b, n, ·). -/
def proj0_2 (c : Dev nD) : S8x4096x256.Idx → Elt Ideal .bf16 := fun i =>
  Cert.Spec.q (V c (Pipeline.arrRef spec0 0)) (V c (Pipeline.arrRef spec0 1)) (i 0) (i 1) (i 2)

/-- What point t writes back is block t of that function. -/
theorem flushed0_2_eq (c : Dev nD) (t : Fin cfg0.N) :
    (dat0 V c).flushed 2 t = ((cfg0.win 2).blk t).view.read (Elt Ideal) (proj0_2 V c) := by
  show (cfg0.win 2).cut (grid0.coords t) ((dat0 V c).after 2 t) = _
  rw [after0_2]
  obtain ⟨f0, f1, f2, f3, f4, f5⟩ := idx0_2_facts t
  funext (j : S1x512x256.Idx)
  obtain ⟨u, p, e, rfl⟩ : ∃ (u : Fin 1) (p : Fin 512) (e : Fin 256), j = ix3 u p e := ⟨j 0, j 1, j 2, eq_ix3 j⟩
  have hu : u.val = 0 := by omega
  have hp : p.val < 512 := p.isLt
  have hb' : win0_2.index t (0 : Fin 3) < 8 := by omega
  have hn' : win0_2.index t (1 : Fin 3) * 512 + p.val < 4096 := by omega
  have hemb : ((cfg0.win 2).blk t).view.emb (ix3 u p e)
      = (ix3 (⟨win0_2.index t (0 : Fin 3), hb'⟩ : Fin 8) (⟨win0_2.index t (1 : Fin 3) * 512 + p.val, hn'⟩ : Fin 4096) e : S8x4096x256.Idx) := by
    funext a
    apply Fin.ext
    match a with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 256 + 1 * e.val = e.val; omega
  refine (out0_2_apply (iblk0 V c 0 t) (iblk0 V c 1 t) u p e).trans ?_
  rw [View.read_apply, hemb]
  unfold proj0_2 Cert.Spec.q
  refine Finset.sum_congr rfl fun k _ => ?_
  rw [iblk0_0_apply V c t (ix3 (0 : Fin 1) k p) (ix3 (⟨win0_2.index t (0 : Fin 3), hb'⟩ : Fin 8) k (⟨win0_2.index t (1 : Fin 3) * 512 + p.val, hn'⟩ : Fin 4096))
      (by show win0_2.index t (0 : Fin 3) = win0_0.index t (0 : Fin 3) * 1 + 0; omega)
      (by show k.val = win0_0.index t (1 : Fin 3) * 256 + k.val; omega)
      (by show win0_2.index t (1 : Fin 3) * 512 + p.val = win0_0.index t (2 : Fin 3) * 512 + p.val; omega),
    iblk0_1_apply V c t]

/-- An index of the array is in point t's block iff each coordinate is in the block's range on its axis. -/
theorem mem_blk0_2 (t : Fin cfg0.N) (i : S8x4096x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v6_0).slice (win0_2.rect t)).set ↔ _
  rw [View.set_slice_whole, Rect.mem_set_unit]
  exact Iff.rfl

/-- Every entry of the array lies in the block of the point (its image, its row's block of 512). -/
theorem covered0_2 (i : S8x4096x256.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 256 := (i 2).isLt
  obtain ⟨t, ht⟩ := idx0_2_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- The array after the region. -/
theorem arr0_2 (c : Dev nD) : (dat0 (F := Ideal) V c).arrAt 2 cfg0.N = proj0_2 V c :=
  (dat0 V c).arrAt_eq_of_cover 2 (proj0_2 V c) (fun t _ => flushed0_2_eq V c t) covered0_2

/-- Entry (b, n, e) of the array the region leaves in window 2. -/
theorem final0_2 (c : Dev nD) (b : Fin 8) (n : Fin 4096) (e : Fin 256) :
    (dat0 (F := Ideal) V c).arrAt 2 cfg0.N (ix3 b n e) = Cert.Spec.q (V c (Pipeline.arrRef spec0 0)) (V c (Pipeline.arrRef spec0 1)) b n e :=
  congrFun (arr0_2 V c) (ix3 b n e)

/-! ## Output window 3 -/

/-- The block moves with the row block: same image, its rows the row block's columns; and every (image, row block) pair
    is some point's. -/
theorem idx0_3_facts : ∀ t : Fin cfg0.N, win0_0.index t (0 : Fin 3) = win0_3.index t (0 : Fin 3)
    ∧ win0_0.index t (1 : Fin 3) = 0
    ∧ win0_0.index t (2 : Fin 3) = win0_3.index t (1 : Fin 3)
    ∧ win0_3.index t (2 : Fin 3) = 0
    ∧ win0_3.index t (0 : Fin 3) ≤ 7 ∧ win0_3.index t (1 : Fin 3) ≤ 7 :=
  (by decide +kernel : ∀ t : Fin grid0.N, _)

theorem idx0_3_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- The array the region leaves in window 3, as one function of its index (b, n, ·). -/
def proj0_3 (c : Dev nD) : S8x4096x256.Idx → Elt Ideal .bf16 := fun i =>
  Cert.Spec.k (V c (Pipeline.arrRef spec0 0)) (V c (Pipeline.arrRef spec0 1)) (i 0) (i 1) (i 2)

/-- What point t writes back is block t of that function. -/
theorem flushed0_3_eq (c : Dev nD) (t : Fin cfg0.N) :
    (dat0 V c).flushed 3 t = ((cfg0.win 3).blk t).view.read (Elt Ideal) (proj0_3 V c) := by
  show (cfg0.win 3).cut (grid0.coords t) ((dat0 V c).after 3 t) = _
  rw [after0_3]
  obtain ⟨f0, f1, f2, f3, f4, f5⟩ := idx0_3_facts t
  funext (j : S1x512x256.Idx)
  obtain ⟨u, p, e, rfl⟩ : ∃ (u : Fin 1) (p : Fin 512) (e : Fin 256), j = ix3 u p e := ⟨j 0, j 1, j 2, eq_ix3 j⟩
  have hu : u.val = 0 := by omega
  have hp : p.val < 512 := p.isLt
  have hb' : win0_3.index t (0 : Fin 3) < 8 := by omega
  have hn' : win0_3.index t (1 : Fin 3) * 512 + p.val < 4096 := by omega
  have hemb : ((cfg0.win 3).blk t).view.emb (ix3 u p e)
      = (ix3 (⟨win0_3.index t (0 : Fin 3), hb'⟩ : Fin 8) (⟨win0_3.index t (1 : Fin 3) * 512 + p.val, hn'⟩ : Fin 4096) e : S8x4096x256.Idx) := by
    funext a
    apply Fin.ext
    match a with
    | ⟨0, _⟩ => show win0_3.index t (0 : Fin 3) * 1 + 1 * u.val = win0_3.index t (0 : Fin 3); omega
    | ⟨1, _⟩ => show win0_3.index t (1 : Fin 3) * 512 + 1 * p.val = win0_3.index t (1 : Fin 3) * 512 + p.val; omega
    | ⟨2, _⟩ => show win0_3.index t (2 : Fin 3) * 256 + 1 * e.val = e.val; omega
  refine (out0_3_apply (iblk0 V c 0 t) (iblk0 V c 1 t) u p e).trans ?_
  rw [View.read_apply, hemb]
  unfold proj0_3 Cert.Spec.k
  refine Finset.sum_congr rfl fun k _ => ?_
  rw [iblk0_0_apply V c t (ix3 (0 : Fin 1) k p) (ix3 (⟨win0_3.index t (0 : Fin 3), hb'⟩ : Fin 8) k (⟨win0_3.index t (1 : Fin 3) * 512 + p.val, hn'⟩ : Fin 4096))
      (by show win0_3.index t (0 : Fin 3) = win0_0.index t (0 : Fin 3) * 1 + 0; omega)
      (by show k.val = win0_0.index t (1 : Fin 3) * 256 + k.val; omega)
      (by show win0_3.index t (1 : Fin 3) * 512 + p.val = win0_0.index t (2 : Fin 3) * 512 + p.val; omega),
    iblk0_1_apply V c t]

/-- An index of the array is in point t's block iff each coordinate is in the block's range on its axis. -/
theorem mem_blk0_3 (t : Fin cfg0.N) (i : S8x4096x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v6_1).slice (win0_3.rect t)).set ↔ _
  rw [View.set_slice_whole, Rect.mem_set_unit]
  exact Iff.rfl

/-- Every entry of the array lies in the block of the point (its image, its row's block of 512). -/
theorem covered0_3 (i : S8x4096x256.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 256 := (i 2).isLt
  obtain ⟨t, ht⟩ := idx0_3_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- The array after the region. -/
theorem arr0_3 (c : Dev nD) : (dat0 (F := Ideal) V c).arrAt 3 cfg0.N = proj0_3 V c :=
  (dat0 V c).arrAt_eq_of_cover 3 (proj0_3 V c) (fun t _ => flushed0_3_eq V c t) covered0_3

/-- Entry (b, n, e) of the array the region leaves in window 3. -/
theorem final0_3 (c : Dev nD) (b : Fin 8) (n : Fin 4096) (e : Fin 256) :
    (dat0 (F := Ideal) V c).arrAt 3 cfg0.N (ix3 b n e) = Cert.Spec.k (V c (Pipeline.arrRef spec0 0)) (V c (Pipeline.arrRef spec0 1)) b n e :=
  congrFun (arr0_3 V c) (ix3 b n e)

/-! ## Output window 4 -/

/-- The block moves with the row block: same image, its rows the row block's columns; and every (image, row block) pair
    is some point's. -/
theorem idx0_4_facts : ∀ t : Fin cfg0.N, win0_0.index t (0 : Fin 3) = win0_4.index t (0 : Fin 3)
    ∧ win0_0.index t (1 : Fin 3) = 0
    ∧ win0_0.index t (2 : Fin 3) = win0_4.index t (1 : Fin 3)
    ∧ win0_4.index t (2 : Fin 3) = 0
    ∧ win0_4.index t (0 : Fin 3) ≤ 7 ∧ win0_4.index t (1 : Fin 3) ≤ 7 :=
  (by decide +kernel : ∀ t : Fin grid0.N, _)

theorem idx0_4_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- The array the region leaves in window 4, as one function of its index (b, n, ·). -/
def proj0_4 (c : Dev nD) : S8x4096x256.Idx → Elt Ideal .bf16 := fun i =>
  Cert.Spec.v (V c (Pipeline.arrRef spec0 0)) (i 0) (i 1) (i 2)

/-- What point t writes back is block t of that function. -/
theorem flushed0_4_eq (c : Dev nD) (t : Fin cfg0.N) :
    (dat0 V c).flushed 4 t = ((cfg0.win 4).blk t).view.read (Elt Ideal) (proj0_4 V c) := by
  show (cfg0.win 4).cut (grid0.coords t) ((dat0 V c).after 4 t) = _
  rw [after0_4]
  obtain ⟨f0, f1, f2, f3, f4, f5⟩ := idx0_4_facts t
  funext (j : S1x512x256.Idx)
  obtain ⟨u, p, e, rfl⟩ : ∃ (u : Fin 1) (p : Fin 512) (e : Fin 256), j = ix3 u p e := ⟨j 0, j 1, j 2, eq_ix3 j⟩
  have hu : u.val = 0 := by omega
  have hp : p.val < 512 := p.isLt
  have hb' : win0_4.index t (0 : Fin 3) < 8 := by omega
  have hn' : win0_4.index t (1 : Fin 3) * 512 + p.val < 4096 := by omega
  have hemb : ((cfg0.win 4).blk t).view.emb (ix3 u p e)
      = (ix3 (⟨win0_4.index t (0 : Fin 3), hb'⟩ : Fin 8) (⟨win0_4.index t (1 : Fin 3) * 512 + p.val, hn'⟩ : Fin 4096) e : S8x4096x256.Idx) := by
    funext a
    apply Fin.ext
    match a with
    | ⟨0, _⟩ => show win0_4.index t (0 : Fin 3) * 1 + 1 * u.val = win0_4.index t (0 : Fin 3); omega
    | ⟨1, _⟩ => show win0_4.index t (1 : Fin 3) * 512 + 1 * p.val = win0_4.index t (1 : Fin 3) * 512 + p.val; omega
    | ⟨2, _⟩ => show win0_4.index t (2 : Fin 3) * 256 + 1 * e.val = e.val; omega
  refine (out0_4_apply (iblk0 V c 0 t) u p e).trans ?_
  rw [View.read_apply, hemb]
  show iblk0 V c 0 t (ix3 (0 : Fin 1) e p) = V c (Pipeline.arrRef spec0 0) (ix3 (⟨win0_4.index t (0 : Fin 3), hb'⟩ : Fin 8) e (⟨win0_4.index t (1 : Fin 3) * 512 + p.val, hn'⟩ : Fin 4096))
  exact iblk0_0_apply V c t (ix3 (0 : Fin 1) e p) _
    (by show win0_4.index t (0 : Fin 3) = win0_0.index t (0 : Fin 3) * 1 + 0; omega)
    (by show e.val = win0_0.index t (1 : Fin 3) * 256 + e.val; omega)
    (by show win0_4.index t (1 : Fin 3) * 512 + p.val = win0_0.index t (2 : Fin 3) * 512 + p.val; omega)

/-- An index of the array is in point t's block iff each coordinate is in the block's range on its axis. -/
theorem mem_blk0_4 (t : Fin cfg0.N) (i : S8x4096x256.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v6_2).slice (win0_4.rect t)).set ↔ _
  rw [View.set_slice_whole, Rect.mem_set_unit]
  exact Iff.rfl

/-- Every entry of the array lies in the block of the point (its image, its row's block of 512). -/
theorem covered0_4 (i : S8x4096x256.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  obtain ⟨t, ht⟩ := idx0_4_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-- The array after the region. -/
theorem arr0_4 (c : Dev nD) : (dat0 (F := Ideal) V c).arrAt 4 cfg0.N = proj0_4 V c :=
  (dat0 V c).arrAt_eq_of_cover 4 (proj0_4 V c) (fun t _ => flushed0_4_eq V c t) covered0_4

/-- Entry (b, n, c') of the array the region leaves in window 4. -/
theorem final0_4 (c : Dev nD) (b : Fin 8) (n : Fin 4096) (e : Fin 256) :
    (dat0 (F := Ideal) V c).arrAt 4 cfg0.N (ix3 b n e) = Cert.Spec.v (V c (Pipeline.arrRef spec0 0)) b n e :=
  congrFun (arr0_4 V c) (ix3 b n e)

end Cert.KernelIdeal.Hand

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.LibRowSoftmax.lean ====
/-
  A row-wise softmax of an [a, b] vector of extended reals, read at one index.

  The kernel spelling: take each row's maximum (a fold of `max` from a starting word's value), view the a maxima as an
  [a, 1] column and repeat it along the second axis, subtract, exponentiate, sum each row, repeat the totals the same way,
  and divide.  At (r, c) that is exp (S r c − M r) over the sum over c' of exp (S r c' − M r), with M r the fold of `max`
  over row r.
-/
import proofs.«142206_j867583394375_2_alg».proof.Proof.LibRowOps

noncomputable section

namespace Cert.RowSoftmax

open Idealize.ShloMosaic Idealize.ShloMosaic.ValueIdx Cert.RowOps

variable {a b : Nat}

/-- The maximum of row `r`, from the value of the starting word. -/
def rowMax (S : FVec Ideal ⟨2, ![a, b]⟩ .f32) (start : BitVec 32) (r : Fin a) : EReal :=
  (Finset.univ : Finset (Fin b)).fold max (Ideal.ofBits .f32 start) (fun c => S (ix2 r c))

variable (S : FVec Ideal ⟨2, ![a, b]⟩ .f32) (start zero : BitVec 32)
  (hr : (⟨2, ![a, b]⟩ : Shape).Reduces [1] ⟨1, ![a]⟩) (hφ : FKind.Formats .f32)
  (hm : start = FKind.maximumf.neutral .f32 hφ) (hz : zero = FKind.add.neutral .f32 hφ)
  (hc : (⟨1, ![a]⟩ : Shape).ShapeCasts ⟨2, ![a, 1]⟩) (hb : (⟨2, ![a, 1]⟩ : Shape).Broadcasts ⟨2, ![a, b]⟩)

/-- The shifted and exponentiated rows, at (r, c). -/
theorem shifted_apply (r : Fin a) (c : Fin b) :
    exp (subf S (broadcastTo ⟨2, ![a, b]⟩ (shapeCast ⟨2, ![a, 1]⟩
        (multiReduction .maximumf [1] ⟨1, ![a]⟩ S start hr hφ hm) hc) hb)) (ix2 r c)
      = Ideal.exp (S (ix2 r c) - rowMax S start r) := by
  show Ideal.exp (S (ix2 r c) - broadcastTo ⟨2, ![a, b]⟩ (shapeCast ⟨2, ![a, 1]⟩
        (multiReduction .maximumf [1] ⟨1, ![a]⟩ S start hr hφ hm) hc) hb (ix2 r c)) = _
  rw [spread_apply, column_apply, rowMax_apply]
  rfl

/-- The normalised rows, at (r, c). -/
theorem softmax_apply (r : Fin a) (c : Fin b) :
    divf (exp (subf S (broadcastTo ⟨2, ![a, b]⟩ (shapeCast ⟨2, ![a, 1]⟩
          (multiReduction .maximumf [1] ⟨1, ![a]⟩ S start hr hφ hm) hc) hb)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb) (ix2 r c)
      = Ideal.div (Ideal.exp (S (ix2 r c) - rowMax S start r))
          (∑ c' : Fin b, Ideal.exp (S (ix2 r c') - rowMax S start r)) := by
  show Ideal.div (exp (subf S (broadcastTo ⟨2, ![a, b]⟩ (shapeCast ⟨2, ![a, 1]⟩
          (multiReduction .maximumf [1] ⟨1, ![a]⟩ S start hr hφ hm) hc) hb)) (ix2 r c))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb (ix2 r c)) = _
  rw [spread_apply, column_apply, rowSum_apply, shifted_apply]
  exact congrArg (Ideal.div _) (Finset.sum_congr rfl fun c' _ => shifted_apply S start hr hφ hm hc hb r c')

end Cert.RowSoftmax

end
-- ==== Proof.IV1a.lean ====
import proofs.«142206_j867583394375_2_alg».proof.Proof.IR1
import proofs.«142206_j867583394375_2_alg».proof.Proof.Spec
import proofs.«142206_j867583394375_2_alg».proof.Proof.LibRowOps
import proofs.«142206_j867583394375_2_alg».proof.Proof.LibRowColOps
import proofs.«142206_j867583394375_2_alg».proof.Proof.LibRowSoftmax
import proofs.«142206_j867583394375_2_alg».proof.Proof.LibDotRead
import Idealize.ShloMosaic.Lib.ValueIdx
import Idealize.ShloMosaic.Lib.ValueLayout
import Idealize.ShloMosaic.Lib.Pipeline.Value
import Idealize.ShloMosaic.PureOps.Ideal.Laws

/-!
# Region 1, the attention weights: what the region leaves in its second output array

Per block of 512 query rows of one batch element the body forms the scaled scores of the block's rows against all 4096
keys, shifts each row by its maximum, exponentiates, and multiplies by the reciprocal of the row's sum. Read at an
index this is the softmax weight of the specification, written with the block's own rows; since a row's maximum and
sum only involve that row, the blocks are restrictions of one function of the whole query and key arrays, and the
array the region leaves is that function.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.RowOps Cert.RowColOps Cert.RowSoftmax

/-! ## A row-wise softmax written as the exponential times the reciprocal of the row's sum -/

section Recip

variable {a b : Nat} (S : FVec Ideal ⟨2, ![a, b]⟩ .f32) (start zero one : BitVec 32)
  (hr : (⟨2, ![a, b]⟩ : Shape).Reduces [1] ⟨1, ![a]⟩) (hφ : FKind.Formats .f32)
  (hm : start = FKind.maximumf.neutral .f32 hφ) (hz : zero = FKind.add.neutral .f32 hφ)
  (hc : (⟨1, ![a]⟩ : Shape).ShapeCasts ⟨2, ![a, 1]⟩) (hb : (⟨2, ![a, 1]⟩ : Shape).Broadcasts ⟨2, ![a, b]⟩)

/-- The shifted exponentials times the repeated column of reciprocals of their row sums, at (r, c): the exponential
    of the shifted entry times the reciprocal of the sum over the row of the shifted exponentials. -/
theorem recipSoftmax_apply (r : Fin a) (c : Fin b) :
    mulf (exp (subf S (broadcastTo ⟨2, ![a, b]⟩ (shapeCast ⟨2, ![a, 1]⟩
          (multiReduction .maximumf [1] ⟨1, ![a]⟩ S start hr hφ hm) hc) hb)))
        (broadcastTo ⟨2, ![a, b]⟩
          (divf (broadcast ⟨2, ![a, 1]⟩ (Scalar.ofBits (F := Ideal) .f32 one))
            (shapeCast ⟨2, ![a, 1]⟩
              (multiReduction .add [1] ⟨1, ![a]⟩
                (exp (subf S (broadcastTo ⟨2, ![a, b]⟩ (shapeCast ⟨2, ![a, 1]⟩
                  (multiReduction .maximumf [1] ⟨1, ![a]⟩ S start hr hφ hm) hc) hb))) zero hr hφ hz) hc)) hb) (ix2 r c)
      = Ideal.exp (S (ix2 r c) - rowMax S start r)
          * Ideal.div (Ideal.ofBits .f32 one) (∑ c' : Fin b, Ideal.exp (S (ix2 r c') - rowMax S start r)) := by
  show exp (subf S (broadcastTo ⟨2, ![a, b]⟩ (shapeCast ⟨2, ![a, 1]⟩
          (multiReduction .maximumf [1] ⟨1, ![a]⟩ S start hr hφ hm) hc) hb)) (ix2 r c)
        * broadcastTo ⟨2, ![a, b]⟩
          (divf (broadcast ⟨2, ![a, 1]⟩ (Scalar.ofBits (F := Ideal) .f32 one))
            (shapeCast ⟨2, ![a, 1]⟩
              (multiReduction .add [1] ⟨1, ![a]⟩
                (exp (subf S (broadcastTo ⟨2, ![a, b]⟩ (shapeCast ⟨2, ![a, 1]⟩
                  (multiReduction .maximumf [1] ⟨1, ![a]⟩ S start hr hφ hm) hc) hb))) zero hr hφ hz) hc)) hb (ix2 r c) = _
  rw [spread_apply, shifted_apply]
  show _ * Ideal.div (Ideal.ofBits .f32 one) (shapeCast ⟨2, ![a, 1]⟩
              (multiReduction .add [1] ⟨1, ![a]⟩
                (exp (subf S (broadcastTo ⟨2, ![a, b]⟩ (shapeCast ⟨2, ![a, 1]⟩
                  (multiReduction .maximumf [1] ⟨1, ![a]⟩ S start hr hφ hm) hc) hb))) zero hr hφ hz) hc (ix2 r (0 : Fin 1))) = _
  rw [column_apply, rowSum_apply]
  exact congrArg (fun z => _ * Ideal.div _ z)
    (Finset.sum_congr rfl fun c' _ => shifted_apply S start hr hφ hm hc hb r c')

end Recip

/-! ## The block's scaled scores -/

/-- The scaled scores of a block of 512 query rows against the 4096 keys, as the body computes them: the product of
    the rows with the keys over the 256 features, into zero, times one sixteenth. -/
def scoresB (x0 : Vec Ideal S1x512x256 .bf16) (x1 : Vec Ideal S1x4096x256 .bf16) : FVec Ideal S512x4096 .f32 :=
  mulf (matmul dot_S512x256_S4096x256_S512x4096_1_1_0_0_n_n none
      (shapeCast S512x256 x0 shapeCasts_S1x512x256_S512x256 : FVec Ideal S512x256 .bf16)
      (shapeCast S4096x256 x1 shapeCasts_S1x4096x256_S4096x256 : FVec Ideal S4096x256 .bf16)
      (constant S512x4096 .f32 0x00000000#32))
    (broadcast S512x4096 (Scalar.ofBits .f32 0x3D800000#32))

theorem scores_contr_rank : dot_S512x256_S4096x256_S512x4096_1_1_0_0_n_n.contr.rank = 1 :=
  Cert.DotRead.contr_rank_one dot_S512x256_S4096x256_S512x4096_1_1_0_0_n_n (cl := 1) rfl

theorem scores_contr_size :
    dot_S512x256_S4096x256_S512x4096_1_1_0_0_n_n.contr.size ⟨0, by rw [scores_contr_rank]; exact Nat.one_pos⟩ = 256 :=
  Cert.DotRead.contr_size_one dot_S512x256_S4096x256_S512x4096_1_1_0_0_n_n (cl := 1) rfl

/-- Entry (r, j) of the scaled scores: the sum over the features of query row r times key row j, times one sixteenth. -/
theorem scoresB_apply (x0 : Vec Ideal S1x512x256 .bf16) (x1 : Vec Ideal S1x4096x256 .bf16) (r : Fin 512) (j : Fin 4096) :
    scoresB x0 x1 (ix2 r j)
      = (∑ d : Fin 256, x0 (ix3 (0 : Fin 1) r d) * x1 (ix3 (0 : Fin 1) j d)) * Cert.Spec.lit 0x3D800000#32 := by
  unfold scoresB
  show FloatOps.matmul dot_S512x256_S4096x256_S512x4096_1_1_0_0_n_n none
      (shapeCast S512x256 x0 shapeCasts_S1x512x256_S512x256 : FVec Ideal S512x256 .bf16)
      (shapeCast S4096x256 x1 shapeCasts_S1x4096x256_S4096x256 : FVec Ideal S4096x256 .bf16)
      (constant S512x4096 .f32 0x00000000#32) (ix2 r j) * Ideal.ofBits .f32 0x3D800000#32 = _
  refine congrArg (· * Ideal.ofBits .f32 0x3D800000#32) ?_
  refine (Cert.DotRead.matmul_zero_read dot_S512x256_S4096x256_S512x4096_1_1_0_0_n_n 256 scores_contr_rank scores_contr_size none
    (shapeCast S512x256 x0 shapeCasts_S1x512x256_S512x256 : FVec Ideal S512x256 .bf16)
    (shapeCast S4096x256 x1 shapeCasts_S1x4096x256_S4096x256 : FVec Ideal S4096x256 .bf16)
    (ix2 r j) (fun k => ix2 r k) (fun k => ix2 j k) ?_ ?_).trans ?_
  · intro k; funext a; apply Fin.ext
    match a with
    | ⟨0, _⟩ =>
      exact Cert.DotRead.lhs_free_val dot_S512x256_S4096x256_S512x4096_1_1_0_0_n_n (ix2 r j) _ 0
        List.not_mem_nil (List.mem_singleton.mpr rfl) 0 rfl
    | ⟨1, _⟩ =>
      exact Cert.DotRead.lhs_contr_val dot_S512x256_S4096x256_S512x4096_1_1_0_0_n_n 256 scores_contr_rank scores_contr_size
        (cl := 1) rfl (ix2 r j) k
  · intro k; funext a; apply Fin.ext
    match a with
    | ⟨0, _⟩ =>
      exact Cert.DotRead.rhs_free_val dot_S512x256_S4096x256_S512x4096_1_1_0_0_n_n (ix2 r j) _ 0
        List.not_mem_nil (List.mem_singleton.mpr rfl) 1 rfl
    | ⟨1, _⟩ =>
      exact Cert.DotRead.rhs_contr_val dot_S512x256_S4096x256_S512x4096_1_1_0_0_n_n 256 scores_contr_rank scores_contr_size
        (cr := 1) rfl (ix2 r j) k
  · exact Finset.sum_congr rfl fun d _ => by
      rw [shapeCast_1ab_ab_apply, shapeCast_1ab_ab_apply]

/-! ## The body's payloads at an index -/

/-- The softmax weights of the block, as the body computes them from the scaled scores. -/
theorem pay1_2_eq (x0 : Vec Ideal S1x512x256 .bf16) (x1 : Vec Ideal S1x4096x256 .bf16) :
    k1_pay2 x0 x1
      = mulf (exp (subf (scoresB x0 x1) (broadcastTo S512x4096 (shapeCast S512x1
            (multiReduction .maximumf [1] S512 (scoresB x0 x1) 0xFF800000#32 reduces_S512x4096_S512 (.inl rfl) rfl)
            shapeCasts_S512_S512x1) broadcasts_S512x1_S512x4096)))
          (broadcastTo S512x4096
            (divf (broadcast S512x1 (Scalar.ofBits (F := Ideal) .f32 0x3F800000#32))
              (shapeCast S512x1
                (multiReduction .add [1] S512
                  (exp (subf (scoresB x0 x1) (broadcastTo S512x4096 (shapeCast S512x1
                    (multiReduction .maximumf [1] S512 (scoresB x0 x1) 0xFF800000#32 reduces_S512x4096_S512 (.inl rfl) rfl)
                    shapeCasts_S512_S512x1) broadcasts_S512x1_S512x4096)))
                  0x00000000#32 reduces_S512x4096_S512 (.inl rfl) rfl) shapeCasts_S512_S512x1))
            broadcasts_S512x1_S512x4096) := rfl

/-- The maximum of row r of the block's scaled scores, folded from −∞. -/
def maxB (x0 : Vec Ideal S1x512x256 .bf16) (x1 : Vec Ideal S1x4096x256 .bf16) (r : Fin 512) : EReal :=
  rowMax (scoresB x0 x1) 0xFF800000#32 r

/-- The block's shifted exponential at (r, j). -/
def pB (x0 : Vec Ideal S1x512x256 .bf16) (x1 : Vec Ideal S1x4096x256 .bf16) (r : Fin 512) (j : Fin 4096) : EReal :=
  Ideal.exp (scoresB x0 x1 (ix2 r j) - maxB x0 x1 r)

/-- The block's softmax weight at (r, j). -/
def attnB (x0 : Vec Ideal S1x512x256 .bf16) (x1 : Vec Ideal S1x4096x256 .bf16) (r : Fin 512) (j : Fin 4096) : EReal :=
  pB x0 x1 r j * Ideal.div (Cert.Spec.lit 0x3F800000#32) (∑ j' : Fin 4096, pB x0 x1 r j')

theorem pay1_2_apply (x0 : Vec Ideal S1x512x256 .bf16) (x1 : Vec Ideal S1x4096x256 .bf16) (r : Fin 512) (j : Fin 4096) :
    k1_pay2 x0 x1 (ix2 r j) = attnB x0 x1 r j := by
  rw [pay1_2_eq]
  exact recipSoftmax_apply (scoresB x0 x1) 0xFF800000#32 0x00000000#32 0x3F800000#32 reduces_S512x4096_S512 (.inl rfl) rfl rfl
    shapeCasts_S512_S512x1 broadcasts_S512x1_S512x4096 r j

/-- What the body stores into the attention window's buffer, at (u, r, j). -/
theorem pay1_3_apply (x0 : Vec Ideal S1x512x256 .bf16) (x1 : Vec Ideal S1x4096x256 .bf16) (u : Fin 1) (r : Fin 512) (j : Fin 4096) :
    k1_pay3 x0 x1 (ix3 u r j) = attnB x0 x1 r j := by
  unfold k1_pay3
  exact (shapeCast_ab_1ab_apply (k1_pay2 x0 x1) shapeCasts_S512x4096_S1x512x4096 u r j).trans (pay1_2_apply x0 x1 r j)

/-! ## From the blocks to the array -/

/-- The block's weight is the specification's weight at (b, i, j), when the block's query row r is row i of batch b of
    the query array and the block's keys are batch b of the key array: every score of the row, hence the row's maximum,
    its shifted exponentials and their sum, are the specification's. -/
theorem attnB_eq_spec (Q K : Cert.Spec.Arr3 8 4096 256) (x0 : Vec Ideal S1x512x256 .bf16) (x1 : Vec Ideal S1x4096x256 .bf16)
    (b : Fin 8) (i : Fin 4096) (r : Fin 512)
    (h0 : ∀ d : Fin 256, x0 (ix3 (0 : Fin 1) r d) = Q (ix3 b i d))
    (h1 : ∀ (j : Fin 4096) (d : Fin 256), x1 (ix3 (0 : Fin 1) j d) = K (ix3 b j d)) (j : Fin 4096) :
    attnB x0 x1 r j = Cert.Spec.attn Q K b i j := by
  have hs : ∀ j' : Fin 4096, scoresB x0 x1 (ix2 r j') = Cert.Spec.dots Q K b i j' := fun j' => by
    rw [scoresB_apply]
    unfold Cert.Spec.dots
    exact congrArg (· * Cert.Spec.lit 0x3D800000#32) (Finset.sum_congr rfl fun d _ => by rw [h0 d, h1 j' d])
  have hm : maxB x0 x1 r = Cert.Spec.rowMax Q K b i := by
    unfold maxB Cert.RowSoftmax.rowMax Cert.Spec.rowMax
    exact congrArg (Finset.fold max _ · _) (funext hs)
  have hp : ∀ j' : Fin 4096, pB x0 x1 r j' = Cert.Spec.p Q K b i j' := fun j' => by
    unfold pB Cert.Spec.p
    rw [hs j', hm]
  unfold attnB Cert.Spec.attn Cert.Spec.rowSum
  rw [hp j]
  exact congrArg (fun z => _ * Ideal.div _ z) (Finset.sum_congr rfl fun j' _ => hp j')

section Array

variable (V : (c : Dev nD) → (b : Ref sig .tc) → Buf (Elt Ideal) ((c : Thread nD τ).loc b))

theorem hz1_3 : (![0, 0, 0] : Fin 3 → Nat) = fun _ => 0 := funext fun a => by fin_cases a <;> rfl

/-- The query and key arrays as the region finds them. -/
abbrev Q1 (c : Dev nD) : Cert.Spec.Arr3 8 4096 256 := V c (Pipeline.arrRef spec1 0)
abbrev K1 (c : Dev nD) : Cert.Spec.Arr3 8 4096 256 := V c (Pipeline.arrRef spec1 1)

/-- The attention weights as one function of the whole query and key arrays. -/
def attnArr (Q K : Cert.Spec.Arr3 8 4096 256) : Cert.Spec.Arr3 8 4096 4096 := fun i => Cert.Spec.attn Q K (i 0) (i 1) (i 2)

/-- The index maps, decided over the grid: the query block and the weights' block move together along the batch and
    the row-block axes, the key block along the batch axis only, and nothing moves along a last axis. -/
theorem idx_facts1_6 : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = 0 ∧ win1_1.index t (2 : Fin 3) = 0
    ∧ win1_6.index t (2 : Fin 3) = 0 ∧ win1_6.index t (0 : Fin 3) ≤ 7 ∧ win1_6.index t (1 : Fin 3) ≤ 7 :=
  (by decide +kernel : ∀ t : Fin grid1.N, _)

/-- Every (batch, row-block) pair is some point's. -/
theorem idx_onto1_6 : ∀ (q0 : Fin 8) (q1 : Fin 8), ∃ t : Fin cfg1.N, win1_6.index t = ![q0.val, q1.val, 0] :=
  (by decide +kernel : ∀ (q0 : Fin 8) (q1 : Fin 8), ∃ t : Fin grid1.N, win1_6.index t = ![q0.val, q1.val, 0])

/-- What point t writes back is block t of the weights of the whole arrays. -/
theorem flushed1_6_eq (c : Dev nD) (t : Fin cfg1.N) :
    (dat1 V c).flushed 6 t = ((cfg1.win 6).blk t).view.read (Elt Ideal) (attnArr (Q1 V c) (K1 V c)) := by
  show (cfg1.win 6).cut (grid1.coords t) ((dat1 V c).after 6 t) = _
  rw [after1_6]
  unfold out1_6
  rw [View.canon_unit_zero hz1_3]
  simp only [View.ld_unit_zero (S := S1x512x256) hz1_3, View.ld_unit_zero (S := S1x4096x256) hz1_3]
  obtain ⟨e00, e01, e02, e10, e11, e12, e62, e60, e61⟩ := idx_facts1_6 t
  funext y
  obtain ⟨u, r, j, rfl⟩ : ∃ (u : Fin 1) (r : Fin 512) (j : Fin 4096), y = ix3 u r j := ⟨y 0, y 1, y 2, eq_ix3 y⟩
  have hu : u.val = 0 := by omega
  have hr := r.isLt
  have hj := j.isLt
  refine (pay1_3_apply (iblk1 V c 0 t) (iblk1 V c 1 t) u r j).trans ?_
  have hemb : ((cfg1.win 6).blk t).view.emb (ix3 u r j)
      = ix3 (⟨win1_6.index t (0 : Fin 3), by omega⟩ : Fin 8)
          (⟨win1_6.index t (1 : Fin 3) * 512 + r.val, by omega⟩ : Fin 4096) j := by
    funext a; apply Fin.ext
    match a with
    | ⟨0, _⟩ => show win1_6.index t (0 : Fin 3) * 1 + 1 * u.val = win1_6.index t (0 : Fin 3); omega
    | ⟨1, _⟩ => show win1_6.index t (1 : Fin 3) * 512 + 1 * r.val = win1_6.index t (1 : Fin 3) * 512 + r.val; omega
    | ⟨2, _⟩ => show win1_6.index t (2 : Fin 3) * 4096 + 1 * j.val = j.val; omega
  show attnB (iblk1 V c 0 t) (iblk1 V c 1 t) r j = attnArr (Q1 V c) (K1 V c) (((cfg1.win 6).blk t).view.emb (ix3 u r j))
  rw [hemb]
  show attnB (iblk1 V c 0 t) (iblk1 V c 1 t) r j
    = Cert.Spec.attn (Q1 V c) (K1 V c) (⟨win1_6.index t (0 : Fin 3), by omega⟩ : Fin 8)
        (⟨win1_6.index t (1 : Fin 3) * 512 + r.val, by omega⟩ : Fin 4096) j
  refine attnB_eq_spec (Q1 V c) (K1 V c) (iblk1 V c 0 t) (iblk1 V c 1 t) _ _ r (fun d => ?_) (fun j' d => ?_) j
  · have hd := d.isLt
    show V c (Pipeline.arrRef spec1 0) (((cfg1.win 0).blk t).view.emb (ix3 (0 : Fin 1) r d))
      = V c (Pipeline.arrRef spec1 0) (ix3 (⟨win1_6.index t (0 : Fin 3), by omega⟩ : Fin 8)
          (⟨win1_6.index t (1 : Fin 3) * 512 + r.val, by omega⟩ : Fin 4096) d)
    refine congrArg _ ?_
    funext a; apply Fin.ext
    match a with
    | ⟨0, _⟩ => show win1_0.index t (0 : Fin 3) * 1 + 1 * 0 = win1_6.index t (0 : Fin 3); omega
    | ⟨1, _⟩ => show win1_0.index t (1 : Fin 3) * 512 + 1 * r.val = win1_6.index t (1 : Fin 3) * 512 + r.val; omega
    | ⟨2, _⟩ => show win1_0.index t (2 : Fin 3) * 256 + 1 * d.val = d.val; omega
  · have hd := d.isLt
    have hj' := j'.isLt
    show V c (Pipeline.arrRef spec1 1) (((cfg1.win 1).blk t).view.emb (ix3 (0 : Fin 1) j' d))
      = V c (Pipeline.arrRef spec1 1) (ix3 (⟨win1_6.index t (0 : Fin 3), by omega⟩ : Fin 8) j' d)
    refine congrArg _ ?_
    funext a; apply Fin.ext
    match a with
    | ⟨0, _⟩ => show win1_1.index t (0 : Fin 3) * 1 + 1 * 0 = win1_6.index t (0 : Fin 3); omega
    | ⟨1, _⟩ => show win1_1.index t (1 : Fin 3) * 4096 + 1 * j'.val = j'.val; omega
    | ⟨2, _⟩ => show win1_1.index t (2 : Fin 3) * 256 + 1 * d.val = d.val; omega

/-- An index of the weights' array is in point t's block iff each coordinate is in the block's range on its axis. -/
theorem mem_blk1_6 (t : Fin cfg1.N) (i : S8x4096x4096.Idx) :
    i ∈ ((cfg1.win 6).blk t).view.set ↔ ∀ a : Fin 3, win1_6.index t a * S1x512x4096.size a ≤ (i a).val
      ∧ (i a).val < win1_6.index t a * S1x512x4096.size a + S1x512x4096.size a := by
  show i ∈ ((View.whole main_v7_1).slice (win1_6.rect t)).set ↔ _
  rw [View.set_slice_whole, Rect.mem_set_unit]
  exact Iff.rfl

/-- Every index of the weights' array is in the block of the point of its batch and row block. -/
theorem covered1_6 (i : S8x4096x4096.Idx) :
    ∃ t : Fin cfg1.N, (cfg1.win 6).flush t = true ∧ i ∈ ((cfg1.win 6).blk t).view.set := by
  have hi0 : (i 0).val < 8 := (i 0).isLt
  have hi1 : (i 1).val < 4096 := (i 1).isLt
  have hi2 : (i 2).val < 4096 := (i 2).isLt
  obtain ⟨t, ht⟩ := idx_onto1_6 ⟨(i 0).val, hi0⟩ ⟨(i 1).val / 512, by omega⟩
  have q0 : win1_6.index t (0 : Fin 3) = (i 0).val := congrFun ht 0
  have q1 : win1_6.index t (1 : Fin 3) = (i 1).val / 512 := congrFun ht 1
  have q2 : win1_6.index t (2 : Fin 3) = 0 := congrFun ht 2
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 4096 ≤ (i 2).val ∧ (i 2).val < win1_6.index t (2 : Fin 3) * 4096 + 4096; omega

/-- The weights' array after the region: the specification's weights of the query and key arrays the region found. -/
theorem final1_6 (c : Dev nD) (b : Fin 8) (i j : Fin 4096) :
    (dat1 (F := Ideal) V c).arrAt 6 cfg1.N (ix3 b i j) = Cert.Spec.attn (Q1 V c) (K1 V c) b i j :=
  congrFun ((dat1 (F := Ideal) V c).arrAt_eq_of_cover 6 (attnArr (Q1 V c) (K1 V c))
    (fun t _ => flushed1_6_eq V c t) (covered1_6)) (ix3 b i j)

end Array

end Cert.KernelIdeal.Hand

end
-- ==== Proof.IV1y.lean ====
import proofs.«142206_j867583394375_2_alg».proof.Proof.IV1a
import proofs.«142206_j867583394375_2_alg».proof.Proof.LibRowOps
import proofs.«142206_j867583394375_2_alg».proof.Proof.LibRowColOps

/-!
# Region 1, the projected attention output: what the region leaves in its first output array

Per block of 512 query rows of one batch element the body multiplies the block's softmax weights with the values,
sends the rows through the output projection and adds the bias row. Read at an index this is the specification's
output written with the block's own rows; the blocks are restrictions of one function of the whole query, key and
value arrays, the projection matrix and the bias row, and the array the region leaves is that function.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.RowOps Cert.RowColOps Cert.RowSoftmax

/-! ## The projected attention output of the block -/

/-- The block's weighted value rows: the softmax weights times the values over the 4096 positions, into zero. -/
def ctxB (x0 : Vec Ideal S1x512x256 .bf16) (x1 x2 : Vec Ideal S1x4096x256 .bf16) : FVec Ideal S512x256 .f32 :=
  matmul dot_S512x4096_S4096x256_S512x256_1_0_0_1_n_n none
    (truncf .bf16 (k1_pay2 x0 x1) bitsLt_bf16_f32 : FVec Ideal S512x4096 .bf16)
    (shapeCast S4096x256 x2 shapeCasts_S1x4096x256_S4096x256 : FVec Ideal S4096x256 .bf16)
    (constant S512x256 .f32 0x00000000#32)

/-- Entry (r, c) of the weighted value rows: the sum over the positions of the weight times the value. -/
theorem ctxB_apply (x0 : Vec Ideal S1x512x256 .bf16) (x1 x2 : Vec Ideal S1x4096x256 .bf16) (r : Fin 512) (c : Fin 256) :
    ctxB x0 x1 x2 (ix2 r c) = ∑ j : Fin 4096, attnB x0 x1 r j * x2 (ix3 (0 : Fin 1) j c) := by
  unfold ctxB
  refine (Cert.RowOps.matmul_zero_apply (d := dot_S512x4096_S4096x256_S512x256_1_0_0_1_n_n) ⟨rfl, rfl, rfl, rfl, rfl, rfl⟩ none
    (truncf .bf16 (k1_pay2 x0 x1) bitsLt_bf16_f32 : FVec Ideal S512x4096 .bf16)
    (shapeCast S4096x256 x2 shapeCasts_S1x4096x256_S4096x256 : FVec Ideal S4096x256 .bf16) r c).trans ?_
  exact Finset.sum_congr rfl fun j _ => by
    rw [truncf_apply, pay1_2_apply, shapeCast_1ab_ab_apply]

/-- The block's rows through the output projection, into zero. -/
def projB (x0 : Vec Ideal S1x512x256 .bf16) (x1 x2 : Vec Ideal S1x4096x256 .bf16) (x3 : Vec Ideal S256x256 .f32) :
    FVec Ideal S512x256 .f32 :=
  matmul dot_S512x256_S256x256_S512x256_1_0_0_1_n_n none
    (truncf .bf16 (ctxB x0 x1 x2) bitsLt_bf16_f32 : FVec Ideal S512x256 .bf16)
    (truncf .bf16 (shapeCast S256x256 x3 shapeCasts_S256x256_S256x256 : FVec Ideal S256x256 .f32) bitsLt_bf16_f32 :
      FVec Ideal S256x256 .bf16)
    (constant S512x256 .f32 0x00000000#32)

/-- Entry (r, o) of the projected rows. -/
theorem projB_apply (x0 : Vec Ideal S1x512x256 .bf16) (x1 x2 : Vec Ideal S1x4096x256 .bf16) (x3 : Vec Ideal S256x256 .f32)
    (r : Fin 512) (o : Fin 256) :
    projB x0 x1 x2 x3 (ix2 r o) = ∑ c : Fin 256, ctxB x0 x1 x2 (ix2 r c) * x3 (ix2 c o) := by
  unfold projB
  refine (Cert.RowOps.matmul_zero_apply (d := dot_S512x256_S256x256_S512x256_1_0_0_1_n_n) ⟨rfl, rfl, rfl, rfl, rfl, rfl⟩ none
    (truncf .bf16 (ctxB x0 x1 x2) bitsLt_bf16_f32 : FVec Ideal S512x256 .bf16)
    (truncf .bf16 (shapeCast S256x256 x3 shapeCasts_S256x256_S256x256 : FVec Ideal S256x256 .f32) bitsLt_bf16_f32 :
      FVec Ideal S256x256 .bf16) r o).trans ?_
  exact Finset.sum_congr rfl fun c _ => by
    rw [truncf_apply, truncf_apply, shapeCast_self]

/-- The value the body's part returns: the projected rows plus the bias row repeated down the block. -/
theorem pay1_4_eq (x0 : Vec Ideal S1x512x256 .bf16) (x1 x2 : Vec Ideal S1x4096x256 .bf16) (x3 : Vec Ideal S256x256 .f32)
    (x4 : Vec Ideal S1x256 .f32) :
    k1_pay4 x0 x1 x2 x3 x4
      = addf (projB x0 x1 x2 x3)
          (broadcastTo S512x256 (shapeCast S1x256 x4 shapeCasts_S1x256_S1x256 : FVec Ideal S1x256 .f32) broadcasts_S1x256_S512x256) := rfl

/-- The block's output row r at channel o. -/
def yB (x0 : Vec Ideal S1x512x256 .bf16) (x1 x2 : Vec Ideal S1x4096x256 .bf16) (x3 : Vec Ideal S256x256 .f32)
    (x4 : Vec Ideal S1x256 .f32) (r : Fin 512) (o : Fin 256) : EReal :=
  (∑ c : Fin 256, (∑ j : Fin 4096, attnB x0 x1 r j * x2 (ix3 (0 : Fin 1) j c)) * x3 (ix2 c o)) + x4 (ix2 (0 : Fin 1) o)

theorem pay1_4_apply (x0 : Vec Ideal S1x512x256 .bf16) (x1 x2 : Vec Ideal S1x4096x256 .bf16) (x3 : Vec Ideal S256x256 .f32)
    (x4 : Vec Ideal S1x256 .f32) (r : Fin 512) (o : Fin 256) :
    k1_pay4 x0 x1 x2 x3 x4 (ix2 r o) = yB x0 x1 x2 x3 x4 r o := by
  rw [pay1_4_eq]
  show projB x0 x1 x2 x3 (ix2 r o)
      + broadcastTo S512x256 (shapeCast S1x256 x4 shapeCasts_S1x256_S1x256 : FVec Ideal S1x256 .f32) broadcasts_S1x256_S512x256 (ix2 r o) = _
  rw [rowSpread_apply, shapeCast_self, projB_apply]
  unfold yB
  exact congrArg (· + x4 (ix2 (0 : Fin 1) o)) (Finset.sum_congr rfl fun c _ => by rw [ctxB_apply])

/-- What the body stores into the output window's buffer, at (u, r, o). -/
theorem pay1_1_apply (v : FVec Ideal S512x256 .f32) (u : Fin 1) (r : Fin 512) (o : Fin 256) :
    k1_pay1 v (ix3 u r o) = v (ix2 r o) := by
  unfold k1_pay1
  exact shapeCast_ab_1ab_apply v shapeCasts_S512x256_S1x512x256 u r o

/-! ## From the blocks to the array -/

/-- The block's output is the specification's output at (b, n, o), when the block's query row r is row n of batch b,
    its keys and values are batch b's, and its projection matrix and bias row are the whole arrays. -/
theorem yB_eq_spec (Q K Vv : Cert.Spec.Arr3 8 4096 256) (woutT : Cert.Spec.Arr2 256 256) (bout2 : Cert.Spec.Arr2 1 256)
    (x0 : Vec Ideal S1x512x256 .bf16) (x1 x2 : Vec Ideal S1x4096x256 .bf16) (x3 : Vec Ideal S256x256 .f32)
    (x4 : Vec Ideal S1x256 .f32) (b : Fin 8) (n : Fin 4096) (r : Fin 512)
    (h0 : ∀ d : Fin 256, x0 (ix3 (0 : Fin 1) r d) = Q (ix3 b n d))
    (h1 : ∀ (j : Fin 4096) (d : Fin 256), x1 (ix3 (0 : Fin 1) j d) = K (ix3 b j d))
    (h2 : ∀ (j : Fin 4096) (c : Fin 256), x2 (ix3 (0 : Fin 1) j c) = Vv (ix3 b j c))
    (h3 : ∀ (c o : Fin 256), x3 (ix2 c o) = woutT (ix2 c o))
    (h4 : ∀ o : Fin 256, x4 (ix2 (0 : Fin 1) o) = bout2 (ix2 (0 : Fin 1) o)) (o : Fin 256) :
    yB x0 x1 x2 x3 x4 r o = Cert.Spec.y Q K Vv woutT bout2 b n o := by
  unfold yB Cert.Spec.y Cert.Spec.ctx
  rw [h4 o]
  refine congrArg (· + bout2 (ix2 (0 : Fin 1) o)) (Finset.sum_congr rfl fun c _ => ?_)
  rw [h3 c o]
  refine congrArg (· * woutT (ix2 c o)) (Finset.sum_congr rfl fun j _ => ?_)
  rw [attnB_eq_spec Q K x0 x1 b n r h0 h1 j, h2 j c]

section ArrayY

variable (V : (c : Dev nD) → (b : Ref sig .tc) → Buf (Elt Ideal) ((c : Thread nD τ).loc b))

theorem hz1_2 : (![0, 0] : Fin 2 → Nat) = fun _ => 0 := funext fun a => by fin_cases a <;> rfl

/-- The value array, the transposed projection matrix and the bias row as the region finds them. -/
abbrev Vv1 (c : Dev nD) : Cert.Spec.Arr3 8 4096 256 := V c (Pipeline.arrRef spec1 2)
abbrev Wo1 (c : Dev nD) : Cert.Spec.Arr2 256 256 := V c (Pipeline.arrRef spec1 3)
abbrev Bo1 (c : Dev nD) : Cert.Spec.Arr2 1 256 := V c (Pipeline.arrRef spec1 4)

/-- The projected attention output as one function of the whole arrays. -/
def yArr (Q K Vv : Cert.Spec.Arr3 8 4096 256) (woutT : Cert.Spec.Arr2 256 256) (bout2 : Cert.Spec.Arr2 1 256) :
    Cert.Spec.Arr3 8 4096 256 := fun i => Cert.Spec.y Q K Vv woutT bout2 (i 0) (i 1) (i 2)

/-- The index maps, decided over the grid: the query block and the output block move together along the batch and the
    row-block axes, the key and value blocks along the batch axis only, the projection matrix and the bias row not at all. -/
theorem idx_facts1_5 : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (2 : Fin 3) = 0 ∧ win1_5.index t (0 : Fin 3) ≤ 7 ∧ win1_5.index t (1 : Fin 3) ≤ 7 :=
  (by decide +kernel : ∀ t : Fin grid1.N, _)

/-- Every (batch, row-block) pair is some point's. -/
theorem idx_onto1_5 : ∀ (q0 : Fin 8) (q1 : Fin 8), ∃ t : Fin cfg1.N, win1_5.index t = ![q0.val, q1.val, 0] :=
  (by decide +kernel : ∀ (q0 : Fin 8) (q1 : Fin 8), ∃ t : Fin grid1.N, win1_5.index t = ![q0.val, q1.val, 0])

/-- What point t writes back is block t of the output of the whole arrays. -/
theorem flushed1_5_eq (c : Dev nD) (t : Fin cfg1.N) :
    (dat1 V c).flushed 5 t
      = ((cfg1.win 5).blk t).view.read (Elt Ideal) (yArr (Q1 V c) (K1 V c) (Vv1 V c) (Wo1 V c) (Bo1 V c)) := by
  show (cfg1.win 5).cut (grid1.coords t) ((dat1 V c).after 5 t) = _
  rw [after1_5]
  unfold out1_5
  rw [View.canon_unit_zero hz1_3]
  simp only [View.ld_unit_zero (S := S1x512x256) hz1_3, View.ld_unit_zero (S := S1x4096x256) hz1_3,
    View.ld_unit_zero (S := S256x256) hz1_2, View.ld_unit_zero (S := S1x256) hz1_2]
  obtain ⟨e00, e01, e02, e10, e11, e12, e20, e21, e22, e30, e31, e40, e41, e52, e50, e51⟩ := idx_facts1_5 t
  funext y
  obtain ⟨u, r, o, rfl⟩ : ∃ (u : Fin 1) (r : Fin 512) (o : Fin 256), y = ix3 u r o := ⟨y 0, y 1, y 2, eq_ix3 y⟩
  have hu : u.val = 0 := by omega
  have hr := r.isLt
  have ho := o.isLt
  refine (pay1_1_apply (k1_pay4 (iblk1 V c 0 t) (iblk1 V c 1 t) (iblk1 V c 2 t) (iblk1 V c 3 t) (iblk1 V c 4 t)) u r o).trans ?_
  refine (pay1_4_apply (iblk1 V c 0 t) (iblk1 V c 1 t) (iblk1 V c 2 t) (iblk1 V c 3 t) (iblk1 V c 4 t) r o).trans ?_
  have hemb : ((cfg1.win 5).blk t).view.emb (ix3 u r o)
      = ix3 (⟨win1_5.index t (0 : Fin 3), by omega⟩ : Fin 8)
          (⟨win1_5.index t (1 : Fin 3) * 512 + r.val, by omega⟩ : Fin 4096) o := by
    funext a; apply Fin.ext
    match a with
    | ⟨0, _⟩ => show win1_5.index t (0 : Fin 3) * 1 + 1 * u.val = win1_5.index t (0 : Fin 3); omega
    | ⟨1, _⟩ => show win1_5.index t (1 : Fin 3) * 512 + 1 * r.val = win1_5.index t (1 : Fin 3) * 512 + r.val; omega
    | ⟨2, _⟩ => show win1_5.index t (2 : Fin 3) * 256 + 1 * o.val = o.val; omega
  show yB (iblk1 V c 0 t) (iblk1 V c 1 t) (iblk1 V c 2 t) (iblk1 V c 3 t) (iblk1 V c 4 t) r o
    = yArr (Q1 V c) (K1 V c) (Vv1 V c) (Wo1 V c) (Bo1 V c) (((cfg1.win 5).blk t).view.emb (ix3 u r o))
  rw [hemb]
  show yB (iblk1 V c 0 t) (iblk1 V c 1 t) (iblk1 V c 2 t) (iblk1 V c 3 t) (iblk1 V c 4 t) r o
    = Cert.Spec.y (Q1 V c) (K1 V c) (Vv1 V c) (Wo1 V c) (Bo1 V c) (⟨win1_5.index t (0 : Fin 3), by omega⟩ : Fin 8)
        (⟨win1_5.index t (1 : Fin 3) * 512 + r.val, by omega⟩ : Fin 4096) o
  refine yB_eq_spec (Q1 V c) (K1 V c) (Vv1 V c) (Wo1 V c) (Bo1 V c)
    (iblk1 V c 0 t) (iblk1 V c 1 t) (iblk1 V c 2 t) (iblk1 V c 3 t) (iblk1 V c 4 t) _ _ r
    (fun d => ?_) (fun j d => ?_) (fun j cc => ?_) (fun cc o' => ?_) (fun o' => ?_) o
  · have hd := d.isLt
    show V c (Pipeline.arrRef spec1 0) (((cfg1.win 0).blk t).view.emb (ix3 (0 : Fin 1) r d))
      = V c (Pipeline.arrRef spec1 0) (ix3 (⟨win1_5.index t (0 : Fin 3), by omega⟩ : Fin 8)
          (⟨win1_5.index t (1 : Fin 3) * 512 + r.val, by omega⟩ : Fin 4096) d)
    refine congrArg _ ?_
    funext a; apply Fin.ext
    match a with
    | ⟨0, _⟩ => show win1_0.index t (0 : Fin 3) * 1 + 1 * 0 = win1_5.index t (0 : Fin 3); omega
    | ⟨1, _⟩ => show win1_0.index t (1 : Fin 3) * 512 + 1 * r.val = win1_5.index t (1 : Fin 3) * 512 + r.val; omega
    | ⟨2, _⟩ => show win1_0.index t (2 : Fin 3) * 256 + 1 * d.val = d.val; omega
  · have hd := d.isLt
    have hj := j.isLt
    show V c (Pipeline.arrRef spec1 1) (((cfg1.win 1).blk t).view.emb (ix3 (0 : Fin 1) j d))
      = V c (Pipeline.arrRef spec1 1) (ix3 (⟨win1_5.index t (0 : Fin 3), by omega⟩ : Fin 8) j d)
    refine congrArg _ ?_
    funext a; apply Fin.ext
    match a with
    | ⟨0, _⟩ => show win1_1.index t (0 : Fin 3) * 1 + 1 * 0 = win1_5.index t (0 : Fin 3); omega
    | ⟨1, _⟩ => show win1_1.index t (1 : Fin 3) * 4096 + 1 * j.val = j.val; omega
    | ⟨2, _⟩ => show win1_1.index t (2 : Fin 3) * 256 + 1 * d.val = d.val; omega
  · have hc := cc.isLt
    have hj := j.isLt
    show V c (Pipeline.arrRef spec1 2) (((cfg1.win 2).blk t).view.emb (ix3 (0 : Fin 1) j cc))
      = V c (Pipeline.arrRef spec1 2) (ix3 (⟨win1_5.index t (0 : Fin 3), by omega⟩ : Fin 8) j cc)
    refine congrArg _ ?_
    funext a; apply Fin.ext
    match a with
    | ⟨0, _⟩ => show win1_2.index t (0 : Fin 3) * 1 + 1 * 0 = win1_5.index t (0 : Fin 3); omega
    | ⟨1, _⟩ => show win1_2.index t (1 : Fin 3) * 4096 + 1 * j.val = j.val; omega
    | ⟨2, _⟩ => show win1_2.index t (2 : Fin 3) * 256 + 1 * cc.val = cc.val; omega
  · have hc := cc.isLt
    have ho' := o'.isLt
    show V c (Pipeline.arrRef spec1 3) (((cfg1.win 3).blk t).view.emb (ix2 cc o')) = V c (Pipeline.arrRef spec1 3) (ix2 cc o')
    refine congrArg _ ?_
    funext a; apply Fin.ext
    match a with
    | ⟨0, _⟩ => show win1_3.index t (0 : Fin 2) * 256 + 1 * cc.val = cc.val; omega
    | ⟨1, _⟩ => show win1_3.index t (1 : Fin 2) * 256 + 1 * o'.val = o'.val; omega
  · have ho' := o'.isLt
    show V c (Pipeline.arrRef spec1 4) (((cfg1.win 4).blk t).view.emb (ix2 (0 : Fin 1) o')) = V c (Pipeline.arrRef spec1 4) (ix2 (0 : Fin 1) o')
    refine congrArg _ ?_
    funext a; apply Fin.ext
    match a with
    | ⟨0, _⟩ => show win1_4.index t (0 : Fin 2) * 1 + 1 * 0 = 0; omega
    | ⟨1, _⟩ => show win1_4.index t (1 : Fin 2) * 256 + 1 * o'.val = o'.val; omega

/-- An index of the output array is in point t's block iff each coordinate is in the block's range on its axis. -/
theorem mem_blk1_5 (t : Fin cfg1.N) (i : S8x4096x256.Idx) :
    i ∈ ((cfg1.win 5).blk t).view.set ↔ ∀ a : Fin 3, win1_5.index t a * S1x512x256.size a ≤ (i a).val
      ∧ (i a).val < win1_5.index t a * S1x512x256.size a + S1x512x256.size a := by
  show i ∈ ((View.whole main_v7_0).slice (win1_5.rect t)).set ↔ _
  rw [View.set_slice_whole, Rect.mem_set_unit]
  exact Iff.rfl

/-- Every index of the output array is in the block of the point of its batch and row block. -/
theorem covered1_5 (i : S8x4096x256.Idx) :
    ∃ t : Fin cfg1.N, (cfg1.win 5).flush t = true ∧ i ∈ ((cfg1.win 5).blk t).view.set := by
  have hi0 : (i 0).val < 8 := (i 0).isLt
  have hi1 : (i 1).val < 4096 := (i 1).isLt
  have hi2 : (i 2).val < 256 := (i 2).isLt
  obtain ⟨t, ht⟩ := idx_onto1_5 ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 256 ≤ (i 2).val ∧ (i 2).val < win1_5.index t (2 : Fin 3) * 256 + 256; omega

/-- The output array after the region: the specification's output of the arrays the region found. -/
theorem final1_5 (c : Dev nD) (b : Fin 8) (n : Fin 4096) (o : Fin 256) :
    (dat1 (F := Ideal) V c).arrAt 5 cfg1.N (ix3 b n o)
      = Cert.Spec.y (Q1 V c) (K1 V c) (Vv1 V c) (Wo1 V c) (Bo1 V c) b n o :=
  congrFun ((dat1 (F := Ideal) V c).arrAt_eq_of_cover 5 (yArr (Q1 V c) (K1 V c) (Vv1 V c) (Wo1 V c) (Bo1 V c))
    (fun t _ => flushed1_5_eq V c t) (covered1_5)) (ix3 b n o)

end ArrayY

end Cert.KernelIdeal.Hand

end
-- ==== Proof.Lits.lean ====
/-
  The float words the two programs spell, as the extended reals they denote: the score scale 1/16, −∞ (the start of a
  row's maximum), 1, the element count 32768 of a channel, 0, and the variance's ε, of which only positivity is used.
-/
import Idealize.ShloMosaic.PureOps.Ideal

noncomputable section

namespace Cert.Lits

open Idealize.ShloMosaic

theorem zero : Ideal.ofBits .f32 0x00000000#32 = 0 := by
  simp [Ideal.ofBits, Ideal.ieee]

theorem one : Ideal.ofBits .f32 0x3F800000#32 = ((1 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

theorem count : Ideal.ofBits .f32 0x47000000#32 = ((32768 : ℝ) : EReal) := by
  simp [Ideal.ofBits, Ideal.ieee, -EReal.coe_mul]; norm_num

theorem negInf : Ideal.ofBits .f32 0xFF800000#32 = ⊥ := by
  simp [Ideal.ofBits, Ideal.ieee]

/-- The ε added to the variance is a positive real. -/
theorem eps : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

end Cert.Lits

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.IV2.lean ====
/- Region 2 of @main at the extended reals: the two arrays the statistics region leaves, entry by entry.
   The region keeps two running rows: after k of the eight points, the column sums, and the column sums of squares, of the
   first k batches of the input. Each point adds its block's column totals; the first point starts from zero. After the
   last point the rows are copied out, and that one write-back fills each result array. So the first result holds, in
   channel o, the sum over all batches and positions of the input, and the second the sum of its squares. -/
import proofs.«142206_j867583394375_2_alg».proof.Proof.IR2
import proofs.«142206_j867583394375_2_alg».proof.Proof.Spec
import proofs.«142206_j867583394375_2_alg».proof.Proof.Lits
import proofs.«142206_j867583394375_2_alg».proof.Proof.LibRowColOps
import proofs.«142206_j867583394375_2_alg».proof.Proof.LibRowView

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## From the last point's write-back to the arrays (any values) -/

section Arrays

variable {F : FTy → Type} [FloatOps F]
variable (V : (c : Dev nD) → (b : Ref sig .tc) → Buf (Elt F) ((c : Thread nD τ).loc b))

/-- The sums over all eight points, as contents of the result arrays: each array is its window's one block. -/
abbrev result2_1 (c : Dev nD) : Buf (Elt F) ((c : Thread nD τ).loc main_v8_0) := acc2S V c 8
abbrev result2_2 (c : Dev nD) : Buf (Elt F) ((c : Thread nD τ).loc main_v8_1) := acc2Q V c 8

/-- The one write-back of the first result, at the last point, writes the full sums: the block at index (0, 0), read
    through zero offsets, is the array. -/
theorem flushed2_1_eq (c : Dev nD) (t : Fin cfg2.N) (hf : (cfg2.win 1).flush t = true) :
    (dat2 V c).flushed 1 t = ((cfg2.win 1).blk t).view.read (Elt F) (result2_1 V c) := by
  have hN : cfg2.N = 8 := N_2
  have h7 : t.val = 7 := by have := (flush2_1 t).mp hf; have := t.isLt; omega
  obtain rfl : t = t2_7 := Fin.ext h7
  show (cfg2.win 1).cut (grid2.coords t2_7) ((dat2 V c).after 1 t2_7) = _
  rw [after2_1, out2_1_eq]
  have hz' : (fun a => win2_1.index t2_7 a * main_v8_0.ty.shape.size a) = fun _ => 0 := funext fun a => by fin_cases a <;> decide
  exact (Memref.read_access_unit_zero (Elt F) main_v8_0 hz' (fun a => by rw [congrFun hz' a]; simp) (result2_1 V c)).symm

theorem flushed2_2_eq (c : Dev nD) (t : Fin cfg2.N) (hf : (cfg2.win 2).flush t = true) :
    (dat2 V c).flushed 2 t = ((cfg2.win 2).blk t).view.read (Elt F) (result2_2 V c) := by
  have hN : cfg2.N = 8 := N_2
  have h7 : t.val = 7 := by have := (flush2_2 t).mp hf; have := t.isLt; omega
  obtain rfl : t = t2_7 := Fin.ext h7
  show (cfg2.win 2).cut (grid2.coords t2_7) ((dat2 V c).after 2 t2_7) = _
  rw [after2_2, out2_2_eq]
  have hz' : (fun a => win2_2.index t2_7 a * main_v8_1.ty.shape.size a) = fun _ => 0 := funext fun a => by fin_cases a <;> decide
  exact (Memref.read_access_unit_zero (Elt F) main_v8_1 hz' (fun a => by rw [congrFun hz' a]; simp) (result2_2 V c)).symm

/-- So the first result array ends holding the full column sums: the last point's block covers it. -/
theorem arr2_1 (c : Dev nD) : (dat2 V c).arrAt 1 cfg2.N = result2_1 V c :=
  (dat2 V c).arrAt_eq_of_cover 1 (result2_1 V c) (flushed2_1_eq V c) fun i =>
    ⟨t2_7, (flush2_1 t2_7).mpr rfl, by
      show i ∈ ((View.whole main_v8_0).slice (win2_1.rect t2_7)).set
      rw [View.set_slice_whole, Rect.mem_set_unit]
      intro a
      have h0 : (i 0 : Nat) < 1 := (i 0).isLt
      have h1 : (i 1 : Nat) < 256 := (i 1).isLt
      match a with
      | ⟨0, _⟩ => show win2_1.index t2_7 0 * win2_1.size 0 ≤ (i 0 : Nat) ∧ (i 0 : Nat) < win2_1.index t2_7 0 * win2_1.size 0 + win2_1.xsize (grid2.coords t2_7) 0
                  rw [show win2_1.index t2_7 0 * win2_1.size 0 = 0 from by decide +kernel, show win2_1.xsize (grid2.coords t2_7) 0 = 1 from by decide +kernel]; omega
      | ⟨1, _⟩ => show win2_1.index t2_7 1 * win2_1.size 1 ≤ (i 1 : Nat) ∧ (i 1 : Nat) < win2_1.index t2_7 1 * win2_1.size 1 + win2_1.xsize (grid2.coords t2_7) 1
                  rw [show win2_1.index t2_7 1 * win2_1.size 1 = 0 from by decide +kernel, show win2_1.xsize (grid2.coords t2_7) 1 = 256 from by decide +kernel]; omega⟩

/-- And the second the full column sums of squares. -/
theorem arr2_2 (c : Dev nD) : (dat2 V c).arrAt 2 cfg2.N = result2_2 V c :=
  (dat2 V c).arrAt_eq_of_cover 2 (result2_2 V c) (flushed2_2_eq V c) fun i =>
    ⟨t2_7, (flush2_2 t2_7).mpr rfl, by
      show i ∈ ((View.whole main_v8_1).slice (win2_2.rect t2_7)).set
      rw [View.set_slice_whole, Rect.mem_set_unit]
      intro a
      have h0 : (i 0 : Nat) < 1 := (i 0).isLt
      have h1 : (i 1 : Nat) < 256 := (i 1).isLt
      match a with
      | ⟨0, _⟩ => show win2_2.index t2_7 0 * win2_2.size 0 ≤ (i 0 : Nat) ∧ (i 0 : Nat) < win2_2.index t2_7 0 * win2_2.size 0 + win2_2.xsize (grid2.coords t2_7) 0
                  rw [show win2_2.index t2_7 0 * win2_2.size 0 = 0 from by decide +kernel, show win2_2.xsize (grid2.coords t2_7) 0 = 1 from by decide +kernel]; omega
      | ⟨1, _⟩ => show win2_2.index t2_7 1 * win2_2.size 1 ≤ (i 1 : Nat) ∧ (i 1 : Nat) < win2_2.index t2_7 1 * win2_2.size 1 + win2_2.xsize (grid2.coords t2_7) 1
                  rw [show win2_2.index t2_7 1 * win2_2.size 1 = 0 from by decide +kernel, show win2_2.xsize (grid2.coords t2_7) 1 = 256 from by decide +kernel]; omega⟩

end Arrays

/-! ## The running rows at the extended reals -/

section Values

variable (V : (c : Dev nD) → (b : Ref sig .tc) → Buf (Elt Ideal) ((c : Thread nD τ).loc b))

/-- The zero row the first point stores, at any entry. -/
theorem pay2_1_apply (u : Fin 1) (o : Fin 256) : k2_pay1 (F := Ideal) (ix2 u o) = 0 := by
  unfold k2_pay1
  refine (congrFun (shapeCast_self _ _) (ix2 u o)).trans ?_
  exact Cert.Lits.zero
theorem pay2_2_apply (u : Fin 1) (o : Fin 256) : k2_pay2 (F := Ideal) (ix2 u o) = 0 := by
  unfold k2_pay2
  refine (congrFun (shapeCast_self _ _) (ix2 u o)).trans ?_
  exact Cert.Lits.zero

/-- One point's step of the sums, at channel o: the row's entry plus the block's column total. The casts only move
    coordinates; the reduction along the rows is the finite sum over them. -/
theorem pay2_4_apply (x : Vec Ideal S1x4096x256 .f32) (s : Vec Ideal S1x256 .f32) (u : Fin 1) (o : Fin 256) :
    k2_pay4 (F := Ideal) x s (ix2 u o) = s (ix2 u o) + ∑ n : Fin 4096, x (ix3 (0 : Fin 1) n o) := by
  unfold k2_pay4 k2_pay3
  refine (congrFun (shapeCast_self _ _) (ix2 u o)).trans ?_
  refine (addf_apply _ _ _).trans ?_
  refine congrArg (fun z => s (ix2 u o) + z) ?_
  refine (Cert.RowView.row_apply _ _ u o).trans ?_
  refine (Cert.RowColOps.colSum_apply _ _ _ _ _ o).trans ?_
  exact Finset.sum_congr rfl fun n _ => Cert.RowColOps.dropLead_apply x _ n o

/-- One point's step of the sums of squares. -/
theorem pay2_5_apply (x : Vec Ideal S1x4096x256 .f32) (q : Vec Ideal S1x256 .f32) (u : Fin 1) (o : Fin 256) :
    k2_pay5 (F := Ideal) x q (ix2 u o) = q (ix2 u o) + ∑ n : Fin 4096, x (ix3 (0 : Fin 1) n o) * x (ix3 (0 : Fin 1) n o) := by
  unfold k2_pay5 k2_pay3
  refine (congrFun (shapeCast_self _ _) (ix2 u o)).trans ?_
  refine (addf_apply _ _ _).trans ?_
  refine congrArg (fun z => q (ix2 u o) + z) ?_
  refine (Cert.RowView.row_apply _ _ u o).trans ?_
  refine (Cert.RowColOps.colSum_apply _ _ _ _ _ o).trans ?_
  refine Finset.sum_congr rfl fun n _ => ?_
  refine (mulf_apply _ _ _).trans ?_
  rw [Cert.RowColOps.dropLead_apply x _ n o]

/-! ## The input blocks as entries of the array -/

/-- Point t's block of the input is batch t of the array, whole. -/
theorem idx2_0 : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)

/-- Entry x of the block at point t is the entry of the array at block index times block size plus x, axis by axis. -/
theorem iblk2_0_apply (c : Dev nD) (t : Fin cfg2.N) (x : S1x4096x256.Idx) (k : S8x4096x256.Idx)
    (h0 : (k 0).val = win2_0.index t 0 * 1 + (x 0).val) (h1 : (k 1).val = win2_0.index t 1 * 4096 + (x 1).val)
    (h2 : (k 2).val = win2_0.index t 2 * 256 + (x 2).val) :
    (iblk2 V c 0 t : Vec Ideal S1x4096x256 .f32) x = (V c (Pipeline.arrRef spec2 0) : S8x4096x256.Idx → Elt Ideal .f32) k := by
  unfold iblk2
  rw [View.read_apply]
  show V c (Pipeline.arrRef spec2 0) _ = V c (Pipeline.arrRef spec2 0) _
  congr 1
  funext a
  apply Fin.ext
  match a with
  | ⟨0, _⟩ => show win2_0.index t 0 * 1 + 1 * (x 0).val = (k 0).val; rw [h0]; omega
  | ⟨1, _⟩ => show win2_0.index t 1 * 4096 + 1 * (x 1).val = (k 1).val; rw [h1]; omega
  | ⟨2, _⟩ => show win2_0.index t 2 * 256 + 1 * (x 2).val = (k 2).val; rw [h2]; omega

/-- Entry (0, n, o) of point b's block is entry (b, n, o) of the array. -/
theorem iblk2_0_row (c : Dev nD) (b : Fin 8) (hb : b.val < cfg2.N) (n : Fin 4096) (o : Fin 256) :
    (iblk2 V c 0 ⟨b.val, hb⟩ : Vec Ideal S1x4096x256 .f32) (ix3 (0 : Fin 1) n o)
      = (V c (Pipeline.arrRef spec2 0) : S8x4096x256.Idx → Elt Ideal .f32) (ix3 b n o) := by
  obtain ⟨e0, e1, e2⟩ := idx2_0 ⟨b.val, hb⟩
  refine iblk2_0_apply V c ⟨b.val, hb⟩ _ _ ?_ ?_ ?_
  · show b.val = win2_0.index ⟨b.val, hb⟩ 0 * 1 + 0; rw [e0]; show b.val = b.val * 1 + 0; omega
  · show n.val = win2_0.index ⟨b.val, hb⟩ 1 * 4096 + n.val; rw [e1]; omega
  · show o.val = win2_0.index ⟨b.val, hb⟩ 2 * 256 + o.val; rw [e2]; omega

/-! ## The running rows are the sums over the batches done -/

/-- Batch b's column total at channel o (nothing past the eighth batch). -/
def colTot (Y : Cert.Spec.Arr3 8 4096 256) (o : Fin 256) (b : ℕ) : EReal :=
  if h : b < 8 then ∑ n : Fin 4096, Y (ix3 (⟨b, h⟩ : Fin 8) n o) else 0
/-- Batch b's column total of squares at channel o. -/
def colTotSq (Y : Cert.Spec.Arr3 8 4096 256) (o : Fin 256) (b : ℕ) : EReal :=
  if h : b < 8 then ∑ n : Fin 4096, Y (ix3 (⟨b, h⟩ : Fin 8) n o) * Y (ix3 (⟨b, h⟩ : Fin 8) n o) else 0

/-- After k points the first row holds, at channel o, the column totals of the first k batches. -/
theorem acc2S_apply (c : Dev nD) (o : Fin 256) : ∀ k : ℕ, k ≤ 8 →
    (acc2S V c k : Vec Ideal S1x256 .f32) (ix2 (0 : Fin 1) o)
      = ∑ b ∈ Finset.range k, colTot (V c (Pipeline.arrRef spec2 0) : S8x4096x256.Idx → Elt Ideal .f32) o b
  | 0, _ => by
    rw [acc2S_zero, Finset.range_zero, Finset.sum_empty]
    exact pay2_1_apply (0 : Fin 1) o
  | k + 1, hk => by
    have hN : cfg2.N = 8 := N_2
    have hk' : k < cfg2.N := by omega
    rw [acc2S_succ V c ⟨k, hk'⟩, ld2_y, Finset.sum_range_succ]
    refine (pay2_4_apply _ _ (0 : Fin 1) o).trans ?_
    rw [acc2S_apply c o k (by omega)]
    refine congrArg (fun z => _ + z) ?_
    unfold colTot
    rw [dif_pos (show k < 8 by omega)]
    exact Finset.sum_congr rfl fun n _ => iblk2_0_row V c ⟨k, by omega⟩ hk' n o

/-- After k points the second row holds, at channel o, the column totals of squares of the first k batches. -/
theorem acc2Q_apply (c : Dev nD) (o : Fin 256) : ∀ k : ℕ, k ≤ 8 →
    (acc2Q V c k : Vec Ideal S1x256 .f32) (ix2 (0 : Fin 1) o)
      = ∑ b ∈ Finset.range k, colTotSq (V c (Pipeline.arrRef spec2 0) : S8x4096x256.Idx → Elt Ideal .f32) o b
  | 0, _ => by
    rw [acc2Q_zero, Finset.range_zero, Finset.sum_empty]
    exact pay2_2_apply (0 : Fin 1) o
  | k + 1, hk => by
    have hN : cfg2.N = 8 := N_2
    have hk' : k < cfg2.N := by omega
    rw [acc2Q_succ V c ⟨k, hk'⟩, ld2_y, Finset.sum_range_succ]
    refine (pay2_5_apply _ _ (0 : Fin 1) o).trans ?_
    rw [acc2Q_apply c o k (by omega)]
    refine congrArg (fun z => _ + z) ?_
    unfold colTotSq
    rw [dif_pos (show k < 8 by omega)]
    exact Finset.sum_congr rfl fun n _ => by rw [iblk2_0_row V c ⟨k, by omega⟩ hk' n o]

/-! ## The result arrays -/

/-- The first result array, at channel o: the sum of the input over every batch and position. -/
theorem final2_1 (c : Dev nD) (o : Fin 256) :
    ((dat2 (F := Ideal) V c).arrAt 1 cfg2.N : S1x256.Idx → Elt Ideal .f32) (ix2 (0 : Fin 1) o)
      = Cert.Spec.chanSum (V c (Pipeline.arrRef spec2 0) : S8x4096x256.Idx → Elt Ideal .f32) o := by
  rw [arr2_1 V c]
  refine (acc2S_apply V c o 8 (le_refl _)).trans ?_
  unfold Cert.Spec.chanSum
  rw [← Fin.sum_univ_eq_sum_range (fun b => colTot (V c (Pipeline.arrRef spec2 0) : S8x4096x256.Idx → Elt Ideal .f32) o b) 8]
  exact Finset.sum_congr rfl fun b _ => by unfold colTot; rw [dif_pos b.isLt]

/-- The second result array, at channel o: the sum of the input's squares over every batch and position. -/
theorem final2_2 (c : Dev nD) (o : Fin 256) :
    ((dat2 (F := Ideal) V c).arrAt 2 cfg2.N : S1x256.Idx → Elt Ideal .f32) (ix2 (0 : Fin 1) o)
      = Cert.Spec.chanSq (V c (Pipeline.arrRef spec2 0) : S8x4096x256.Idx → Elt Ideal .f32) o := by
  rw [arr2_2 V c]
  refine (acc2Q_apply V c o 8 (le_refl _)).trans ?_
  unfold Cert.Spec.chanSq
  rw [← Fin.sum_univ_eq_sum_range (fun b => colTotSq (V c (Pipeline.arrRef spec2 0) : S8x4096x256.Idx → Elt Ideal .f32) o b) 8]
  exact Finset.sum_congr rfl fun b _ => by unfold colTotSq; rw [dif_pos b.isLt]

end Values

end Cert.KernelIdeal.Hand

end
-- ==== Proof.IV3.lean ====
/- Region 3 of @main at the extended reals: the array the normalisation-and-activation region leaves, entry by entry.
   First the block the body stores at a point, read at an index, as the activation of the input blocks there; then the
   blocks laid over the array: point (b, j) of the 8 by 8 grid writes rows [b, :, 512 j .. 512 j + 511], every entry of
   the array lies in exactly one such block, so the array ends holding the activation of the arrays the region was
   entered with. -/
import proofs.«142206_j867583394375_2_alg».proof.Proof.IR3
import proofs.«142206_j867583394375_2_alg».proof.Proof.Spec

import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The block the body leaves, at an index -/

/-- The stored payload at (u, o, p): the rectifier of the normalised, scaled and shifted entry (p, o) of the row block,
    with the four per-channel rows read at channel o. The casts, the row broadcasts and the transpose only move
    coordinates; everything else acts entry by entry. -/
theorem pay3_apply (v0 : Vec Ideal S1x512x256 .f32) (v2 v6 v10 v14 : Vec Ideal S1x256 .f32) (u : Fin 1) (o : Fin 256) (p : Fin 512) :
    k3_pay1 (F := Ideal) v0 v2 v6 v10 v14 (ix3 u o p) =
      Cert.Spec.leaky (((v0 (ix3 (0 : Fin 1) p o) - v2 (ix2 (0 : Fin 1) o)) * v6 (ix2 (0 : Fin 1) o)) * v10 (ix2 (0 : Fin 1) o) + v14 (ix2 (0 : Fin 1) o)) := by
  have hb : ∀ (w : Vec Ideal S1x256 .f32), broadcastTo S512x256 (shapeCast S1x256 w shapeCasts_S1x256_S1x256) broadcasts_S1x256_S512x256 (ix2 p o) = w (ix2 (0 : Fin 1) o) := fun w => by
    rw [shapeCast_self]; exact broadcastTo_1b_ab_apply _ _ p o
  have h1 : shapeCast S512x256 v0 shapeCasts_S1x512x256_S512x256 (ix2 p o) = v0 (ix3 (0 : Fin 1) p o) := shapeCast_1ab_ab_apply _ _ p o
  unfold k3_pay1
  refine (shapeCast_ab_1ab_apply _ _ u o p).trans ?_
  refine (transpose_ix2_apply _ _ o p).trans ?_
  simp only [select_apply, cmpf_apply, mulf_apply, addf_apply, subf_apply, broadcast_apply, h1, hb]
  rfl

theorem hz3_3 : (![0, 0, 0] : Fin 3 → Nat) = fun _ => 0 := funext fun a => by fin_cases a <;> rfl
theorem hz3_2 : (![0, 0] : Fin 2 → Nat) = fun _ => 0 := funext fun a => by fin_cases a <;> rfl

/-- What the body leaves in the output window's buffer, at (u, o, p). -/
theorem out3_5_apply (x0 : Vec Ideal S1x512x256 .f32) (x1 x2 x3 x4 : Vec Ideal S1x256 .f32) (u : Fin 1) (o : Fin 256) (p : Fin 512) :
    out3_5 (F := Ideal) x0 x1 x2 x3 x4 (ix3 u o p) =
      Cert.Spec.leaky (((x0 (ix3 (0 : Fin 1) p o) - x1 (ix2 (0 : Fin 1) o)) * x2 (ix2 (0 : Fin 1) o)) * x3 (ix2 (0 : Fin 1) o) + x4 (ix2 (0 : Fin 1) o)) := by
  unfold out3_5
  rw [View.canon_unit_zero hz3_3]
  simp only [View.ld_unit_zero (S := S1x512x256) hz3_3, View.ld_unit_zero (S := S1x256) hz3_2]
  exact pay3_apply x0 x1 x2 x3 x4 u o p

/-! ## The input blocks as entries of their arrays -/

/-- Entry x of the row block at point t is the entry of the array at block index times block size plus x, axis by axis. -/
theorem iblk3_0_apply (c : Dev nD) (t : Fin cfg3.N) (x : S1x512x256.Idx) (k : S8x4096x256.Idx)
    (h0 : (k 0).val = win3_0.index t 0 * 1 + (x 0).val) (h1 : (k 1).val = win3_0.index t 1 * 512 + (x 1).val)
    (h2 : (k 2).val = win3_0.index t 2 * 256 + (x 2).val) :
    (iblk3 V c 0 t : Vec Ideal S1x512x256 .f32) x = (V c (Pipeline.arrRef spec3 0) : S8x4096x256.Idx → Elt Ideal .f32) k := by
  unfold iblk3
  rw [View.read_apply]
  show V c (Pipeline.arrRef spec3 0) _ = V c (Pipeline.arrRef spec3 0) _
  congr 1
  funext a
  apply Fin.ext
  match a with
  | ⟨0, _⟩ => show win3_0.index t 0 * 1 + 1 * (x 0).val = (k 0).val; rw [h0]; omega
  | ⟨1, _⟩ => show win3_0.index t 1 * 512 + 1 * (x 1).val = (k 1).val; rw [h1]; omega
  | ⟨2, _⟩ => show win3_0.index t 2 * 256 + 1 * (x 2).val = (k 2).val; rw [h2]; omega

/-- The per-channel rows are whole blocks: the block index is zero on both axes at every point. -/
theorem idx3_rows : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The row block moves with the output block: same image, and its row range is the output's column range. -/
theorem idx3_facts : ∀ t : Fin cfg3.N, win3_0.index t (0 : Fin 3) = win3_5.index t (0 : Fin 3)
    ∧ win3_0.index t (1 : Fin 3) = win3_5.index t (2 : Fin 3)
    ∧ win3_0.index t (2 : Fin 3) = 0 ∧ win3_5.index t (1 : Fin 3) = 0
    ∧ win3_5.index t (0 : Fin 3) ≤ 7 ∧ win3_5.index t (2 : Fin 3) ≤ 7 :=
  (by decide +kernel : ∀ t : Fin grid3.N, _)

/-- Every (image, column block) pair is some point's. -/
theorem idx3_onto : ∀ (q0 : Fin 8) (q2 : Fin 8), ∃ t : Fin cfg3.N, win3_5.index t = ![q0.val, 0, q2.val] :=
  (by decide +kernel : ∀ (q0 : Fin 8) (q2 : Fin 8), ∃ t : Fin grid3.N, win3_5.index t = ![q0.val, 0, q2.val])

/-- Channel o of a per-channel row's block is channel o of its array. -/
theorem iblk3_1_apply (c : Dev nD) (t : Fin cfg3.N) (o : Fin 256) :
    (iblk3 V c 1 t : Vec Ideal S1x256 .f32) (ix2 (0 : Fin 1) o) = (V c (Pipeline.arrRef spec3 1) : S1x256.Idx → Elt Ideal .f32) (ix2 (0 : Fin 1) o) := by
  have e0 : win3_1.index t (0 : Fin 2) = 0 := (idx3_rows t).1
  have e1 : win3_1.index t (1 : Fin 2) = 0 := (idx3_rows t).2.1
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; rw [e0]
  | ⟨1, _⟩ => show win3_1.index t (1 : Fin 2) * 256 + 1 * o.val = o.val; rw [e1]; omega

theorem iblk3_2_apply (c : Dev nD) (t : Fin cfg3.N) (o : Fin 256) :
    (iblk3 V c 2 t : Vec Ideal S1x256 .f32) (ix2 (0 : Fin 1) o) = (V c (Pipeline.arrRef spec3 2) : S1x256.Idx → Elt Ideal .f32) (ix2 (0 : Fin 1) o) := by
  have e0 : win3_2.index t (0 : Fin 2) = 0 := (idx3_rows t).2.2.1
  have e1 : win3_2.index t (1 : Fin 2) = 0 := (idx3_rows t).2.2.2.1
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 256 + 1 * o.val = o.val; rw [e1]; omega

theorem iblk3_3_apply (c : Dev nD) (t : Fin cfg3.N) (o : Fin 256) :
    (iblk3 V c 3 t : Vec Ideal S1x256 .f32) (ix2 (0 : Fin 1) o) = (V c (Pipeline.arrRef spec3 3) : S1x256.Idx → Elt Ideal .f32) (ix2 (0 : Fin 1) o) := by
  have e0 : win3_3.index t (0 : Fin 2) = 0 := (idx3_rows t).2.2.2.2.1
  have e1 : win3_3.index t (1 : Fin 2) = 0 := (idx3_rows t).2.2.2.2.2.1
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 256 + 1 * o.val = o.val; rw [e1]; omega

theorem iblk3_4_apply (c : Dev nD) (t : Fin cfg3.N) (o : Fin 256) :
    (iblk3 V c 4 t : Vec Ideal S1x256 .f32) (ix2 (0 : Fin 1) o) = (V c (Pipeline.arrRef spec3 4) : S1x256.Idx → Elt Ideal .f32) (ix2 (0 : Fin 1) o) := by
  have e0 : win3_4.index t (0 : Fin 2) = 0 := (idx3_rows t).2.2.2.2.2.2.1
  have e1 : win3_4.index t (1 : Fin 2) = 0 := (idx3_rows t).2.2.2.2.2.2.2
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 256 + 1 * o.val = o.val; rw [e1]; omega

/-! ## From the blocks to the array -/

/-- The activation of the arrays the region is entered with, as one function of the output array's index (b, o, n). -/
def act3 (c : Dev nD) : S8x256x4096.Idx → Elt Ideal .f32 := fun i =>
  Cert.Spec.act (V c (Pipeline.arrRef spec3 0)) (V c (Pipeline.arrRef spec3 1)) (V c (Pipeline.arrRef spec3 2))
    (V c (Pipeline.arrRef spec3 3)) (V c (Pipeline.arrRef spec3 4)) (i 0) (i 1) (i 2)

/-- What point t writes back is block t of the activation. -/
theorem flushed3_5_eq (c : Dev nD) (t : Fin cfg3.N) :
    (dat3 V c).flushed 5 t = ((cfg3.win 5).blk t).view.read (Elt Ideal) (act3 V c) := by
  show (cfg3.win 5).cut (grid3.coords t) ((dat3 V c).after 5 t) = _
  rw [after3_5]
  obtain ⟨f0, f1, f2, f3, f4, f5⟩ := idx3_facts t
  funext (j : S1x256x512.Idx)
  obtain ⟨u, o, p, rfl⟩ : ∃ (u : Fin 1) (o : Fin 256) (p : Fin 512), j = ix3 u o p := ⟨j 0, j 1, j 2, eq_ix3 j⟩
  have hu : u.val = 0 := by omega
  have hp : p.val < 512 := p.isLt
  have hb' : win3_5.index t (0 : Fin 3) < 8 := by omega
  have hn' : win3_5.index t (2 : Fin 3) * 512 + p.val < 4096 := by omega
  have hemb : ((cfg3.win 5).blk t).view.emb (ix3 u o p)
      = (ix3 (⟨win3_5.index t (0 : Fin 3), hb'⟩ : Fin 8) o (⟨win3_5.index t (2 : Fin 3) * 512 + p.val, hn'⟩ : Fin 4096) : S8x256x4096.Idx) := by
    funext a
    apply Fin.ext
    match a with
    | ⟨0, _⟩ => show win3_5.index t (0 : Fin 3) * 1 + 1 * u.val = win3_5.index t (0 : Fin 3); omega
    | ⟨1, _⟩ => show win3_5.index t (1 : Fin 3) * 256 + 1 * o.val = o.val; omega
    | ⟨2, _⟩ => show win3_5.index t (2 : Fin 3) * 512 + 1 * p.val = win3_5.index t (2 : Fin 3) * 512 + p.val; omega
  refine (out3_5_apply (iblk3 V c 0 t) (iblk3 V c 1 t) (iblk3 V c 2 t) (iblk3 V c 3 t) (iblk3 V c 4 t) u o p).trans ?_
  rw [View.read_apply, hemb]
  refine congrArg Cert.Spec.leaky ?_
  rw [iblk3_0_apply V c t (ix3 (0 : Fin 1) p o) (ix3 (⟨win3_5.index t (0 : Fin 3), hb'⟩ : Fin 8) (⟨win3_5.index t (2 : Fin 3) * 512 + p.val, hn'⟩ : Fin 4096) o)
      (by show win3_5.index t (0 : Fin 3) = win3_0.index t (0 : Fin 3) * 1 + 0; omega)
      (by show win3_5.index t (2 : Fin 3) * 512 + p.val = win3_0.index t (1 : Fin 3) * 512 + p.val; omega)
      (by show o.val = win3_0.index t (2 : Fin 3) * 256 + o.val; omega),
    iblk3_1_apply V c t o, iblk3_2_apply V c t o, iblk3_3_apply V c t o, iblk3_4_apply V c t o]
  rfl

/-- An index of the array is in point t's block iff each coordinate is in the block's range on its axis. -/
theorem mem_blk3_5 (t : Fin cfg3.N) (i : S8x256x4096.Idx) :
    i ∈ ((cfg3.win 5).blk t).view.set ↔ ∀ a : Fin 3, win3_5.index t a * S1x256x512.size a ≤ (i a).val ∧ (i a).val < win3_5.index t a * S1x256x512.size a + S1x256x512.size a := by
  show i ∈ ((View.whole main_v18).slice (win3_5.rect t)).set ↔ _
  rw [View.set_slice_whole, Rect.mem_set_unit]
  exact Iff.rfl

/-- Every entry of the array lies in the block of the point (its image, its column's block of 512). -/
theorem covered3_5 (i : S8x256x4096.Idx) : ∃ t : Fin cfg3.N, (cfg3.win 5).flush t = true ∧ i ∈ ((cfg3.win 5).blk t).view.set := by
  have hi0 : (i 0).val < 8 := (i 0).isLt
  have hi1 : (i 1).val < 256 := (i 1).isLt
  have hi2 : (i 2).val < 4096 := (i 2).isLt
  obtain ⟨t, ht⟩ := idx3_onto ⟨(i 0).val, hi0⟩ ⟨(i 2).val / 512, by omega⟩
  have q0 : win3_5.index t (0 : Fin 3) = (i 0).val := congrFun ht 0
  have q1 : win3_5.index t (1 : Fin 3) = 0 := congrFun ht 1
  have q2 : win3_5.index t (2 : Fin 3) = (i 2).val / 512 := congrFun ht 2
  refine ⟨t, flush3_5 t, ?_⟩
  rw [mem_blk3_5]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 512 ≤ (i 2).val ∧ (i 2).val < win3_5.index t (2 : Fin 3) * 512 + 512; omega

/-- The array after the region: the activation, everywhere. -/
theorem arr3_5 (c : Dev nD) : (dat3 (F := Ideal) V c).arrAt 5 cfg3.N = act3 V c :=
  (dat3 V c).arrAt_eq_of_cover 5 (act3 V c) (fun t _ => flushed3_5_eq V c t) covered3_5

/-- Entry (b, o, n) of the array the region leaves. -/
theorem final3_5 (c : Dev nD) (b : Fin 8) (o : Fin 256) (n : Fin 4096) :
    (dat3 (F := Ideal) V c).arrAt 5 cfg3.N (ix3 b o n)
      = Cert.Spec.act (V c (Pipeline.arrRef spec3 0)) (V c (Pipeline.arrRef spec3 1)) (V c (Pipeline.arrRef spec3 2))
          (V c (Pipeline.arrRef spec3 3)) (V c (Pipeline.arrRef spec3 4)) b o n :=
  congrFun (arr3_5 V c) (ix3 b o n)

end Cert.KernelIdeal.Hand

end
-- ==== Proof.LibVariance.lean ====
/-
  The population variance of finitely many reals, two ways.

  For reals h_i over a finite index set of n elements with mean μ = (Σ h_i) / n, the mean of the squared deviations
  (Σ (h_i − μ)²) / n equals the mean of the squares minus the square of the mean, (Σ h_i²) / n − μ²; being a mean of
  squares it is nonnegative, so taking its maximum with zero changes nothing.  On the extended reals the identity
  needs every h_i finite: with an infinite entry the two sides differ.  The lemmas below state it for reals and carry
  it to the extended reals, where a quotient by a nonzero real is the product with its reciprocal.
-/
import Idealize.ShloMosaic.PureOps.Ideal

noncomputable section

namespace Cert.Variance

open Idealize.ShloMosaic

variable {ι : Type*}

/-- The mean of the squared deviations is the mean of the squares minus the square of the mean. -/
theorem var_real (s : Finset ι) (h : ι → ℝ) (n : ℝ) (hn : n ≠ 0) (hc : (s.card : ℝ) = n) :
    (∑ i ∈ s, (h i - (∑ j ∈ s, h j) / n) * (h i - (∑ j ∈ s, h j) / n)) / n
      = (∑ i ∈ s, h i * h i) / n - ((∑ j ∈ s, h j) / n) * ((∑ j ∈ s, h j) / n) := by
  have key : ∑ i ∈ s, (h i - (∑ j ∈ s, h j) / n) * (h i - (∑ j ∈ s, h j) / n)
      = (∑ i ∈ s, h i * h i) - 2 * ((∑ j ∈ s, h j) / n) * (∑ j ∈ s, h j)
        + (s.card : ℝ) * (((∑ j ∈ s, h j) / n) * ((∑ j ∈ s, h j) / n)) := by
    have : ∀ i, (h i - (∑ j ∈ s, h j) / n) * (h i - (∑ j ∈ s, h j) / n)
        = h i * h i - 2 * ((∑ j ∈ s, h j) / n) * h i + ((∑ j ∈ s, h j) / n) * ((∑ j ∈ s, h j) / n) := fun i => by ring
    simp only [this, Finset.sum_add_distrib, Finset.sum_sub_distrib, ← Finset.mul_sum, Finset.sum_const, nsmul_eq_mul]
    ring
  rw [key, hc]
  field_simp
  ring

/-- The mean of the squared deviations is nonnegative. -/
theorem var_real_nonneg (s : Finset ι) (h : ι → ℝ) (n : ℝ) (hn : 0 < n) (μ : ℝ) :
    0 ≤ (∑ i ∈ s, (h i - μ) * (h i - μ)) / n :=
  div_nonneg (Finset.sum_nonneg fun i _ => mul_self_nonneg _) hn.le

/-- Hence the mean of the squares minus the square of the mean is its own maximum with zero. -/
theorem max_zero_var_real (s : Finset ι) (h : ι → ℝ) (n : ℝ) (hn : 0 < n) (hc : (s.card : ℝ) = n) :
    max ((∑ i ∈ s, h i * h i) / n - ((∑ j ∈ s, h j) / n) * ((∑ j ∈ s, h j) / n)) 0
      = (∑ i ∈ s, (h i - (∑ j ∈ s, h j) / n) * (h i - (∑ j ∈ s, h j) / n)) / n := by
  rw [← var_real s h n hn.ne' hc]
  exact max_eq_left (var_real_nonneg s h n hn _)

/-- A finite sum of reals, read in the extended reals, is the sum of the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real, computed in the extended reals, is the real quotient. -/
theorem div_coe_coe (x y : ℝ) (hy : y ≠ 0) : Ideal.div (x : EReal) (y : EReal) = ((x / y : ℝ) : EReal) := by
  rw [Ideal.div_coe hy, ← EReal.coe_mul]
  congr 1
  field_simp

end Cert.Variance

end
-- ==== Proof.AlgReal.lean ====
/-
  Finite inputs keep the attention chain inside the reals. An extended real is "real" when it is the image of a real
  number; sums, products, differences, exponentials and a maximum over a nonempty finite family of reals are real, so from
  real x, W, Wout and bout every stage up to y is real. A row's sum of exponentials is moreover a POSITIVE real (each
  term is positive), hence nonzero: that is what makes the exponential times the reciprocal of the sum equal to the
  quotient by the sum.
-/
import proofs.«142206_j867583394375_2_alg».proof.Proof.Spec
import proofs.«142206_j867583394375_2_alg».proof.Proof.Lits
import proofs.«142206_j867583394375_2_alg».proof.Proof.LibVariance

noncomputable section

namespace Cert.Alg

open Idealize.ShloMosaic Idealize.ShloMosaic.ValueIdx Cert.Spec

/-- An extended real that is a real number. -/
def IsReal (z : EReal) : Prop := ∃ r : ℝ, z = (r : EReal)

theorem IsReal.coe (r : ℝ) : IsReal (r : EReal) := ⟨r, rfl⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The maximum, folded from −∞, of a nonempty finite family of reals is real. -/
theorem isReal_fold_max {n : ℕ} (hn : 0 < n) (f : Fin n → EReal) (h : ∀ j, IsReal (f j)) :
    IsReal ((Finset.univ : Finset (Fin n)).fold max (⊥ : EReal) f) := by
  choose g hg using h
  have hne : (Finset.univ : Finset (Fin n)).Nonempty := ⟨⟨0, hn⟩, Finset.mem_univ _⟩
  refine ⟨Finset.univ.sup' hne g, ?_⟩
  have hfold : (Finset.univ : Finset (Fin n)).fold max (⊥ : EReal) f = Finset.univ.sup f := rfl
  rw [hfold]
  apply le_antisymm
  · refine Finset.sup_le fun j _ => ?_
    rw [hg j]; exact EReal.coe_le_coe_iff.2 (Finset.le_sup' g (Finset.mem_univ j))
  · obtain ⟨j, _, hj⟩ := Finset.exists_mem_eq_sup' hne g
    rw [hj, ← hg j]; exact Finset.le_sup (f := f) (Finset.mem_univ j)

section Chain

variable (xcn : Arr3 8 256 4096) (wT : Arr2 256 512) (woutT : Arr2 256 256) (bout2 : Arr2 1 256)
variable (hx : ∀ i, IsReal (xcn i)) (hw : ∀ i, IsReal (wT i)) (hwo : ∀ i, IsReal (woutT i)) (hb : ∀ i, IsReal (bout2 i))

include hx hw in
theorem q_real (b : Fin 8) (n : Fin 4096) (e : Fin 256) : IsReal (q xcn wT b n e) :=
  IsReal.sum _ _ fun c _ => (hx _).mul (hw _)

include hx hw in
theorem k_real (b : Fin 8) (n : Fin 4096) (e : Fin 256) : IsReal (k xcn wT b n e) :=
  IsReal.sum _ _ fun c _ => (hx _).mul (hw _)

end Chain

section Attention

variable (Q K V : Arr3 8 4096 256) (woutT : Arr2 256 256) (bout2 : Arr2 1 256)
variable (hQ : ∀ i, IsReal (Q i)) (hK : ∀ i, IsReal (K i)) (hV : ∀ i, IsReal (V i))
variable (hwo : ∀ i, IsReal (woutT i)) (hb : ∀ i, IsReal (bout2 i))

include hQ hK in
theorem dots_real (b : Fin 8) (i j : Fin 4096) : IsReal (dots Q K b i j) := by
  unfold dots
  exact (IsReal.sum _ _ fun d _ => (hQ _).mul (hK _)).mul ⟨1 / 16, Cert.Lits.sixteenth⟩

include hQ hK in
theorem rowMax_real (b : Fin 8) (i : Fin 4096) : IsReal (rowMax Q K b i) := by
  unfold rowMax lit
  rw [Cert.Lits.negInf]
  exact isReal_fold_max (by decide) _ fun j => dots_real Q K hQ hK b i j

include hQ hK in
/-- Each exponential is a positive real. -/
theorem p_pos (b : Fin 8) (i j : Fin 4096) : ∃ r : ℝ, 0 < r ∧ p Q K b i j = (r : EReal) := by
  obtain ⟨d, hd⟩ := dots_real Q K hQ hK b i j
  obtain ⟨m, hm⟩ := rowMax_real Q K hQ hK b i
  refine ⟨Real.exp (d - m), Real.exp_pos _, ?_⟩
  unfold p
  rw [hd, hm, ← EReal.coe_sub]
  rfl

include hQ hK in
/-- A row's sum of exponentials is a positive real. -/
theorem rowSum_pos (b : Fin 8) (i : Fin 4096) : ∃ r : ℝ, 0 < r ∧ rowSum Q K b i = (r : EReal) := by
  choose g hg0 hg using fun j => p_pos Q K hQ hK b i j
  refine ⟨∑ j : Fin 4096, g j, Finset.sum_pos (fun j _ => hg0 j) ⟨⟨0, by decide⟩, Finset.mem_univ _⟩, ?_⟩
  unfold rowSum
  rw [Cert.Variance.coe_sum]
  exact Finset.sum_congr rfl fun j _ => hg j

include hQ hK in
/-- The exponential times the reciprocal of the row's sum is the quotient by the row's sum. -/
theorem attn_eq_div (b : Fin 8) (i j : Fin 4096) :
    attn Q K b i j = Ideal.div (p Q K b i j) (rowSum Q K b i) := by
  obtain ⟨l, hl0, hl⟩ := rowSum_pos Q K hQ hK b i
  unfold attn lit
  rw [hl, Ideal.div_coe hl0.ne', Ideal.div_coe hl0.ne', Cert.Lits.one, EReal.coe_one, one_mul]

include hQ hK in
theorem attn_real (b : Fin 8) (i j : Fin 4096) : IsReal (attn Q K b i j) := by
  obtain ⟨l, hl0, hl⟩ := rowSum_pos Q K hQ hK b i
  obtain ⟨r, _, hr⟩ := p_pos Q K hQ hK b i j
  rw [attn_eq_div Q K hQ hK, hl, hr, Cert.Variance.div_coe_coe _ _ hl0.ne']
  exact ⟨_, rfl⟩

include hQ hK hV in
theorem ctx_real (b : Fin 8) (i : Fin 4096) (c : Fin 256) : IsReal (ctx Q K V b i c) :=
  IsReal.sum _ _ fun j _ => (attn_real Q K hQ hK b i j).mul (hV _)

include hQ hK hV hwo hb in
theorem y_real (b : Fin 8) (n : Fin 4096) (o : Fin 256) : IsReal (y Q K V woutT bout2 b n o) :=
  (IsReal.sum _ _ fun c _ => (ctx_real Q K V hQ hK hV b n c).mul (hwo _)).add (hb _)

end Attention

end Cert.Alg

end
-- ==== Proof.AlgVar.lean ====
/-
  The two spellings of a channel's batch statistics agree on real data. The kernel accumulates Σ y and Σ y² over the
  8·4096 entries of a channel and takes var = (Σ y²)/n − ((Σ y)/n)²; the reference takes the mean first and then
  var = (Σ (y − mean)²)/n. On reals these are one number (expand the square); on the extended reals the identity
  needs every y to be real, which the attention chain guarantees. A sum over the 64·64 image positions (h, w) is the
  sum over the 4096 flattened positions 64·h + w.
-/
import proofs.«142206_j867583394375_2_alg».proof.Proof.AlgReal

noncomputable section

namespace Cert.Alg

open Idealize.ShloMosaic Idealize.ShloMosaic.ValueIdx Cert.Spec

/-- Summing over rows h and columns w of a 64×64 image is summing over its 4096 row-major positions. -/
theorem sum_hw {M : Type} [AddCommMonoid M] (f : Fin 4096 → M) :
    ∑ h : Fin 64, ∑ w : Fin 64, f ⟨64 * h.val + w.val, by omega⟩ = ∑ n : Fin 4096, f n := by
  rw [← Fintype.sum_prod_type' (f := fun (h : Fin 64) (w : Fin 64) => f ⟨64 * h.val + w.val, by omega⟩)]
  refine Fintype.sum_equiv (finProdFinEquiv (m := 64) (n := 64)) _ _ fun p => ?_
  congr 1
  apply Fin.ext
  show 64 * p.1.val + p.2.val = p.2.val + 64 * p.1.val
  omega

/-- The real identity, over the two indices (batch, position) of a channel. -/
theorem var_two_ways (f : Fin 8 → Fin 4096 → ℝ) :
    (∑ b, ∑ n, f b n * f b n) / 32768 - ((∑ b, ∑ n, f b n) / 32768) * ((∑ b, ∑ n, f b n) / 32768)
      = (∑ b, ∑ n, (f b n - (∑ b, ∑ n, f b n) / 32768) * (f b n - (∑ b, ∑ n, f b n) / 32768)) / 32768 := by
  have h := Cert.Variance.var_real (Finset.univ : Finset (Fin 8 × Fin 4096)) (fun q => f q.1 q.2) 32768 (by norm_num)
    (by rw [Finset.card_univ, Fintype.card_prod, Fintype.card_fin, Fintype.card_fin]; norm_num)
  simp only [Fintype.sum_prod_type] at h
  exact h.symm

/-- The same on the extended reals, for real entries: the kernel's one-pass variance is the reference's two-pass one. -/
theorem var_bridge (g : Fin 8 → Fin 4096 → EReal) (hg : ∀ b n, IsReal (g b n)) :
    Ideal.div (∑ b, ∑ n, g b n * g b n) ((32768 : ℝ) : EReal)
        - Ideal.div (∑ b, ∑ n, g b n) ((32768 : ℝ) : EReal) * Ideal.div (∑ b, ∑ n, g b n) ((32768 : ℝ) : EReal)
      = Ideal.div (∑ b, ∑ n, (g b n - Ideal.div (∑ b, ∑ n, g b n) ((32768 : ℝ) : EReal))
          * (g b n - Ideal.div (∑ b, ∑ n, g b n) ((32768 : ℝ) : EReal))) ((32768 : ℝ) : EReal) := by
  choose f hf using hg
  have hN : (32768 : ℝ) ≠ 0 := by norm_num
  have hS : (∑ b, ∑ n, g b n) = ((∑ b, ∑ n, f b n : ℝ) : EReal) := by
    rw [Cert.Variance.coe_sum]
    refine Finset.sum_congr rfl fun b _ => ?_
    rw [Cert.Variance.coe_sum]
    exact Finset.sum_congr rfl fun n _ => hf b n
  have hQ : (∑ b, ∑ n, g b n * g b n) = ((∑ b, ∑ n, f b n * f b n : ℝ) : EReal) := by
    rw [Cert.Variance.coe_sum]
    refine Finset.sum_congr rfl fun b _ => ?_
    rw [Cert.Variance.coe_sum]
    exact Finset.sum_congr rfl fun n _ => by rw [hf b n, EReal.coe_mul]
  rw [hS, hQ, Cert.Variance.div_coe_coe _ _ hN, Cert.Variance.div_coe_coe _ _ hN]
  have hD : (∑ b, ∑ n, (g b n - (((∑ b, ∑ n, f b n) / 32768 : ℝ) : EReal)) * (g b n - (((∑ b, ∑ n, f b n) / 32768 : ℝ) : EReal)))
      = ((∑ b, ∑ n, (f b n - (∑ b, ∑ n, f b n) / 32768) * (f b n - (∑ b, ∑ n, f b n) / 32768) : ℝ) : EReal) := by
    rw [Cert.Variance.coe_sum]
    refine Finset.sum_congr rfl fun b _ => ?_
    rw [Cert.Variance.coe_sum]
    exact Finset.sum_congr rfl fun n _ => by rw [hf b n, ← EReal.coe_sub, ← EReal.coe_mul]
  rw [hD, Cert.Variance.div_coe_coe _ _ hN, ← EReal.coe_mul, ← EReal.coe_sub, var_two_ways f]

end Cert.Alg

end
-- ==== Proof.Bridge.lean ====
/-
  The kernel's computation and the reference's, as two models over the same six arrays, and why they agree.

  Both start from the channel-major rows xcn : [8, 256, 4096] (the image with its two spatial axes merged: the one
  reshape both programs apply). The kernel works with transposed weights Wᵀ, Woutᵀ and one-row copies of bout, γ, β;
  the reference with W, Wout and the vectors themselves. Entry by entry the projections, scores, row maxima and
  exponentials are the SAME sums (the transposes only rename an index). They differ in three places:
  the softmax weight is p·(1/l) against p/l — equal because l is a positive real (AlgReal); the reference's sums carry
  a leading 0 +; and the variance is one-pass against two-pass — equal because y is real (AlgVar). After that the
  normalisation, the affine map and the leaky rectifier are the same operations on equal numbers. The reference works on
  the [8, 256, 64, 64] layout, entry (b, o, h, w) of which is position 64·h + w of the kernel's [8, 256, 4096] layout.
-/
import proofs.«142206_j867583394375_2_alg».proof.Proof.AlgVar

noncomputable section

namespace Cert.Bridge

open Idealize.ShloMosaic Idealize.ShloMosaic.ValueIdx Cert.Spec Cert.Alg

/-- An array from its entries at explicit coordinates. -/
def arr2 {a b : Nat} (f : Fin a → Fin b → EReal) : Arr2 a b := fun i => f (i 0) (i 1)
def arr3 {a b c : Nat} (f : Fin a → Fin b → Fin c → EReal) : Arr3 a b c := fun i => f (i 0) (i 1) (i 2)

@[simp] theorem arr2_ix2 {a b : Nat} (f : Fin a → Fin b → EReal) (x : Fin a) (y : Fin b) : arr2 f (ix2 x y) = f x y := rfl
@[simp] theorem arr3_ix3 {a b c : Nat} (f : Fin a → Fin b → Fin c → EReal) (x : Fin a) (y : Fin b) (z : Fin c) :
    arr3 f (ix3 x y z) = f x y z := rfl

/-- Position 64·h + w of the 4096 flattened positions. -/
abbrev pos (h w : Fin 64) : Fin 4096 := ⟨64 * h.val + w.val, by omega⟩

section Models

variable (xcn : Arr3 8 256 4096)

/-! ## The kernel's model: what its regions and host lines leave, array by array -/

section Kernel
variable (wT : Arr2 256 512) (woutT : Arr2 256 256) (bout2 gamma2 beta2 : Arr2 1 256)

def kQ : Arr3 8 4096 256 := arr3 (q xcn wT)
def kK : Arr3 8 4096 256 := arr3 (k xcn wT)
def kV : Arr3 8 4096 256 := arr3 (v xcn)
def kAttn : Arr3 8 4096 4096 := arr3 (attn (kQ xcn wT) (kK xcn wT))
def kY : Arr3 8 4096 256 := arr3 (y (kQ xcn wT) (kK xcn wT) (kV xcn) woutT bout2)
def kS : Arr2 1 256 := arr2 fun _ o => chanSum (kY xcn wT woutT bout2) o
def kSq : Arr2 1 256 := arr2 fun _ o => chanSq (kY xcn wT woutT bout2) o
def kMean : Arr2 1 256 := arr2 fun _ o => mean (kS xcn wT woutT bout2) o
def kInv : Arr2 1 256 := arr2 fun _ o => invStd (kS xcn wT woutT bout2) (kSq xcn wT woutT bout2) o
/-- The activation in the kernel's channel-major layout [8, 256, 4096]. -/
def kAct : Arr3 8 256 4096 :=
  arr3 (act (kY xcn wT woutT bout2) (kMean xcn wT woutT bout2) (kInv xcn wT woutT bout2) gamma2 beta2)

end Kernel

/-! ## The reference's model -/

section Reference
variable (wqk : Arr2 512 256) (wout : Arr2 256 256) (bout gamma beta : Arr1 256)

/-- The reference contracts against the rows of W: the kernel's Wᵀ with its index renamed. -/
def wTof : Arr2 256 512 := fun i => wqk (ix2 (i 1) (i 0))

def rQ : Arr3 8 4096 256 := arr3 (q xcn (wTof wqk))
def rK : Arr3 8 4096 256 := arr3 (k xcn (wTof wqk))
/-- The softmax weight as the quotient by the row's sum, the sum folded from 0. -/
def rAttn (b : Fin 8) (i j : Fin 4096) : EReal :=
  Ideal.div (p (rQ xcn wqk) (rK xcn wqk) b i j) (lit 0x00000000#32 + rowSum (rQ xcn wqk) (rK xcn wqk) b i)
def rY (b : Fin 8) (n : Fin 4096) (o : Fin 256) : EReal :=
  (∑ c : Fin 256, (∑ j : Fin 4096, rAttn xcn wqk b n j * xcn (ix3 b c j)) * wout (ix2 o c)) + bout (ix1 o)
/-- The layer's output in the image layout. -/
def rY4 (b : Fin 8) (o : Fin 256) (h w : Fin 64) : EReal := rY xcn wqk wout bout b (pos h w) o
def rMean (o : Fin 256) : EReal :=
  Ideal.div (lit 0x00000000#32 + ∑ b : Fin 8, ∑ h : Fin 64, ∑ w : Fin 64, rY4 xcn wqk wout bout b o h w) (lit 0x47000000#32)
def rVar (o : Fin 256) : EReal :=
  Ideal.div (lit 0x00000000#32 + ∑ b : Fin 8, ∑ h : Fin 64, ∑ w : Fin 64,
    (rY4 xcn wqk wout bout b o h w - rMean xcn wqk wout bout o) * (rY4 xcn wqk wout bout b o h w - rMean xcn wqk wout bout o))
    (lit 0x47000000#32)
def rAct (b : Fin 8) (o : Fin 256) (h w : Fin 64) : EReal :=
  leaky (((rY4 xcn wqk wout bout b o h w - rMean xcn wqk wout bout o)
    * Ideal.rsqrt (rVar xcn wqk wout bout o + lit 0x3727C5AC#32)) * gamma (ix1 o) + beta (ix1 o))

end Reference

end Models

/-! ## The two models agree -/

section Agree

variable (xcn : Arr3 8 256 4096) (wT : Arr2 256 512) (woutT : Arr2 256 256) (bout2 gamma2 beta2 : Arr2 1 256)
variable (wqk : Arr2 512 256) (wout : Arr2 256 256) (bout gamma beta : Arr1 256)
variable (hwT : wT = wTof wqk) (hwoT : ∀ c o, woutT (ix2 c o) = wout (ix2 o c))
variable (hb2 : ∀ o, bout2 (ix2 0 o) = bout (ix1 o)) (hg2 : ∀ o, gamma2 (ix2 0 o) = gamma (ix1 o)) (hbe2 : ∀ o, beta2 (ix2 0 o) = beta (ix1 o))
variable (hx : ∀ i, IsReal (xcn i)) (hw : ∀ i, IsReal (wqk i)) (hwo : ∀ i, IsReal (wout i)) (hbo : ∀ i, IsReal (bout i))

include hw in
theorem wTof_real (i) : IsReal (wTof wqk i) := hw _

include hx hw in
theorem rQ_real (i) : IsReal (rQ xcn wqk i) := q_real xcn _ hx (wTof_real wqk hw) _ _ _
include hx hw in
theorem rK_real (i) : IsReal (rK xcn wqk i) := k_real xcn _ hx (wTof_real wqk hw) _ _ _

include hwT hx hw in
/-- The attention weights: the kernel's p·(1/l) is the reference's p/(0 + l). -/
theorem attn_agree (b : Fin 8) (i j : Fin 4096) : kAttn xcn wT (ix3 b i j) = rAttn xcn wqk b i j := by
  subst hwT
  show attn (rQ xcn wqk) (rK xcn wqk) b i j = _
  unfold rAttn lit
  rw [attn_eq_div _ _ (rQ_real xcn wqk hx hw) (rK_real xcn wqk hx hw), Cert.Lits.zero, zero_add]

include hwT hwoT hb2 hx hw in
/-- The layer's output: the same double sum once the attention weights agree and the transposes are renamed. -/
theorem y_agree (b : Fin 8) (n : Fin 4096) (o : Fin 256) :
    kY xcn wT woutT bout2 (ix3 b n o) = rY xcn wqk wout bout b n o := by
  show y (kQ xcn wT) (kK xcn wT) (kV xcn) woutT bout2 b n o = _
  unfold y rY ctx
  rw [hb2 o]
  congr 1
  refine Finset.sum_congr rfl fun c _ => ?_
  rw [hwoT c o]
  congr 1
  refine Finset.sum_congr rfl fun j _ => ?_
  have h := attn_agree xcn wT wqk hwT hx hw b n j
  rw [show kAttn xcn wT (ix3 b n j) = attn (kQ xcn wT) (kK xcn wT) b n j from rfl] at h
  rw [h]
  rfl

include hx hw hwo hbo in
theorem rY_real (b : Fin 8) (n : Fin 4096) (o : Fin 256) : IsReal (rY xcn wqk wout bout b n o) := by
  rw [← y_agree xcn (wTof wqk) (arr2 fun c o => wout (ix2 o c)) (arr2 fun _ o => bout (ix1 o)) wqk wout bout rfl
    (fun _ _ => rfl) (fun _ => rfl) hx hw b n o]
  show IsReal (y (kQ xcn (wTof wqk)) (kK xcn (wTof wqk)) (kV xcn) (arr2 fun c o => wout (ix2 o c))
    (arr2 fun _ o => bout (ix1 o)) b n o)
  exact y_real (kQ xcn (wTof wqk)) (kK xcn (wTof wqk)) (kV xcn) (arr2 fun c o => wout (ix2 o c))
    (arr2 fun _ o => bout (ix1 o)) (rQ_real xcn wqk hx hw) (rK_real xcn wqk hx hw) (fun i => hx _) (fun i => hwo _)
    (fun i => hbo _) b n o

/-! ### The channel statistics -/

include hwT hwoT hb2 hx hw in
theorem chanSum_eq (o : Fin 256) :
    chanSum (kY xcn wT woutT bout2) o = ∑ b : Fin 8, ∑ n : Fin 4096, rY xcn wqk wout bout b n o :=
  Finset.sum_congr rfl fun b _ => Finset.sum_congr rfl fun n _ => y_agree xcn wT woutT bout2 wqk wout bout hwT hwoT hb2 hx hw b n o

include hwT hwoT hb2 hx hw in
theorem chanSq_eq (o : Fin 256) :
    chanSq (kY xcn wT woutT bout2) o
      = ∑ b : Fin 8, ∑ n : Fin 4096, rY xcn wqk wout bout b n o * rY xcn wqk wout bout b n o :=
  Finset.sum_congr rfl fun b _ => Finset.sum_congr rfl fun n _ => by
    rw [y_agree xcn wT woutT bout2 wqk wout bout hwT hwoT hb2 hx hw b n o]

/-- The image-layout sums are the flattened-layout sums. -/
theorem rsum_eq (F : Fin 8 → Fin 4096 → EReal) :
    ∑ b : Fin 8, ∑ h : Fin 64, ∑ w : Fin 64, F b (pos h w) = ∑ b : Fin 8, ∑ n : Fin 4096, F b n :=
  Finset.sum_congr rfl fun b _ => sum_hw (fun n => F b n)

theorem rMean_eq (o : Fin 256) :
    rMean xcn wqk wout bout o
      = Ideal.div (∑ b : Fin 8, ∑ n : Fin 4096, rY xcn wqk wout bout b n o) ((32768 : ℝ) : EReal) := by
  unfold rMean rY4 lit
  rw [Cert.Lits.zero, zero_add, Cert.Lits.count, rsum_eq (fun b n => rY xcn wqk wout bout b n o)]

include hwT hwoT hb2 hx hw in
theorem mean_agree (o : Fin 256) : kMean xcn wT woutT bout2 (ix2 0 o) = rMean xcn wqk wout bout o := by
  rw [rMean_eq]
  show mean (kS xcn wT woutT bout2) o = _
  unfold mean lit
  rw [Cert.Lits.count]
  show Ideal.div (chanSum (kY xcn wT woutT bout2) o) _ = _
  rw [chanSum_eq xcn wT woutT bout2 wqk wout bout hwT hwoT hb2 hx hw o]

include hwT hwoT hb2 hx hw hwo hbo in
/-- The one-pass variance of the kernel is the two-pass variance of the reference. -/
theorem var_agree (o : Fin 256) :
    var (kS xcn wT woutT bout2) (kSq xcn wT woutT bout2) o = rVar xcn wqk wout bout o := by
  unfold rVar
  rw [rMean_eq]
  unfold rY4 lit
  rw [Cert.Lits.zero, zero_add, Cert.Lits.count,
    rsum_eq (fun b n => (rY xcn wqk wout bout b n o - Ideal.div (∑ b : Fin 8, ∑ n : Fin 4096, rY xcn wqk wout bout b n o) ((32768 : ℝ) : EReal))
      * (rY xcn wqk wout bout b n o - Ideal.div (∑ b : Fin 8, ∑ n : Fin 4096, rY xcn wqk wout bout b n o) ((32768 : ℝ) : EReal)))]
  rw [← var_bridge (fun b n => rY xcn wqk wout bout b n o) (fun b n => rY_real xcn wqk wout bout hx hw hwo hbo b n o)]
  unfold var mean lit
  rw [Cert.Lits.count]
  show Ideal.div (chanSq (kY xcn wT woutT bout2) o) _
      - Ideal.div (chanSum (kY xcn wT woutT bout2) o) _ * Ideal.div (chanSum (kY xcn wT woutT bout2) o) _ = _
  rw [chanSq_eq xcn wT woutT bout2 wqk wout bout hwT hwoT hb2 hx hw o,
    chanSum_eq xcn wT woutT bout2 wqk wout bout hwT hwoT hb2 hx hw o]

include hwT hwoT hb2 hx hw hwo hbo in
theorem inv_agree (o : Fin 256) :
    kInv xcn wT woutT bout2 (ix2 0 o) = Ideal.rsqrt (rVar xcn wqk wout bout o + lit 0x3727C5AC#32) := by
  show invStd (kS xcn wT woutT bout2) (kSq xcn wT woutT bout2) o = _
  unfold invStd
  rw [var_agree xcn wT woutT bout2 wqk wout bout hwT hwoT hb2 hx hw hwo hbo o]

include hwT hwoT hb2 hg2 hbe2 hx hw hwo hbo in
/-- The activation: entry (b, o, 64·h + w) of the kernel's layout is entry (b, o, h, w) of the reference's. -/
theorem act_agree (b : Fin 8) (o : Fin 256) (h w : Fin 64) :
    kAct xcn wT woutT bout2 gamma2 beta2 (ix3 b o (pos h w)) = rAct xcn wqk wout bout gamma beta b o h w := by
  show act (kY xcn wT woutT bout2) (kMean xcn wT woutT bout2) (kInv xcn wT woutT bout2) gamma2 beta2 b o (pos h w) = _
  unfold act rAct yhat rY4
  rw [y_agree xcn wT woutT bout2 wqk wout bout hwT hwoT hb2 hx hw b (pos h w) o,
    mean_agree xcn wT woutT bout2 wqk wout bout hwT hwoT hb2 hx hw o,
    inv_agree xcn wT woutT bout2 wqk wout bout hwT hwoT hb2 hx hw hwo hbo o, hg2 o, hbe2 o]

end Agree

end Cert.Bridge

end
-- ==== Proof.HostGlue.lean ====
/-
  The kernel program's host lines, read at an index on the extended reals: the two weight transposes rename an index,
  a vector viewed as one row keeps its entries, the statistics' finish (sum/n, sum-of-squares/n − mean², the reciprocal
  root of that plus ε) is entry-wise, and the last reshape sends entry (b, o, 64·h + w) of the [8, 256, 4096] array to
  entry (b, o, h, w) of the image.
-/
import proofs.«142206_j867583394375_2_alg».proof.Proof.Bridge
import proofs.«142206_j867583394375_2_alg».proof.Proof.LibRowOps
import proofs.«142206_j867583394375_2_alg».proof.Proof.LibRowView
import Idealize.ShloMosaic.Lib.Pipeline.Value

noncomputable section

namespace Cert.HostGlue

open Idealize.ShloMosaic Idealize.ShloMosaic.ValueIdx Cert.Spec Cert.Bridge

/-- The transposed query-key weights are the reference's weights with the index renamed. -/
theorem wT_eq (w : Arr2 512 256) (h : (⟨2, ![512, 256]⟩ : Shape).Transposes [1, 0] ⟨2, ![256, 512]⟩) :
    transpose ⟨2, ![256, 512]⟩ [1, 0] w h = wTof w := by
  funext i
  obtain ⟨c, e, rfl⟩ : ∃ (c : Fin 256) (e : Fin 512), i = ix2 c e := ⟨i 0, i 1, eq_ix2 i⟩
  exact Cert.RowOps.swap_apply w h c e

theorem woutT_apply (w : Arr2 256 256) (h : (⟨2, ![256, 256]⟩ : Shape).Transposes [1, 0] ⟨2, ![256, 256]⟩)
    (c o : Fin 256) : transpose ⟨2, ![256, 256]⟩ [1, 0] w h (ix2 c o) = w (ix2 o c) :=
  Cert.RowOps.swap_apply w h c o

theorem row_apply (x : Arr1 256) (h : (⟨1, ![256]⟩ : Shape).ShapeCasts ⟨2, ![1, 256]⟩) (o : Fin 256) :
    shapeCast ⟨2, ![1, 256]⟩ x h (ix2 0 o) = x (ix1 o) :=
  Cert.RowView.row_apply x h 0 o

/-- The mean's line: the channel sums over the count. -/
theorem mean_apply (S : Arr2 1 256) (hb : (⟨0, ![]⟩ : Shape).BroadcastsInDim ⟨2, ![1, 256]⟩ (![] : Fin 0 → Fin 2)) (o : Fin 256) :
    Host.divf (F := Ideal) (φ := .f32) S (broadcastInDim ⟨2, ![1, 256]⟩ ![] hb (constant (F := Ideal) ⟨0, ![]⟩ .f32 0x47000000#32)) (ix2 0 o)
      = mean S o := rfl

/-- The reciprocal root's lines. -/
theorem inv_apply (S Sq : Arr2 1 256) (hb : (⟨0, ![]⟩ : Shape).BroadcastsInDim ⟨2, ![1, 256]⟩ (![] : Fin 0 → Fin 2)) (o : Fin 256) :
    Host.rsqrt (F := Ideal) (φ := .f32) (addf (subf
        (Host.divf (F := Ideal) (φ := .f32) Sq (broadcastInDim ⟨2, ![1, 256]⟩ ![] hb (constant (F := Ideal) ⟨0, ![]⟩ .f32 0x47000000#32)))
        (mulf (Host.divf (F := Ideal) (φ := .f32) S (broadcastInDim ⟨2, ![1, 256]⟩ ![] hb (constant (F := Ideal) ⟨0, ![]⟩ .f32 0x47000000#32)))
              (Host.divf (F := Ideal) (φ := .f32) S (broadcastInDim ⟨2, ![1, 256]⟩ ![] hb (constant (F := Ideal) ⟨0, ![]⟩ .f32 0x47000000#32)))))
        (broadcastInDim ⟨2, ![1, 256]⟩ ![] hb (constant (F := Ideal) ⟨0, ![]⟩ .f32 0x3727C5AC#32))) (ix2 0 o)
      = invStd S Sq o := rfl

/-- The last reshape: the image's entry (b, o, h, w) is the flattened array's entry (b, o, 64·h + w). -/
theorem image_apply (A : Arr3 8 256 4096) (h : (⟨3, ![8, 256, 4096]⟩ : Shape).ShapeCasts ⟨4, ![8, 256, 64, 64]⟩)
    (b : Fin 8) (o : Fin 256) (hh w : Fin 64) :
    shapeCast ⟨4, ![8, 256, 64, 64]⟩ A h (ix4 b o hh w) = A (ix3 b o (pos hh w)) :=
  shapeCast_apply A h _ _ (by
    rw [Shape.rowMajor_val_four, Shape.rowMajor_val_three]
    show (b.val * 256 + o.val) * 4096 + (64 * hh.val + w.val) = ((b.val * 256 + o.val) * 64 + hh.val) * 64 + w.val
    ring)

end Cert.HostGlue

end
-- ==== Proof.IModel.lean ====
/-
  The kernel program's two results as the kernel model of the bridge: region by region, the array a region leaves is the
  model's array, given that the arrays it reads are the model's. The six arrays everything starts from are the first
  host lines' outputs: the channel-major rows, the two transposed weights and the one-row copies of bout, γ and β.
-/
import proofs.«142206_j867583394375_2_alg».proof.Proof.IRes
import proofs.«142206_j867583394375_2_alg».proof.Proof.IV0
import proofs.«142206_j867583394375_2_alg».proof.Proof.IV1y
import proofs.«142206_j867583394375_2_alg».proof.Proof.IV2
import proofs.«142206_j867583394375_2_alg».proof.Proof.IV3
import proofs.«142206_j867583394375_2_alg».proof.Proof.HostGlue

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec Cert.Bridge

variable (m : (ℓ : Loc nD τ sig) → Buf (Elt Ideal) ℓ) (ρ : Dev nD → PrngReg) (c : Dev nD)

/-- The arrays region 0 and the later regions start from. -/
abbrev xcnA : Arr3 8 256 4096 := V1 (F := Ideal) m ρ c main_v0
abbrev wTA : Arr2 256 512 := V1 (F := Ideal) m ρ c main_v1
abbrev woutTA : Arr2 256 256 := V1 (F := Ideal) m ρ c main_v2
abbrev bout2A : Arr2 1 256 := V1 (F := Ideal) m ρ c main_v3
abbrev gamma2A : Arr2 1 256 := V1 (F := Ideal) m ρ c main_v4
abbrev beta2A : Arr2 1 256 := V1 (F := Ideal) m ρ c main_v5

/-- A one-row array is determined by its entries (0, o). -/
theorem row_ext (A B : Arr2 1 256) (h : ∀ o : Fin 256, A (ix2 0 o) = B (ix2 0 o)) : A = B := by
  funext i
  obtain ⟨u, o, rfl⟩ : ∃ (u : Fin 1) (o : Fin 256), i = ix2 u o := ⟨i 0, i 1, eq_ix2 i⟩
  obtain rfl : u = 0 := Subsingleton.elim _ _
  exact h o

/-- A three-axis array is determined by its entries at explicit coordinates. -/
theorem arr3_ext {a b d : Nat} (A B : Arr3 a b d) (h : ∀ (x : Fin a) (y : Fin b) (z : Fin d), A (ix3 x y z) = B (ix3 x y z)) : A = B := by
  funext i
  obtain ⟨x, y, z, rfl⟩ : ∃ (x : Fin a) (y : Fin b) (z : Fin d), i = ix3 x y z := ⟨i 0, i 1, i 2, eq_ix3 i⟩
  exact h x y z

/-! ## Region 0 -/

theorem q_arr : (dat0 (F := Ideal) (V1 m ρ) c).arrAt 2 cfg0.N = kQ (xcnA m ρ c) (wTA m ρ c) :=
  arr3_ext _ _ fun b n e => final0_2 (V1 m ρ) c b n e
theorem k_arr : (dat0 (F := Ideal) (V1 m ρ) c).arrAt 3 cfg0.N = kK (xcnA m ρ c) (wTA m ρ c) :=
  arr3_ext _ _ fun b n e => final0_3 (V1 m ρ) c b n e
theorem v_arr : (dat0 (F := Ideal) (V1 m ρ) c).arrAt 4 cfg0.N = kV (xcnA m ρ c) :=
  arr3_ext _ _ fun b n e => final0_4 (V1 m ρ) c b n e

/-! ## Region 1 -/

theorem attn_arr : (dat1 (F := Ideal) (V2 m ρ) c).arrAt 6 cfg1.N = kAttn (xcnA m ρ c) (wTA m ρ c) :=
  arr3_ext _ _ fun b i j => by
    rw [final1_6 (V2 m ρ) c b i j]
    show attn (V2 m ρ c main_v6_0) (V2 m ρ c main_v6_1) b i j = _
    rw [V2_main_v6_0, V2_main_v6_1, q_arr, k_arr]
    rfl

theorem y_arr : (dat1 (F := Ideal) (V2 m ρ) c).arrAt 5 cfg1.N
    = kY (xcnA m ρ c) (wTA m ρ c) (woutTA m ρ c) (bout2A m ρ c) :=
  arr3_ext _ _ fun b n o => by
    rw [final1_5 (V2 m ρ) c b n o]
    show y (V2 m ρ c main_v6_0) (V2 m ρ c main_v6_1) (V2 m ρ c main_v6_2) (V2 m ρ c main_v2) (V2 m ρ c main_v3) b n o = _
    rw [V2_main_v6_0, V2_main_v6_1, V2_main_v6_2, V2_main_v2, V2_main_v3, q_arr, k_arr, v_arr]
    rfl

/-! ## Region 2 and the statistics' host lines -/

theorem s_arr : (dat2 (F := Ideal) (V3 m ρ) c).arrAt 1 cfg2.N
    = kS (xcnA m ρ c) (wTA m ρ c) (woutTA m ρ c) (bout2A m ρ c) :=
  row_ext _ _ fun o => by
    rw [final2_1 (V3 m ρ) c o]
    show chanSum (V3 m ρ c main_v7_0) o = _
    rw [V3_main_v7_0, y_arr]
    rfl

theorem sq_arr : (dat2 (F := Ideal) (V3 m ρ) c).arrAt 2 cfg2.N
    = kSq (xcnA m ρ c) (wTA m ρ c) (woutTA m ρ c) (bout2A m ρ c) :=
  row_ext _ _ fun o => by
    rw [final2_2 (V3 m ρ) c o]
    show chanSq (V3 m ρ c main_v7_0) o = _
    rw [V3_main_v7_0, y_arr]
    rfl

theorem mean_arr : V5 (F := Ideal) m ρ c main_v10 = kMean (xcnA m ρ c) (wTA m ρ c) (woutTA m ρ c) (bout2A m ρ c) := by
  rw [V5_main_v10, s_arr]
  exact row_ext _ _ fun o => Cert.HostGlue.mean_apply _ _ o

theorem inv_arr : V5 (F := Ideal) m ρ c main_v17 = kInv (xcnA m ρ c) (wTA m ρ c) (woutTA m ρ c) (bout2A m ρ c) := by
  rw [V5_main_v17, s_arr, sq_arr]
  exact row_ext _ _ fun o => Cert.HostGlue.inv_apply _ _ _ o

/-! ## Region 3 and the results -/

theorem act_arr : (dat3 (F := Ideal) (V5 m ρ) c).arrAt 5 cfg3.N
    = kAct (xcnA m ρ c) (wTA m ρ c) (woutTA m ρ c) (bout2A m ρ c) (gamma2A m ρ c) (beta2A m ρ c) :=
  arr3_ext _ _ fun b o n => by
    rw [final3_5 (V5 m ρ) c b o n]
    show act (V5 m ρ c main_v7_0) (V5 m ρ c main_v10) (V5 m ρ c main_v17) (V5 m ρ c main_v4) (V5 m ρ c main_v5) b o n = _
    rw [V5_main_v7_0, y_arr, mean_arr, inv_arr, V5_main_v4, V5_main_v5]
    rfl

/-- The attention weights the program returns are the model's. -/
theorem res_attn : W7 (F := Ideal) m ρ c (Proc.devRef .tc main_v7_1) = kAttn (xcnA m ρ c) (wTA m ρ c) :=
  (W7_main_v7_1 m ρ c).trans (attn_arr m ρ c)

/-- The activation the program returns is the model's, reshaped to the image. -/
theorem res_act : W7 (F := Ideal) m ρ c (Proc.devRef .tc main_v19)
    = fun i => shapeCast S8x256x64x64 (kAct (xcnA m ρ c) (wTA m ρ c) (woutTA m ρ c) (bout2A m ρ c) (gamma2A m ρ c) (beta2A m ρ c))
        shapeCasts_S8x256x4096_S8x256x64x64 i := by
  rw [W7_main_v19, act_arr]

end Cert.KernelIdeal.Hand

end
-- ==== Proof.RefStages.lean ====
import proofs.«142206_j867583394375_2_alg».proof.ReferenceIdeal
import proofs.«142206_j867583394375_2_alg».proof.Proof.Gen.ReferenceIdeal

/-! # The reference, stage by stage

The reference is single-head attention over the 4096 positions of each image (the scores of queries against keys,
scaled, their softmax along the keys, the weights applied to the tokens), a linear layer, batch normalization with
the batch's own statistics, and a leaky rectifier. Each of its 81 operations is named here as a function of the
arrays it depends on, in the program's order, in five groups:

* attention, of the input `x` and the query-key weights `wqk`: `st_v0` … `st_v18`;
* the linear layer, of the attention weights `attn`, the tokens `nf`, `wout` and `bout`: `st_v19` … `st_v25`;
* the channel means, of the layer's output `y`: `st_cst_3` … `st_v29`;
* the channel variances, of `y`: `st_c`, `st_call0_cst` … `st_v30`;
* normalization, scale, shift and the rectifier, of `y`, `mean`, `var`, `gamma`, `beta`: `st_v31` … `st_v48`.

`resAttn`, `resY` and `resAct` compose the groups over the six argument arrays. -/

noncomputable section

namespace Cert.ReferenceIdeal.Hand

open Cert.ReferenceIdeal Cert.ReferenceIdeal.Gen Idealize.ShloMosaic Idealize.SL.Sem

variable {F : FTy → Type} [FloatOps F]

/-! ## Attention -/

/-- The input with its two spatial axes flattened: [8,256,4096]. -/
def st_v0 (x : (⟨S8x256x64x64, .f32⟩ : BufTy).Contents (Elt F)) : (⟨S8x256x4096, .f32⟩ : BufTy).Contents (Elt F) :=
  fun i => shapeCast S8x256x4096 x shapeCasts_S8x256x64x64_S8x256x4096 i

/-- The tokens: channels last, [8,4096,256]. -/
def st_v1 (x : (⟨S8x256x64x64, .f32⟩ : BufTy).Contents (Elt F)) : (⟨S8x4096x256, .f32⟩ : BufTy).Contents (Elt F) :=
  transpose S8x4096x256 [0, 2, 1] (st_v0 x) transposes_S8x256x4096_S8x4096x256_0_2_1

/-- Queries and keys side by side: the tokens against the 512 rows of `wqk`. -/
def st_v2 (x : (⟨S8x256x64x64, .f32⟩ : BufTy).Contents (Elt F)) (wqk : (⟨S512x256, .f32⟩ : BufTy).Contents (Elt F)) : (⟨S8x4096x512, .f32⟩ : BufTy).Contents (Elt F) :=
  Host.dotGeneral (F := F) dot_S8x4096x256_S512x256_S8x4096x512_2_1_01_0_n_n none (st_v1 x) wqk

/-- The queries: features 0..255. -/
def st_v3 (x : (⟨S8x256x64x64, .f32⟩ : BufTy).Contents (Elt F)) (wqk : (⟨S512x256, .f32⟩ : BufTy).Contents (Elt F)) : (⟨S8x4096x256, .f32⟩ : BufTy).Contents (Elt F) :=
  extractStridedSlice S8x4096x256 ![0, 0, 0] (st_v2 x wqk) slices_S8x4096x512_S8x4096x256_0_0_0

/-- The keys: features 256..511. -/
def st_v4 (x : (⟨S8x256x64x64, .f32⟩ : BufTy).Contents (Elt F)) (wqk : (⟨S512x256, .f32⟩ : BufTy).Contents (Elt F)) : (⟨S8x4096x256, .f32⟩ : BufTy).Contents (Elt F) :=
  extractStridedSlice S8x4096x256 ![0, 0, 256] (st_v2 x wqk) slices_S8x4096x512_S8x4096x256_0_0_256

/-- The scores: query i against key j, per batch. -/
def st_v5 (x : (⟨S8x256x64x64, .f32⟩ : BufTy).Contents (Elt F)) (wqk : (⟨S512x256, .f32⟩ : BufTy).Contents (Elt F)) : (⟨S8x4096x4096, .f32⟩ : BufTy).Contents (Elt F) :=
  Host.dotGeneral (F := F) dot_S8x4096x256_S8x4096x256_S8x4096x4096_2_2_1_1_0_0 none (st_v3 x wqk) (st_v4 x wqk)

/-- The scale 1/16. -/
def st_cst : (⟨S_, .f32⟩ : BufTy).Contents (Elt F) :=
  constant (F := F) S_ .f32 0x3D800000#32

/-- The scale at every score. -/
def st_v6 : (⟨S8x4096x4096, .f32⟩ : BufTy).Contents (Elt F) :=
  broadcastInDim S8x4096x4096 ![] bcast_S_S8x4096x4096 (st_cst (F := F))

/-- The scaled scores. -/
def st_v7 (x : (⟨S8x256x64x64, .f32⟩ : BufTy).Contents (Elt F)) (wqk : (⟨S512x256, .f32⟩ : BufTy).Contents (Elt F)) : (⟨S8x4096x4096, .f32⟩ : BufTy).Contents (Elt F) :=
  mulf (st_v5 x wqk) (st_v6 (F := F))

/-- Minus infinity, the maximum's initial value. -/
def st_cst_0 : (⟨S_, .f32⟩ : BufTy).Contents (Elt F) :=
  constant (F := F) S_ .f32 0xFF800000#32

/-- Each row's maximum over the keys. -/
def st_v8 (x : (⟨S8x256x64x64, .f32⟩ : BufTy).Contents (Elt F)) (wqk : (⟨S512x256, .f32⟩ : BufTy).Contents (Elt F)) : (⟨S8x4096, .f32⟩ : BufTy).Contents (Elt F) :=
  Host.reduce FloatOps.maximumf (st_v7 x wqk) (st_cst_0 (F := F)) reducesTo_S8x4096x4096_S8x4096_d2 h_S_

/-- Minus infinity again. -/
def st_cst_1 : (⟨S_, .f32⟩ : BufTy).Contents (Elt F) :=
  constant (F := F) S_ .f32 0xFF800000#32

/-- Minus infinity at every row. -/
def st_v9 : (⟨S8x4096, .f32⟩ : BufTy).Contents (Elt F) :=
  broadcastInDim S8x4096 ![] bcast_S_S8x4096 (st_cst_1 (F := F))

/-- The row maximum, against minus infinity. -/
def st_v10 (x : (⟨S8x256x64x64, .f32⟩ : BufTy).Contents (Elt F)) (wqk : (⟨S512x256, .f32⟩ : BufTy).Contents (Elt F)) : (⟨S8x4096, .f32⟩ : BufTy).Contents (Elt F) :=
  maximumf (st_v9 (F := F)) (st_v8 x wqk)

/-- The row maximum with a unit key axis. -/
def st_v11 (x : (⟨S8x256x64x64, .f32⟩ : BufTy).Contents (Elt F)) (wqk : (⟨S512x256, .f32⟩ : BufTy).Contents (Elt F)) : (⟨S8x4096x1, .f32⟩ : BufTy).Contents (Elt F) :=
  broadcastInDim S8x4096x1 ![0, 1] bcast_S8x4096_S8x4096x1_0_1 (st_v10 x wqk)

/-- The row maximum at every key. -/
def st_v12 (x : (⟨S8x256x64x64, .f32⟩ : BufTy).Contents (Elt F)) (wqk : (⟨S512x256, .f32⟩ : BufTy).Contents (Elt F)) : (⟨S8x4096x4096, .f32⟩ : BufTy).Contents (Elt F) :=
  broadcastInDim S8x4096x4096 ![0, 1, 2] bcast_S8x4096x1_S8x4096x4096_0_1_2 (st_v11 x wqk)

/-- The scores less their row maximum. -/
def st_v13 (x : (⟨S8x256x64x64, .f32⟩ : BufTy).Contents (Elt F)) (wqk : (⟨S512x256, .f32⟩ : BufTy).Contents (Elt F)) : (⟨S8x4096x4096, .f32⟩ : BufTy).Contents (Elt F) :=
  subf (st_v7 x wqk) (st_v12 x wqk)

/-- Their exponentials. -/
def st_v14 (x : (⟨S8x256x64x64, .f32⟩ : BufTy).Contents (Elt F)) (wqk : (⟨S512x256, .f32⟩ : BufTy).Contents (Elt F)) : (⟨S8x4096x4096, .f32⟩ : BufTy).Contents (Elt F) :=
  Host.exp (F := F) (st_v13 x wqk)

/-- Zero, the sum's initial value. -/
def st_cst_2 : (⟨S_, .f32⟩ : BufTy).Contents (Elt F) :=
  constant (F := F) S_ .f32 0x00000000#32

/-- Each row's sum of exponentials. -/
def st_v15 (x : (⟨S8x256x64x64, .f32⟩ : BufTy).Contents (Elt F)) (wqk : (⟨S512x256, .f32⟩ : BufTy).Contents (Elt F)) : (⟨S8x4096, .f32⟩ : BufTy).Contents (Elt F) :=
  Host.reduceAdd (F := F) (st_v14 x wqk) (st_cst_2 (F := F)) reducesTo_S8x4096x4096_S8x4096_d2 h_S_

/-- The row sum with a unit key axis. -/
def st_v16 (x : (⟨S8x256x64x64, .f32⟩ : BufTy).Contents (Elt F)) (wqk : (⟨S512x256, .f32⟩ : BufTy).Contents (Elt F)) : (⟨S8x4096x1, .f32⟩ : BufTy).Contents (Elt F) :=
  broadcastInDim S8x4096x1 ![0, 1] bcast_S8x4096_S8x4096x1_0_1 (st_v15 x wqk)

/-- The row sum at every key. -/
def st_v17 (x : (⟨S8x256x64x64, .f32⟩ : BufTy).Contents (Elt F)) (wqk : (⟨S512x256, .f32⟩ : BufTy).Contents (Elt F)) : (⟨S8x4096x4096, .f32⟩ : BufTy).Contents (Elt F) :=
  broadcastInDim S8x4096x4096 ![0, 1, 2] bcast_S8x4096x1_S8x4096x4096_0_1_2 (st_v16 x wqk)

/-- The attention weights: the softmax of the scaled scores along the keys. -/
def st_v18 (x : (⟨S8x256x64x64, .f32⟩ : BufTy).Contents (Elt F)) (wqk : (⟨S512x256, .f32⟩ : BufTy).Contents (Elt F)) : (⟨S8x4096x4096, .f32⟩ : BufTy).Contents (Elt F) :=
  Host.divf (F := F) (st_v14 x wqk) (st_v17 x wqk)

/-! ## The linear layer -/

/-- The weights applied to the tokens. -/
def st_v19 (attn : (⟨S8x4096x4096, .f32⟩ : BufTy).Contents (Elt F)) (nf : (⟨S8x4096x256, .f32⟩ : BufTy).Contents (Elt F)) : (⟨S8x4096x256, .f32⟩ : BufTy).Contents (Elt F) :=
  Host.dotGeneral (F := F) dot_S8x4096x4096_S8x4096x256_S8x4096x256_2_1_1_2_0_0 none attn nf

/-- The linear layer's product with `wout`. -/
def st_v20 (attn : (⟨S8x4096x4096, .f32⟩ : BufTy).Contents (Elt F)) (nf : (⟨S8x4096x256, .f32⟩ : BufTy).Contents (Elt F)) (wout : (⟨S256x256, .f32⟩ : BufTy).Contents (Elt F)) : (⟨S8x4096x256, .f32⟩ : BufTy).Contents (Elt F) :=
  Host.dotGeneral (F := F) dot_S8x4096x256_S256x256_S8x4096x256_2_1_01_0_n_n none (st_v19 attn nf) wout

/-- The bias with unit batch and token axes. -/
def st_v21 (bout : (⟨S256, .f32⟩ : BufTy).Contents (Elt F)) : (⟨S1x1x256, .f32⟩ : BufTy).Contents (Elt F) :=
  broadcastInDim S1x1x256 ![2] bcast_S256_S1x1x256_2 bout

/-- The bias at every token. -/
def st_v22 (bout : (⟨S256, .f32⟩ : BufTy).Contents (Elt F)) : (⟨S8x4096x256, .f32⟩ : BufTy).Contents (Elt F) :=
  broadcastInDim S8x4096x256 ![0, 1, 2] bcast_S1x1x256_S8x4096x256_0_1_2 (st_v21 bout)

/-- The linear layer's output. -/
def st_v23 (attn : (⟨S8x4096x4096, .f32⟩ : BufTy).Contents (Elt F)) (nf : (⟨S8x4096x256, .f32⟩ : BufTy).Contents (Elt F)) (wout : (⟨S256x256, .f32⟩ : BufTy).Contents (Elt F)) (bout : (⟨S256, .f32⟩ : BufTy).Contents (Elt F)) : (⟨S8x4096x256, .f32⟩ : BufTy).Contents (Elt F) :=
  addf (st_v20 attn nf wout) (st_v22 bout)

/-- Channels back before the tokens. -/
def st_v24 (attn : (⟨S8x4096x4096, .f32⟩ : BufTy).Contents (Elt F)) (nf : (⟨S8x4096x256, .f32⟩ : BufTy).Contents (Elt F)) (wout : (⟨S256x256, .f32⟩ : BufTy).Contents (Elt F)) (bout : (⟨S256, .f32⟩ : BufTy).Contents (Elt F)) : (⟨S8x256x4096, .f32⟩ : BufTy).Contents (Elt F) :=
  transpose S8x256x4096 [0, 2, 1] (st_v23 attn nf wout bout) transposes_S8x4096x256_S8x256x4096_0_2_1

/-- The layer's output as an image batch: [8,256,64,64]. -/
def st_v25 (attn : (⟨S8x4096x4096, .f32⟩ : BufTy).Contents (Elt F)) (nf : (⟨S8x4096x256, .f32⟩ : BufTy).Contents (Elt F)) (wout : (⟨S256x256, .f32⟩ : BufTy).Contents (Elt F)) (bout : (⟨S256, .f32⟩ : BufTy).Contents (Elt F)) : (⟨S8x256x64x64, .f32⟩ : BufTy).Contents (Elt F) :=
  fun i => shapeCast S8x256x64x64 (st_v24 attn nf wout bout) shapeCasts_S8x256x4096_S8x256x64x64 i

/-! ## The channel means -/

/-- Zero. -/
def st_cst_3 : (⟨S_, .f32⟩ : BufTy).Contents (Elt F) :=
  constant (F := F) S_ .f32 0x00000000#32

/-- Each channel's sum over batch and space. -/
def st_v26 (y : (⟨S8x256x64x64, .f32⟩ : BufTy).Contents (Elt F)) : (⟨S256, .f32⟩ : BufTy).Contents (Elt F) :=
  Host.reduceAdd (F := F) y (st_cst_3 (F := F)) reducesTo_S8x256x64x64_S256_d0_2_3 h_S_

/-- The channel sums with unit batch and space axes. -/
def st_v27 (y : (⟨S8x256x64x64, .f32⟩ : BufTy).Contents (Elt F)) : (⟨S1x256x1x1, .f32⟩ : BufTy).Contents (Elt F) :=
  broadcastInDim S1x256x1x1 ![1] bcast_S256_S1x256x1x1_1 (st_v26 y)

/-- The count 32768 = 8·64·64. -/
def st_cst_4 : (⟨S_, .f32⟩ : BufTy).Contents (Elt F) :=
  constant (F := F) S_ .f32 0x47000000#32

/-- The count at every channel. -/
def st_v28 : (⟨S1x256x1x1, .f32⟩ : BufTy).Contents (Elt F) :=
  broadcastInDim S1x256x1x1 ![] bcast_S_S1x256x1x1 (st_cst_4 (F := F))

/-- Each channel's mean. -/
def st_v29 (y : (⟨S8x256x64x64, .f32⟩ : BufTy).Contents (Elt F)) : (⟨S1x256x1x1, .f32⟩ : BufTy).Contents (Elt F) :=
  Host.divf (F := F) (st_v27 y) (st_v28 (F := F))

/-! ## The channel variances -/

/-- The degrees-of-freedom correction 0. -/
def st_c : (⟨S_, .i32⟩ : BufTy).Contents (Elt F) :=
  constantI S_ 32 0#32

/-- Zero. -/
def st_call0_cst : (⟨S_, .f32⟩ : BufTy).Contents (Elt F) :=
  constant (F := F) S_ .f32 0x00000000#32

/-- Each channel's sum. -/
def st_call0_v0 (y : (⟨S8x256x64x64, .f32⟩ : BufTy).Contents (Elt F)) : (⟨S256, .f32⟩ : BufTy).Contents (Elt F) :=
  Host.reduceAdd (F := F) y (st_call0_cst (F := F)) reducesTo_S8x256x64x64_S256_d0_2_3 h_S_

/-- The channel sums, [1,256,1,1]. -/
def st_call0_v1 (y : (⟨S8x256x64x64, .f32⟩ : BufTy).Contents (Elt F)) : (⟨S1x256x1x1, .f32⟩ : BufTy).Contents (Elt F) :=
  broadcastInDim S1x256x1x1 ![1] bcast_S256_S1x256x1x1_1 (st_call0_v0 y)

/-- The count 32768. -/
def st_call0_cst_0 : (⟨S_, .f32⟩ : BufTy).Contents (Elt F) :=
  constant (F := F) S_ .f32 0x47000000#32

/-- The count at every channel. -/
def st_call0_v2 : (⟨S1x256x1x1, .f32⟩ : BufTy).Contents (Elt F) :=
  broadcastInDim S1x256x1x1 ![] bcast_S_S1x256x1x1 (st_call0_cst_0 (F := F))

/-- Each channel's mean. -/
def st_call0_v3 (y : (⟨S8x256x64x64, .f32⟩ : BufTy).Contents (Elt F)) : (⟨S1x256x1x1, .f32⟩ : BufTy).Contents (Elt F) :=
  Host.divf (F := F) (st_call0_v1 y) (st_call0_v2 (F := F))

/-- The mean at every element. -/
def st_call0_v4 (y : (⟨S8x256x64x64, .f32⟩ : BufTy).Contents (Elt F)) : (⟨S8x256x64x64, .f32⟩ : BufTy).Contents (Elt F) :=
  broadcastInDim S8x256x64x64 ![0, 1, 2, 3] bcast_S1x256x1x1_S8x256x64x64_0_1_2_3 (st_call0_v3 y)

/-- The deviations from the mean. -/
def st_call0_v5 (y : (⟨S8x256x64x64, .f32⟩ : BufTy).Contents (Elt F)) : (⟨S8x256x64x64, .f32⟩ : BufTy).Contents (Elt F) :=
  subf y (st_call0_v4 y)

/-- The squared deviations. -/
def st_call0_v6 (y : (⟨S8x256x64x64, .f32⟩ : BufTy).Contents (Elt F)) : (⟨S8x256x64x64, .f32⟩ : BufTy).Contents (Elt F) :=
  mulf (st_call0_v5 y) (st_call0_v5 y)

/-- The correction as a float. -/
def st_call0_v7 : (⟨S_, .f32⟩ : BufTy).Contents (Elt F) :=
  sitofp (F := F) .f32 (st_c (F := F))

/-- The count 32768. -/
def st_call0_cst_1 : (⟨S_, .f32⟩ : BufTy).Contents (Elt F) :=
  constant (F := F) S_ .f32 0x47000000#32

/-- The divisor: count less correction. -/
def st_call0_v8 : (⟨S_, .f32⟩ : BufTy).Contents (Elt F) :=
  subf (st_call0_cst_1 (F := F)) (st_call0_v7 (F := F))

/-- Zero. -/
def st_call0_cst_2 : (⟨S_, .f32⟩ : BufTy).Contents (Elt F) :=
  constant (F := F) S_ .f32 0x00000000#32

/-- Each channel's sum of squared deviations. -/
def st_call0_v9 (y : (⟨S8x256x64x64, .f32⟩ : BufTy).Contents (Elt F)) : (⟨S256, .f32⟩ : BufTy).Contents (Elt F) :=
  Host.reduceAdd (F := F) (st_call0_v6 y) (st_call0_cst_2 (F := F)) reducesTo_S8x256x64x64_S256_d0_2_3 h_S_

/-- Those sums, [1,256,1,1]. -/
def st_call0_v10 (y : (⟨S8x256x64x64, .f32⟩ : BufTy).Contents (Elt F)) : (⟨S1x256x1x1, .f32⟩ : BufTy).Contents (Elt F) :=
  broadcastInDim S1x256x1x1 ![1] bcast_S256_S1x256x1x1_1 (st_call0_v9 y)

/-- The divisor at every channel. -/
def st_call0_v11 : (⟨S1x256x1x1, .f32⟩ : BufTy).Contents (Elt F) :=
  broadcastInDim S1x256x1x1 ![] bcast_S_S1x256x1x1 (st_call0_v8 (F := F))

/-- The sums of squares over the divisor. -/
def st_call0_v12 (y : (⟨S8x256x64x64, .f32⟩ : BufTy).Contents (Elt F)) : (⟨S1x256x1x1, .f32⟩ : BufTy).Contents (Elt F) :=
  Host.divf (F := F) (st_call0_v10 y) (st_call0_v11 (F := F))

/-- Zero. -/
def st_call0_cst_3 : (⟨S_, .f32⟩ : BufTy).Contents (Elt F) :=
  constant (F := F) S_ .f32 0x00000000#32

/-- Whether the divisor is positive. -/
def st_call0_v13 : (⟨S_, .i1⟩ : BufTy).Contents (Elt F) :=
  cmpf .ogt (st_call0_v8 (F := F)) (st_call0_cst_3 (F := F))

/-- The not-a-number the variance takes at a divisor that is not positive. -/
def st_call0_cst_4 : (⟨S_, .f32⟩ : BufTy).Contents (Elt F) :=
  constant (F := F) S_ .f32 0x7FC00000#32

/-- The same, converted to its own type. -/
def st_call0_call0_v0 : (⟨S_, .f32⟩ : BufTy).Contents (Elt F) :=
  id (st_call0_cst_4 (F := F))

/-- The same at every channel. -/
def st_call0_call0_v1 : (⟨S1x256x1x1, .f32⟩ : BufTy).Contents (Elt F) :=
  broadcastInDim S1x256x1x1 ![] bcast_S_S1x256x1x1 (st_call0_call0_v0 (F := F))

/-- Each channel's variance: the quotient where the divisor is positive. -/
def st_v30 (y : (⟨S8x256x64x64, .f32⟩ : BufTy).Contents (Elt F)) : (⟨S1x256x1x1, .f32⟩ : BufTy).Contents (Elt F) :=
  select (broadcastInDim S1x256x1x1 ![] bcast_S_S1x256x1x1 (st_call0_v13 (F := F))) (st_call0_v12 y) (st_call0_call0_v1 (F := F))

/-! ## Normalization and the rectifier -/

/-- The mean at every element. -/
def st_v31 (mean : (⟨S1x256x1x1, .f32⟩ : BufTy).Contents (Elt F)) : (⟨S8x256x64x64, .f32⟩ : BufTy).Contents (Elt F) :=
  broadcastInDim S8x256x64x64 ![0, 1, 2, 3] bcast_S1x256x1x1_S8x256x64x64_0_1_2_3 mean

/-- The centred values. -/
def st_v32 (y : (⟨S8x256x64x64, .f32⟩ : BufTy).Contents (Elt F)) (mean : (⟨S1x256x1x1, .f32⟩ : BufTy).Contents (Elt F)) : (⟨S8x256x64x64, .f32⟩ : BufTy).Contents (Elt F) :=
  subf y (st_v31 mean)

/-- The stabilizer epsilon. -/
def st_cst_5 : (⟨S_, .f32⟩ : BufTy).Contents (Elt F) :=
  constant (F := F) S_ .f32 0x3727C5AC#32

/-- Epsilon at every channel. -/
def st_v33 : (⟨S1x256x1x1, .f32⟩ : BufTy).Contents (Elt F) :=
  broadcastInDim S1x256x1x1 ![] bcast_S_S1x256x1x1 (st_cst_5 (F := F))

/-- Variance plus epsilon. -/
def st_v34 (var : (⟨S1x256x1x1, .f32⟩ : BufTy).Contents (Elt F)) : (⟨S1x256x1x1, .f32⟩ : BufTy).Contents (Elt F) :=
  addf var (st_v33 (F := F))

/-- Its reciprocal square root. -/
def st_v35 (var : (⟨S1x256x1x1, .f32⟩ : BufTy).Contents (Elt F)) : (⟨S1x256x1x1, .f32⟩ : BufTy).Contents (Elt F) :=
  Host.rsqrt (F := F) (st_v34 var)

/-- The same at every element. -/
def st_v36 (var : (⟨S1x256x1x1, .f32⟩ : BufTy).Contents (Elt F)) : (⟨S8x256x64x64, .f32⟩ : BufTy).Contents (Elt F) :=
  broadcastInDim S8x256x64x64 ![0, 1, 2, 3] bcast_S1x256x1x1_S8x256x64x64_0_1_2_3 (st_v35 var)

/-- The normalized values. -/
def st_v37 (y : (⟨S8x256x64x64, .f32⟩ : BufTy).Contents (Elt F)) (mean : (⟨S1x256x1x1, .f32⟩ : BufTy).Contents (Elt F)) (var : (⟨S1x256x1x1, .f32⟩ : BufTy).Contents (Elt F)) : (⟨S8x256x64x64, .f32⟩ : BufTy).Contents (Elt F) :=
  mulf (st_v32 y mean) (st_v36 var)

/-- The scale, [1,256,1,1]. -/
def st_v38 (gamma : (⟨S256, .f32⟩ : BufTy).Contents (Elt F)) : (⟨S1x256x1x1, .f32⟩ : BufTy).Contents (Elt F) :=
  broadcastInDim S1x256x1x1 ![1] bcast_S256_S1x256x1x1_1 gamma

/-- The scale at every element. -/
def st_v39 (gamma : (⟨S256, .f32⟩ : BufTy).Contents (Elt F)) : (⟨S8x256x64x64, .f32⟩ : BufTy).Contents (Elt F) :=
  broadcastInDim S8x256x64x64 ![0, 1, 2, 3] bcast_S1x256x1x1_S8x256x64x64_0_1_2_3 (st_v38 gamma)

/-- Scaled. -/
def st_v40 (y : (⟨S8x256x64x64, .f32⟩ : BufTy).Contents (Elt F)) (mean : (⟨S1x256x1x1, .f32⟩ : BufTy).Contents (Elt F)) (var : (⟨S1x256x1x1, .f32⟩ : BufTy).Contents (Elt F)) (gamma : (⟨S256, .f32⟩ : BufTy).Contents (Elt F)) : (⟨S8x256x64x64, .f32⟩ : BufTy).Contents (Elt F) :=
  mulf (st_v37 y mean var) (st_v39 gamma)

/-- The shift, [1,256,1,1]. -/
def st_v41 (beta : (⟨S256, .f32⟩ : BufTy).Contents (Elt F)) : (⟨S1x256x1x1, .f32⟩ : BufTy).Contents (Elt F) :=
  broadcastInDim S1x256x1x1 ![1] bcast_S256_S1x256x1x1_1 beta

/-- The shift at every element. -/
def st_v42 (beta : (⟨S256, .f32⟩ : BufTy).Contents (Elt F)) : (⟨S8x256x64x64, .f32⟩ : BufTy).Contents (Elt F) :=
  broadcastInDim S8x256x64x64 ![0, 1, 2, 3] bcast_S1x256x1x1_S8x256x64x64_0_1_2_3 (st_v41 beta)

/-- The batch-normalized values. -/
def st_v43 (y : (⟨S8x256x64x64, .f32⟩ : BufTy).Contents (Elt F)) (mean : (⟨S1x256x1x1, .f32⟩ : BufTy).Contents (Elt F)) (var : (⟨S1x256x1x1, .f32⟩ : BufTy).Contents (Elt F)) (gamma : (⟨S256, .f32⟩ : BufTy).Contents (Elt F)) (beta : (⟨S256, .f32⟩ : BufTy).Contents (Elt F)) : (⟨S8x256x64x64, .f32⟩ : BufTy).Contents (Elt F) :=
  addf (st_v40 y mean var gamma) (st_v42 beta)

/-- Zero. -/
def st_cst_6 : (⟨S_, .f32⟩ : BufTy).Contents (Elt F) :=
  constant (F := F) S_ .f32 0x00000000#32

/-- Zero at every element. -/
def st_v44 : (⟨S8x256x64x64, .f32⟩ : BufTy).Contents (Elt F) :=
  broadcastInDim S8x256x64x64 ![] bcast_S_S8x256x64x64 (st_cst_6 (F := F))

/-- Where the value is at least zero. -/
def st_v45 (y : (⟨S8x256x64x64, .f32⟩ : BufTy).Contents (Elt F)) (mean : (⟨S1x256x1x1, .f32⟩ : BufTy).Contents (Elt F)) (var : (⟨S1x256x1x1, .f32⟩ : BufTy).Contents (Elt F)) (gamma : (⟨S256, .f32⟩ : BufTy).Contents (Elt F)) (beta : (⟨S256, .f32⟩ : BufTy).Contents (Elt F)) : (⟨S8x256x64x64, .i1⟩ : BufTy).Contents (Elt F) :=
  cmpf .oge (st_v43 y mean var gamma beta) (st_v44 (F := F))

/-- The negative slope 0.01. -/
def st_cst_7 : (⟨S_, .f32⟩ : BufTy).Contents (Elt F) :=
  constant (F := F) S_ .f32 0x3C23D70A#32

/-- The slope at every element. -/
def st_v46 : (⟨S8x256x64x64, .f32⟩ : BufTy).Contents (Elt F) :=
  broadcastInDim S8x256x64x64 ![] bcast_S_S8x256x64x64 (st_cst_7 (F := F))

/-- The values times the slope. -/
def st_v47 (y : (⟨S8x256x64x64, .f32⟩ : BufTy).Contents (Elt F)) (mean : (⟨S1x256x1x1, .f32⟩ : BufTy).Contents (Elt F)) (var : (⟨S1x256x1x1, .f32⟩ : BufTy).Contents (Elt F)) (gamma : (⟨S256, .f32⟩ : BufTy).Contents (Elt F)) (beta : (⟨S256, .f32⟩ : BufTy).Contents (Elt F)) : (⟨S8x256x64x64, .f32⟩ : BufTy).Contents (Elt F) :=
  mulf (st_v46 (F := F)) (st_v43 y mean var gamma beta)

/-- The activation: the value where it is at least zero, the slope's multiple elsewhere. -/
def st_v48 (y : (⟨S8x256x64x64, .f32⟩ : BufTy).Contents (Elt F)) (mean : (⟨S1x256x1x1, .f32⟩ : BufTy).Contents (Elt F)) (var : (⟨S1x256x1x1, .f32⟩ : BufTy).Contents (Elt F)) (gamma : (⟨S256, .f32⟩ : BufTy).Contents (Elt F)) (beta : (⟨S256, .f32⟩ : BufTy).Contents (Elt F)) : (⟨S8x256x64x64, .f32⟩ : BufTy).Contents (Elt F) :=
  select (st_v45 y mean var gamma beta) (st_v43 y mean var gamma beta) (st_v47 y mean var gamma beta)

/-! ## The results, of the six arguments -/

/-- The second result: the attention weights. -/
def resAttn (x : (⟨S8x256x64x64, .f32⟩ : BufTy).Contents (Elt F)) (wqk : (⟨S512x256, .f32⟩ : BufTy).Contents (Elt F)) : (⟨S8x4096x4096, .f32⟩ : BufTy).Contents (Elt F) :=
  st_v18 x wqk

/-- The linear layer's output over the attention weights and the tokens of `x`. -/
def resY (x : (⟨S8x256x64x64, .f32⟩ : BufTy).Contents (Elt F)) (wqk : (⟨S512x256, .f32⟩ : BufTy).Contents (Elt F)) (wout : (⟨S256x256, .f32⟩ : BufTy).Contents (Elt F)) (bout : (⟨S256, .f32⟩ : BufTy).Contents (Elt F)) : (⟨S8x256x64x64, .f32⟩ : BufTy).Contents (Elt F) :=
  st_v25 (st_v18 x wqk) (st_v1 x) wout bout

/-- The first result: the layer's output, normalized by its own channel means and variances, scaled, shifted and rectified. -/
def resAct (x : (⟨S8x256x64x64, .f32⟩ : BufTy).Contents (Elt F))
    (wqk : (⟨S512x256, .f32⟩ : BufTy).Contents (Elt F))
    (wout : (⟨S256x256, .f32⟩ : BufTy).Contents (Elt F))
    (bout : (⟨S256, .f32⟩ : BufTy).Contents (Elt F))
    (gamma : (⟨S256, .f32⟩ : BufTy).Contents (Elt F))
    (beta : (⟨S256, .f32⟩ : BufTy).Contents (Elt F)) : (⟨S8x256x64x64, .f32⟩ : BufTy).Contents (Elt F) :=
  st_v48 (resY x wqk wout bout) (st_v29 (resY x wqk wout bout)) (st_v30 (resY x wqk wout bout)) gamma beta

end Cert.ReferenceIdeal.Hand

end
-- ==== Proof.RefReadA.lean ====
/-
  The reference's attention stages read at one index, on the extended reals.

  With xcn the input with its two spatial axes flattened, [8, 256, 4096], and Wᵀ the query-key weights with the input
  channel first, [256, 512], the stages of the attention group are, entry by entry:
    the tokens              v1[b, n, c] = xcn[b, c, n];
    queries and keys        v3[b, n, e] = Σ_c xcn[b, c, n]·Wᵀ[c, e],  v4[b, n, e] = Σ_c xcn[b, c, n]·Wᵀ[c, 256 + e];
    the scaled scores       v7[b, i, j] = (Σ_d v3[b, i, d]·v4[b, j, d])·(1/16);
    the row maximum         v10[b, i] = max_j v7[b, i, j], the fold from −∞ (taking the maximum with −∞ once more
                            changes nothing);
    the exponentials        v14[b, i, j] = exp(v7[b, i, j] − v10[b, i]);
    the row sum             v15[b, i] = 0 + Σ_j v14[b, i, j];
    the attention weights   v18[b, i, j] = v14[b, i, j] / v15[b, i].
  Each is stated against the function of Spec.lean that names it. A contraction is read as the sum over its one shared
  axis, a slice shifts a coordinate, a transpose exchanges two, a broadcast forgets or repeats one, and a reduction
  along the last of three axes is the fold or the sum over that axis's coordinate.
-/
import proofs.«142206_j867583394375_2_alg».proof.Proof.RefStages
import proofs.«142206_j867583394375_2_alg».proof.Proof.Spec
import proofs.«142206_j867583394375_2_alg».proof.Proof.LibDotRead
import proofs.«142206_j867583394375_2_alg».proof.Proof.Lits
import Idealize.ShloMosaic.Lib.IdealHost
import Idealize.ShloMosaic.Lib.Pipeline.Value

noncomputable section

namespace Cert.ReferenceIdeal.Read

open Cert.ReferenceIdeal Cert.ReferenceIdeal.Gen Cert.ReferenceIdeal.Hand Idealize.ShloMosaic Idealize.SL.Sem
open Cert.Spec Idealize.ShloMosaic.ValueIdx

variable (x : (⟨S8x256x64x64, .f32⟩ : BufTy).Contents (Elt Ideal)) (wqk : (⟨S512x256, .f32⟩ : BufTy).Contents (Elt Ideal))

/-- The query-key weights with the input channel first: entry (c, e) is row e, column c of `wqk`. -/
def wT : Arr2 256 512 := fun i => wqk (ix2 (i 1 : Fin 512) (i 0 : Fin 256))

theorem wT_apply (c : Fin 256) (e : Fin 512) : wT wqk (ix2 c e) = wqk (ix2 e c) := rfl

/-- The tokens are the flattened input with its last two axes exchanged. -/
theorem v1_read (b : Fin 8) (n : Fin 4096) (c : Fin 256) : st_v1 x (ix3 b n c) = st_v0 x (ix3 b c n) := by
  unfold st_v1
  refine transpose_apply _ _ _ _ (ix3 b c n) ?_
  intro a
  match a with
  | ⟨0, _⟩ => rfl
  | ⟨1, _⟩ => rfl
  | ⟨2, _⟩ => rfl

/-! ### The projection -/

private abbrev dP := dot_S8x4096x256_S512x256_S8x4096x512_2_1_01_0_n_n

private theorem dP_rank : dP.contr.rank = 1 := Cert.DotRead.contr_rank_one dP (cl := 2) rfl

private theorem dP_size : dP.contr.size ⟨0, by rw [dP_rank]; exact Nat.one_pos⟩ = 256 :=
  Cert.DotRead.contr_size_one dP (cl := 2) rfl

private theorem dP_lhs (b : Fin 8) (n : Fin 4096) (e : Fin 512) (k : Fin 256) :
    dP.lhsIdx (ix3 b n e) ((contrEquiv1 dP 256 dP_rank dP_size).symm k) = ix3 b n k := by
  funext a
  apply Fin.ext
  match a with
  | ⟨0, _⟩ => exact Cert.DotRead.lhs_free_val dP (ix3 b n e) _ 0 (by decide) (by decide) 0 (by decide)
  | ⟨1, _⟩ => exact Cert.DotRead.lhs_free_val dP (ix3 b n e) _ 1 (by decide) (by decide) 1 (by decide)
  | ⟨2, _⟩ => exact Cert.DotRead.lhs_contr_val dP 256 dP_rank dP_size (cl := 2) rfl (ix3 b n e) k

private theorem dP_rhs (b : Fin 8) (n : Fin 4096) (e : Fin 512) (k : Fin 256) :
    dP.rhsIdx (ix3 b n e) ((contrEquiv1 dP 256 dP_rank dP_size).symm k) = ix2 e k := by
  funext a
  apply Fin.ext
  match a with
  | ⟨0, _⟩ => exact Cert.DotRead.rhs_free_val dP (ix3 b n e) _ 0 (by decide) (by decide) 2 (by decide)
  | ⟨1, _⟩ => exact Cert.DotRead.rhs_contr_val dP 256 dP_rank dP_size (cr := 1) rfl (ix3 b n e) k

/-- Queries and keys side by side, at token n and feature e: the token against row e of `wqk`. -/
theorem v2_read (b : Fin 8) (n : Fin 4096) (e : Fin 512) :
    st_v2 x wqk (ix3 b n e) = ∑ c : Fin 256, st_v1 x (ix3 b n c) * wqk (ix2 e c) := by
  unfold st_v2
  exact Cert.DotRead.dotGeneral_read dP 256 dP_rank dP_size none .single (st_v1 x) wqk (ix3 b n e)
    (fun k => ix3 b n k) (fun k => ix2 e k) (dP_lhs b n e) (dP_rhs b n e)

/-- The queries are features 0..255 of the side-by-side product. -/
theorem v3_read (b : Fin 8) (n : Fin 4096) (e : Fin 256) :
    st_v3 x wqk (ix3 b n e) = st_v2 x wqk (ix3 b n (⟨e.val, by omega⟩ : Fin 512)) := by
  unfold st_v3
  refine extractStridedSlice_apply _ _ _ _ (ix3 b n (⟨e.val, by omega⟩ : Fin 512)) ?_
  intro a
  match a with
  | ⟨0, _⟩ => show b.val = 0 + b.val; omega
  | ⟨1, _⟩ => show n.val = 0 + n.val; omega
  | ⟨2, _⟩ => show e.val = 0 + e.val; omega

/-- The keys are features 256..511 of the side-by-side product. -/
theorem v4_read (b : Fin 8) (n : Fin 4096) (e : Fin 256) :
    st_v4 x wqk (ix3 b n e) = st_v2 x wqk (ix3 b n (⟨256 + e.val, by omega⟩ : Fin 512)) := by
  unfold st_v4
  refine extractStridedSlice_apply _ _ _ _ (ix3 b n (⟨256 + e.val, by omega⟩ : Fin 512)) ?_
  intro a
  match a with
  | ⟨0, _⟩ => show b.val = 0 + b.val; omega
  | ⟨1, _⟩ => show n.val = 0 + n.val; omega
  | ⟨2, _⟩ => show 256 + e.val = 256 + e.val; rfl

/-- A1. The queries at (b, n, e): the flattened input's column n against the transposed weights' column e. -/
theorem A1 (b : Fin 8) (n : Fin 4096) (e : Fin 256) :
    st_v3 x wqk (ix3 b n e) = Spec.q (st_v0 x) (wT wqk) b n e := by
  rw [v3_read, v2_read]
  unfold Spec.q
  exact Finset.sum_congr rfl fun c _ => by rw [v1_read, wT_apply]

/-- A2. The keys at (b, n, e): the same against the transposed weights' column 256 + e. -/
theorem A2 (b : Fin 8) (n : Fin 4096) (e : Fin 256) :
    st_v4 x wqk (ix3 b n e) = Spec.k (st_v0 x) (wT wqk) b n e := by
  rw [v4_read, v2_read]
  unfold Spec.k
  exact Finset.sum_congr rfl fun c _ => by rw [v1_read, wT_apply]

/-! ### Host reductions along the last of three axes -/

section Rows3

variable {a b c : Nat} {φ : FTy} {u : Shape}

/-- The index over (p, q) with third coordinate k. -/
theorem lift_last3 (h : (⟨3, ![a, b, c]⟩ : Shape).Reduces [2] ⟨2, ![a, b]⟩) (p : Fin a) (q : Fin b) (k : Fin c) :
    h.lift (ix2 p q) k = ix3 p q k :=
  funext fun d => Fin.ext (by
    show h.liftVal (ix2 p q) k.val d = (ix3 p q k d).val
    unfold Shape.Reduces.liftVal
    match d with
    | ⟨0, _⟩ => rfl
    | ⟨1, _⟩ => rfl
    | ⟨2, _⟩ => rfl)

/-- The host's `reduce` with a maximum body along the third axis, at (p, q): the fold of `max` over that line from the
    initial value's element. -/
theorem lineMax_apply (v : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf v init h' hu (ix2 p q)
      = (Finset.univ : Finset (Fin c)).fold max (init (Shape.Idx.first hu)) (fun k => v (ix3 p q k)) := by
  rw [Host.reduce_eq_fold_single FloatOps.maximumf v init h' h hu]
  exact congrArg (fun f => Finset.fold max (init (Shape.Idx.first hu)) f (Finset.univ : Finset (Fin c)))
    (funext fun k => congrArg v (lift_last3 h p q k))

/-- The host's float sum along the third axis, at (p, q): the initial value's element plus the sum of that line. -/
theorem lineSum_apply (v : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd v init h' hu (ix2 p q) = init (Shape.Idx.first hu) + ∑ k : Fin c, v (ix3 p q k) := by
  rw [hostReduceAdd_apply, Ideal.hostReduceAdd_single h' h]
  exact congrArg (init (Shape.Idx.first hu) + ·) (Finset.sum_congr rfl fun k _ => congrArg v (lift_last3 h p q k))

end Rows3

/-! ### Host operations of one operand, and the quotient, at an index -/

section Unary

variable {s : Shape} {φ : FTy}

/-- The host's exponential at an index is the exponential of the element. -/
theorem hostExp_apply (v : FVec Ideal s φ) (i : s.Idx) : Host.exp v i = Ideal.exp (v i) := rfl

end Unary

/-! ### The scores -/

private abbrev dS := dot_S8x4096x256_S8x4096x256_S8x4096x4096_2_2_1_1_0_0

private theorem dS_rank : dS.contr.rank = 1 := Cert.DotRead.contr_rank_one dS (cl := 2) rfl

private theorem dS_size : dS.contr.size ⟨0, by rw [dS_rank]; exact Nat.one_pos⟩ = 256 :=
  Cert.DotRead.contr_size_one dS (cl := 2) rfl

private theorem dS_lhs (b : Fin 8) (i j : Fin 4096) (k : Fin 256) :
    dS.lhsIdx (ix3 b i j) ((contrEquiv1 dS 256 dS_rank dS_size).symm k) = ix3 b i k := by
  funext a
  apply Fin.ext
  match a with
  | ⟨0, _⟩ => exact Cert.DotRead.lhs_batch_val dS (ix3 b i j) _ 0 (by decide) 0 (by decide)
  | ⟨1, _⟩ => exact Cert.DotRead.lhs_free_val dS (ix3 b i j) _ 1 (by decide) (by decide) 1 (by decide)
  | ⟨2, _⟩ => exact Cert.DotRead.lhs_contr_val dS 256 dS_rank dS_size (cl := 2) rfl (ix3 b i j) k

private theorem dS_rhs (b : Fin 8) (i j : Fin 4096) (k : Fin 256) :
    dS.rhsIdx (ix3 b i j) ((contrEquiv1 dS 256 dS_rank dS_size).symm k) = ix3 b j k := by
  funext a
  apply Fin.ext
  match a with
  | ⟨0, _⟩ => exact Cert.DotRead.rhs_batch_val dS (ix3 b i j) _ 0 (by decide) 0 (by decide)
  | ⟨1, _⟩ => exact Cert.DotRead.rhs_free_val dS (ix3 b i j) _ 1 (by decide) (by decide) 2 (by decide)
  | ⟨2, _⟩ => exact Cert.DotRead.rhs_contr_val dS 256 dS_rank dS_size (cr := 2) rfl (ix3 b i j) k

/-- The scores at (b, i, j): query i against key j. -/
theorem v5_read (b : Fin 8) (i j : Fin 4096) :
    st_v5 x wqk (ix3 b i j) = ∑ d : Fin 256, st_v3 x wqk (ix3 b i d) * st_v4 x wqk (ix3 b j d) := by
  unfold st_v5
  exact Cert.DotRead.dotGeneral_read dS 256 dS_rank dS_size none .single (st_v3 x wqk) (st_v4 x wqk) (ix3 b i j)
    (fun k => ix3 b i k) (fun k => ix3 b j k) (dS_lhs b i j) (dS_rhs b i j)

/-- The scale at every score. -/
theorem v6_read (j : S8x4096x4096.Idx) : st_v6 (F := Ideal) j = lit 0x3D800000#32 := by
  unfold st_v6
  exact broadcastInDim_scalar_apply bcast_S_S8x4096x4096 _ j

/-- The scaled scores, over the queries and keys as stages. -/
theorem v7_read (b : Fin 8) (i j : Fin 4096) :
    st_v7 x wqk (ix3 b i j)
      = (∑ d : Fin 256, st_v3 x wqk (ix3 b i d) * st_v4 x wqk (ix3 b j d)) * lit 0x3D800000#32 := by
  unfold st_v7
  rw [mulf_apply, v5_read, v6_read]

/-- A3. The scaled scores. -/
theorem A3 (b : Fin 8) (i j : Fin 4096) :
    st_v7 x wqk (ix3 b i j) = Spec.dots (st_v3 x wqk) (st_v4 x wqk) b i j := by
  unfold Spec.dots
  exact v7_read x wqk b i j

/-! ### The row maximum -/

private theorem red2 : S8x4096x4096.Reduces [2] S8x4096 := by decide

/-- Each row's maximum over the keys: the fold of the maximum from minus infinity. -/
theorem v8_read (b : Fin 8) (i : Fin 4096) :
    st_v8 x wqk (ix2 b i)
      = (Finset.univ : Finset (Fin 4096)).fold max (lit 0xFF800000#32) (fun j => st_v7 x wqk (ix3 b i j)) := by
  unfold st_v8
  exact lineMax_apply (st_v7 x wqk) (st_cst_0 (F := Ideal)) reducesTo_S8x4096x4096_S8x4096_d2 red2 h_S_ b i

/-- Minus infinity at every row. -/
theorem v9_read (j : S8x4096.Idx) : st_v9 (F := Ideal) j = lit 0xFF800000#32 := by
  unfold st_v9
  exact broadcastInDim_scalar_apply bcast_S_S8x4096 _ j

/-- The row maximum, against minus infinity, over the scaled scores as a stage. -/
theorem v10_read (b : Fin 8) (i : Fin 4096) :
    st_v10 x wqk (ix2 b i)
      = max (lit 0xFF800000#32)
          ((Finset.univ : Finset (Fin 4096)).fold max (lit 0xFF800000#32) (fun j => st_v7 x wqk (ix3 b i j))) := by
  unfold st_v10
  rw [maximumf_apply, v9_read, v8_read]

/-- A4. The row maximum, against minus infinity, is the row maximum. -/
theorem A4 (b : Fin 8) (i : Fin 4096) :
    st_v10 x wqk (ix2 b i) = Spec.rowMax (st_v3 x wqk) (st_v4 x wqk) b i := by
  rw [v10_read]
  unfold Spec.rowMax
  rw [show (fun j => st_v7 x wqk (ix3 b i j)) = fun j => Spec.dots (st_v3 x wqk) (st_v4 x wqk) b i j from
    funext fun j => A3 x wqk b i j]
  generalize (Finset.univ : Finset (Fin 4096)).fold max (lit 0xFF800000#32)
    (fun j => Spec.dots (st_v3 x wqk) (st_v4 x wqk) b i j) = m
  rw [show lit 0xFF800000#32 = ⊥ from Cert.Lits.negInf]
  exact max_bot_left m

/-- The row maximum with a unit key axis. -/
theorem v11_read (b : Fin 8) (i : Fin 4096) (u : Fin 1) : st_v11 x wqk (ix3 b i u) = st_v10 x wqk (ix2 b i) := by
  unfold st_v11
  refine broadcastInDim_apply _ _ _ _ (ix2 b i) ?_
  intro a
  match a with
  | ⟨0, _⟩ => rfl
  | ⟨1, _⟩ => rfl

/-- The row maximum at every key. -/
theorem v12_read (b : Fin 8) (i j : Fin 4096) : st_v12 x wqk (ix3 b i j) = st_v10 x wqk (ix2 b i) := by
  unfold st_v12
  refine (broadcastInDim_apply _ _ _ _ (ix3 b i (0 : Fin 1)) ?_).trans (v11_read x wqk b i 0)
  intro a
  match a with
  | ⟨0, _⟩ => rfl
  | ⟨1, _⟩ => rfl
  | ⟨2, _⟩ => rfl

/-- A5. The exponentials of the scores less their row maximum. -/
theorem A5 (b : Fin 8) (i j : Fin 4096) :
    st_v14 x wqk (ix3 b i j) = Spec.p (st_v3 x wqk) (st_v4 x wqk) b i j := by
  unfold st_v14 Spec.p
  rw [hostExp_apply]
  unfold st_v13
  rw [subf_apply, A3, v12_read, A4]

/-- Each row's sum of exponentials, from the initial zero. -/
theorem v15_read (b : Fin 8) (i : Fin 4096) :
    st_v15 x wqk (ix2 b i) = lit 0x00000000#32 + ∑ j : Fin 4096, st_v14 x wqk (ix3 b i j) := by
  unfold st_v15
  exact lineSum_apply (st_v14 x wqk) (st_cst_2 (F := Ideal)) reducesTo_S8x4096x4096_S8x4096_d2 red2 h_S_ b i

/-- A6. Each row's sum of exponentials, from the initial zero. -/
theorem A6 (b : Fin 8) (i : Fin 4096) :
    st_v15 x wqk (ix2 b i) = lit 0x00000000#32 + Spec.rowSum (st_v3 x wqk) (st_v4 x wqk) b i := by
  rw [v15_read]
  unfold Spec.rowSum
  rw [show (fun j => st_v14 x wqk (ix3 b i j)) = fun j => Spec.p (st_v3 x wqk) (st_v4 x wqk) b i j from
    funext fun j => A5 x wqk b i j]

/-- The row sum with a unit key axis. -/
theorem v16_read (b : Fin 8) (i : Fin 4096) (u : Fin 1) : st_v16 x wqk (ix3 b i u) = st_v15 x wqk (ix2 b i) := by
  unfold st_v16
  refine broadcastInDim_apply _ _ _ _ (ix2 b i) ?_
  intro a
  match a with
  | ⟨0, _⟩ => rfl
  | ⟨1, _⟩ => rfl

/-- The row sum at every key. -/
theorem v17_read (b : Fin 8) (i j : Fin 4096) : st_v17 x wqk (ix3 b i j) = st_v15 x wqk (ix2 b i) := by
  unfold st_v17
  refine (broadcastInDim_apply _ _ _ _ (ix3 b i (0 : Fin 1)) ?_).trans (v16_read x wqk b i 0)
  intro a
  match a with
  | ⟨0, _⟩ => rfl
  | ⟨1, _⟩ => rfl
  | ⟨2, _⟩ => rfl

/-- A7. The attention weights: each exponential over its row's sum. -/
theorem A7 (b : Fin 8) (i j : Fin 4096) :
    st_v18 x wqk (ix3 b i j)
      = Ideal.div (Spec.p (st_v3 x wqk) (st_v4 x wqk) b i j)
          (lit 0x00000000#32 + Spec.rowSum (st_v3 x wqk) (st_v4 x wqk) b i) := by
  unfold st_v18
  rw [hostDivf_apply, A5, v17_read, A6]

end Cert.ReferenceIdeal.Read

end
-- ==== Proof.RefReadB.lean ====
import proofs.«142206_j867583394375_2_alg».proof.Proof.RefStages
import proofs.«142206_j867583394375_2_alg».proof.Proof.Spec
import proofs.«142206_j867583394375_2_alg».proof.Proof.LibDotRead
import proofs.«142206_j867583394375_2_alg».proof.Proof.Lits
import Idealize.ShloMosaic.Lib.IdealHost
import Idealize.ShloMosaic.Lib.Pipeline.Value

/-! # The linear layer, entry by entry

At the extended reals: the attention weights applied to the tokens are, at (b, n, c), the sum over the keys j of the
weight (b, n, j) times the token (b, j, c); the product with the output weights contracts the channel against the ROWS
of the weight array, so at (b, n, o) it is the sum over c of the weighted token (b, n, c) times the weight (o, c); the
bias is repeated over batch and tokens; the transpose and the reshape to an image batch only move coordinates: pixel
(h, w) of channel o is token 64·h + w. -/

noncomputable section

namespace Cert.ReferenceIdeal.Read

open Cert.ReferenceIdeal Cert.ReferenceIdeal.Gen Cert.ReferenceIdeal.Hand Idealize.ShloMosaic Idealize.SL.Sem
open Cert.Spec Idealize.ShloMosaic.ValueIdx

variable (attn : (⟨S8x4096x4096, .f32⟩ : BufTy).Contents (Elt Ideal)) (nf : (⟨S8x4096x256, .f32⟩ : BufTy).Contents (Elt Ideal))
  (wout : (⟨S256x256, .f32⟩ : BufTy).Contents (Elt Ideal)) (bout : (⟨S256, .f32⟩ : BufTy).Contents (Elt Ideal))

/-! ### The weights applied to the tokens -/

private abbrev dC := dot_S8x4096x4096_S8x4096x256_S8x4096x256_2_1_1_2_0_0

private theorem dC_rank : dC.contr.rank = 1 := Cert.DotRead.contr_rank_one dC (cl := 2) rfl

private theorem dC_size : dC.contr.size ⟨0, by rw [dC_rank]; exact Nat.one_pos⟩ = 4096 :=
  Cert.DotRead.contr_size_one dC (cl := 2) rfl

private theorem dC_lhs (b : Fin 8) (n : Fin 4096) (c : Fin 256) (k : Fin 4096) :
    dC.lhsIdx (ix3 b n c) ((contrEquiv1 dC 4096 dC_rank dC_size).symm k) = ix3 b n k := by
  funext a
  apply Fin.ext
  match a with
  | ⟨0, _⟩ => exact Cert.DotRead.lhs_batch_val dC (ix3 b n c) _ 0 (by decide) 0 (by decide)
  | ⟨1, _⟩ => exact Cert.DotRead.lhs_free_val dC (ix3 b n c) _ 1 (by decide) (by decide) 1 (by decide)
  | ⟨2, _⟩ => exact Cert.DotRead.lhs_contr_val dC 4096 dC_rank dC_size (cl := 2) rfl (ix3 b n c) k

private theorem dC_rhs (b : Fin 8) (n : Fin 4096) (c : Fin 256) (k : Fin 4096) :
    dC.rhsIdx (ix3 b n c) ((contrEquiv1 dC 4096 dC_rank dC_size).symm k) = ix3 b k c := by
  funext a
  apply Fin.ext
  match a with
  | ⟨0, _⟩ => exact Cert.DotRead.rhs_batch_val dC (ix3 b n c) _ 0 (by decide) 0 (by decide)
  | ⟨1, _⟩ => exact Cert.DotRead.rhs_contr_val dC 4096 dC_rank dC_size (cr := 1) rfl (ix3 b n c) k
  | ⟨2, _⟩ => exact Cert.DotRead.rhs_free_val dC (ix3 b n c) _ 2 (by decide) (by decide) 2 (by decide)

/-- The weighted tokens at (b, n, c): row n of the weights against channel c of the tokens. -/
theorem v19_read (b : Fin 8) (n : Fin 4096) (c : Fin 256) :
    st_v19 attn nf (ix3 b n c) = ∑ j : Fin 4096, attn (ix3 b n j) * nf (ix3 b j c) := by
  unfold st_v19
  exact Cert.DotRead.dotGeneral_read dC 4096 dC_rank dC_size none .single attn nf (ix3 b n c)
    (fun k => ix3 b n k) (fun k => ix3 b k c) (dC_lhs b n c) (dC_rhs b n c)

/-! ### The linear layer -/

private abbrev dL := dot_S8x4096x256_S256x256_S8x4096x256_2_1_01_0_n_n

private theorem dL_rank : dL.contr.rank = 1 := Cert.DotRead.contr_rank_one dL (cl := 2) rfl

private theorem dL_size : dL.contr.size ⟨0, by rw [dL_rank]; exact Nat.one_pos⟩ = 256 :=
  Cert.DotRead.contr_size_one dL (cl := 2) rfl

private theorem dL_lhs (b : Fin 8) (n : Fin 4096) (o : Fin 256) (k : Fin 256) :
    dL.lhsIdx (ix3 b n o) ((contrEquiv1 dL 256 dL_rank dL_size).symm k) = ix3 b n k := by
  funext a
  apply Fin.ext
  match a with
  | ⟨0, _⟩ => exact Cert.DotRead.lhs_free_val dL (ix3 b n o) _ 0 (by decide) (by decide) 0 (by decide)
  | ⟨1, _⟩ => exact Cert.DotRead.lhs_free_val dL (ix3 b n o) _ 1 (by decide) (by decide) 1 (by decide)
  | ⟨2, _⟩ => exact Cert.DotRead.lhs_contr_val dL 256 dL_rank dL_size (cl := 2) rfl (ix3 b n o) k

private theorem dL_rhs (b : Fin 8) (n : Fin 4096) (o : Fin 256) (k : Fin 256) :
    dL.rhsIdx (ix3 b n o) ((contrEquiv1 dL 256 dL_rank dL_size).symm k) = ix2 o k := by
  funext a
  apply Fin.ext
  match a with
  | ⟨0, _⟩ => exact Cert.DotRead.rhs_free_val dL (ix3 b n o) _ 0 (by decide) (by decide) 2 (by decide)
  | ⟨1, _⟩ => exact Cert.DotRead.rhs_contr_val dL 256 dL_rank dL_size (cr := 1) rfl (ix3 b n o) k

/-- The product with `wout` at (b, n, o): the weighted token against row o of `wout`. -/
theorem v20_read (b : Fin 8) (n : Fin 4096) (o : Fin 256) :
    st_v20 attn nf wout (ix3 b n o) = ∑ c : Fin 256, st_v19 attn nf (ix3 b n c) * wout (ix2 o c) := by
  unfold st_v20
  exact Cert.DotRead.dotGeneral_read dL 256 dL_rank dL_size none .single (st_v19 attn nf) wout (ix3 b n o)
    (fun k => ix3 b n k) (fun k => ix2 o k) (dL_lhs b n o) (dL_rhs b n o)

/-- The bias at every token. -/
theorem v22_read (b : Fin 8) (n : Fin 4096) (o : Fin 256) : st_v22 bout (ix3 b n o) = bout (ix1 o) := by
  unfold st_v22
  refine (broadcastInDim_apply ![0, 1, 2] bcast_S1x1x256_S8x4096x256_0_1_2 (st_v21 bout) (ix3 b n o)
    (ix3 (0 : Fin 1) (0 : Fin 1) o) (fun a => by
      match a with
      | ⟨0, _⟩ => rfl
      | ⟨1, _⟩ => rfl
      | ⟨2, _⟩ => rfl)).trans ?_
  unfold st_v21
  exact broadcastInDim_apply ![2] bcast_S256_S1x1x256_2 bout (ix3 (0 : Fin 1) (0 : Fin 1) o) (ix1 o) (fun a => by
    match a with
    | ⟨0, _⟩ => rfl)

/-- B1. The linear layer's output at (b, n, o). -/
theorem B1 (b : Fin 8) (n : Fin 4096) (o : Fin 256) :
    st_v23 attn nf wout bout (ix3 b n o)
      = (∑ c : Fin 256, (∑ j : Fin 4096, attn (ix3 b n j) * nf (ix3 b j c)) * wout (ix2 o c)) + bout (ix1 o) := by
  show st_v20 attn nf wout (ix3 b n o) + st_v22 bout (ix3 b n o) = _
  rw [v20_read, v22_read]
  exact congrArg (· + bout (ix1 o)) (Finset.sum_congr rfl fun c _ => by rw [v19_read])

/-- Channels back before the tokens. -/
theorem v24_read (b : Fin 8) (o : Fin 256) (n : Fin 4096) :
    st_v24 attn nf wout bout (ix3 b o n) = st_v23 attn nf wout bout (ix3 b n o) := by
  unfold st_v24
  exact transpose_apply [0, 2, 1] (st_v23 attn nf wout bout) transposes_S8x4096x256_S8x256x4096_0_2_1 (ix3 b o n) (ix3 b n o)
    (fun a => by
      match a with
      | ⟨0, _⟩ => rfl
      | ⟨1, _⟩ => rfl
      | ⟨2, _⟩ => rfl)

/-- B2. The layer's output as an image batch: pixel (h, w) of channel o is token 64·h + w. -/
theorem B2 (b : Fin 8) (o : Fin 256) (h w : Fin 64) :
    st_v25 attn nf wout bout (ix4 b o h w)
      = st_v23 attn nf wout bout (ix3 b (⟨64 * h.val + w.val, by omega⟩ : Fin 4096) o) := by
  unfold st_v25
  refine (shapeCast_apply (st_v24 attn nf wout bout) shapeCasts_S8x256x4096_S8x256x64x64 (ix4 b o h w)
    (ix3 b o (⟨64 * h.val + w.val, by omega⟩ : Fin 4096)) ?_).trans (v24_read attn nf wout bout b o _)
  rw [Shape.rowMajor_val_three, Shape.rowMajor_val_four]
  show (b.val * 256 + o.val) * 4096 + (64 * h.val + w.val) = ((b.val * 256 + o.val) * 64 + h.val) * 64 + w.val
  omega

end Cert.ReferenceIdeal.Read

end
-- ==== Proof.RefReadE.lean ====
import proofs.«142206_j867583394375_2_alg».proof.Proof.RefStages
import proofs.«142206_j867583394375_2_alg».proof.Proof.Spec
import proofs.«142206_j867583394375_2_alg».proof.Proof.Lits
import Idealize.ShloMosaic.Lib.IdealHost
import Idealize.ShloMosaic.Lib.Pipeline.Value

/-! # Normalization and the rectifier, entry by entry

At the extended reals, each stage of the last group read at an index: the per-channel arrays `mean`, `var`, `gamma`,
`beta` are read at the entry's channel, and the result at `(b, o, h, w)` is the leaky rectifier of
`((y − mean)·rsqrt(var + ε))·gamma + beta`. -/

noncomputable section

open scoped BigOperators

namespace Cert.ReferenceIdeal.Read

open Cert.ReferenceIdeal Cert.ReferenceIdeal.Gen Cert.ReferenceIdeal.Hand Cert.Spec Idealize.ShloMosaic Idealize.ShloMosaic.ValueIdx

/-! ## Two placements of a per-channel array -/

/-- A per-channel array `[1,256,1,1]` spread over batch and space reads its channel's entry. -/
theorem spread_apply {α : Type} (v : S1x256x1x1.Idx → α) (b : Fin 8) (o : Fin 256) (h w : Fin 64) :
    broadcastInDim S8x256x64x64 ![0, 1, 2, 3] bcast_S1x256x1x1_S8x256x64x64_0_1_2_3 v (ix4 b o h w) = v (ix4 0 o 0 0) :=
  broadcastInDim_apply _ _ v (ix4 b o h w) (ix4 0 o 0 0) fun a =>
    match a with | ⟨0, _⟩ => rfl | ⟨1, _⟩ => rfl | ⟨2, _⟩ => rfl | ⟨3, _⟩ => rfl

/-- A vector `[256]` placed on the channel axis of `[1,256,1,1]` reads its entry. -/
theorem chan_apply {α : Type} (g : S256.Idx → α) (a : Fin 1) (o : Fin 256) (c d : Fin 1) :
    broadcastInDim S1x256x1x1 ![1] bcast_S256_S1x256x1x1_1 g (ix4 a o c d) = g (ix1 o) :=
  broadcastInDim_apply _ _ g (ix4 a o c d) (ix1 o) fun a =>
    match a with | ⟨0, _⟩ => rfl

/-! ## The stages -/

theorem st_v31_apply (mean : (⟨S1x256x1x1, .f32⟩ : BufTy).Contents (Elt Ideal)) (b : Fin 8) (o : Fin 256) (h w : Fin 64) : st_v31 (F := Ideal) mean (ix4 b o h w) = mean (ix4 0 o 0 0) :=
  spread_apply mean b o h w

theorem st_v32_apply (y : (⟨S8x256x64x64, .f32⟩ : BufTy).Contents (Elt Ideal)) (mean : (⟨S1x256x1x1, .f32⟩ : BufTy).Contents (Elt Ideal)) (b : Fin 8) (o : Fin 256) (h w : Fin 64) : st_v32 (F := Ideal) y mean (ix4 b o h w) = y (ix4 b o h w) - mean (ix4 0 o 0 0) := by
  unfold st_v32; rw [subf_apply, st_v31_apply]

theorem st_v33_apply (j : S1x256x1x1.Idx) : st_v33 (F := Ideal) j = lit 0x3727C5AC#32 :=
  broadcastInDim_scalar_apply _ _ j

theorem st_v34_apply (var : (⟨S1x256x1x1, .f32⟩ : BufTy).Contents (Elt Ideal)) (j : S1x256x1x1.Idx) : st_v34 (F := Ideal) var j = var j + lit 0x3727C5AC#32 := by
  unfold st_v34; rw [addf_apply, st_v33_apply]

theorem st_v35_apply (var : (⟨S1x256x1x1, .f32⟩ : BufTy).Contents (Elt Ideal)) (j : S1x256x1x1.Idx) : st_v35 (F := Ideal) var j = Ideal.rsqrt (var j + lit 0x3727C5AC#32) := by
  unfold st_v35; exact congrArg Ideal.rsqrt (st_v34_apply var j)

theorem st_v36_apply (var : (⟨S1x256x1x1, .f32⟩ : BufTy).Contents (Elt Ideal)) (b : Fin 8) (o : Fin 256) (h w : Fin 64) : st_v36 (F := Ideal) var (ix4 b o h w) = Ideal.rsqrt (var (ix4 0 o 0 0) + lit 0x3727C5AC#32) :=
  (spread_apply (st_v35 (F := Ideal) var) b o h w).trans (st_v35_apply var _)

theorem st_v37_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (b : Fin 8) (o : Fin 256) (h w : Fin 64) :
    st_v37 (F := Ideal) y mean var (ix4 b o h w) = (y (ix4 b o h w) - mean (ix4 0 o 0 0)) * Ideal.rsqrt (var (ix4 0 o 0 0) + lit 0x3727C5AC#32) := by
  unfold st_v37; rw [mulf_apply, st_v32_apply, st_v36_apply]

theorem st_v38_apply (gamma : (⟨S256, .f32⟩ : BufTy).Contents (Elt Ideal)) (a : Fin 1) (o : Fin 256) (c d : Fin 1) : st_v38 (F := Ideal) gamma (ix4 a o c d) = gamma (ix1 o) :=
  chan_apply gamma a o c d

theorem st_v39_apply (gamma : (⟨S256, .f32⟩ : BufTy).Contents (Elt Ideal)) (b : Fin 8) (o : Fin 256) (h w : Fin 64) : st_v39 (F := Ideal) gamma (ix4 b o h w) = gamma (ix1 o) :=
  (spread_apply (st_v38 (F := Ideal) gamma) b o h w).trans (st_v38_apply gamma 0 o 0 0)

theorem st_v40_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (gamma : (⟨S256, .f32⟩ : BufTy).Contents (Elt Ideal)) (b : Fin 8) (o : Fin 256) (h w : Fin 64) :
    st_v40 (F := Ideal) y mean var gamma (ix4 b o h w) = (y (ix4 b o h w) - mean (ix4 0 o 0 0)) * Ideal.rsqrt (var (ix4 0 o 0 0) + lit 0x3727C5AC#32) * gamma (ix1 o) := by
  unfold st_v40; rw [mulf_apply, st_v37_apply, st_v39_apply]

theorem st_v41_apply (beta : (⟨S256, .f32⟩ : BufTy).Contents (Elt Ideal)) (a : Fin 1) (o : Fin 256) (c d : Fin 1) : st_v41 (F := Ideal) beta (ix4 a o c d) = beta (ix1 o) :=
  chan_apply beta a o c d

theorem st_v42_apply (beta : (⟨S256, .f32⟩ : BufTy).Contents (Elt Ideal)) (b : Fin 8) (o : Fin 256) (h w : Fin 64) : st_v42 (F := Ideal) beta (ix4 b o h w) = beta (ix1 o) :=
  (spread_apply (st_v41 (F := Ideal) beta) b o h w).trans (st_v41_apply beta 0 o 0 0)

/-- The batch-normalized value at an entry. -/
theorem st_v43_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (gamma : (⟨S256, .f32⟩ : BufTy).Contents (Elt Ideal)) (beta : (⟨S256, .f32⟩ : BufTy).Contents (Elt Ideal)) (b : Fin 8) (o : Fin 256) (h w : Fin 64) :
    st_v43 (F := Ideal) y mean var gamma beta (ix4 b o h w) = (y (ix4 b o h w) - mean (ix4 0 o 0 0)) * Ideal.rsqrt (var (ix4 0 o 0 0) + lit 0x3727C5AC#32) * gamma (ix1 o) + beta (ix1 o) := by
  unfold st_v43; rw [addf_apply, st_v40_apply, st_v42_apply]

theorem st_v44_apply (j : S8x256x64x64.Idx) : st_v44 (F := Ideal) j = lit 0x00000000#32 :=
  broadcastInDim_scalar_apply _ _ j

theorem st_v45_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (gamma : (⟨S256, .f32⟩ : BufTy).Contents (Elt Ideal)) (beta : (⟨S256, .f32⟩ : BufTy).Contents (Elt Ideal)) (b : Fin 8) (o : Fin 256) (h w : Fin 64) :
    st_v45 (F := Ideal) y mean var gamma beta (ix4 b o h w) = Ideal.cmp .oge ((y (ix4 b o h w) - mean (ix4 0 o 0 0)) * Ideal.rsqrt (var (ix4 0 o 0 0) + lit 0x3727C5AC#32) * gamma (ix1 o) + beta (ix1 o)) (lit 0x00000000#32) := by
  unfold st_v45; rw [cmpf_apply, st_v43_apply, st_v44_apply]; rfl

theorem st_v46_apply (j : S8x256x64x64.Idx) : st_v46 (F := Ideal) j = lit 0x3C23D70A#32 :=
  broadcastInDim_scalar_apply _ _ j

theorem st_v47_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (gamma : (⟨S256, .f32⟩ : BufTy).Contents (Elt Ideal)) (beta : (⟨S256, .f32⟩ : BufTy).Contents (Elt Ideal)) (b : Fin 8) (o : Fin 256) (h w : Fin 64) :
    st_v47 (F := Ideal) y mean var gamma beta (ix4 b o h w) = lit 0x3C23D70A#32 * ((y (ix4 b o h w) - mean (ix4 0 o 0 0)) * Ideal.rsqrt (var (ix4 0 o 0 0) + lit 0x3727C5AC#32) * gamma (ix1 o) + beta (ix1 o)) := by
  unfold st_v47; rw [mulf_apply, st_v46_apply, st_v43_apply]

/-- The first result at an entry: the leaky rectifier of the batch-normalized value. -/
theorem st_v48_apply (y : (⟨S8x256x64x64, .f32⟩ : BufTy).Contents (Elt Ideal)) (mean : (⟨S1x256x1x1, .f32⟩ : BufTy).Contents (Elt Ideal)) (var : (⟨S1x256x1x1, .f32⟩ : BufTy).Contents (Elt Ideal)) (gamma : (⟨S256, .f32⟩ : BufTy).Contents (Elt Ideal)) (beta : (⟨S256, .f32⟩ : BufTy).Contents (Elt Ideal)) (b : Fin 8) (o : Fin 256) (h w : Fin 64) :
    st_v48 (F := Ideal) y mean var gamma beta (ix4 b o h w) = leaky ((y (ix4 b o h w) - mean (ix4 0 o 0 0)) * Ideal.rsqrt (var (ix4 0 o 0 0) + lit 0x3727C5AC#32) * gamma (ix1 o) + beta (ix1 o)) := by
  unfold st_v48 leaky; rw [select_apply, st_v45_apply, st_v43_apply, st_v47_apply]

end Cert.ReferenceIdeal.Read

end
-- ==== Proof.RefReadC.lean ====
import proofs.«142206_j867583394375_2_alg».proof.Proof.RefStages
import proofs.«142206_j867583394375_2_alg».proof.Proof.Spec
import proofs.«142206_j867583394375_2_alg».proof.Proof.Lits
import Idealize.ShloMosaic.Lib.IdealHost
import Idealize.ShloMosaic.Lib.Pipeline.Value
import proofs.«142206_j867583394375_2_alg».proof.Proof.RefReadE

/-! # The channel means, entry by entry

At the extended reals: the sum the reference takes over batch and space is, at channel `o`, the initial value plus the
triple sum over `(b, h, w)` of the entries `(b, o, h, w)`; the mean is that sum over the count `32768`. The sum over
the indices that drop to `o` is re-indexed by the bijection `(b, h, w) ↦ (b, o, h, w)`. -/

noncomputable section

open scoped BigOperators

namespace Cert.ReferenceIdeal.Read

open Cert.ReferenceIdeal Cert.ReferenceIdeal.Gen Cert.ReferenceIdeal.Hand Cert.Spec Idealize.ShloMosaic Idealize.ShloMosaic.ValueIdx

/-! ## The indices of one channel -/

/-- Dropping batch and space from an index leaves its channel. -/
theorem drop_chan (i : S8x256x64x64.Idx) : ((reducesTo_S8x256x64x64_S256_d0_2_3).drop i 0 : Nat) = i 1 :=
  Shape.ReducesTo.drop_apply_val_of_eq reducesTo_S8x256x64x64_S256_d0_2_3 i 0 1

/-- An index drops to channel `o` exactly when its channel is `o`. -/
theorem drop_eq_iff (i : S8x256x64x64.Idx) (o : Fin 256) : (reducesTo_S8x256x64x64_S256_d0_2_3).drop i = (ix1 o : S256.Idx) ↔ (i 1 : Nat) = o := by
  constructor
  · intro e
    have := congrArg (fun j : S256.Idx => (j 0 : Nat)) e
    simpa [drop_chan] using this
  · intro e
    funext a
    obtain rfl : a = 0 := Subsingleton.elim _ _
    exact Fin.ext ((drop_chan i).trans e)

/-- A sum over the indices that drop to channel `o` is the triple sum over batch and space at that channel. -/
theorem sum_chan {M : Type} [AddCommMonoid M] (f : S8x256x64x64.Idx → M) (o : Fin 256)
    [DecidablePred fun i : S8x256x64x64.Idx => (reducesTo_S8x256x64x64_S256_d0_2_3).drop i = (ix1 o : S256.Idx)] :
    ∑ i ∈ Finset.univ.filter (fun i : S8x256x64x64.Idx => (reducesTo_S8x256x64x64_S256_d0_2_3).drop i = (ix1 o : S256.Idx)), f i
      = ∑ b : Fin 8, ∑ h : Fin 64, ∑ w : Fin 64, f (ix4 b o h w) := by
  have hR : (∑ b : Fin 8, ∑ h : Fin 64, ∑ w : Fin 64, f (ix4 b o h w)) = ∑ p : Fin 8 × Fin 64 × Fin 64, f (ix4 p.1 o p.2.1 p.2.2) := by
    simp only [Fintype.sum_prod_type]
  rw [hR]
  refine Finset.sum_bij' (fun i _ => ((i 0 : Fin 8), (i 2 : Fin 64), (i 3 : Fin 64))) (fun p _ => ix4 p.1 o p.2.1 p.2.2)
    (fun _ _ => Finset.mem_univ _) ?_ ?_ ?_ ?_
  · intro p _
    exact Finset.mem_filter.mpr ⟨Finset.mem_univ _, (drop_eq_iff _ o).mpr rfl⟩
  · intro i hi
    have ho : (i 1 : Nat) = o := (drop_eq_iff i o).mp (Finset.mem_filter.mp hi).2
    funext a
    match a with
    | ⟨0, _⟩ => rfl
    | ⟨1, _⟩ => exact Fin.ext ho.symm
    | ⟨2, _⟩ => rfl
    | ⟨3, _⟩ => rfl
  · intro p _
    rfl
  · intro i hi
    have ho : (i 1 : Nat) = o := (drop_eq_iff i o).mp (Finset.mem_filter.mp hi).2
    refine congrArg f ?_
    funext a
    match a with
    | ⟨0, _⟩ => rfl
    | ⟨1, _⟩ => exact Fin.ext ho
    | ⟨2, _⟩ => rfl
    | ⟨3, _⟩ => rfl

/-- The reference's sum over batch and space, from any initial value: the initial value plus the triple sum. -/
theorem hostReduceAdd_chan (y : S8x256x64x64.Idx → EReal) (init : EReal) (o : Fin 256) :
    Ideal.hostReduceAdd reducesTo_S8x256x64x64_S256_d0_2_3 y init (ix1 o) = init + ∑ b : Fin 8, ∑ h : Fin 64, ∑ w : Fin 64, y (ix4 b o h w) := by
  unfold Ideal.hostReduceAdd
  exact congrArg (init + ·) (sum_chan y o)

/-! ## The stages -/

/-- Each channel's sum. -/
theorem st_v26_apply (y : (⟨S8x256x64x64, .f32⟩ : BufTy).Contents (Elt Ideal)) (o : Fin 256) :
    st_v26 (F := Ideal) y (ix1 o) = lit 0x00000000#32 + ∑ b : Fin 8, ∑ h : Fin 64, ∑ w : Fin 64, y (ix4 b o h w) :=
  (hostReduceAdd_apply y _ reducesTo_S8x256x64x64_S256_d0_2_3 h_S_ (ix1 o)).trans (hostReduceAdd_chan y _ o)

theorem st_v27_apply (y : (⟨S8x256x64x64, .f32⟩ : BufTy).Contents (Elt Ideal)) (a : Fin 1) (o : Fin 256) (c d : Fin 1) :
    st_v27 (F := Ideal) y (ix4 a o c d) = lit 0x00000000#32 + ∑ b : Fin 8, ∑ h : Fin 64, ∑ w : Fin 64, y (ix4 b o h w) :=
  (chan_apply (st_v26 (F := Ideal) y) a o c d).trans (st_v26_apply y o)

theorem st_v28_apply (j : S1x256x1x1.Idx) : st_v28 (F := Ideal) j = lit 0x47000000#32 :=
  broadcastInDim_scalar_apply _ _ j

/-- Each channel's mean: its sum over the count. -/
theorem st_v29_apply (y : (⟨S8x256x64x64, .f32⟩ : BufTy).Contents (Elt Ideal)) (a : Fin 1) (o : Fin 256) (c d : Fin 1) :
    st_v29 (F := Ideal) y (ix4 a o c d)
      = Ideal.div (lit 0x00000000#32 + ∑ b : Fin 8, ∑ h : Fin 64, ∑ w : Fin 64, y (ix4 b o h w)) (lit 0x47000000#32) := by
  unfold st_v29; rw [hostDivf_apply, st_v27_apply, st_v28_apply]

end Cert.ReferenceIdeal.Read

end
-- ==== Proof.RefReadD.lean ====
import proofs.«142206_j867583394375_2_alg».proof.Proof.RefStages
import proofs.«142206_j867583394375_2_alg».proof.Proof.Spec
import proofs.«142206_j867583394375_2_alg».proof.Proof.Lits
import Idealize.ShloMosaic.Lib.IdealHost
import Idealize.ShloMosaic.Lib.Pipeline.Value
import proofs.«142206_j867583394375_2_alg».proof.Proof.RefReadC

/-! # The channel variances, entry by entry

At the extended reals, the outlined variance: it recomputes each channel's mean, sums the squared deviations from it over
batch and space, and divides by the count less the correction. The correction is the integer `0`, so the divisor is
`32768`, which is positive, and the select that guards the division takes the quotient. -/

noncomputable section

open scoped BigOperators

namespace Cert.ReferenceIdeal.Read

open Cert.ReferenceIdeal Cert.ReferenceIdeal.Gen Cert.ReferenceIdeal.Hand Cert.Spec Idealize.ShloMosaic Idealize.ShloMosaic.ValueIdx

/-- A channel's mean: the initial value plus the sum of its entries over batch and space, over the count. -/
def chanMean (y : (⟨S8x256x64x64, .f32⟩ : BufTy).Contents (Elt Ideal)) (o : Fin 256) : EReal :=
  Ideal.div (lit 0x00000000#32 + ∑ b : Fin 8, ∑ h : Fin 64, ∑ w : Fin 64, y (ix4 b o h w)) (lit 0x47000000#32)

/-- It is what the mean's own stages compute. -/
theorem st_v29_eq_chanMean (y : (⟨S8x256x64x64, .f32⟩ : BufTy).Contents (Elt Ideal)) (a : Fin 1) (o : Fin 256) (c d : Fin 1) : st_v29 (F := Ideal) y (ix4 a o c d) = chanMean y o :=
  st_v29_apply y a o c d

/-! ## The mean again, inside the function -/

theorem st_call0_v0_apply (y : (⟨S8x256x64x64, .f32⟩ : BufTy).Contents (Elt Ideal)) (o : Fin 256) :
    st_call0_v0 (F := Ideal) y (ix1 o) = lit 0x00000000#32 + ∑ b : Fin 8, ∑ h : Fin 64, ∑ w : Fin 64, y (ix4 b o h w) :=
  (hostReduceAdd_apply y _ reducesTo_S8x256x64x64_S256_d0_2_3 h_S_ (ix1 o)).trans (hostReduceAdd_chan y _ o)

theorem st_call0_v1_apply (y : (⟨S8x256x64x64, .f32⟩ : BufTy).Contents (Elt Ideal)) (a : Fin 1) (o : Fin 256) (c d : Fin 1) :
    st_call0_v1 (F := Ideal) y (ix4 a o c d) = lit 0x00000000#32 + ∑ b : Fin 8, ∑ h : Fin 64, ∑ w : Fin 64, y (ix4 b o h w) :=
  (chan_apply (st_call0_v0 (F := Ideal) y) a o c d).trans (st_call0_v0_apply y o)

theorem st_call0_v2_apply (j : S1x256x1x1.Idx) : st_call0_v2 (F := Ideal) j = lit 0x47000000#32 :=
  broadcastInDim_scalar_apply _ _ j

theorem st_call0_v3_apply (y : (⟨S8x256x64x64, .f32⟩ : BufTy).Contents (Elt Ideal)) (a : Fin 1) (o : Fin 256) (c d : Fin 1) : st_call0_v3 (F := Ideal) y (ix4 a o c d) = chanMean y o := by
  unfold st_call0_v3 chanMean; rw [hostDivf_apply, st_call0_v1_apply, st_call0_v2_apply]

theorem st_call0_v4_apply (y : (⟨S8x256x64x64, .f32⟩ : BufTy).Contents (Elt Ideal)) (b : Fin 8) (o : Fin 256) (h w : Fin 64) : st_call0_v4 (F := Ideal) y (ix4 b o h w) = chanMean y o :=
  (spread_apply (st_call0_v3 (F := Ideal) y) b o h w).trans (st_call0_v3_apply y 0 o 0 0)

/-! ## The squared deviations and their sum -/

theorem st_call0_v5_apply (y : (⟨S8x256x64x64, .f32⟩ : BufTy).Contents (Elt Ideal)) (b : Fin 8) (o : Fin 256) (h w : Fin 64) : st_call0_v5 (F := Ideal) y (ix4 b o h w) = y (ix4 b o h w) - chanMean y o := by
  unfold st_call0_v5; rw [subf_apply, st_call0_v4_apply]

theorem st_call0_v6_apply (y : (⟨S8x256x64x64, .f32⟩ : BufTy).Contents (Elt Ideal)) (b : Fin 8) (o : Fin 256) (h w : Fin 64) : st_call0_v6 (F := Ideal) y (ix4 b o h w) = (y (ix4 b o h w) - chanMean y o) * (y (ix4 b o h w) - chanMean y o) := by
  unfold st_call0_v6; rw [mulf_apply, st_call0_v5_apply]

theorem st_call0_v9_apply (y : (⟨S8x256x64x64, .f32⟩ : BufTy).Contents (Elt Ideal)) (o : Fin 256) :
    st_call0_v9 (F := Ideal) y (ix1 o) = lit 0x00000000#32 + ∑ b : Fin 8, ∑ h : Fin 64, ∑ w : Fin 64, (y (ix4 b o h w) - chanMean y o) * (y (ix4 b o h w) - chanMean y o) :=
  ((hostReduceAdd_apply (st_call0_v6 (F := Ideal) y) _ reducesTo_S8x256x64x64_S256_d0_2_3 h_S_ (ix1 o)).trans (hostReduceAdd_chan _ _ o)).trans
    (congrArg (lit 0x00000000#32 + ·) (Finset.sum_congr rfl fun b _ => Finset.sum_congr rfl fun h _ => Finset.sum_congr rfl fun w _ =>
      st_call0_v6_apply y b o h w))

theorem st_call0_v10_apply (y : (⟨S8x256x64x64, .f32⟩ : BufTy).Contents (Elt Ideal)) (a : Fin 1) (o : Fin 256) (c d : Fin 1) :
    st_call0_v10 (F := Ideal) y (ix4 a o c d) = lit 0x00000000#32 + ∑ b : Fin 8, ∑ h : Fin 64, ∑ w : Fin 64, (y (ix4 b o h w) - chanMean y o) * (y (ix4 b o h w) - chanMean y o) :=
  (chan_apply (st_call0_v9 (F := Ideal) y) a o c d).trans (st_call0_v9_apply y o)

/-! ## The divisor -/

/-- The correction is the integer zero. -/
theorem st_c_apply (j : S_.Idx) : st_c (F := Ideal) j = 0#32 := rfl

/-- As a float it is zero. -/
theorem st_call0_v7_apply (j : S_.Idx) : st_call0_v7 (F := Ideal) j = 0 := by
  unfold st_call0_v7; rw [sitofp_apply, st_c_apply]
  show (((0#32 : BitVec 32).toInt : ℝ) : EReal) = 0
  simp

/-- The count less the correction is the count. -/
theorem st_call0_v8_apply (j : S_.Idx) : st_call0_v8 (F := Ideal) j = lit 0x47000000#32 := by
  unfold st_call0_v8; rw [subf_apply, st_call0_v7_apply]
  exact sub_zero _

theorem st_call0_v11_apply (j : S1x256x1x1.Idx) : st_call0_v11 (F := Ideal) j = lit 0x47000000#32 :=
  (broadcastInDim_scalar_apply _ _ j).trans (st_call0_v8_apply ix0)

theorem st_call0_v12_apply (y : (⟨S8x256x64x64, .f32⟩ : BufTy).Contents (Elt Ideal)) (a : Fin 1) (o : Fin 256) (c d : Fin 1) :
    st_call0_v12 (F := Ideal) y (ix4 a o c d) = Ideal.div (lit 0x00000000#32 + ∑ b : Fin 8, ∑ h : Fin 64, ∑ w : Fin 64, (y (ix4 b o h w) - chanMean y o) * (y (ix4 b o h w) - chanMean y o)) (lit 0x47000000#32) := by
  unfold st_call0_v12; rw [hostDivf_apply, st_call0_v10_apply, st_call0_v11_apply]

/-- The divisor is positive. -/
theorem st_call0_v13_apply (j : S_.Idx) : st_call0_v13 (F := Ideal) j = 1#1 := by
  unfold st_call0_v13; rw [cmpf_apply, st_call0_v8_apply]
  show Ideal.cmp .ogt (Ideal.ofBits .f32 0x47000000#32) (Ideal.ofBits .f32 0x00000000#32) = 1#1
  rw [Cert.Lits.count, Cert.Lits.zero]
  have hpos : (0 : EReal) < ((32768 : ℝ) : EReal) := EReal.coe_pos.mpr (by norm_num)
  simp [Ideal.cmp, hpos]

/-! ## The variance -/

/-- Each channel's variance: the sum of its squared deviations from its mean, over the count. -/
theorem st_v30_apply (y : (⟨S8x256x64x64, .f32⟩ : BufTy).Contents (Elt Ideal)) (a : Fin 1) (o : Fin 256) (c d : Fin 1) :
    st_v30 (F := Ideal) y (ix4 a o c d) = Ideal.div (lit 0x00000000#32 + ∑ b : Fin 8, ∑ h : Fin 64, ∑ w : Fin 64, (y (ix4 b o h w) - chanMean y o) * (y (ix4 b o h w) - chanMean y o)) (lit 0x47000000#32) := by
  unfold st_v30
  rw [select_apply, broadcastInDim_scalar_apply bcast_S_S1x256x1x1 (st_call0_v13 (F := Ideal)) (ix4 a o c d),
    st_call0_v13_apply, select_one, st_call0_v12_apply]

end Cert.ReferenceIdeal.Read

end
-- ==== Proof.RefReadAct.lean ====
import proofs.«142206_j867583394375_2_alg».proof.Proof.RefStages
import proofs.«142206_j867583394375_2_alg».proof.Proof.Spec
import proofs.«142206_j867583394375_2_alg».proof.Proof.Lits
import Idealize.ShloMosaic.Lib.IdealHost
import Idealize.ShloMosaic.Lib.Pipeline.Value
import proofs.«142206_j867583394375_2_alg».proof.Proof.RefReadD

/-! # The first result, entry by entry

The three groups after the linear layer composed: at the extended reals the first result at `(b, o, h, w)` is the leaky
rectifier of the layer's output there, centred at its channel's mean, divided by the root of its channel's variance plus
`ε`, scaled and shifted. -/

noncomputable section

open scoped BigOperators

namespace Cert.ReferenceIdeal.Read

open Cert.ReferenceIdeal Cert.ReferenceIdeal.Gen Cert.ReferenceIdeal.Hand Cert.Spec Idealize.ShloMosaic Idealize.ShloMosaic.ValueIdx

/-- A channel's variance: the initial value plus the sum of its squared deviations from its mean, over the count. -/
def chanVar (y : (⟨S8x256x64x64, .f32⟩ : BufTy).Contents (Elt Ideal)) (o : Fin 256) : EReal :=
  Ideal.div (lit 0x00000000#32 + ∑ b : Fin 8, ∑ h : Fin 64, ∑ w : Fin 64, (y (ix4 b o h w) - chanMean y o) * (y (ix4 b o h w) - chanMean y o)) (lit 0x47000000#32)

theorem st_v30_eq_chanVar (y : (⟨S8x256x64x64, .f32⟩ : BufTy).Contents (Elt Ideal)) (a : Fin 1) (o : Fin 256) (c d : Fin 1) : st_v30 (F := Ideal) y (ix4 a o c d) = chanVar y o :=
  st_v30_apply y a o c d

/-- The activation over any array `y` normalized by its own channel statistics. -/
theorem st_v48_stats_apply (y : (⟨S8x256x64x64, .f32⟩ : BufTy).Contents (Elt Ideal)) (gamma : (⟨S256, .f32⟩ : BufTy).Contents (Elt Ideal)) (beta : (⟨S256, .f32⟩ : BufTy).Contents (Elt Ideal)) (b : Fin 8) (o : Fin 256) (h w : Fin 64) :
    st_v48 (F := Ideal) y (st_v29 (F := Ideal) y) (st_v30 (F := Ideal) y) gamma beta (ix4 b o h w)
      = leaky ((y (ix4 b o h w) - chanMean y o) * Ideal.rsqrt (chanVar y o + lit 0x3727C5AC#32) * gamma (ix1 o) + beta (ix1 o)) := by
  rw [st_v48_apply, st_v29_eq_chanMean, st_v30_eq_chanVar]

/-- The first result at an entry, over the linear layer's output `resY`. -/
theorem resAct_apply (x : (⟨S8x256x64x64, .f32⟩ : BufTy).Contents (Elt Ideal)) (wqk : (⟨S512x256, .f32⟩ : BufTy).Contents (Elt Ideal)) (wout : (⟨S256x256, .f32⟩ : BufTy).Contents (Elt Ideal))
    (bout gamma beta : (⟨S256, .f32⟩ : BufTy).Contents (Elt Ideal)) (b : Fin 8) (o : Fin 256) (h w : Fin 64) :
    resAct (F := Ideal) x wqk wout bout gamma beta (ix4 b o h w)
      = leaky ((resY (F := Ideal) x wqk wout bout (ix4 b o h w) - chanMean (resY (F := Ideal) x wqk wout bout) o)
          * Ideal.rsqrt (chanVar (resY (F := Ideal) x wqk wout bout) o + lit 0x3727C5AC#32) * gamma (ix1 o) + beta (ix1 o)) :=
  st_v48_stats_apply (resY (F := Ideal) x wqk wout bout) gamma beta b o h w

end Cert.ReferenceIdeal.Read

end
-- ==== Proof.RModel.lean ====
/-
  The reference program's two results as the reference model of the bridge, entry by entry: the attention weights are the
  quotient of a row's exponentials by their sum; the layer's output in the image layout is the model's double sum at
  position 64·h + w; the channel means and variances are the model's; the activation is the leaky rectifier of the
  normalised, scaled and shifted output.
-/
import proofs.«142206_j867583394375_2_alg».proof.Proof.RefReadA
import proofs.«142206_j867583394375_2_alg».proof.Proof.RefReadB
import proofs.«142206_j867583394375_2_alg».proof.Proof.RefReadAct
import proofs.«142206_j867583394375_2_alg».proof.Proof.Bridge

noncomputable section

namespace Cert.ReferenceIdeal.Read

open Cert.ReferenceIdeal Cert.ReferenceIdeal.Hand
open Idealize.ShloMosaic Idealize.ShloMosaic.ValueIdx Cert.Spec Cert.Bridge

variable (x : (⟨S8x256x64x64, .f32⟩ : BufTy).Contents (Elt Ideal)) (wqk : (⟨S512x256, .f32⟩ : BufTy).Contents (Elt Ideal))
variable (wout : (⟨S256x256, .f32⟩ : BufTy).Contents (Elt Ideal)) (bout gamma beta : (⟨S256, .f32⟩ : BufTy).Contents (Elt Ideal))

/-- The channel-major rows the reference starts from. -/
abbrev xcnR : Arr3 8 256 4096 := st_v0 (F := Ideal) x

/-- Two rank-three arrays that agree at every explicit coordinate are equal. -/
theorem arr3_ext' {a b d : Nat} (A B : Arr3 a b d) (h : ∀ (p : Fin a) (q : Fin b) (r : Fin d), A (ix3 p q r) = B (ix3 p q r)) : A = B := by
  funext i
  obtain ⟨p, q, r, rfl⟩ : ∃ (p : Fin a) (q : Fin b) (r : Fin d), i = ix3 p q r := ⟨i 0, i 1, i 2, eq_ix3 i⟩
  exact h p q r

/-- The reference's queries are the model's: the same contraction, the weights' two indices renamed. -/
theorem q_arrR : (st_v3 (F := Ideal) x wqk : Arr3 8 4096 256) = rQ (xcnR x) wqk :=
  arr3_ext' _ _ fun b n e => A1 x wqk b n e
/-- And its keys. -/
theorem k_arrR : (st_v4 (F := Ideal) x wqk : Arr3 8 4096 256) = rK (xcnR x) wqk :=
  arr3_ext' _ _ fun b n e => A2 x wqk b n e

/-- The second result at an entry: the row's exponential over the row's sum. -/
theorem resAttn_model (b : Fin 8) (i j : Fin 4096) :
    resAttn (F := Ideal) x wqk (ix3 b i j) = rAttn (xcnR x) wqk b i j := by
  show st_v18 (F := Ideal) x wqk (ix3 b i j) = _
  rw [A7 x wqk b i j, q_arrR, k_arrR]
  rfl

/-- The layer's output in the image layout at an entry: the model's double sum at position 64·h + w. -/
theorem resY_apply (b : Fin 8) (o : Fin 256) (h w : Fin 64) :
    resY (F := Ideal) x wqk wout bout (ix4 b o h w) = rY4 (xcnR x) wqk wout bout b o h w := by
  show st_v25 (F := Ideal) (st_v18 (F := Ideal) x wqk) (st_v1 (F := Ideal) x) wout bout (ix4 b o h w) = _
  rw [B2, B1]
  unfold rY4 rY
  refine congrArg (fun z => z + bout (ix1 o)) ?_
  refine Finset.sum_congr rfl fun c _ => ?_
  refine congrArg (fun z => z * wout (ix2 o c)) ?_
  refine Finset.sum_congr rfl fun j _ => ?_
  exact congr (congrArg HMul.hMul (resAttn_model x wqk b (pos h w) j)) (v1_read x b j c)

/-- A channel's mean over the layer's output is the model's. -/
theorem chanMean_resY (o : Fin 256) :
    chanMean (resY (F := Ideal) x wqk wout bout) o = rMean (xcnR x) wqk wout bout o := by
  unfold chanMean rMean
  simp only [resY_apply]

/-- A channel's variance over the layer's output is the model's. -/
theorem chanVar_resY (o : Fin 256) :
    chanVar (resY (F := Ideal) x wqk wout bout) o = rVar (xcnR x) wqk wout bout o := by
  unfold chanVar rVar
  simp only [chanMean_resY, resY_apply]

/-- The first result at an entry: the rectifier of the normalised, scaled and shifted output. -/
theorem resAct_model (b : Fin 8) (o : Fin 256) (h w : Fin 64) :
    resAct (F := Ideal) x wqk wout bout gamma beta (ix4 b o h w) = rAct (xcnR x) wqk wout bout gamma beta b o h w := by
  rw [resAct_apply, resY_apply, chanMean_resY, chanVar_resY]
  rfl

end Cert.ReferenceIdeal.Read

end
-- ==== Proof.RefRun.lean ====
import proofs.«142206_j867583394375_2_alg».proof.Proof.RefStages
import Idealize.ShloMosaic.Lib.StableHlo.Run

/-! # The reference's run

The reference program is a straight line of 81 operations once its two calls are put in place: the function that
computes the channel variances (which itself calls a select) and the final select. Every weakly fair execution of it
terminates with the two result buffers at `resAct` and `resAttn` of the argument arrays (the stages of
`RefStages`), the arguments unchanged. The line is read back in five consecutive groups — attention, the linear
layer, the means, the variances, normalization and the rectifier — each over the contents the group before it left. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 81 operations in order, each call's body in place at its call site over that call's buffers. -/
abbrev ops : List (HloOp τ sig (Elt F)) :=
  [ StableHlo.reshape main_arg0 main_v0 rfl shapeCasts_S8x256x64x64_S8x256x4096,
    StableHlo.unary main_v0 main_v1 ((transpose S8x4096x256 [0, 2, 1] · transposes_S8x256x4096_S8x4096x256_0_2_1) : (⟨S8x256x4096, .f32⟩ : BufTy).Contents (Elt F) → (⟨S8x4096x256, .f32⟩ : BufTy).Contents (Elt F)),
    StableHlo.binary main_v1 main_arg1 main_v2 ((fun l r => Host.dotGeneral dot_S8x4096x256_S512x256_S8x4096x512_2_1_01_0_n_n none l r) : (⟨S8x4096x256, .f32⟩ : BufTy).Contents (Elt F) → (⟨S512x256, .f32⟩ : BufTy).Contents (Elt F) → (⟨S8x4096x512, .f32⟩ : BufTy).Contents (Elt F)),
    StableHlo.unary main_v2 main_v3 ((extractStridedSlice S8x4096x256 ![0, 0, 0] · slices_S8x4096x512_S8x4096x256_0_0_0) : (⟨S8x4096x512, .f32⟩ : BufTy).Contents (Elt F) → (⟨S8x4096x256, .f32⟩ : BufTy).Contents (Elt F)),
    StableHlo.unary main_v2 main_v4 ((extractStridedSlice S8x4096x256 ![0, 0, 256] · slices_S8x4096x512_S8x4096x256_0_0_256) : (⟨S8x4096x512, .f32⟩ : BufTy).Contents (Elt F) → (⟨S8x4096x256, .f32⟩ : BufTy).Contents (Elt F)),
    StableHlo.binary main_v3 main_v4 main_v5 ((fun l r => Host.dotGeneral dot_S8x4096x256_S8x4096x256_S8x4096x4096_2_2_1_1_0_0 none l r) : (⟨S8x4096x256, .f32⟩ : BufTy).Contents (Elt F) → (⟨S8x4096x256, .f32⟩ : BufTy).Contents (Elt F) → (⟨S8x4096x4096, .f32⟩ : BufTy).Contents (Elt F)),
    StableHlo.nullary main_cst (constant S_ .f32 0x3D800000#32),
    StableHlo.unary main_cst main_v6 (broadcastInDim S8x4096x4096 ![] bcast_S_S8x4096x4096 : (⟨S_, .f32⟩ : BufTy).Contents (Elt F) → (⟨S8x4096x4096, .f32⟩ : BufTy).Contents (Elt F)),
    StableHlo.binary main_v5 main_v6 main_v7 (mulf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_0 (constant S_ .f32 0xFF800000#32),
    StableHlo.binary main_v7 main_cst_0 main_v8 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.nullary main_cst_1 (constant S_ .f32 0xFF800000#32),
    StableHlo.unary main_cst_1 main_v9 (broadcastInDim S8x4096 ![] bcast_S_S8x4096 : (⟨S_, .f32⟩ : BufTy).Contents (Elt F) → (⟨S8x4096, .f32⟩ : BufTy).Contents (Elt F)),
    StableHlo.binary main_v9 main_v8 main_v10 (maximumf : (⟨S8x4096, .f32⟩ : BufTy).Contents (Elt F) → (⟨S8x4096, .f32⟩ : BufTy).Contents (Elt F) → (⟨S8x4096, .f32⟩ : BufTy).Contents (Elt F)),
    StableHlo.unary main_v10 main_v11 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v11 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v7 main_v12 main_v13 (subf : (⟨S8x4096x4096, .f32⟩ : BufTy).Contents (Elt F) → (⟨S8x4096x4096, .f32⟩ : BufTy).Contents (Elt F) → (⟨S8x4096x4096, .f32⟩ : BufTy).Contents (Elt F)),
    StableHlo.unary main_v13 main_v14 (Host.exp : (⟨S8x4096x4096, .f32⟩ : BufTy).Contents (Elt F) → (⟨S8x4096x4096, .f32⟩ : BufTy).Contents (Elt F)),
    StableHlo.nullary main_cst_2 (constant S_ .f32 0x00000000#32),
    StableHlo.binary main_v14 main_cst_2 main_v15 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.unary main_v15 main_v16 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v16 main_v17 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v14 main_v17 main_v18 (Host.divf : (⟨S8x4096x4096, .f32⟩ : BufTy).Contents (Elt F) → (⟨S8x4096x4096, .f32⟩ : BufTy).Contents (Elt F) → (⟨S8x4096x4096, .f32⟩ : BufTy).Contents (Elt F)),
    StableHlo.binary main_v18 main_v1 main_v19 ((fun l r => Host.dotGeneral dot_S8x4096x4096_S8x4096x256_S8x4096x256_2_1_1_2_0_0 none l r) : (⟨S8x4096x4096, .f32⟩ : BufTy).Contents (Elt F) → (⟨S8x4096x256, .f32⟩ : BufTy).Contents (Elt F) → (⟨S8x4096x256, .f32⟩ : BufTy).Contents (Elt F)),
    StableHlo.binary main_v19 main_arg2 main_v20 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    StableHlo.unary main_arg3 main_v21 (broadcastInDim S1x1x256 ![2] bcast_S256_S1x1x256_2 : (⟨S256, .f32⟩ : BufTy).Contents (Elt F) → (⟨S1x1x256, .f32⟩ : BufTy).Contents (Elt F)),
    StableHlo.unary main_v21 main_v22 (broadcastInDim S8x4096x256 ![0, 1, 2] bcast_S1x1x256_S8x4096x256_0_1_2 : (⟨S1x1x256, .f32⟩ : BufTy).Contents (Elt F) → (⟨S8x4096x256, .f32⟩ : BufTy).Contents (Elt F)),
    StableHlo.binary main_v20 main_v22 main_v23 (addf : (⟨S8x4096x256, .f32⟩ : BufTy).Contents (Elt F) → (⟨S8x4096x256, .f32⟩ : BufTy).Contents (Elt F) → (⟨S8x4096x256, .f32⟩ : BufTy).Contents (Elt F)),
    StableHlo.unary main_v23 main_v24 ((transpose S8x256x4096 [0, 2, 1] · transposes_S8x4096x256_S8x256x4096_0_2_1) : (⟨S8x4096x256, .f32⟩ : BufTy).Contents (Elt F) → (⟨S8x256x4096, .f32⟩ : BufTy).Contents (Elt F)),
    StableHlo.reshape main_v24 main_v25 rfl shapeCasts_S8x256x4096_S8x256x64x64,
    StableHlo.nullary main_cst_3 (constant S_ .f32 0x00000000#32),
    StableHlo.binary main_v25 main_cst_3 main_v26 ((fun x v => Host.reduceAdd x v reducesTo_S8x256x64x64_S256_d0_2_3 h_S_) : (⟨S8x256x64x64, .f32⟩ : BufTy).Contents (Elt F) → (⟨S_, .f32⟩ : BufTy).Contents (Elt F) → (⟨S256, .f32⟩ : BufTy).Contents (Elt F)),
    StableHlo.unary main_v26 main_v27 (broadcastInDim S1x256x1x1 ![1] bcast_S256_S1x256x1x1_1 : (⟨S256, .f32⟩ : BufTy).Contents (Elt F) → (⟨S1x256x1x1, .f32⟩ : BufTy).Contents (Elt F)),
    StableHlo.nullary main_cst_4 (constant S_ .f32 0x47000000#32),
    StableHlo.unary main_cst_4 main_v28 (broadcastInDim S1x256x1x1 ![] bcast_S_S1x256x1x1 : (⟨S_, .f32⟩ : BufTy).Contents (Elt F) → (⟨S1x256x1x1, .f32⟩ : BufTy).Contents (Elt F)),
    StableHlo.binary main_v27 main_v28 main_v29 (Host.divf : (⟨S1x256x1x1, .f32⟩ : BufTy).Contents (Elt F) → (⟨S1x256x1x1, .f32⟩ : BufTy).Contents (Elt F) → (⟨S1x256x1x1, .f32⟩ : BufTy).Contents (Elt F)),
    StableHlo.nullary main_c (constantI S_ 32 0#32),
    StableHlo.TRef.nullary main_call0.cst (constant S_ .f32 0x00000000#32),
    StableHlo.TRef.binary (.of main_v25) main_call0.cst main_call0.v0 (fun x v => Host.reduceAdd x v reducesTo_S8x256x64x64_S256_d0_2_3 h_S_),
    StableHlo.TRef.unary main_call0.v0 main_call0.v1 (broadcastInDim S1x256x1x1 ![1] bcast_S256_S1x256x1x1_1),
    StableHlo.TRef.nullary main_call0.cst_0 (constant S_ .f32 0x47000000#32),
    StableHlo.TRef.unary main_call0.cst_0 main_call0.v2 (broadcastInDim S1x256x1x1 ![] bcast_S_S1x256x1x1),
    StableHlo.TRef.binary main_call0.v1 main_call0.v2 main_call0.v3 Host.divf,
    StableHlo.TRef.unary main_call0.v3 main_call0.v4 (broadcastInDim S8x256x64x64 ![0, 1, 2, 3] bcast_S1x256x1x1_S8x256x64x64_0_1_2_3),
    StableHlo.TRef.binary (.of main_v25) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x256x64x64_S256_d0_2_3 h_S_),
    StableHlo.TRef.unary main_call0.v9 main_call0.v10 (broadcastInDim S1x256x1x1 ![1] bcast_S256_S1x256x1x1_1),
    StableHlo.TRef.unary main_call0.v8 main_call0.v11 (broadcastInDim S1x256x1x1 ![] bcast_S_S1x256x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256x1x1 ![] bcast_S_S1x256x1x1),
    StableHlo.TRef.ternary main_call0.v13 main_call0.v12 main_call0.call0.v1 main_call0.call0.v2 (fun p a b => select (broadcastInDim S1x256x1x1 ![] bcast_S_S1x256x1x1 p) a b),
    StableHlo.unary main_v29 main_v31 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v25 main_v31 main_v32 (subf : (⟨S8x256x64x64, .f32⟩ : BufTy).Contents (Elt F) → (⟨S8x256x64x64, .f32⟩ : BufTy).Contents (Elt F) → (⟨S8x256x64x64, .f32⟩ : BufTy).Contents (Elt F)),
    StableHlo.nullary main_cst_5 (constant S_ .f32 0x3727C5AC#32),
    StableHlo.unary main_cst_5 main_v33 (broadcastInDim S1x256x1x1 ![] bcast_S_S1x256x1x1 : (⟨S_, .f32⟩ : BufTy).Contents (Elt F) → (⟨S1x256x1x1, .f32⟩ : BufTy).Contents (Elt F)),
    StableHlo.binary main_v30 main_v33 main_v34 (addf : (⟨S1x256x1x1, .f32⟩ : BufTy).Contents (Elt F) → (⟨S1x256x1x1, .f32⟩ : BufTy).Contents (Elt F) → (⟨S1x256x1x1, .f32⟩ : BufTy).Contents (Elt F)),
    StableHlo.unary main_v34 main_v35 (Host.rsqrt : (⟨S1x256x1x1, .f32⟩ : BufTy).Contents (Elt F) → (⟨S1x256x1x1, .f32⟩ : BufTy).Contents (Elt F)),
    StableHlo.unary main_v35 main_v36 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v32 main_v36 main_v37 (mulf : (⟨S8x256x64x64, .f32⟩ : BufTy).Contents (Elt F) → (⟨S8x256x64x64, .f32⟩ : BufTy).Contents (Elt F) → (⟨S8x256x64x64, .f32⟩ : BufTy).Contents (Elt F)),
    StableHlo.unary main_arg4 main_v38 (broadcastInDim S1x256x1x1 ![1] bcast_S256_S1x256x1x1_1 : (⟨S256, .f32⟩ : BufTy).Contents (Elt F) → (⟨S1x256x1x1, .f32⟩ : BufTy).Contents (Elt F)),
    StableHlo.unary main_v38 main_v39 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v37 main_v39 main_v40 (mulf : (⟨S8x256x64x64, .f32⟩ : BufTy).Contents (Elt F) → (⟨S8x256x64x64, .f32⟩ : BufTy).Contents (Elt F) → (⟨S8x256x64x64, .f32⟩ : BufTy).Contents (Elt F)),
    StableHlo.unary main_arg5 main_v41 (broadcastInDim S1x256x1x1 ![1] bcast_S256_S1x256x1x1_1 : (⟨S256, .f32⟩ : BufTy).Contents (Elt F) → (⟨S1x256x1x1, .f32⟩ : BufTy).Contents (Elt F)),
    StableHlo.unary main_v41 main_v42 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v40 main_v42 main_v43 (addf : (⟨S8x256x64x64, .f32⟩ : BufTy).Contents (Elt F) → (⟨S8x256x64x64, .f32⟩ : BufTy).Contents (Elt F) → (⟨S8x256x64x64, .f32⟩ : BufTy).Contents (Elt F)),
    StableHlo.nullary main_cst_6 (constant S_ .f32 0x00000000#32),
    StableHlo.unary main_cst_6 main_v44 (broadcastInDim S8x256x64x64 ![] bcast_S_S8x256x64x64 : (⟨S_, .f32⟩ : BufTy).Contents (Elt F) → (⟨S8x256x64x64, .f32⟩ : BufTy).Contents (Elt F)),
    StableHlo.binary main_v43 main_v44 main_v45 (cmpf .oge : (⟨S8x256x64x64, .f32⟩ : BufTy).Contents (Elt F) → (⟨S8x256x64x64, .f32⟩ : BufTy).Contents (Elt F) → (⟨S8x256x64x64, .i1⟩ : BufTy).Contents (Elt F)),
    StableHlo.nullary main_cst_7 (constant S_ .f32 0x3C23D70A#32),
    StableHlo.unary main_cst_7 main_v46 (broadcastInDim S8x256x64x64 ![] bcast_S_S8x256x64x64 : (⟨S_, .f32⟩ : BufTy).Contents (Elt F) → (⟨S8x256x64x64, .f32⟩ : BufTy).Contents (Elt F)),
    StableHlo.binary main_v46 main_v43 main_v47 (mulf : (⟨S8x256x64x64, .f32⟩ : BufTy).Contents (Elt F) → (⟨S8x256x64x64, .f32⟩ : BufTy).Contents (Elt F) → (⟨S8x256x64x64, .f32⟩ : BufTy).Contents (Elt F)),
    StableHlo.TRef.ternary (.of main_v45) (.of main_v43) (.of main_v47) main_call1.v0 select ]

set_option maxRecDepth 8192 in
set_option maxHeartbeats 4000000 in
/-- The program is that line: the functions unfold at their calls, and sequencing reassociates by computation. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-! ## The line in five groups -/

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Attention: operations 1–23. -/
def opsA : List (HloOp τ sig (Elt F)) :=
  [ StableHlo.reshape main_arg0 main_v0 rfl shapeCasts_S8x256x64x64_S8x256x4096,
    StableHlo.unary main_v0 main_v1 ((transpose S8x4096x256 [0, 2, 1] · transposes_S8x256x4096_S8x4096x256_0_2_1) : (⟨S8x256x4096, .f32⟩ : BufTy).Contents (Elt F) → (⟨S8x4096x256, .f32⟩ : BufTy).Contents (Elt F)),
    StableHlo.binary main_v1 main_arg1 main_v2 ((fun l r => Host.dotGeneral dot_S8x4096x256_S512x256_S8x4096x512_2_1_01_0_n_n none l r) : (⟨S8x4096x256, .f32⟩ : BufTy).Contents (Elt F) → (⟨S512x256, .f32⟩ : BufTy).Contents (Elt F) → (⟨S8x4096x512, .f32⟩ : BufTy).Contents (Elt F)),
    StableHlo.unary main_v2 main_v3 ((extractStridedSlice S8x4096x256 ![0, 0, 0] · slices_S8x4096x512_S8x4096x256_0_0_0) : (⟨S8x4096x512, .f32⟩ : BufTy).Contents (Elt F) → (⟨S8x4096x256, .f32⟩ : BufTy).Contents (Elt F)),
    StableHlo.unary main_v2 main_v4 ((extractStridedSlice S8x4096x256 ![0, 0, 256] · slices_S8x4096x512_S8x4096x256_0_0_256) : (⟨S8x4096x512, .f32⟩ : BufTy).Contents (Elt F) → (⟨S8x4096x256, .f32⟩ : BufTy).Contents (Elt F)),
    StableHlo.binary main_v3 main_v4 main_v5 ((fun l r => Host.dotGeneral dot_S8x4096x256_S8x4096x256_S8x4096x4096_2_2_1_1_0_0 none l r) : (⟨S8x4096x256, .f32⟩ : BufTy).Contents (Elt F) → (⟨S8x4096x256, .f32⟩ : BufTy).Contents (Elt F) → (⟨S8x4096x4096, .f32⟩ : BufTy).Contents (Elt F)),
    StableHlo.nullary main_cst (constant S_ .f32 0x3D800000#32),
    StableHlo.unary main_cst main_v6 (broadcastInDim S8x4096x4096 ![] bcast_S_S8x4096x4096 : (⟨S_, .f32⟩ : BufTy).Contents (Elt F) → (⟨S8x4096x4096, .f32⟩ : BufTy).Contents (Elt F)),
    StableHlo.binary main_v5 main_v6 main_v7 (mulf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_0 (constant S_ .f32 0xFF800000#32),
    StableHlo.binary main_v7 main_cst_0 main_v8 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.nullary main_cst_1 (constant S_ .f32 0xFF800000#32),
    StableHlo.unary main_cst_1 main_v9 (broadcastInDim S8x4096 ![] bcast_S_S8x4096 : (⟨S_, .f32⟩ : BufTy).Contents (Elt F) → (⟨S8x4096, .f32⟩ : BufTy).Contents (Elt F)),
    StableHlo.binary main_v9 main_v8 main_v10 (maximumf : (⟨S8x4096, .f32⟩ : BufTy).Contents (Elt F) → (⟨S8x4096, .f32⟩ : BufTy).Contents (Elt F) → (⟨S8x4096, .f32⟩ : BufTy).Contents (Elt F)),
    StableHlo.unary main_v10 main_v11 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v11 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v7 main_v12 main_v13 (subf : (⟨S8x4096x4096, .f32⟩ : BufTy).Contents (Elt F) → (⟨S8x4096x4096, .f32⟩ : BufTy).Contents (Elt F) → (⟨S8x4096x4096, .f32⟩ : BufTy).Contents (Elt F)),
    StableHlo.unary main_v13 main_v14 (Host.exp : (⟨S8x4096x4096, .f32⟩ : BufTy).Contents (Elt F) → (⟨S8x4096x4096, .f32⟩ : BufTy).Contents (Elt F)),
    StableHlo.nullary main_cst_2 (constant S_ .f32 0x00000000#32),
    StableHlo.binary main_v14 main_cst_2 main_v15 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.unary main_v15 main_v16 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v16 main_v17 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v14 main_v17 main_v18 (Host.divf : (⟨S8x4096x4096, .f32⟩ : BufTy).Contents (Elt F) → (⟨S8x4096x4096, .f32⟩ : BufTy).Contents (Elt F) → (⟨S8x4096x4096, .f32⟩ : BufTy).Contents (Elt F)) ]

/-- The linear layer: operations 24–30. -/
def opsB : List (HloOp τ sig (Elt F)) :=
  [ StableHlo.binary main_v18 main_v1 main_v19 ((fun l r => Host.dotGeneral dot_S8x4096x4096_S8x4096x256_S8x4096x256_2_1_1_2_0_0 none l r) : (⟨S8x4096x4096, .f32⟩ : BufTy).Contents (Elt F) → (⟨S8x4096x256, .f32⟩ : BufTy).Contents (Elt F) → (⟨S8x4096x256, .f32⟩ : BufTy).Contents (Elt F)),
    StableHlo.binary main_v19 main_arg2 main_v20 ((fun l r => Host.dotGeneral dot_S8x4096x256_S256x256_S8x4096x256_2_1_01_0_n_n none l r) : (⟨S8x4096x256, .f32⟩ : BufTy).Contents (Elt F) → (⟨S256x256, .f32⟩ : BufTy).Contents (Elt F) → (⟨S8x4096x256, .f32⟩ : BufTy).Contents (Elt F)),
    StableHlo.unary main_arg3 main_v21 (broadcastInDim S1x1x256 ![2] bcast_S256_S1x1x256_2 : (⟨S256, .f32⟩ : BufTy).Contents (Elt F) → (⟨S1x1x256, .f32⟩ : BufTy).Contents (Elt F)),
    StableHlo.unary main_v21 main_v22 (broadcastInDim S8x4096x256 ![0, 1, 2] bcast_S1x1x256_S8x4096x256_0_1_2 : (⟨S1x1x256, .f32⟩ : BufTy).Contents (Elt F) → (⟨S8x4096x256, .f32⟩ : BufTy).Contents (Elt F)),
    StableHlo.binary main_v20 main_v22 main_v23 (addf : (⟨S8x4096x256, .f32⟩ : BufTy).Contents (Elt F) → (⟨S8x4096x256, .f32⟩ : BufTy).Contents (Elt F) → (⟨S8x4096x256, .f32⟩ : BufTy).Contents (Elt F)),
    StableHlo.unary main_v23 main_v24 ((transpose S8x256x4096 [0, 2, 1] · transposes_S8x4096x256_S8x256x4096_0_2_1) : (⟨S8x4096x256, .f32⟩ : BufTy).Contents (Elt F) → (⟨S8x256x4096, .f32⟩ : BufTy).Contents (Elt F)),
    StableHlo.reshape main_v24 main_v25 rfl shapeCasts_S8x256x4096_S8x256x64x64 ]

/-- The channel means: operations 31–36. -/
def opsC : List (HloOp τ sig (Elt F)) :=
  [ StableHlo.nullary main_cst_3 (constant S_ .f32 0x00000000#32),
    StableHlo.binary main_v25 main_cst_3 main_v26 ((fun x v => Host.reduceAdd x v reducesTo_S8x256x64x64_S256_d0_2_3 h_S_) : (⟨S8x256x64x64, .f32⟩ : BufTy).Contents (Elt F) → (⟨S_, .f32⟩ : BufTy).Contents (Elt F) → (⟨S256, .f32⟩ : BufTy).Contents (Elt F)),
    StableHlo.unary main_v26 main_v27 (broadcastInDim S1x256x1x1 ![1] bcast_S256_S1x256x1x1_1 : (⟨S256, .f32⟩ : BufTy).Contents (Elt F) → (⟨S1x256x1x1, .f32⟩ : BufTy).Contents (Elt F)),
    StableHlo.nullary main_cst_4 (constant S_ .f32 0x47000000#32),
    StableHlo.unary main_cst_4 main_v28 (broadcastInDim S1x256x1x1 ![] bcast_S_S1x256x1x1 : (⟨S_, .f32⟩ : BufTy).Contents (Elt F) → (⟨S1x256x1x1, .f32⟩ : BufTy).Contents (Elt F)),
    StableHlo.binary main_v27 main_v28 main_v29 (Host.divf : (⟨S1x256x1x1, .f32⟩ : BufTy).Contents (Elt F) → (⟨S1x256x1x1, .f32⟩ : BufTy).Contents (Elt F) → (⟨S1x256x1x1, .f32⟩ : BufTy).Contents (Elt F)) ]

/-- The channel variances: operations 37–60, the outlined function's and the select's it calls. -/
def opsD : List (HloOp τ sig (Elt F)) :=
  [ StableHlo.nullary main_c (constantI S_ 32 0#32),
    StableHlo.TRef.nullary main_call0.cst (constant S_ .f32 0x00000000#32),
    StableHlo.TRef.binary (.of main_v25) main_call0.cst main_call0.v0 (fun x v => Host.reduceAdd x v reducesTo_S8x256x64x64_S256_d0_2_3 h_S_),
    StableHlo.TRef.unary main_call0.v0 main_call0.v1 (broadcastInDim S1x256x1x1 ![1] bcast_S256_S1x256x1x1_1),
    StableHlo.TRef.nullary main_call0.cst_0 (constant S_ .f32 0x47000000#32),
    StableHlo.TRef.unary main_call0.cst_0 main_call0.v2 (broadcastInDim S1x256x1x1 ![] bcast_S_S1x256x1x1),
    StableHlo.TRef.binary main_call0.v1 main_call0.v2 main_call0.v3 Host.divf,
    StableHlo.TRef.unary main_call0.v3 main_call0.v4 (broadcastInDim S8x256x64x64 ![0, 1, 2, 3] bcast_S1x256x1x1_S8x256x64x64_0_1_2_3),
    StableHlo.TRef.binary (.of main_v25) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x256x64x64_S256_d0_2_3 h_S_),
    StableHlo.TRef.unary main_call0.v9 main_call0.v10 (broadcastInDim S1x256x1x1 ![1] bcast_S256_S1x256x1x1_1),
    StableHlo.TRef.unary main_call0.v8 main_call0.v11 (broadcastInDim S1x256x1x1 ![] bcast_S_S1x256x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256x1x1 ![] bcast_S_S1x256x1x1),
    StableHlo.TRef.ternary main_call0.v13 main_call0.v12 main_call0.call0.v1 main_call0.call0.v2 (fun p a b => select (broadcastInDim S1x256x1x1 ![] bcast_S_S1x256x1x1 p) a b) ]

/-- Normalization and the rectifier: operations 61–81. -/
def opsE : List (HloOp τ sig (Elt F)) :=
  [ StableHlo.unary main_v29 main_v31 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v25 main_v31 main_v32 (subf : (⟨S8x256x64x64, .f32⟩ : BufTy).Contents (Elt F) → (⟨S8x256x64x64, .f32⟩ : BufTy).Contents (Elt F) → (⟨S8x256x64x64, .f32⟩ : BufTy).Contents (Elt F)),
    StableHlo.nullary main_cst_5 (constant S_ .f32 0x3727C5AC#32),
    StableHlo.unary main_cst_5 main_v33 (broadcastInDim S1x256x1x1 ![] bcast_S_S1x256x1x1 : (⟨S_, .f32⟩ : BufTy).Contents (Elt F) → (⟨S1x256x1x1, .f32⟩ : BufTy).Contents (Elt F)),
    StableHlo.binary main_v30 main_v33 main_v34 (addf : (⟨S1x256x1x1, .f32⟩ : BufTy).Contents (Elt F) → (⟨S1x256x1x1, .f32⟩ : BufTy).Contents (Elt F) → (⟨S1x256x1x1, .f32⟩ : BufTy).Contents (Elt F)),
    StableHlo.unary main_v34 main_v35 (Host.rsqrt : (⟨S1x256x1x1, .f32⟩ : BufTy).Contents (Elt F) → (⟨S1x256x1x1, .f32⟩ : BufTy).Contents (Elt F)),
    StableHlo.unary main_v35 main_v36 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v32 main_v36 main_v37 (mulf : (⟨S8x256x64x64, .f32⟩ : BufTy).Contents (Elt F) → (⟨S8x256x64x64, .f32⟩ : BufTy).Contents (Elt F) → (⟨S8x256x64x64, .f32⟩ : BufTy).Contents (Elt F)),
    StableHlo.unary main_arg4 main_v38 (broadcastInDim S1x256x1x1 ![1] bcast_S256_S1x256x1x1_1 : (⟨S256, .f32⟩ : BufTy).Contents (Elt F) → (⟨S1x256x1x1, .f32⟩ : BufTy).Contents (Elt F)),
    StableHlo.unary main_v38 main_v39 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v37 main_v39 main_v40 (mulf : (⟨S8x256x64x64, .f32⟩ : BufTy).Contents (Elt F) → (⟨S8x256x64x64, .f32⟩ : BufTy).Contents (Elt F) → (⟨S8x256x64x64, .f32⟩ : BufTy).Contents (Elt F)),
    StableHlo.unary main_arg5 main_v41 (broadcastInDim S1x256x1x1 ![1] bcast_S256_S1x256x1x1_1 : (⟨S256, .f32⟩ : BufTy).Contents (Elt F) → (⟨S1x256x1x1, .f32⟩ : BufTy).Contents (Elt F)),
    StableHlo.unary main_v41 main_v42 (broadcastInDim S8x256x64x64 ![0, 1, 2, 3] bcast_S1x256x1x1_S8x256x64x64_0_1_2_3 : (⟨S1x256x1x1, .f32⟩ : BufTy).Contents (Elt F) → (⟨S8x256x64x64, .f32⟩ : BufTy).Contents (Elt F)),
    StableHlo.binary main_v40 main_v42 main_v43 (addf : (⟨S8x256x64x64, .f32⟩ : BufTy).Contents (Elt F) → (⟨S8x256x64x64, .f32⟩ : BufTy).Contents (Elt F) → (⟨S8x256x64x64, .f32⟩ : BufTy).Contents (Elt F)),
    StableHlo.nullary main_cst_6 (constant S_ .f32 0x00000000#32),
    StableHlo.unary main_cst_6 main_v44 (broadcastInDim S8x256x64x64 ![] bcast_S_S8x256x64x64 : (⟨S_, .f32⟩ : BufTy).Contents (Elt F) → (⟨S8x256x64x64, .f32⟩ : BufTy).Contents (Elt F)),
    StableHlo.binary main_v43 main_v44 main_v45 (cmpf .oge : (⟨S8x256x64x64, .f32⟩ : BufTy).Contents (Elt F) → (⟨S8x256x64x64, .f32⟩ : BufTy).Contents (Elt F) → (⟨S8x256x64x64, .i1⟩ : BufTy).Contents (Elt F)),
    StableHlo.nullary main_cst_7 (constant S_ .f32 0x3C23D70A#32),
    StableHlo.unary main_cst_7 main_v46 (broadcastInDim S8x256x64x64 ![] bcast_S_S8x256x64x64 : (⟨S_, .f32⟩ : BufTy).Contents (Elt F) → (⟨S8x256x64x64, .f32⟩ : BufTy).Contents (Elt F)),
    StableHlo.binary main_v46 main_v43 main_v47 (mulf : (⟨S8x256x64x64, .f32⟩ : BufTy).Contents (Elt F) → (⟨S8x256x64x64, .f32⟩ : BufTy).Contents (Elt F) → (⟨S8x256x64x64, .f32⟩ : BufTy).Contents (Elt F)),
    StableHlo.TRef.ternary (.of main_v45) (.of main_v43) (.of main_v47) main_call1.v0 select ]

set_option maxRecDepth 8192 in
theorem ops_split : (ops : List (HloOp τ sig (Elt F))) = opsA ++ (opsB ++ (opsC ++ (opsD ++ opsE))) := rfl

/-! ## Each group read back

After a group, the buffers it computes hold the stages of the contents it started from; the buffers it does not
write hold what they held. -/

set_option maxRecDepth 8192 in
set_option maxHeartbeats 1600000 in
theorem A_v18 (W : Valuation τ sig (Elt F)) :
    after opsA W (main_v18 : DevRef τ sig) = st_v18 (W (main_arg0 : DevRef τ sig)) (W (main_arg1 : DevRef τ sig)) := by
  unfold opsA
  after_results_simp
  rfl

set_option maxRecDepth 8192 in
set_option maxHeartbeats 1600000 in
theorem A_v1 (W : Valuation τ sig (Elt F)) :
    after opsA W (main_v1 : DevRef τ sig) = st_v1 (W (main_arg0 : DevRef τ sig)) := by
  unfold opsA
  after_results_simp
  rfl

theorem A_arg0 (W : Valuation τ sig (Elt F)) : after opsA W (main_arg0 : DevRef τ sig) = W (main_arg0 : DevRef τ sig) := by
  unfold opsA
  after_results_simp

theorem A_arg1 (W : Valuation τ sig (Elt F)) : after opsA W (main_arg1 : DevRef τ sig) = W (main_arg1 : DevRef τ sig) := by
  unfold opsA
  after_results_simp

theorem A_arg2 (W : Valuation τ sig (Elt F)) : after opsA W (main_arg2 : DevRef τ sig) = W (main_arg2 : DevRef τ sig) := by
  unfold opsA
  after_results_simp

theorem A_arg3 (W : Valuation τ sig (Elt F)) : after opsA W (main_arg3 : DevRef τ sig) = W (main_arg3 : DevRef τ sig) := by
  unfold opsA
  after_results_simp

theorem A_arg4 (W : Valuation τ sig (Elt F)) : after opsA W (main_arg4 : DevRef τ sig) = W (main_arg4 : DevRef τ sig) := by
  unfold opsA
  after_results_simp

theorem A_arg5 (W : Valuation τ sig (Elt F)) : after opsA W (main_arg5 : DevRef τ sig) = W (main_arg5 : DevRef τ sig) := by
  unfold opsA
  after_results_simp

set_option maxRecDepth 8192 in
set_option maxHeartbeats 1600000 in
theorem B_v25 (W : Valuation τ sig (Elt F)) :
    after opsB W (main_v25 : DevRef τ sig) = st_v25 (W (main_v18 : DevRef τ sig)) (W (main_v1 : DevRef τ sig)) (W (main_arg2 : DevRef τ sig)) (W (main_arg3 : DevRef τ sig)) := by
  unfold opsB
  after_results_simp
  rfl

theorem B_v18 (W : Valuation τ sig (Elt F)) : after opsB W (main_v18 : DevRef τ sig) = W (main_v18 : DevRef τ sig) := by
  unfold opsB
  after_results_simp

theorem B_arg0 (W : Valuation τ sig (Elt F)) : after opsB W (main_arg0 : DevRef τ sig) = W (main_arg0 : DevRef τ sig) := by
  unfold opsB
  after_results_simp

theorem B_arg1 (W : Valuation τ sig (Elt F)) : after opsB W (main_arg1 : DevRef τ sig) = W (main_arg1 : DevRef τ sig) := by
  unfold opsB
  after_results_simp

theorem B_arg2 (W : Valuation τ sig (Elt F)) : after opsB W (main_arg2 : DevRef τ sig) = W (main_arg2 : DevRef τ sig) := by
  unfold opsB
  after_results_simp

theorem B_arg3 (W : Valuation τ sig (Elt F)) : after opsB W (main_arg3 : DevRef τ sig) = W (main_arg3 : DevRef τ sig) := by
  unfold opsB
  after_results_simp

theorem B_arg4 (W : Valuation τ sig (Elt F)) : after opsB W (main_arg4 : DevRef τ sig) = W (main_arg4 : DevRef τ sig) := by
  unfold opsB
  after_results_simp

theorem B_arg5 (W : Valuation τ sig (Elt F)) : after opsB W (main_arg5 : DevRef τ sig) = W (main_arg5 : DevRef τ sig) := by
  unfold opsB
  after_results_simp

set_option maxRecDepth 8192 in
set_option maxHeartbeats 1600000 in
theorem C_v29 (W : Valuation τ sig (Elt F)) :
    after opsC W (main_v29 : DevRef τ sig) = st_v29 (W (main_v25 : DevRef τ sig)) := by
  unfold opsC
  after_results_simp
  rfl

theorem C_v25 (W : Valuation τ sig (Elt F)) : after opsC W (main_v25 : DevRef τ sig) = W (main_v25 : DevRef τ sig) := by
  unfold opsC
  after_results_simp

theorem C_v18 (W : Valuation τ sig (Elt F)) : after opsC W (main_v18 : DevRef τ sig) = W (main_v18 : DevRef τ sig) := by
  unfold opsC
  after_results_simp

theorem C_arg0 (W : Valuation τ sig (Elt F)) : after opsC W (main_arg0 : DevRef τ sig) = W (main_arg0 : DevRef τ sig) := by
  unfold opsC
  after_results_simp

theorem C_arg1 (W : Valuation τ sig (Elt F)) : after opsC W (main_arg1 : DevRef τ sig) = W (main_arg1 : DevRef τ sig) := by
  unfold opsC
  after_results_simp

theorem C_arg2 (W : Valuation τ sig (Elt F)) : after opsC W (main_arg2 : DevRef τ sig) = W (main_arg2 : DevRef τ sig) := by
  unfold opsC
  after_results_simp

theorem C_arg3 (W : Valuation τ sig (Elt F)) : after opsC W (main_arg3 : DevRef τ sig) = W (main_arg3 : DevRef τ sig) := by
  unfold opsC
  after_results_simp

theorem C_arg4 (W : Valuation τ sig (Elt F)) : after opsC W (main_arg4 : DevRef τ sig) = W (main_arg4 : DevRef τ sig) := by
  unfold opsC
  after_results_simp

theorem C_arg5 (W : Valuation τ sig (Elt F)) : after opsC W (main_arg5 : DevRef τ sig) = W (main_arg5 : DevRef τ sig) := by
  unfold opsC
  after_results_simp

set_option maxRecDepth 8192 in
set_option maxHeartbeats 1600000 in
theorem D_v30 (W : Valuation τ sig (Elt F)) :
    after opsD W (main_v30 : DevRef τ sig) = st_v30 (W (main_v25 : DevRef τ sig)) := by
  unfold opsD
  after_results_simp
  rfl

theorem D_v25 (W : Valuation τ sig (Elt F)) : after opsD W (main_v25 : DevRef τ sig) = W (main_v25 : DevRef τ sig) := by
  unfold opsD
  after_results_simp

theorem D_v29 (W : Valuation τ sig (Elt F)) : after opsD W (main_v29 : DevRef τ sig) = W (main_v29 : DevRef τ sig) := by
  unfold opsD
  after_results_simp

theorem D_v18 (W : Valuation τ sig (Elt F)) : after opsD W (main_v18 : DevRef τ sig) = W (main_v18 : DevRef τ sig) := by
  unfold opsD
  after_results_simp

theorem D_arg0 (W : Valuation τ sig (Elt F)) : after opsD W (main_arg0 : DevRef τ sig) = W (main_arg0 : DevRef τ sig) := by
  unfold opsD
  after_results_simp

theorem D_arg1 (W : Valuation τ sig (Elt F)) : after opsD W (main_arg1 : DevRef τ sig) = W (main_arg1 : DevRef τ sig) := by
  unfold opsD
  after_results_simp

theorem D_arg2 (W : Valuation τ sig (Elt F)) : after opsD W (main_arg2 : DevRef τ sig) = W (main_arg2 : DevRef τ sig) := by
  unfold opsD
  after_results_simp

theorem D_arg3 (W : Valuation τ sig (Elt F)) : after opsD W (main_arg3 : DevRef τ sig) = W (main_arg3 : DevRef τ sig) := by
  unfold opsD
  after_results_simp

theorem D_arg4 (W : Valuation τ sig (Elt F)) : after opsD W (main_arg4 : DevRef τ sig) = W (main_arg4 : DevRef τ sig) := by
  unfold opsD
  after_results_simp

theorem D_arg5 (W : Valuation τ sig (Elt F)) : after opsD W (main_arg5 : DevRef τ sig) = W (main_arg5 : DevRef τ sig) := by
  unfold opsD
  after_results_simp

set_option maxRecDepth 8192 in
set_option maxHeartbeats 1600000 in
theorem E_v48 (W : Valuation τ sig (Elt F)) :
    after opsE W (main_v48 : DevRef τ sig) = st_v48 (W (main_v25 : DevRef τ sig)) (W (main_v29 : DevRef τ sig)) (W (main_v30 : DevRef τ sig)) (W (main_arg4 : DevRef τ sig)) (W (main_arg5 : DevRef τ sig)) := by
  unfold opsE
  after_results_simp
  rfl

theorem E_v18 (W : Valuation τ sig (Elt F)) : after opsE W (main_v18 : DevRef τ sig) = W (main_v18 : DevRef τ sig) := by
  unfold opsE
  after_results_simp

theorem E_arg0 (W : Valuation τ sig (Elt F)) : after opsE W (main_arg0 : DevRef τ sig) = W (main_arg0 : DevRef τ sig) := by
  unfold opsE
  after_results_simp

theorem E_arg1 (W : Valuation τ sig (Elt F)) : after opsE W (main_arg1 : DevRef τ sig) = W (main_arg1 : DevRef τ sig) := by
  unfold opsE
  after_results_simp

theorem E_arg2 (W : Valuation τ sig (Elt F)) : after opsE W (main_arg2 : DevRef τ sig) = W (main_arg2 : DevRef τ sig) := by
  unfold opsE
  after_results_simp

theorem E_arg3 (W : Valuation τ sig (Elt F)) : after opsE W (main_arg3 : DevRef τ sig) = W (main_arg3 : DevRef τ sig) := by
  unfold opsE
  after_results_simp

theorem E_arg4 (W : Valuation τ sig (Elt F)) : after opsE W (main_arg4 : DevRef τ sig) = W (main_arg4 : DevRef τ sig) := by
  unfold opsE
  after_results_simp

theorem E_arg5 (W : Valuation τ sig (Elt F)) : after opsE W (main_arg5 : DevRef τ sig) = W (main_arg5 : DevRef τ sig) := by
  unfold opsE
  after_results_simp

/-! ## The whole line read back -/

theorem after_v18 (V : Valuation τ sig (Elt F)) :
    after ops V (main_v18 : DevRef τ sig) = resAttn (V (main_arg0 : DevRef τ sig)) (V (main_arg1 : DevRef τ sig)) := by
  rw [ops_split]
  simp only [after_append]
  rw [E_v18, D_v18, C_v18, B_v18, A_v18]
  rfl

theorem after_v48 (V : Valuation τ sig (Elt F)) :
    after ops V (main_v48 : DevRef τ sig) = resAct (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split]
  simp only [after_append]
  rw [E_v48, D_v25, D_v29, D_v30, D_arg4, D_arg5, C_v25, C_v29, C_arg4, C_arg5, B_v25, B_arg4, B_arg5,
    A_v18, A_v1, A_arg2, A_arg3, A_arg4, A_arg5]
  rfl

theorem after_arg0 (V : Valuation τ sig (Elt F)) : after ops V (main_arg0 : DevRef τ sig) = V (main_arg0 : DevRef τ sig) := by
  rw [ops_split]
  simp only [after_append]
  rw [E_arg0, D_arg0, C_arg0, B_arg0, A_arg0]

theorem after_arg1 (V : Valuation τ sig (Elt F)) : after ops V (main_arg1 : DevRef τ sig) = V (main_arg1 : DevRef τ sig) := by
  rw [ops_split]
  simp only [after_append]
  rw [E_arg1, D_arg1, C_arg1, B_arg1, A_arg1]

theorem after_arg2 (V : Valuation τ sig (Elt F)) : after ops V (main_arg2 : DevRef τ sig) = V (main_arg2 : DevRef τ sig) := by
  rw [ops_split]
  simp only [after_append]
  rw [E_arg2, D_arg2, C_arg2, B_arg2, A_arg2]

theorem after_arg3 (V : Valuation τ sig (Elt F)) : after ops V (main_arg3 : DevRef τ sig) = V (main_arg3 : DevRef τ sig) := by
  rw [ops_split]
  simp only [after_append]
  rw [E_arg3, D_arg3, C_arg3, B_arg3, A_arg3]

theorem after_arg4 (V : Valuation τ sig (Elt F)) : after ops V (main_arg4 : DevRef τ sig) = V (main_arg4 : DevRef τ sig) := by
  rw [ops_split]
  simp only [after_append]
  rw [E_arg4, D_arg4, C_arg4, B_arg4, A_arg4]

theorem after_arg5 (V : Valuation τ sig (Elt F)) : after ops V (main_arg5 : DevRef τ sig) = V (main_arg5 : DevRef τ sig) := by
  rw [ops_split]
  simp only [after_append]
  rw [E_arg5, D_arg5, C_arg5, B_arg5, A_arg5]

/-! ## The run -/

set_option maxRecDepth 8192 in
set_option maxHeartbeats 4000000 in
/-- On every device, for any float values, from any memory with zero counters: every weakly fair execution of the
    reference terminates with the first result at `resAct` and the second at `resAttn` of the arguments' launch
    contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v48) = resAct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v18) = resAttn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (after_v48 _), (h c main_v18).trans (after_v18 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.Hand

end
-- ==== Proof.RefFrame.lean ====
import proofs.«142206_j867583394375_2_alg».proof.Proof.RefRun
import Idealize.ShloMosaic.PureOps.Ideal

/-! # The reference leaves its arguments alone

At the extended reals: every weakly fair execution of the reference terminates, and each of the six argument arrays
ends as it began. It is the run's statement with the two results forgotten. -/

noncomputable section

namespace Cert.ReferenceIdeal.Hand

open Cert.ReferenceIdeal Cert.ReferenceIdeal.Gen Idealize.ShloMosaic Idealize.SL.Sem

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run (F := Ideal) m ρ)

end Cert.ReferenceIdeal.Hand

end
-- ==== Proof.FinIn.lean ====
/-
  The precondition says every entry of the six argument arrays is finite: |x| < +∞ entry by entry, all conjoined. An
  extended real whose absolute value max x (−x) is below +∞ is neither infinity, so it is a real number.
-/
import proofs.«142206_j867583394375_2_alg».proof.Pre_finite_inputs
import proofs.«142206_j867583394375_2_alg».proof.Proof.Gen.Pre_finite_inputs
import proofs.«142206_j867583394375_2_alg».proof.Proof.AlgReal
import Idealize.ShloMosaic.Lib.ReduceAll
import Idealize.ShloMosaic.Lib.ValueIdx

noncomputable section

namespace Cert.FinIn

open Idealize.ShloMosaic Idealize.ShloMosaic.ValueIdx Cert.Pre_finite_inputs Cert.Alg

/-- An extended real with |x| < +∞ is real. -/
theorem isReal_of_abs_lt (x : EReal)
    (h : Ideal.cmp .olt (max x (-x)) (Ideal.ofBits .f32 0x7F800000#32) = 1#1) : IsReal x := by
  have hT : Ideal.ofBits .f32 0x7F800000#32 = ⊤ := by simp [Ideal.ofBits, Ideal.ieee]
  rw [hT] at h
  have hlt : max x (-x) < ⊤ := by
    by_contra hc
    simp [Ideal.cmp, hc] at h
  induction x using EReal.rec with
  | bot => simp at hlt
  | coe r => exact ⟨r, rfl⟩
  | top => simp at hlt

instance : Subsingleton S_.Idx := ⟨fun a b => funext fun d => d.elim0⟩

/-- Under the precondition every entry of every argument is a real number. -/
theorem reals_of_pre [Facts] (a0 : FVec Ideal S8x256x64x64 .f32) (a1 : FVec Ideal S512x256 .f32)
    (a2 : FVec Ideal S256x256 .f32) (a3 a4 a5 : FVec Ideal S256 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => isReal_of_abs_lt _ (Host.reduce_andi_all _ _ _ _ ix0 h0' i),
    fun i => isReal_of_abs_lt _ (Host.reduce_andi_all _ _ _ _ ix0 h1 i),
    fun i => isReal_of_abs_lt _ (Host.reduce_andi_all _ _ _ _ ix0 h2 i),
    fun i => isReal_of_abs_lt _ (Host.reduce_andi_all _ _ _ _ ix0 h3 i),
    fun i => isReal_of_abs_lt _ (Host.reduce_andi_all _ _ _ _ ix0 h4 i),
    fun i => isReal_of_abs_lt _ (Host.reduce_andi_all _ _ _ _ ix0 h5 i)⟩

end Cert.FinIn

end
-- ==== Proof.Final.lean ====
/-
  The two programs' results agree, and the certificate's five claims.

  Under the precondition every argument entry is a real number. The kernel program's results are the bridge's kernel
  model over its first host lines' arrays (the channel-major rows, the transposed weights, the one-row vectors); the
  reference program's results are the reference model over the same channel-major rows and the untransposed arrays. The
  bridge says the two models agree entry by entry — the attention weights at (b, i, j), the activation at image entry
  (b, o, h, w) against flattened position 64·h + w — so the result arrays are equal.
-/
import proofs.«142206_j867583394375_2_alg».proof.Defs
import proofs.«142206_j867583394375_2_alg».proof.Proof.Gen.Kernel
import proofs.«142206_j867583394375_2_alg».proof.Proof.Gen.KernelIdeal
import proofs.«142206_j867583394375_2_alg».proof.Proof.Gen.ReferenceIdeal
import proofs.«142206_j867583394375_2_alg».proof.Proof.Gen.Pre_finite_inputs
import proofs.«142206_j867583394375_2_alg».proof.Proof.KRun
import proofs.«142206_j867583394375_2_alg».proof.Proof.IModel
import proofs.«142206_j867583394375_2_alg».proof.Proof.RModel
import proofs.«142206_j867583394375_2_alg».proof.Proof.RefRun
import proofs.«142206_j867583394375_2_alg».proof.Proof.RefFrame
import proofs.«142206_j867583394375_2_alg».proof.Proof.FinIn

set_option maxRecDepth 16384

noncomputable section

namespace Cert.Proof

open Idealize.ShloMosaic Idealize.ShloMosaic.TcCoe Idealize.ShloMosaic.ValueIdx Idealize.SL.Sem
open Cert.Spec Cert.Bridge Cert.Alg

section Agree

open Cert.KernelIdeal Cert.KernelIdeal.Gen Cert.KernelIdeal.Hand

variable (m : (ℓ : Loc nD τ sig) → Buf (Elt Ideal) ℓ) (ρ : Dev nD → PrngReg) (c : Dev nD)

/-- Under the precondition, the reference's results of the kernel program's arguments are the kernel program's results. -/
theorem results_agree
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Hand.resAct (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) = W7 (F := Ideal) m ρ c (Proc.devRef .tc main_v19)
    ∧ Cert.ReferenceIdeal.Hand.resAttn (F := Ideal) (m ((c.tc : Thread nD τ).loc main_arg0)) (m ((c.tc : Thread nD τ).loc main_arg1))
        = W7 (F := Ideal) m ρ c (Proc.devRef .tc main_v7_1) := by
  obtain ⟨hx, hw, hwo, hbo, hg, hbe⟩ := Cert.FinIn.reals_of_pre _ _ _ _ _ _ hpre
  have hxx : xcnA m ρ c = Cert.ReferenceIdeal.Read.xcnR (m ((c.tc : Thread nD τ).loc main_arg0)) := V1_main_v0 m ρ c
  have hxr : ∀ i, IsReal (Cert.ReferenceIdeal.Read.xcnR (m ((c.tc : Thread nD τ).loc main_arg0)) i) := fun i => hx _
  have hwT : wTA m ρ c = wTof (m ((c.tc : Thread nD τ).loc main_arg1)) :=
    (V1_main_v1 m ρ c).trans (Cert.HostGlue.wT_eq _ _)
  have hwoT : ∀ c' o, woutTA m ρ c (ix2 c' o) = (m ((c.tc : Thread nD τ).loc main_arg2)) (ix2 o c') := fun c' o => by
    rw [show woutTA m ρ c = _ from V1_main_v2 m ρ c]; exact Cert.HostGlue.woutT_apply _ _ c' o
  have hb2 : ∀ o, bout2A m ρ c (ix2 0 o) = (m ((c.tc : Thread nD τ).loc main_arg3)) (ix1 o) := fun o => by
    rw [show bout2A m ρ c = _ from V1_main_v3 m ρ c]; exact Cert.HostGlue.row_apply _ _ o
  have hg2 : ∀ o, gamma2A m ρ c (ix2 0 o) = (m ((c.tc : Thread nD τ).loc main_arg4)) (ix1 o) := fun o => by
    rw [show gamma2A m ρ c = _ from V1_main_v4 m ρ c]; exact Cert.HostGlue.row_apply _ _ o
  have hbe2 : ∀ o, beta2A m ρ c (ix2 0 o) = (m ((c.tc : Thread nD τ).loc main_arg5)) (ix1 o) := fun o => by
    rw [show beta2A m ρ c = _ from V1_main_v5 m ρ c]; exact Cert.HostGlue.row_apply _ _ o
  constructor
  · funext i
    obtain ⟨b, o, h, w, rfl⟩ : ∃ (b : Fin 8) (o : Fin 256) (h w : Fin 64), i = ix4 b o h w := ⟨i 0, i 1, i 2, i 3, eq_ix4 i⟩
    rw [Cert.ReferenceIdeal.Read.resAct_model, res_act]
    show _ = shapeCast S8x256x64x64 _ shapeCasts_S8x256x4096_S8x256x64x64 (ix4 b o h w)
    rw [Cert.HostGlue.image_apply, act_agree _ _ _ _ _ _ _ _ _ _ _ hwT hwoT hb2 hg2 hbe2 (hxx ▸ hxr) hw hwo hbo b o h w, hxx]
  · funext i
    obtain ⟨b, p, q, rfl⟩ : ∃ (b : Fin 8) (p q : Fin 4096), i = ix3 b p q := ⟨i 0, i 1, i 2, eq_ix3 i⟩
    rw [Cert.ReferenceIdeal.Read.resAttn_model, res_attn, attn_agree _ _ _ hwT (hxx ▸ hxr) hw b p q, hxx]

end Agree

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- The ideal pass rewrote nothing: the idealized kernel is the kernel's own text read on the extended reals. -/
theorem preserves : Cert.preserves_Kernel_KernelIdeal := trivial

theorem algebraic : Cert.algebraic_KernelIdeal_ReferenceIdeal := by
  intro m ρ m' ρ' hpre hagree
  refine ⟨fun c => Cert.KernelIdeal.Hand.W7 (F := Ideal) m ρ c (Proc.devRef .tc Cert.KernelIdeal.main_v19),
    fun c => Cert.KernelIdeal.Hand.W7 (F := Ideal) m ρ c (Proc.devRef .tc Cert.KernelIdeal.main_v7_1), ?_, ?_⟩
  · exact (θ_run _ _ _).mono (fun r h c =>
      ⟨h c _ (Cert.KernelIdeal.Hand.mem_uc Cert.KernelIdeal.main_v19 (by decide)),
       h c _ (Cert.KernelIdeal.Hand.mem_uc Cert.KernelIdeal.main_v7_1 (by decide)),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c),
       (h c _ (Cert.KernelIdeal.Hand.mem_uc Cert.KernelIdeal.main_arg5 (by decide))).trans (Cert.KernelIdeal.Hand.W7_main_arg5 m ρ c)⟩)
      (Cert.KernelIdeal.Hand.run_all (F := Ideal) m ρ)
  · refine (θ_run _ _ _).mono (fun r h c => ⟨(h c).1.trans ?_, (h c).2.1.trans ?_, (h c).2.2⟩)
      (Cert.ReferenceIdeal.Hand.run (F := Ideal) m' ρ')
    · rw [(hagree c).1, (hagree c).2.1, (hagree c).2.2.1, (hagree c).2.2.2.1, (hagree c).2.2.2.2.1, (hagree c).2.2.2.2.2]
      exact (results_agree m ρ c (hpre c)).1
    · rw [(hagree c).1, (hagree c).2.1]
      exact (results_agree m ρ c (hpre c)).2

end Cert.Proof

end
-- ==== Proof.lean ====
/-
  Single-head attention over the 4096 positions of each image, a linear layer, batch normalisation with the batch's own
  statistics and a leaky rectifier: the tiled kernel program and the plain reference compute the same two arrays on the
  extended reals.

  Frames. The kernel program is four tiled regions among host lines; each region runs point by point over its grid, the
  third carrying two accumulator rows from point to point, and no region or host line writes an argument array. The
  reference is host lines only.

  Values. Entry by entry the projections q, k, v, the scaled scores, their row maxima and exponentials are the same sums
  in both programs (the kernel's transposed weights only rename an index, its tiles only cut the arrays into blocks).
  The softmax weight is the exponential times the reciprocal of the row's sum in the kernel and the quotient by that
  sum in the reference: equal because the sum is a positive real under the finiteness precondition. The channel
  variance is E[y²] − E[y]² in the kernel and E[(y − E[y])²] in the reference: equal because every y is real. The
  normalisation, scale, shift and rectifier are then the same operations on equal numbers, the reference's image
  entry (b, o, h, w) being the kernel's flattened entry (b, o, 64·h + w).
-/
import proofs.«142206_j867583394375_2_alg».proof.Defs
import proofs.«142206_j867583394375_2_alg».proof.Proof.Final

noncomputable section

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
